-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  main_v28

def fn {F : FTy → Type} [FloatOps F] (main_arg0 : FVec F S4x2048x2048 .f32) (main_arg1 : FVec F S4x2048x2048 .f32) (main_arg2 : FVec F S4x2048x2048 .f32) (main_arg3 : FVec F S2048x2048 .f32) (main_arg4 : FVec F S2048x2048 .f32) (main_arg5 : FVec F S2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4x2048x2048 : Shape := ⟨3, ![4, 2048, 2048]⟩
abbrev S2048x2048 : Shape := ⟨2, ![2048, 2048]⟩
abbrev S8192x2048 : Shape := ⟨2, ![8192, 2048]⟩
abbrev S512x2048 : Shape := ⟨2, ![512, 2048]⟩
abbrev S1x2048x2048 : Shape := ⟨3, ![1, 2048, 2048]⟩
abbrev S256x2048 : Shape := ⟨2, ![256, 2048]⟩
abbrev S128x2048 : Shape := ⟨2, ![128, 2048]⟩
abbrev S2048x128 : Shape := ⟨2, ![2048, 128]⟩
abbrev S128 : Shape := ⟨1, ![128]⟩
abbrev S1x128 : Shape := ⟨2, ![1, 128]⟩
abbrev S128x512 : Shape := ⟨2, ![128, 512]⟩
abbrev S2048x512 : Shape := ⟨2, ![2048, 512]⟩

abbrev nBuf : Space → Nat
  | .hbm => 51
  | .vmem => 39
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S4x2048x2048, .bf16⟩
  | .hbm, ⟨16, _⟩ => ⟨S4x2048x2048, .bf16⟩
  | .hbm, ⟨17, _⟩ => ⟨S4x2048x2048, .bf16⟩
  | .hbm, ⟨18, _⟩ => ⟨S1x2048x2048, .bf16⟩
  | .hbm, ⟨19, _⟩ => ⟨S2048x2048, .bf16⟩
  | .hbm, ⟨20, _⟩ => ⟨S1x2048x2048, .bf16⟩
  | .hbm, ⟨21, _⟩ => ⟨S2048x2048, .bf16⟩
  | .hbm, ⟨22, _⟩ => ⟨S1x2048x2048, .bf16⟩
  | .hbm, ⟨23, _⟩ => ⟨S2048x2048, .bf16⟩
  | .hbm, ⟨24, _⟩ => ⟨S2048x2048, .f32⟩
  | .hbm, ⟨25, _⟩ => ⟨S1x2048x2048, .bf16⟩
  | .hbm, ⟨26, _⟩ => ⟨S2048x2048, .bf16⟩
  | .hbm, ⟨27, _⟩ => ⟨S1x2048x2048, .bf16⟩
  | .hbm, ⟨28, _⟩ => ⟨S2048x2048, .bf16⟩
  | .hbm, ⟨29, _⟩ => ⟨S1x2048x2048, .bf16⟩
  | .hbm, ⟨30, _⟩ => ⟨S2048x2048, .bf16⟩
  | .hbm, ⟨31, _⟩ => ⟨S2048x2048, .f32⟩
  | .hbm, ⟨32, _⟩ => ⟨S1x2048x2048, .bf16⟩
  | .hbm, ⟨33, _⟩ => ⟨S2048x2048, .bf16⟩
  | .hbm, ⟨34, _⟩ => ⟨S1x2048x2048, .bf16⟩
  | .hbm, ⟨35, _⟩ => ⟨S2048x2048, .bf16⟩
  | .hbm, ⟨36, _⟩ => ⟨S1x2048x2048, .bf16⟩
  | .hbm, ⟨37, _⟩ => ⟨S2048x2048, .bf16⟩
  | .hbm, ⟨38, _⟩ => ⟨S2048x2048, .f32⟩
  | .hbm, ⟨39, _⟩ => ⟨S1x2048x2048, .bf16⟩
  | .hbm, ⟨40, _⟩ => ⟨S2048x2048, .bf16⟩
  | .hbm, ⟨41, _⟩ => ⟨S1x2048x2048, .bf16⟩
  | .hbm, ⟨42, _⟩ => ⟨S2048x2048, .bf16⟩
  | .hbm, ⟨43, _⟩ => ⟨S1x2048x2048, .bf16⟩
  | .hbm, ⟨44, _⟩ => ⟨S2048x2048, .bf16⟩
  | .hbm, ⟨45, _⟩ => ⟨S2048x2048, .f32⟩
  | .hbm, ⟨46, _⟩ => ⟨S1x2048x2048, .f32⟩
  | .hbm, ⟨47, _⟩ => ⟨S1x2048x2048, .f32⟩
  | .hbm, ⟨48, _⟩ => ⟨S1x2048x2048, .f32⟩
  | .hbm, ⟨49, _⟩ => ⟨S1x2048x2048, .f32⟩
  | .hbm, ⟨50, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S2048x2048, .bf16⟩
  | .local _ .vmem, ⟨13, _⟩ => ⟨S512x2048, .bf16⟩
  | .local _ .vmem, ⟨14, _⟩ => ⟨S512x2048, .bf16⟩
  | .local _ .vmem, ⟨15, _⟩ => ⟨S2048x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S2048x2048, .f32⟩
  | .local _ .vmem, ⟨21, _⟩ => ⟨S2048x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S2048x2048, .f32⟩
  | .local _ .vmem, ⟨27, _⟩ => ⟨S2048x2048, .bf16⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S2048x2048, .f32⟩
  | .local _ .vmem, ⟨33, _⟩ => ⟨S2048x2048, .bf16⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S2048x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc4_sem0_0 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc6_sem0_0 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2048x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2048x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S256x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S2048x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S256x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S2048x2048 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S8192x2048_S4x2048x2048 : S8192x2048.ShapeCasts S4x2048x2048
  slices_S4x2048x2048_S1x2048x2048_0_0_0 : S4x2048x2048.Slices ![0, 0, 0] S1x2048x2048
  shapeCasts_S1x2048x2048_S2048x2048 : S1x2048x2048.ShapeCasts S2048x2048
  inb_S256x2048_S128x2048_0_0 : ∀ a, (![0, 0] : Fin 2 → Nat) a + S128x2048.size a ≤ S256x2048.size a
  h_S128x2048 : 0 < S128x2048.numel
  shapeCasts_S128x2048_S128x2048 : S128x2048.ShapeCasts S128x2048
  reduces_S2048x128_S128 : S2048x128.Reduces [0] S128
  shapeCasts_S128_S1x128 : S128.ShapeCasts S1x128
  broadcasts_S1x128_S2048x128 : S1x128.Broadcasts S2048x128
  inb_S256x2048_S128x512_0_0 : ∀ a, (![0, 0] : Fin 2 → Nat) a + S128x512.size a ≤ S256x2048.size a
  h_S128x512 : 0 < S128x512.numel
  shapeCasts_S128x512_S128x512 : S128x512.ShapeCasts S128x512
  inb_S2048x2048_S2048x512_0_0 : ∀ a, (![0, 0] : Fin 2 → Nat) a + S2048x512.size a ≤ S2048x2048.size a
  h_S2048x512 : 0 < S2048x512.numel
  shapeCasts_S2048x512_S2048x512 : S2048x512.ShapeCasts S2048x512
  inb_S256x2048_S128x512_0_512 : ∀ a, (![0, 512] : Fin 2 → Nat) a + S128x512.size a ≤ S256x2048.size a
  inb_S2048x2048_S2048x512_0_512 : ∀ a, (![0, 512] : Fin 2 → Nat) a + S2048x512.size a ≤ S2048x2048.size a
  inb_S256x2048_S128x512_0_1024 : ∀ a, (![0, 1024] : Fin 2 → Nat) a + S128x512.size a ≤ S256x2048.size a
  inb_S2048x2048_S2048x512_0_1024 : ∀ a, (![0, 1024] : Fin 2 → Nat) a + S2048x512.size a ≤ S2048x2048.size a
  inb_S256x2048_S128x512_0_1536 : ∀ a, (![0, 1536] : Fin 2 → Nat) a + S128x512.size a ≤ S256x2048.size a
  inb_S2048x2048_S2048x512_0_1536 : ∀ a, (![0, 1536] : Fin 2 → Nat) a + S2048x512.size a ≤ S2048x2048.size a
  inb_S256x2048_S128x2048_128_0 : ∀ a, (![128, 0] : Fin 2 → Nat) a + S128x2048.size a ≤ S256x2048.size a
  inb_S256x2048_S128x512_128_0 : ∀ a, (![128, 0] : Fin 2 → Nat) a + S128x512.size a ≤ S256x2048.size a
  inb_S256x2048_S128x512_128_512 : ∀ a, (![128, 512] : Fin 2 → Nat) a + S128x512.size a ≤ S256x2048.size a
  inb_S256x2048_S128x512_128_1024 : ∀ a, (![128, 1024] : Fin 2 → Nat) a + S128x512.size a ≤ S256x2048.size a
  inb_S256x2048_S128x512_128_1536 : ∀ a, (![128, 1536] : Fin 2 → Nat) a + S128x512.size a ≤ S256x2048.size a
  slices_S4x2048x2048_S1x2048x2048_1_0_0 : S4x2048x2048.Slices ![1, 0, 0] S1x2048x2048
  slices_S4x2048x2048_S1x2048x2048_2_0_0 : S4x2048x2048.Slices ![2, 0, 0] S1x2048x2048
  slices_S4x2048x2048_S1x2048x2048_3_0_0 : S4x2048x2048.Slices ![3, 0, 0] S1x2048x2048
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  dot_S512x2048_S2048x2048_S512x2048_1_1_0_0_n_n_wf : DotDims.WF S512x2048 S2048x2048 S512x2048 [1] [1] [0] [0] [] []
  dot_S2048x2048_S128x2048_S2048x128_1_1_0_0_n_n_wf : DotDims.WF S2048x2048 S128x2048 S2048x128 [1] [1] [0] [0] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .bf16 = 32 ∨ (Rect.block (s := S8192x2048) S512x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x2048.size a
  hwx2_2 : ∀ i : grid2.Coords, EltTy.bits .bf16 = 32 ∨ (Rect.block (s := S8192x2048) S512x2048.size (cc2_transform_2 i) (hinb2_2 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S2048x2048.size a
  hwx3_0 : ∀ i : grid3.Coords, EltTy.bits .bf16 = 32 ∨ (Rect.block (s := S2048x2048) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S2048x2048.size a
  hwx3_1 : ∀ i : grid3.Coords, EltTy.bits .bf16 = 32 ∨ (Rect.block (s := S2048x2048) S256x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x2048.size a ≤ S2048x2048.size a
  hwx3_2 : ∀ i : grid3.Coords, EltTy.bits .bf16 = 32 ∨ (Rect.block (s := S2048x2048) S256x2048.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x2048.size a ≤ S2048x2048.size a
  hwx3_3 : ∀ i : grid3.Coords, EltTy.bits .f32 = 32 ∨ (Rect.block (s := S2048x2048) S2048x2048.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S2048x2048.size a
  hwx4_0 : ∀ i : grid4.Coords, EltTy.bits .bf16 = 32 ∨ (Rect.block (s := S2048x2048) S2048x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x2048.size a ≤ S2048x2048.size a
  hwx4_1 : ∀ i : grid4.Coords, EltTy.bits .bf16 = 32 ∨ (Rect.block (s := S2048x2048) S256x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S2048x2048.size a
  hwx4_2 : ∀ i : grid4.Coords, EltTy.bits .bf16 = 32 ∨ (Rect.block (s := S2048x2048) S256x2048.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x2048.size a ≤ S2048x2048.size a
  hwx4_3 : ∀ i : grid4.Coords, EltTy.bits .f32 = 32 ∨ (Rect.block (s := S2048x2048) S2048x2048.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S2048x2048.size a
  hwx5_0 : ∀ i : grid5.Coords, EltTy.bits .bf16 = 32 ∨ (Rect.block (s := S2048x2048) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S2048x2048.size a
  hwx5_1 : ∀ i : grid5.Coords, EltTy.bits .bf16 = 32 ∨ (Rect.block (s := S2048x2048) S256x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x2048.size a ≤ S2048x2048.size a
  hwx5_2 : ∀ i : grid5.Coords, EltTy.bits .bf16 = 32 ∨ (Rect.block (s := S2048x2048) S256x2048.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x2048.size a ≤ S2048x2048.size a
  hwx5_3 : ∀ i : grid5.Coords, EltTy.bits .f32 = 32 ∨ (Rect.block (s := S2048x2048) S2048x2048.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S2048x2048.size a
  hwx6_0 : ∀ i : grid6.Coords, EltTy.bits .bf16 = 32 ∨ (Rect.block (s := S2048x2048) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x2048.size a ≤ S2048x2048.size a
  hwx6_1 : ∀ i : grid6.Coords, EltTy.bits .bf16 = 32 ∨ (Rect.block (s := S2048x2048) S256x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x2048.size a ≤ S2048x2048.size a
  hwx6_2 : ∀ i : grid6.Coords, EltTy.bits .bf16 = 32 ∨ (Rect.block (s := S2048x2048) S256x2048.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2048x2048.size a ≤ S2048x2048.size a
  hwx6_3 : ∀ i : grid6.Coords, EltTy.bits .f32 = 32 ∨ (Rect.block (s := S2048x2048) S2048x2048.size (cc6_transform_3 i) (hinb6_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S2048x2048_S128x2048_S2048x128_1_1_0_0_n_n : DotDims S2048x2048 S128x2048 S2048x128 where
  lhsContracting := [1]
  rhsContracting := [1]
  lhsNonContracting := [0]
  rhsNonContracting := [0]
  lhsBatch := []
  rhsBatch := []
  wf := dot_S2048x2048_S128x2048_S2048x128_1_1_0_0_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v13) S2048x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v15) S256x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2048x2048.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S2048x2048.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v22) S256x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S256x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v25) S2048x2048.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v27) S2048x2048.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v29) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v31) S256x2048.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v32) S2048x2048.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v34) S2048x2048.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v36) S256x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v38) S256x2048.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v39) S2048x2048.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d1 : S4x2048x2048.ReducesTo [1] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S4x2048x2048_S4x2048x2048_2_2_1_1_0_0_wf : DotDims.WF S4x2048x2048 S4x2048x2048 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S4x2048x2048_S4x2048x2048_2_2_1_1_0_0 : DotDims S4x2048x2048 S4x2048x2048 S4x2048x2048 where
  lhsContracting := [2]
  rhsContracting := [2]
  lhsNonContracting := [1]
  rhsNonContracting := [1]
  lhsBatch := [0]
  rhsBatch := [0]
  wf := dot_S4x2048x2048_S4x2048x2048_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf

class Facts : Prop extends Facts₀ where

variable [Facts]
-- ==== Proof.ProjK0.lean ====
/-
  Projection call 0 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer (fetched once, its index never moving) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: the whole x tile, the whole weight matrix, the whole output tile. -/
abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0

/-- The output tile's staging buffer after the body: its one store, of the product of the x tile and the weights. -/
def out0_2 (x0 : Vec F S512x2048 .f32) (x1 : Vec F S2048x2048 .bf16) : Vec F S512x2048 .bf16 :=
  View.canon [⟨r0_0, k0_pay1 (View.ld x0 r0_0) (View.ld x1 r0_1)⟩]

/-- The one store is through the whole tile, so it covers it. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
/-- The body's triple: on whole staging memrefs, the inputs' at read contents and the output's at anything, it runs to
    the continuation holding the inputs' as they were and the output's at `out0_2` of the inputs'. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data and the body obligation -/

/-- The proof data of projection call 0 on core `c`: the arrays as the call finds them; after the body at point `t` the
    x tile's and the weights' buffers at their blocks, the output's at the product of the two; the class's invariant
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.ProjK1.lean ====
/-
  Projection call 1 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x tile's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer (fetched once, its index never moving) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: the whole x tile, the whole weight matrix, the whole output tile. -/
abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0

/-- The output tile's staging buffer after the body: its one store, of the product of the x tile and the weights. -/
def out1_2 (x0 : Vec F S512x2048 .f32) (x1 : Vec F S2048x2048 .bf16) : Vec F S512x2048 .bf16 :=
  View.canon [⟨r1_0, k1_pay1 (View.ld x0 r1_0) (View.ld x1 r1_1)⟩]

/-- The one store is through the whole tile, so it covers it. -/
theorem cover1_2 (p0 : Vec F S512x2048 .bf16) (y : S512x2048.Idx) :
    ∃ pc ∈ ([⟨r1_0, p0⟩] : List (View.Piece (Elt F) S512x2048 .bf16)), y ∈ pc.1.set :=
  View.cover_of_tiled [⟨r1_0, p0⟩] S512x2048.size (by rfl) y

set_option maxHeartbeats 1000000 in
/-- The body's triple: on whole staging memrefs, the inputs' at read contents and the output's at anything, it runs to
    the continuation holding the inputs' as they were and the output's at `out1_2` of the inputs'. -/
theorem sound_kernel1 (c : Dev nD) (E : Set ℕ) (i : grid1.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The call's proof data and the body obligation -/

/-- The proof data of projection call 1 on core `c`: the arrays as the call finds them; after the body at point `t` the
    x tile's and the weights' buffers at their blocks, the output's at the product of the two; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.ProjK2.lean ====
/-
  Projection call 2 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x tile's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer (fetched once, its index never moving) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: the whole x tile, the whole weight matrix, the whole output tile. -/
abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

/-- The output tile's staging buffer after the body: its one store, of the product of the x tile and the weights. -/
def out2_2 (x0 : Vec F S512x2048 .f32) (x1 : Vec F S2048x2048 .bf16) : Vec F S512x2048 .bf16 :=
  View.canon [⟨r2_0, k2_pay1 (View.ld x0 r2_0) (View.ld x1 r2_1)⟩]

/-- The one store is through the whole tile, so it covers it. -/
theorem cover2_2 (p0 : Vec F S512x2048 .bf16) (y : S512x2048.Idx) :
    ∃ pc ∈ ([⟨r2_0, p0⟩] : List (View.Piece (Elt F) S512x2048 .bf16)), y ∈ pc.1.set :=
  View.cover_of_tiled [⟨r2_0, p0⟩] S512x2048.size (by rfl) y

set_option maxHeartbeats 1000000 in
/-- The body's triple: on whole staging memrefs, the inputs' at read contents and the output's at anything, it runs to
    the continuation holding the inputs' as they were and the output's at `out2_2` of the inputs'. -/
theorem sound_kernel2 (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The call's proof data and the body obligation -/

/-- The proof data of projection call 2 on core `c`: the arrays as the call finds them; after the body at point `t` the
    x tile's and the weights' buffers at their blocks, the output's at the product of the two; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.AttnK3.lean ====
/-
  Attention call 3 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- One staging buffer of the output window, through which its contents are stated. -/
abbrev VO3_3 : View sig .tc .vmem S2048x2048 .f32 := (Memref.whole cc3_stg3_0 : Memref sig .tc .vmem S2048x2048 .f32).view
/-- Each window's current staging memref at point `t`, spelled as the pipeline passes it, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x2048 .f32 := win3_3.stage (cfg3.slots t 3)
abbrev hs3_3 (t : Fin cfg3.N) : (ms3_3 t).IsWhole := hstage3_3 ((cfg3.slots t 3).cast nbuf3_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun3_A (c : Dev nD) (i : grid3.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond3_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3_kernel i arg1 harg1 arg2 harg2 arg3 harg3 arg4 harg4) K } := by
  refine ⟨?_, fun E K => ?run⟩
  case run =>
    simp only [cc3_kernel_eq_skeleton]; unfold cc3_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun3_B (c : Dev nD) (i : grid3.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond3_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3_kernel i arg1 harg1 arg2 harg2 arg3 harg3 arg4 harg4) K } := by
  refine ⟨?_, fun E K => ?run⟩
  case run =>
    simp only [cc3_kernel_eq_skeleton]; unfold cc3_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's staging buffer -/

/-- The first case's pieces cover the output block (the zero fill alone does). -/
theorem cover3_A_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond3_0 i)
    (x0 : Vec F S2048x2048 .bf16) (x1 : Vec F S256x2048 .bf16) (x2 : Vec F S256x2048 .bf16) (y : S2048x2048.Idx) :
    ∃ pc ∈ (kernelRun3_A c i arg1 harg1 arg2 harg2 arg3 harg3 arg4 harg4 hc0 x0 x1 x2).1, y ∈ pc.1.set :=
  View.cover_of_tiledL (kernelRun3_A c i arg1 harg1 arg2 harg2 arg3 harg3 arg4 harg4 hc0 x0 x1 x2).1 S2048x2048.size (by sl_kernel_rfl) y

/-- What the first case leaves in the output's staging buffer: its pieces read back. -/
def out3_A_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond3_0 i)
    (x0 : Vec F S2048x2048 .bf16) (x1 : Vec F S256x2048 .bf16) (x2 : Vec F S256x2048 .bf16) : Vec F S2048x2048 .f32 :=
  VO3_3.read (Elt F) (VO3_3.writes (Elt F) VO3_3.junk (kernelRun3_A c i arg1 harg1 arg2 harg2 arg3 harg3 arg4 harg4 hc0 x0 x1 x2).1)

/-- The second case's pieces cover the output block (its four column chunks tile it). -/
theorem cover3_B_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond3_0 i)
    (x0 : Vec F S2048x2048 .bf16) (x1 : Vec F S256x2048 .bf16) (x2 : Vec F S256x2048 .bf16) (xo3 : Vec F S2048x2048 .f32) (y : S2048x2048.Idx) :
    ∃ pc ∈ (kernelRun3_B c i arg1 harg1 arg2 harg2 arg3 harg3 arg4 harg4 hc0 x0 x1 x2 xo3).1, y ∈ pc.1.set :=
  View.cover_of_tiledL (kernelRun3_B c i arg1 harg1 arg2 harg2 arg3 harg3 arg4 harg4 hc0 x0 x1 x2 xo3).1 S2048x512.size (by sl_kernel_rfl) y

/-- What the second case leaves in the output's staging buffer: its pieces read back. -/
def out3_B_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond3_0 i)
    (x0 : Vec F S2048x2048 .bf16) (x1 : Vec F S256x2048 .bf16) (x2 : Vec F S256x2048 .bf16) (xo3 : Vec F S2048x2048 .f32) : Vec F S2048x2048 .f32 :=
  VO3_3.read (Elt F) (VO3_3.writes (Elt F) VO3_3.junk (kernelRun3_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt3 (c : Dev nD) : (n : ℕ) → n < cfg3.N → Vec F S2048x2048 .f32
  | 0, hn => out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) ((hcond3_0 ⟨0, hn⟩).mpr (Nat.zero_mod _)) (iblk3 V c 0 ⟨0, hn⟩) (iblk3 V c 1 ⟨0, hn⟩) (iblk3 V c 2 ⟨0, hn⟩)
  | n + 1, hn =>
    if h0 : (n + 1) % 8 = 0 then
      out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) ((hcond3_0 ⟨n + 1, hn⟩).mpr h0) (iblk3 V c 0 ⟨n + 1, hn⟩) (iblk3 V c 1 ⟨n + 1, hn⟩) (iblk3 V c 2 ⟨n + 1, hn⟩)
    else
      out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn))

/-- At the first point: the first case's contents. -/
theorem outsAt3_A (c : Dev nD) (t : Fin cfg3.N) (h0 : t.val % 8 = 0) :
    outsAt3 V c t.val t.isLt = out3_A_3 c (grid3.coords t) (ms3_0 t) (hs3_0 t) (ms3_1 t) (hs3_1 t) (ms3_2 t) (hs3_2 t) (ms3_3 t) (hs3_3 t) ((hcond3_0 t).mpr h0) (iblk3 V c 0 t) (iblk3 V c 1 t) (iblk3 V c 2 t) := by
  obtain ⟨n, hn⟩ := t
  cases n with
  | zero => exact rfl
  | succ n => exact (dif_pos h0).trans rfl

/-- At a later point: the second case's contents, over what the point before left. -/
theorem outsAt3_B (c : Dev nD) (t : Fin cfg3.N) (h0 : ¬t.val % 8 = 0) :
    outsAt3 V c t.val t.isLt = out3_B_3 c (grid3.coords t) (ms3_0 t) (hs3_0 t) (ms3_1 t) (hs3_1 t) (ms3_2 t) (hs3_2 t) (ms3_3 t) (hs3_3 t) (fun h => h0 ((hcond3_0 t).mp h)) (iblk3 V c 0 t) (iblk3 V c 1 t) (iblk3 V c 2 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 3 on core `c`: the arrays as the call finds them; after the body at point `t` each
    input's buffer at its block and the output's at `outsAt3`; the class's invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point the output's staging buffer holds what the body left at the point before: the point is not the
    first, the buffer was not written back between (only the last point writes back), the window is live and uncut. -/
theorem before3_3_B (c : Dev nD) (t : Fin cfg3.N) (h0 : ¬t.val % 8 = 0) (d) :
    (dat3 V c).before 3 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 3 rfl t (by omega) (Bool.eq_false_iff.mpr fun h => by have := (flush3_3 _).mp h; dsimp only at this; omega)
    (fun _ => rfl) (fun _ _ => rfl)]
  dsimp only [dat3]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 1600000 in
/-- The body at any point: the inputs' memrefs hold their blocks; the closed form of the branch says which case the point
    is in; at a later point the output's buffer holds what the point before left; so that case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  have hN : t.val < 8 := lt_of_lt_of_eq t.isLt (show cfg3.N = 8 from N_3)
  by_cases h0 : t.val % 8 = 0
  · rw [outsAt3_A V c t h0]
    unfold out3_A_3
    iintro ⟨HΦ, Ho, ⟨%d0, H0⟩, ⟨%d1, H1⟩, ⟨%d2, H2⟩, ⟨%d3, H3⟩⟩
    iapply ((kernelRun3_A c (grid3.coords t) _ _ _ _ _ _ _ _ ((hcond3_0 t).mpr h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_A_3 c _ _ _ _ _ _ _ _ _ _ _ _ _)
  · rw [outsAt3_B V c t h0]
    simp only [before3_3_B V c t h0]
    unfold out3_B_3
    iintro ⟨HΦ, Ho, ⟨%d0, H0⟩, ⟨%d1, H1⟩, ⟨%d2, H2⟩, ⟨%d3, H3⟩⟩
    iapply ((kernelRun3_B c (grid3.coords t) _ _ _ _ _ _ _ _ (fun h => h0 ((hcond3_0 t).mp h)) (iblk3 V c 0 t) (iblk3 V c 1 t) (iblk3 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.AttnK4.lean ====
/-
  Attention call 4 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- One staging buffer of the output window, through which its contents are stated. -/
abbrev VO4_3 : View sig .tc .vmem S2048x2048 .f32 := (Memref.whole cc4_stg3_0 : Memref sig .tc .vmem S2048x2048 .f32).view
/-- Each window's current staging memref at point `t`, spelled as the pipeline passes it, and its wholeness. -/
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x2048 .f32 := win4_3.stage (cfg4.slots t 3)
abbrev hs4_3 (t : Fin cfg4.N) : (ms4_3 t).IsWhole := hstage4_3 ((cfg4.slots t 3).cast nbuf4_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun4_A (c : Dev nD) (i : grid4.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond4_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc4_kernel i arg1 harg1 arg2 harg2 arg3 harg3 arg4 harg4) K } := by
  refine ⟨?_, fun E K => ?run⟩
  case run =>
    simp only [cc4_kernel_eq_skeleton]; unfold cc4_kernel_skel
    simp only [k4_part1_eq_skeleton, k4_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun4_B (c : Dev nD) (i : grid4.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond4_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc4_kernel i arg1 harg1 arg2 harg2 arg3 harg3 arg4 harg4) K } := by
  refine ⟨?_, fun E K => ?run⟩
  case run =>
    simp only [cc4_kernel_eq_skeleton]; unfold cc4_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output's staging buffer -/

/-- The first case's pieces cover the output block (the zero fill alone does). -/
theorem cover4_A_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond4_0 i)
    (x0 : Vec F S2048x2048 .bf16) (x1 : Vec F S256x2048 .bf16) (x2 : Vec F S256x2048 .bf16) (y : S2048x2048.Idx) :
    ∃ pc ∈ (kernelRun4_A c i arg1 harg1 arg2 harg2 arg3 harg3 arg4 harg4 hc0 x0 x1 x2).1, y ∈ pc.1.set :=
  View.cover_of_tiledL (kernelRun4_A c i arg1 harg1 arg2 harg2 arg3 harg3 arg4 harg4 hc0 x0 x1 x2).1 S2048x2048.size (by sl_kernel_rfl) y

/-- What the first case leaves in the output's staging buffer: its pieces read back. -/
def out4_A_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond4_0 i)
    (x0 : Vec F S2048x2048 .bf16) (x1 : Vec F S256x2048 .bf16) (x2 : Vec F S256x2048 .bf16) : Vec F S2048x2048 .f32 :=
  VO4_3.read (Elt F) (VO4_3.writes (Elt F) VO4_3.junk (kernelRun4_A c i arg1 harg1 arg2 harg2 arg3 harg3 arg4 harg4 hc0 x0 x1 x2).1)

/-- The second case's pieces cover the output block (its four column chunks tile it). -/
theorem cover4_B_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond4_0 i)
    (x0 : Vec F S2048x2048 .bf16) (x1 : Vec F S256x2048 .bf16) (x2 : Vec F S256x2048 .bf16) (xo3 : Vec F S2048x2048 .f32) (y : S2048x2048.Idx) :
    ∃ pc ∈ (kernelRun4_B c i arg1 harg1 arg2 harg2 arg3 harg3 arg4 harg4 hc0 x0 x1 x2 xo3).1, y ∈ pc.1.set :=
  View.cover_of_tiledL (kernelRun4_B c i arg1 harg1 arg2 harg2 arg3 harg3 arg4 harg4 hc0 x0 x1 x2 xo3).1 S2048x512.size (by sl_kernel_rfl) y

/-- What the second case leaves in the output's staging buffer: its pieces read back. -/
def out4_B_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond4_0 i)
    (x0 : Vec F S2048x2048 .bf16) (x1 : Vec F S256x2048 .bf16) (x2 : Vec F S256x2048 .bf16) (xo3 : Vec F S2048x2048 .f32) : Vec F S2048x2048 .f32 :=
  VO4_3.read (Elt F) (VO4_3.writes (Elt F) VO4_3.junk (kernelRun4_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt4 (c : Dev nD) : (n : ℕ) → n < cfg4.N → Vec F S2048x2048 .f32
  | 0, hn => out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) ((hcond4_0 ⟨0, hn⟩).mpr (Nat.zero_mod _)) (iblk4 V c 0 ⟨0, hn⟩) (iblk4 V c 1 ⟨0, hn⟩) (iblk4 V c 2 ⟨0, hn⟩)
  | n + 1, hn =>
    if h0 : (n + 1) % 8 = 0 then
      out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) ((hcond4_0 ⟨n + 1, hn⟩).mpr h0) (iblk4 V c 0 ⟨n + 1, hn⟩) (iblk4 V c 1 ⟨n + 1, hn⟩) (iblk4 V c 2 ⟨n + 1, hn⟩)
    else
      out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn))

/-- At the first point: the first case's contents. -/
theorem outsAt4_A (c : Dev nD) (t : Fin cfg4.N) (h0 : t.val % 8 = 0) :
    outsAt4 V c t.val t.isLt = out4_A_3 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t) (iblk4 V c 2 t) := by
  obtain ⟨n, hn⟩ := t
  cases n with
  | zero => exact rfl
  | succ n => exact (dif_pos h0).trans rfl

/-- At a later point: the second case's contents, over what the point before left. -/
theorem outsAt4_B (c : Dev nD) (t : Fin cfg4.N) (h0 : ¬t.val % 8 = 0) :
    outsAt4 V c t.val t.isLt = out4_B_3 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (iblk4 V c 2 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 4 on core `c`: the arrays as the call finds them; after the body at point `t` each
    input's buffer at its block and the output's at `outsAt4`; the class's invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point the output's staging buffer holds what the body left at the point before: the point is not the
    first, the buffer was not written back between (only the last point writes back), the window is live and uncut. -/
theorem before4_3_B (c : Dev nD) (t : Fin cfg4.N) (h0 : ¬t.val % 8 = 0) (d) :
    (dat4 V c).before 3 t d = (outsAt4 V c (t.val - 1) (Nat.lt_of_le_of_lt (Nat.sub_le _ _) t.isLt)) := by
  have hN : t.val < 8 := lt_of_lt_of_eq t.isLt (show cfg4.N = 8 from N_4)
  rw [Dat.before_out_kept _ 3 rfl t (by omega) (Bool.eq_false_iff.mpr fun h => by have := (flush4_3 _).mp h; dsimp only at this; omega)
    (fun _ => rfl) (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

set_option maxHeartbeats 1600000 in
/-- The body at any point: the inputs' memrefs hold their blocks; the closed form of the branch says which case the point
    is in; at a later point the output's buffer holds what the point before left; so that case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  have hN : t.val < 8 := lt_of_lt_of_eq t.isLt (show cfg4.N = 8 from N_4)
  by_cases h0 : t.val % 8 = 0
  · rw [outsAt4_A V c t h0]
    unfold out4_A_3
    iintro ⟨HΦ, Ho, ⟨%d0, H0⟩, ⟨%d1, H1⟩, ⟨%d2, H2⟩, ⟨%d3, H3⟩⟩
    iapply ((kernelRun4_A c (grid4.coords t) _ _ _ _ _ _ _ _ ((hcond4_0 t).mpr h0) (iblk4 V c 0 t) (iblk4 V c 1 t) (iblk4 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_A_3 c _ _ _ _ _ _ _ _ _ _ _ _ _)
  · rw [outsAt4_B V c t h0]
    simp only [before4_3_B V c t h0]
    unfold out4_B_3
    iintro ⟨HΦ, Ho, ⟨%d0, H0⟩, ⟨%d1, H1⟩, ⟨%d2, H2⟩, ⟨%d3, H3⟩⟩
    iapply ((kernelRun4_B c (grid4.coords t) _ _ _ _ _ _ _ _ (fun h => h0 ((hcond4_0 t).mp h)) (iblk4 V c 0 t) (iblk4 V c 1 t) (iblk4 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_B_3 c _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.AttnK5.lean ====
/-
  Attention call 5 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val % 8 = 0 :=
  (by decide +kernel : ∀ t : Fin grid5.N, cond5_0 (grid5.coords t) ↔ t.val % 8 = 0)

/-- One staging buffer of the output window, through which its contents are stated. -/
abbrev VO5_3 : View sig .tc .vmem S2048x2048 .f32 := (Memref.whole cc5_stg3_0 : Memref sig .tc .vmem S2048x2048 .f32).view
/-- Each window's current staging memref at point `t`, spelled as the pipeline passes it, and its wholeness. -/
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x2048 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S256x2048 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x2048 .f32 := win5_3.stage (cfg5.slots t 3)
abbrev hs5_3 (t : Fin cfg5.N) : (ms5_3 t).IsWhole := hstage5_3 ((cfg5.slots t 3).cast nbuf5_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun5_A (c : Dev nD) (i : grid5.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond5_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc5_kernel i arg1 harg1 arg2 harg2 arg3 harg3 arg4 harg4) K } := by
  refine ⟨?_, fun E K => ?run⟩
  case run =>
    simp only [cc5_kernel_eq_skeleton]; unfold cc5_kernel_skel
    simp only [k5_part1_eq_skeleton, k5_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun5_B (c : Dev nD) (i : grid5.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond5_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc5_kernel i arg1 harg1 arg2 harg2 arg3 harg3 arg4 harg4) K } := by
  refine ⟨?_, fun E K => ?run⟩
  case run =>
    simp only [cc5_kernel_eq_skeleton]; unfold cc5_kernel_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in the output's staging buffer -/

/-- The first case's pieces cover the output block (the zero fill alone does). -/
theorem cover5_A_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond5_0 i)
    (x0 : Vec F S2048x2048 .bf16) (x1 : Vec F S256x2048 .bf16) (x2 : Vec F S256x2048 .bf16) (y : S2048x2048.Idx) :
    ∃ pc ∈ (kernelRun5_A c i arg1 harg1 arg2 harg2 arg3 harg3 arg4 harg4 hc0 x0 x1 x2).1, y ∈ pc.1.set :=
  View.cover_of_tiledL (kernelRun5_A c i arg1 harg1 arg2 harg2 arg3 harg3 arg4 harg4 hc0 x0 x1 x2).1 S2048x2048.size (by sl_kernel_rfl) y

/-- What the first case leaves in the output's staging buffer: its pieces read back. -/
def out5_A_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond5_0 i)
    (x0 : Vec F S2048x2048 .bf16) (x1 : Vec F S256x2048 .bf16) (x2 : Vec F S256x2048 .bf16) : Vec F S2048x2048 .f32 :=
  VO5_3.read (Elt F) (VO5_3.writes (Elt F) VO5_3.junk (kernelRun5_A c i arg1 harg1 arg2 harg2 arg3 harg3 arg4 harg4 hc0 x0 x1 x2).1)

/-- The second case's pieces cover the output block (its four column chunks tile it). -/
theorem cover5_B_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond5_0 i)
    (x0 : Vec F S2048x2048 .bf16) (x1 : Vec F S256x2048 .bf16) (x2 : Vec F S256x2048 .bf16) (xo3 : Vec F S2048x2048 .f32) (y : S2048x2048.Idx) :
    ∃ pc ∈ (kernelRun5_B c i arg1 harg1 arg2 harg2 arg3 harg3 arg4 harg4 hc0 x0 x1 x2 xo3).1, y ∈ pc.1.set :=
  View.cover_of_tiledL (kernelRun5_B c i arg1 harg1 arg2 harg2 arg3 harg3 arg4 harg4 hc0 x0 x1 x2 xo3).1 S2048x512.size (by sl_kernel_rfl) y

/-- What the second case leaves in the output's staging buffer: its pieces read back. -/
def out5_B_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond5_0 i)
    (x0 : Vec F S2048x2048 .bf16) (x1 : Vec F S256x2048 .bf16) (x2 : Vec F S256x2048 .bf16) (xo3 : Vec F S2048x2048 .f32) : Vec F S2048x2048 .f32 :=
  VO5_3.read (Elt F) (VO5_3.writes (Elt F) VO5_3.junk (kernelRun5_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt5 (c : Dev nD) : (n : ℕ) → n < cfg5.N → Vec F S2048x2048 .f32
  | 0, hn => out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) ((hcond5_0 ⟨0, hn⟩).mpr (Nat.zero_mod _)) (iblk5 V c 0 ⟨0, hn⟩) (iblk5 V c 1 ⟨0, hn⟩) (iblk5 V c 2 ⟨0, hn⟩)
  | n + 1, hn =>
    if h0 : (n + 1) % 8 = 0 then
      out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) ((hcond5_0 ⟨n + 1, hn⟩).mpr h0) (iblk5 V c 0 ⟨n + 1, hn⟩) (iblk5 V c 1 ⟨n + 1, hn⟩) (iblk5 V c 2 ⟨n + 1, hn⟩)
    else
      out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn))

/-- At the first point: the first case's contents. -/
theorem outsAt5_A (c : Dev nD) (t : Fin cfg5.N) (h0 : t.val % 8 = 0) :
    outsAt5 V c t.val t.isLt = out5_A_3 c (grid5.coords t) (ms5_0 t) (hs5_0 t) (ms5_1 t) (hs5_1 t) (ms5_2 t) (hs5_2 t) (ms5_3 t) (hs5_3 t) ((hcond5_0 t).mpr h0) (iblk5 V c 0 t) (iblk5 V c 1 t) (iblk5 V c 2 t) := by
  obtain ⟨n, hn⟩ := t
  cases n with
  | zero => exact rfl
  | succ n => exact (dif_pos h0).trans rfl

/-- At a later point: the second case's contents, over what the point before left. -/
theorem outsAt5_B (c : Dev nD) (t : Fin cfg5.N) (h0 : ¬t.val % 8 = 0) :
    outsAt5 V c t.val t.isLt = out5_B_3 c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t) (iblk5 V c 2 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 5 on core `c`: the arrays as the call finds them; after the body at point `t` each
    input's buffer at its block and the output's at `outsAt5`; the class's invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
/-- At a later point the output's staging buffer holds what the body left at the point before: the point is not the
    first, the buffer was not written back between (only the last point writes back), the window is live and uncut. -/
theorem before5_3_B (c : Dev nD) (t : Fin cfg5.N) (h0 : ¬t.val % 8 = 0) (d) :
    (dat5 V c).before 3 t d = (outsAt5 V c (t.val - 1) (Nat.lt_of_le_of_lt (Nat.sub_le _ _) t.isLt)) := by
  have hN : t.val < 8 := lt_of_lt_of_eq t.isLt (show cfg5.N = 8 from N_5)
  rw [Dat.before_out_kept _ 3 rfl t (by omega) (Bool.eq_false_iff.mpr fun h => by have := (flush5_3 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 1600000 in
/-- The body at any point: the inputs' memrefs hold their blocks; the closed form of the branch says which case the point
    is in; at a later point the output's buffer holds what the point before left; so that case's run applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  have hN : t.val < 8 := lt_of_lt_of_eq t.isLt (show cfg5.N = 8 from N_5)
  by_cases h0 : t.val % 8 = 0
  · rw [outsAt5_A V c t h0]
    unfold out5_A_3
    iintro ⟨HΦ, Ho, ⟨%d0, H0⟩, ⟨%d1, H1⟩, ⟨%d2, H2⟩, ⟨%d3, H3⟩⟩
    iapply ((kernelRun5_A c (grid5.coords t) _ _ _ _ _ _ _ _ ((hcond5_0 t).mpr h0) (iblk5 V c 0 t) (iblk5 V c 1 t) (iblk5 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_A_3 c _ _ _ _ _ _ _ _ _ _ _ _ _)
  · rw [outsAt5_B V c t h0]
    simp only [before5_3_B V c t h0]
    unfold out5_B_3
    iintro ⟨HΦ, Ho, ⟨%d0, H0⟩, ⟨%d1, H1⟩, ⟨%d2, H2⟩, ⟨%d3, H3⟩⟩
    iapply ((kernelRun5_B c (grid5.coords t) _ _ _ _ _ _ _ _ (fun h => h0 ((hcond5_0 t).mp h)) (iblk5 V c 0 t) (iblk5 V c 1 t) (iblk5 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.AttnK6.lean ====
/-
  Attention call 6 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.Kernel.Launch
import proofs.«156009_j19851338842369_2_alg».proof.Proof.Gen.Kernel.Skeleton
import proofs.«156009_j19851338842369_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 8 = 0 :=
  (by decide +kernel : ∀ t : Fin grid6.N, cond6_0 (grid6.coords t) ↔ t.val % 8 = 0)

/-- One staging buffer of the output window, through which its contents are stated. -/
abbrev VO6_3 : View sig .tc .vmem S2048x2048 .f32 := (Memref.whole cc6_stg3_0 : Memref sig .tc .vmem S2048x2048 .f32).view
/-- Each window's current staging memref at point `t`, spelled as the pipeline passes it, and its wholeness. -/
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x2048 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x2048 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x2048 .f32 := win6_3.stage (cfg6.slots t 3)
abbrev hs6_3 (t : Fin cfg6.N) : (ms6_3 t).IsWhole := hstage6_3 ((cfg6.slots t 3).cast nbuf6_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun6_A (c : Dev nD) (i : grid6.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond6_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc6_kernel i arg1 harg1 arg2 harg2 arg3 harg3 arg4 harg4) K } := by
  refine ⟨?_, fun E K => ?run⟩
  case run =>
    simp only [cc6_kernel_eq_skeleton]; unfold cc6_kernel_skel
    simp only [k6_part1_eq_skeleton, k6_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun6_B (c : Dev nD) (i : grid6.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond6_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc6_kernel i arg1 harg1 arg2 harg2 arg3 harg3 arg4 harg4) K } := by
  refine ⟨?_, fun E K => ?run⟩
  case run =>
    simp only [cc6_kernel_eq_skeleton]; unfold cc6_kernel_skel
    simp only [k6_part1_eq_skeleton, k6_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves in the output's staging buffer -/

/-- The first case's pieces cover the output block (the zero fill alone does). -/
theorem cover6_A_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond6_0 i)
    (x0 : Vec F S2048x2048 .bf16) (x1 : Vec F S256x2048 .bf16) (x2 : Vec F S256x2048 .bf16) (y : S2048x2048.Idx) :
    ∃ pc ∈ (kernelRun6_A c i arg1 harg1 arg2 harg2 arg3 harg3 arg4 harg4 hc0 x0 x1 x2).1, y ∈ pc.1.set :=
  View.cover_of_tiledL (kernelRun6_A c i arg1 harg1 arg2 harg2 arg3 harg3 arg4 harg4 hc0 x0 x1 x2).1 S2048x2048.size (by sl_kernel_rfl) y

/-- What the first case leaves in the output's staging buffer: its pieces read back. -/
def out6_A_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond6_0 i)
    (x0 : Vec F S2048x2048 .bf16) (x1 : Vec F S256x2048 .bf16) (x2 : Vec F S256x2048 .bf16) : Vec F S2048x2048 .f32 :=
  VO6_3.read (Elt F) (VO6_3.writes (Elt F) VO6_3.junk (kernelRun6_A c i arg1 harg1 arg2 harg2 arg3 harg3 arg4 harg4 hc0 x0 x1 x2).1)

/-- The second case's pieces cover the output block (its four column chunks tile it). -/
theorem cover6_B_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond6_0 i)
    (x0 : Vec F S2048x2048 .bf16) (x1 : Vec F S256x2048 .bf16) (x2 : Vec F S256x2048 .bf16) (xo3 : Vec F S2048x2048 .f32) (y : S2048x2048.Idx) :
    ∃ pc ∈ (kernelRun6_B c i arg1 harg1 arg2 harg2 arg3 harg3 arg4 harg4 hc0 x0 x1 x2 xo3).1, y ∈ pc.1.set :=
  View.cover_of_tiledL (kernelRun6_B c i arg1 harg1 arg2 harg2 arg3 harg3 arg4 harg4 hc0 x0 x1 x2 xo3).1 S2048x512.size (by sl_kernel_rfl) y

/-- What the second case leaves in the output's staging buffer: its pieces read back. -/
def out6_B_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond6_0 i)
    (x0 : Vec F S2048x2048 .bf16) (x1 : Vec F S256x2048 .bf16) (x2 : Vec F S256x2048 .bf16) (xo3 : Vec F S2048x2048 .f32) : Vec F S2048x2048 .f32 :=
  VO6_3.read (Elt F) (VO6_3.writes (Elt F) VO6_3.junk (kernelRun6_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt6 (c : Dev nD) : (n : ℕ) → n < cfg6.N → Vec F S2048x2048 .f32
  | 0, hn => out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) ((hcond6_0 ⟨0, hn⟩).mpr (Nat.zero_mod _)) (iblk6 V c 0 ⟨0, hn⟩) (iblk6 V c 1 ⟨0, hn⟩) (iblk6 V c 2 ⟨0, hn⟩)
  | n + 1, hn =>
    if h0 : (n + 1) % 8 = 0 then
      out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) ((hcond6_0 ⟨n + 1, hn⟩).mpr h0) (iblk6 V c 0 ⟨n + 1, hn⟩) (iblk6 V c 1 ⟨n + 1, hn⟩) (iblk6 V c 2 ⟨n + 1, hn⟩)
    else
      out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn))

/-- At the first point: the first case's contents. -/
theorem outsAt6_A (c : Dev nD) (t : Fin cfg6.N) (h0 : t.val % 8 = 0) :
    outsAt6 V c t.val t.isLt = out6_A_3 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t) (iblk6 V c 2 t) := by
  obtain ⟨n, hn⟩ := t
  cases n with
  | zero => exact rfl
  | succ n => exact (dif_pos h0).trans rfl

/-- At a later point: the second case's contents, over what the point before left. -/
theorem outsAt6_B (c : Dev nD) (t : Fin cfg6.N) (h0 : ¬t.val % 8 = 0) :
    outsAt6 V c t.val t.isLt = out6_B_3 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) (iblk6 V c 2 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 6 on core `c`: the arrays as the call finds them; after the body at point `t` each
    input's buffer at its block and the output's at `outsAt6`; the class's invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
/-- At a later point the output's staging buffer holds what the body left at the point before: the point is not the
    first, the buffer was not written back between (only the last point writes back), the window is live and uncut. -/
theorem before6_3_B (c : Dev nD) (t : Fin cfg6.N) (h0 : ¬t.val % 8 = 0) (d) :
    (dat6 V c).before 3 t d = (outsAt6 V c (t.val - 1) (Nat.lt_of_le_of_lt (Nat.sub_le _ _) t.isLt)) := by
  have hN : t.val < 8 := lt_of_lt_of_eq t.isLt (show cfg6.N = 8 from N_6)
  rw [Dat.before_out_kept _ 3 rfl t (by omega) (Bool.eq_false_iff.mpr fun h => by have := (flush6_3 _).mp h; dsimp only at this; omega)
    (fun _ => rfl) (fun _ _ => rfl)]
  dsimp only [dat6]

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 1600000 in
/-- The body at any point: the inputs' memrefs hold their blocks; the closed form of the branch says which case the point
    is in; at a later point the output's buffer holds what the point before left; so that case's run applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  have hN : t.val < 8 := lt_of_lt_of_eq t.isLt (show cfg6.N = 8 from N_6)
  by_cases h0 : t.val % 8 = 0
  · rw [outsAt6_A V c t h0]
    unfold out6_A_3
    iintro ⟨HΦ, Ho, ⟨%d0, H0⟩, ⟨%d1, H1⟩, ⟨%d2, H2⟩, ⟨%d3, H3⟩⟩
    iapply ((kernelRun6_A c (grid6.coords t) _ _ _ _ _ _ _ _ ((hcond6_0 t).mpr h0) (iblk6 V c 0 t) (iblk6 V c 1 t) (iblk6 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_A_3 c _ _ _ _ _ _ _ _ _ _ _ _ _)
  · rw [outsAt6_B V c t h0]
    simp only [before6_3_B V c t h0]
    unfold out6_B_3
    iintro ⟨HΦ, Ho, ⟨%d0, H0⟩, ⟨%d1, H1⟩, ⟨%d2, H2⟩, ⟨%d3, H3⟩⟩
    iapply ((kernelRun6_B c (grid6.coords t) _ _ _ _ _ _ _ _ (fun h => h0 ((hcond6_0 t).mp h)) (iblk6 V c 0 t) (iblk6 V c 1 t) (iblk6 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_B_3 c _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.RunK.lean ====
/-
  @main of the kernel program as thirteen segments — a host stretch, the three projection calls, then for each batch
  element a host stretch and its attention call, and the last host stretch that stacks the four results —, the buffer
  contents at each of the fourteen boundaries, and the run: every weakly fair execution terminates and every final
  state holds each unscoped buffer at the last boundary's contents.  The contents are a fold from the launch memory:
  a host stretch applies its operations; a call leaves its arrays at what its write-backs leave and every other buffer
  as entered.
-/
import proofs.«156009_j19851338842369_2_alg».proof.Proof.Gen.Kernel.Regions
import proofs.«156009_j19851338842369_2_alg».proof.Proof.ProjK0
import proofs.«156009_j19851338842369_2_alg».proof.Proof.ProjK1
import proofs.«156009_j19851338842369_2_alg».proof.Proof.ProjK2
import proofs.«156009_j19851338842369_2_alg».proof.Proof.AttnK3
import proofs.«156009_j19851338842369_2_alg».proof.Proof.AttnK4
import proofs.«156009_j19851338842369_2_alg».proof.Proof.AttnK5
import proofs.«156009_j19851338842369_2_alg».proof.Proof.AttnK6

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At call 0's exit: its arrays at what the pipeline leaves (the inputs as entered, the output's write-backs folded),
    every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At call 1's exit: its arrays at what the pipeline leaves (the inputs as entered, the output's write-backs folded),
    every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At call 2's exit: its arrays at what the pipeline leaves (the inputs as entered, the output's write-backs folded),
    every other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
abbrev Vr5 : (c : Dev nD) → (b : Ref sig .tc) → Buf (Elt F) ((c : Thread nD τ).loc b) := fun c b => W5 m ρ c b

/-- At call 3's exit: its arrays at what the pipeline leaves (the inputs as entered, the output's write-backs folded),
    every other buffer as entered. -/
def W6 (c : Dev nD) : Valuation τ sig (Elt F) :=
  Pipeline.withArrays spec3 c (W5 m ρ c) fun w => (dat3 (Vr5 m ρ) c).arrAt w cfg3.N
theorem W6_arr (c : Dev nD) (w : Fin cfg3.W) :
    W6 m ρ c (Proc.devRef .tc (Pipeline.arrRef spec3 w)) = (dat3 (Vr5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev Vr6 : (c : Dev nD) → (b : Ref sig .tc) → Buf (Elt F) ((c : Thread nD τ).loc b) := fun c b => W6 m ρ c b
theorem hF3 (c : Dev nD) (w : Fin cfg3.W) : (dat3 (Vr5 m ρ) c).arrAt w cfg3.N = Vr6 m ρ c (Pipeline.arrRef spec3 w) :=
  (W6_arr m ρ c w).symm
theorem hrest3 (c : Dev nD) : ∀ b, b ∉ Finset.univ.image (Pipeline.arrRef spec3) → Vr6 m ρ c b = Vr5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b

/-- At call 4's exit: its arrays at what the pipeline leaves (the inputs as entered, the output's write-backs folded),
    every other buffer as entered. -/
def W8 (c : Dev nD) : Valuation τ sig (Elt F) :=
  Pipeline.withArrays spec4 c (W7 m ρ c) fun w => (dat4 (Vr7 m ρ) c).arrAt w cfg4.N
theorem W8_arr (c : Dev nD) (w : Fin cfg4.W) :
    W8 m ρ c (Proc.devRef .tc (Pipeline.arrRef spec4 w)) = (dat4 (Vr7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev Vr8 : (c : Dev nD) → (b : Ref sig .tc) → Buf (Elt F) ((c : Thread nD τ).loc b) := fun c b => W8 m ρ c b
theorem hF4 (c : Dev nD) (w : Fin cfg4.W) : (dat4 (Vr7 m ρ) c).arrAt w cfg4.N = Vr8 m ρ c (Pipeline.arrRef spec4 w) :=
  (W8_arr m ρ c w).symm
theorem hrest4 (c : Dev nD) : ∀ b, b ∉ Finset.univ.image (Pipeline.arrRef spec4) → Vr8 m ρ c b = Vr7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b

/-- At call 5's exit: its arrays at what the pipeline leaves (the inputs as entered, the output's write-backs folded),
    every other buffer as entered. -/
def W10 (c : Dev nD) : Valuation τ sig (Elt F) :=
  Pipeline.withArrays spec5 c (W9 m ρ c) fun w => (dat5 (Vr9 m ρ) c).arrAt w cfg5.N
theorem W10_arr (c : Dev nD) (w : Fin cfg5.W) :
    W10 m ρ c (Proc.devRef .tc (Pipeline.arrRef spec5 w)) = (dat5 (Vr9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev Vr10 : (c : Dev nD) → (b : Ref sig .tc) → Buf (Elt F) ((c : Thread nD τ).loc b) := fun c b => W10 m ρ c b
theorem hF5 (c : Dev nD) (w : Fin cfg5.W) : (dat5 (Vr9 m ρ) c).arrAt w cfg5.N = Vr10 m ρ c (Pipeline.arrRef spec5 w) :=
  (W10_arr m ρ c w).symm
theorem hrest5 (c : Dev nD) : ∀ b, b ∉ Finset.univ.image (Pipeline.arrRef spec5) → Vr10 m ρ c b = Vr9 m ρ c b :=
  fun b hb => W10_of_ne m ρ c b fun w e => hb (Finset.mem_image.mpr ⟨w, Finset.mem_univ _, e⟩)

/-- After the host stretch `hostOps6`. -/
abbrev W11 : Dev nD → Valuation τ sig (Elt F) := fun c => StableHlo.after hostOps6 (W10 m ρ c)
abbrev Vr11 : (c : Dev nD) → (b : Ref sig .tc) → Buf (Elt F) ((c : Thread nD τ).loc b) := fun c b => W11 m ρ c b

/-- At call 6's exit: its arrays at what the pipeline leaves (the inputs as entered, the output's write-backs folded),
    every other buffer as entered. -/
def W12 (c : Dev nD) : Valuation τ sig (Elt F) :=
  Pipeline.withArrays spec6 c (W11 m ρ c) fun w => (dat6 (Vr11 m ρ) c).arrAt w cfg6.N
theorem W12_arr (c : Dev nD) (w : Fin cfg6.W) :
    W12 m ρ c (Proc.devRef .tc (Pipeline.arrRef spec6 w)) = (dat6 (Vr11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev Vr12 : (c : Dev nD) → (b : Ref sig .tc) → Buf (Elt F) ((c : Thread nD τ).loc b) := fun c b => W12 m ρ c b
theorem hF6 (c : Dev nD) (w : Fin cfg6.W) : (dat6 (Vr11 m ρ) c).arrAt w cfg6.N = Vr12 m ρ c (Pipeline.arrRef spec6 w) :=
  (W12_arr m ρ c w).symm
theorem hrest6 (c : Dev nD) : ∀ b, b ∉ Finset.univ.image (Pipeline.arrRef spec6) → Vr12 m ρ c b = Vr11 m ρ c b :=
  fun b hb => W12_of_ne m ρ c b fun w e => hb (Finset.mem_image.mpr ⟨w, Finset.mem_univ _, e⟩)

/-- After the host stretch `hostOps7`. -/
abbrev W13 : Dev nD → Valuation τ sig (Elt F) := fun c => StableHlo.after hostOps7 (W12 m ρ c)
abbrev Vr13 : (c : Dev nD) → (b : Ref sig .tc) → Buf (Elt F) ((c : Thread nD τ).loc b) := fun c b => W13 m ρ c b

/-! ## The proof data family and the thread state -/

/-- Every call's proof data, each at its call's entry contents — a literal match on the call's number. -/
def pdats : (p : Fin 7) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
  | ⟨3, _⟩ => fun c => dat3 (Vr5 m ρ) c
  | ⟨4, _⟩ => fun c => dat4 (Vr7 m ρ) c
  | ⟨5, _⟩ => fun c => dat5 (Vr9 m ρ) c
  | ⟨6, _⟩ => fun c => dat6 (Vr11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W13 m ρ c) ∗ ∃ r, prngReg c r)

/-! ## The calls as segments -/

set_option backward.isDefEq.respectTransparency.types false in
/-- CALL 0 over the thread state: entered from every unscoped buffer at boundary 1's contents, left at boundary 2's.
    Its arrays are split out of the unscoped buffers and put back at the exit contents; the generator register goes into
    the class invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at boundary 2's contents, left at boundary 3's.
    Its arrays are split out of the unscoped buffers and put back at the exit contents; the generator register goes into
    the class invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at boundary 3's contents, left at boundary 4's.
    Its arrays are split out of the unscoped buffers and put back at the exit contents; the generator register goes into
    the class invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 3 over the thread state: entered from every unscoped buffer at boundary 5's contents, left at boundary 6's.
    Its arrays are split out of the unscoped buffers and put back at the exit contents; the generator register goes into
    the class invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr5 m ρ c) (Vr6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 4 over the thread state: entered from every unscoped buffer at boundary 7's contents, left at boundary 8's.
    Its arrays are split out of the unscoped buffers and put back at the exit contents; the generator register goes into
    the class invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr7 m ρ c) (Vr8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 5 over the thread state: entered from every unscoped buffer at boundary 9's contents, left at boundary 10's.
    Its arrays are split out of the unscoped buffers and put back at the exit contents; the generator register goes into
    the class invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (Vr9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vr9 m ρ c) (Vr10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 6 over the thread state: entered from every unscoped buffer at boundary 11's contents, left at boundary 12's.
    Its arrays are split out of the unscoped buffers and put back at the exit contents; the generator register goes into
    the class invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (Vr11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vr11 m ρ c) (Vr12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsAll : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

theorem main_run (c : Dev nD) : main (F := F) c = Pipeline.Seg.run (segsAll m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W13 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-! ## The arguments end as launched -/

/-- A buffer that no host stretch writes and that is no call's window array reaches the end as launched: the fold at
    that buffer walks back to the launch memory. -/
theorem W13_of_untouched (c : Dev nD) (b : Ref sig .tc)
    (h0 : b ∉ hostOps0_W) (h3 : b ∉ hostOps3_W) (h4 : b ∉ hostOps4_W) (h5 : b ∉ hostOps5_W) (h6 : b ∉ hostOps6_W) (h7 : b ∉ hostOps7_W)
    (hr0 : ∀ w, Pipeline.arrRef spec0 w ≠ b) (hr1 : ∀ w, Pipeline.arrRef spec1 w ≠ b) (hr2 : ∀ w, Pipeline.arrRef spec2 w ≠ b)
    (hr3 : ∀ w, Pipeline.arrRef spec3 w ≠ b) (hr4 : ∀ w, Pipeline.arrRef spec4 w ≠ b) (hr5 : ∀ w, Pipeline.arrRef spec5 w ≠ b)
    (hr6 : ∀ w, Pipeline.arrRef spec6 w ≠ b) :
    W13 m ρ c (Proc.devRef .tc b) = m ((c : Thread nD τ).loc b) :=
  (StableHlo.after_of_writes_sub hostOps7 _ hostOps7_writes h7).trans <|
  (W12_of_ne m ρ c b hr6).trans <|
  (StableHlo.after_of_writes_sub hostOps6 _ hostOps6_writes h6).trans <|
  (W10_of_ne m ρ c b hr5).trans <|
  (StableHlo.after_of_writes_sub hostOps5 _ hostOps5_writes h5).trans <|
  (W8_of_ne m ρ c b hr4).trans <|
  (StableHlo.after_of_writes_sub hostOps4 _ hostOps4_writes h4).trans <|
  (W6_of_ne m ρ c b hr3).trans <|
  (StableHlo.after_of_writes_sub hostOps3 _ hostOps3_writes h3).trans <|
  (W4_of_ne m ρ c b hr2).trans <|
  (W3_of_ne m ρ c b hr1).trans <|
  (W2_of_ne m ρ c b hr0).trans <|
  (StableHlo.after_of_writes_sub hostOps0 _ hostOps0_writes h0).trans rfl

theorem W13_main_arg0 (c : Dev nD) : W13 m ρ c (Proc.devRef .tc main_arg0) = m ((c : Thread nD τ).loc main_arg0) :=
  W13_of_untouched m ρ c main_arg0 (by decide) (by decide) (by decide) (by decide) (by decide) (by decide)
    (by decide) (by decide) (by decide) (by decide) (by decide) (by decide) (by decide)
theorem W13_main_arg1 (c : Dev nD) : W13 m ρ c (Proc.devRef .tc main_arg1) = m ((c : Thread nD τ).loc main_arg1) :=
  W13_of_untouched m ρ c main_arg1 (by decide) (by decide) (by decide) (by decide) (by decide) (by decide)
    (by decide) (by decide) (by decide) (by decide) (by decide) (by decide) (by decide)
theorem W13_main_arg2 (c : Dev nD) : W13 m ρ c (Proc.devRef .tc main_arg2) = m ((c : Thread nD τ).loc main_arg2) :=
  W13_of_untouched m ρ c main_arg2 (by decide) (by decide) (by decide) (by decide) (by decide) (by decide)
    (by decide) (by decide) (by decide) (by decide) (by decide) (by decide) (by decide)
theorem W13_main_arg3 (c : Dev nD) : W13 m ρ c (Proc.devRef .tc main_arg3) = m ((c : Thread nD τ).loc main_arg3) :=
  W13_of_untouched m ρ c main_arg3 (by decide) (by decide) (by decide) (by decide) (by decide) (by decide)
    (by decide) (by decide) (by decide) (by decide) (by decide) (by decide) (by decide)
theorem W13_main_arg4 (c : Dev nD) : W13 m ρ c (Proc.devRef .tc main_arg4) = m ((c : Thread nD τ).loc main_arg4) :=
  W13_of_untouched m ρ c main_arg4 (by decide) (by decide) (by decide) (by decide) (by decide) (by decide)
    (by decide) (by decide) (by decide) (by decide) (by decide) (by decide) (by decide)
theorem W13_main_arg5 (c : Dev nD) : W13 m ρ c (Proc.devRef .tc main_arg5) = m ((c : Thread nD τ).loc main_arg5) :=
  W13_of_untouched m ρ c main_arg5 (by decide) (by decide) (by decide) (by decide) (by decide) (by decide)
    (by decide) (by decide) (by decide) (by decide) (by decide) (by decide) (by decide)

/-- THE FRAME at any `F`: every weakly fair execution of @main terminates, nothing faulting, and every final state has
    the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c)⟩) (run_all m ρ)

end Cert.Kernel.Fr

end
-- ==== Proof.ProjI0.lean ====
/-
  Projection call 0 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer (fetched once, its index never moving) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: the whole x tile, the whole weight matrix, the whole output tile. -/
abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0

/-- The output tile's staging buffer after the body: its one store, of the product of the x tile and the weights. -/
def out0_2 (x0 : Vec F S512x2048 .f32) (x1 : Vec F S2048x2048 .bf16) : Vec F S512x2048 .bf16 :=
  View.canon [⟨r0_0, k0_pay1 (View.ld x0 r0_0) (View.ld x1 r0_1)⟩]

/-- The one store is through the whole tile, so it covers it. -/
theorem cover0_2 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

set_option maxHeartbeats 1000000 in
/-- The body's triple: on whole staging memrefs, the inputs' at read contents and the output's at anything, it runs to
    the continuation holding the inputs' as they were and the output's at `out0_2` of the inputs'. -/
theorem sound_kernel0 (c : Dev nD) (E : Set ℕ) (i : grid0.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The call's proof data and the body obligation -/

/-- The proof data of projection call 0 on core `c`: the arrays as the call finds them; after the body at point `t` the
    x tile's and the weights' buffers at their blocks, the output's at the product of the two; the class's invariant
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.ProjI1.lean ====
/-
  Projection call 1 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x tile's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's staging buffer (fetched once, its index never moving) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's three accesses: the whole x tile, the whole weight matrix, the whole output tile. -/
abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0

/-- The output tile's staging buffer after the body: its one store, of the product of the x tile and the weights. -/
def out1_2 (x0 : Vec F S512x2048 .f32) (x1 : Vec F S2048x2048 .bf16) : Vec F S512x2048 .bf16 :=
  View.canon [⟨r1_0, k1_pay1 (View.ld x0 r1_0) (View.ld x1 r1_1)⟩]

/-- The one store is through the whole tile, so it covers it. -/
theorem cover1_2 (p0 : Vec F S512x2048 .bf16) (y : S512x2048.Idx) :
    ∃ pc ∈ ([⟨r1_0, p0⟩] : List (View.Piece (Elt F) S512x2048 .bf16)), y ∈ pc.1.set :=
  View.cover_of_tiled [⟨r1_0, p0⟩] S512x2048.size (by rfl) y

set_option maxHeartbeats 1000000 in
/-- The body's triple: on whole staging memrefs, the inputs' at read contents and the output's at anything, it runs to
    the continuation holding the inputs' as they were and the output's at `out1_2` of the inputs'. -/
theorem sound_kernel1 (c : Dev nD) (E : Set ℕ) (i : grid1.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The call's proof data and the body obligation -/

/-- The proof data of projection call 1 on core `c`: the arrays as the call finds them; after the body at point `t` the
    x tile's and the weights' buffers at their blocks, the output's at the product of the two; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.ProjI2.lean ====
/-
  Projection call 2 of @main (out = x · Wᵀ over row tiles of 512): the call's half of the frame, at a PARAMETER `V`
  (the TensorCore's buffer contents when the call is entered).  At grid point t the body reads the x tile (rows
  512·t … 512·t+511, all 2048 columns) and the whole weight matrix, and stores the tile of the product into the output
  block; it keeps nothing between points.  So after the body the output's staging buffer is one store through the whole
  rectangle of the payload of the two input blocks, each input's buffer is left as found, and the body obligation at a
  generic point follows from the body's triple.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x tile's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer (fetched once, its index never moving) holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's three accesses: the whole x tile, the whole weight matrix, the whole output tile. -/
abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

/-- The output tile's staging buffer after the body: its one store, of the product of the x tile and the weights. -/
def out2_2 (x0 : Vec F S512x2048 .f32) (x1 : Vec F S2048x2048 .bf16) : Vec F S512x2048 .bf16 :=
  View.canon [⟨r2_0, k2_pay1 (View.ld x0 r2_0) (View.ld x1 r2_1)⟩]

/-- The one store is through the whole tile, so it covers it. -/
theorem cover2_2 (p0 : Vec F S512x2048 .bf16) (y : S512x2048.Idx) :
    ∃ pc ∈ ([⟨r2_0, p0⟩] : List (View.Piece (Elt F) S512x2048 .bf16)), y ∈ pc.1.set :=
  View.cover_of_tiled [⟨r2_0, p0⟩] S512x2048.size (by rfl) y

set_option maxHeartbeats 1000000 in
/-- The body's triple: on whole staging memrefs, the inputs' at read contents and the output's at anything, it runs to
    the continuation holding the inputs' as they were and the output's at `out2_2` of the inputs'. -/
theorem sound_kernel2 (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S512x2048 .bf16) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The call's proof data and the body obligation -/

/-- The proof data of projection call 2 on core `c`: the arrays as the call finds them; after the body at point `t` the
    x tile's and the weights' buffers at their blocks, the output's at the product of the two; the class's invariant
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.AttnI3.lean ====
/-
  Attention call 3 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond3_0 (i : grid3.Coords) : Prop := (Scalar.cmpi .ne (Scalar.extui (Scalar.cmpi .eq (BitVec.ofNat 32 (i 0).val) 0#32)) 0#32) = 1#1
/-- It holds at the first point only — decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)

/-- One staging buffer of the output window, through which its contents are stated. -/
abbrev VO3_3 : View sig .tc .vmem S2048x2048 .f32 := (Memref.whole cc3_stg3_0 : Memref sig .tc .vmem S2048x2048 .f32).view
/-- Each window's current staging memref at point `t`, spelled as the pipeline passes it, and its wholeness. -/
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x2048 .f32 := win3_3.stage (cfg3.slots t 3)
abbrev hs3_3 (t : Fin cfg3.N) : (ms3_3 t).IsWhole := hstage3_3 ((cfg3.slots t 3).cast nbuf3_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun3_A (c : Dev nD) (i : grid3.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond3_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3_kernel i arg1 harg1 arg2 harg2 arg3 harg3 arg4 harg4) K } := by
  refine ⟨?_, fun E K => ?run⟩
  case run =>
    simp only [cc3_kernel_eq_skeleton]; unfold cc3_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun3_B (c : Dev nD) (i : grid3.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond3_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3_kernel i arg1 harg1 arg2 harg2 arg3 harg3 arg4 harg4) K } := by
  refine ⟨?_, fun E K => ?run⟩
  case run =>
    simp only [cc3_kernel_eq_skeleton]; unfold cc3_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the output's staging buffer -/

/-- The first case's pieces cover the output block (the zero fill alone does). -/
theorem cover3_A_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond3_0 i)
    (x0 : Vec F S2048x2048 .bf16) (x1 : Vec F S256x2048 .bf16) (x2 : Vec F S256x2048 .bf16) (y : S2048x2048.Idx) :
    ∃ pc ∈ (kernelRun3_A c i arg1 harg1 arg2 harg2 arg3 harg3 arg4 harg4 hc0 x0 x1 x2).1, y ∈ pc.1.set :=
  View.cover_of_tiledL (kernelRun3_A c i arg1 harg1 arg2 harg2 arg3 harg3 arg4 harg4 hc0 x0 x1 x2).1 S2048x2048.size (by sl_kernel_rfl) y

/-- What the first case leaves in the output's staging buffer: its pieces read back. -/
def out3_A_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond3_0 i)
    (x0 : Vec F S2048x2048 .bf16) (x1 : Vec F S256x2048 .bf16) (x2 : Vec F S256x2048 .bf16) : Vec F S2048x2048 .f32 :=
  VO3_3.read (Elt F) (VO3_3.writes (Elt F) VO3_3.junk (kernelRun3_A c i arg1 harg1 arg2 harg2 arg3 harg3 arg4 harg4 hc0 x0 x1 x2).1)

/-- The second case's pieces cover the output block (its four column chunks tile it). -/
theorem cover3_B_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond3_0 i)
    (x0 : Vec F S2048x2048 .bf16) (x1 : Vec F S256x2048 .bf16) (x2 : Vec F S256x2048 .bf16) (xo3 : Vec F S2048x2048 .f32) (y : S2048x2048.Idx) :
    ∃ pc ∈ (kernelRun3_B c i arg1 harg1 arg2 harg2 arg3 harg3 arg4 harg4 hc0 x0 x1 x2 xo3).1, y ∈ pc.1.set :=
  View.cover_of_tiledL (kernelRun3_B c i arg1 harg1 arg2 harg2 arg3 harg3 arg4 harg4 hc0 x0 x1 x2 xo3).1 S2048x512.size (by sl_kernel_rfl) y

/-- What the second case leaves in the output's staging buffer: its pieces read back. -/
def out3_B_3 (c : Dev nD) (i : grid3.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond3_0 i)
    (x0 : Vec F S2048x2048 .bf16) (x1 : Vec F S256x2048 .bf16) (x2 : Vec F S256x2048 .bf16) (xo3 : Vec F S2048x2048 .f32) : Vec F S2048x2048 .f32 :=
  VO3_3.read (Elt F) (VO3_3.writes (Elt F) VO3_3.junk (kernelRun3_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt3 (c : Dev nD) : (n : ℕ) → n < cfg3.N → Vec F S2048x2048 .f32
  | 0, hn => out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) ((hcond3_0 ⟨0, hn⟩).mpr (Nat.zero_mod _)) (iblk3 V c 0 ⟨0, hn⟩) (iblk3 V c 1 ⟨0, hn⟩) (iblk3 V c 2 ⟨0, hn⟩)
  | n + 1, hn =>
    if h0 : (n + 1) % 8 = 0 then
      out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) ((hcond3_0 ⟨n + 1, hn⟩).mpr h0) (iblk3 V c 0 ⟨n + 1, hn⟩) (iblk3 V c 1 ⟨n + 1, hn⟩) (iblk3 V c 2 ⟨n + 1, hn⟩)
    else
      out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn))

/-- At the first point: the first case's contents. -/
theorem outsAt3_A (c : Dev nD) (t : Fin cfg3.N) (h0 : t.val % 8 = 0) :
    outsAt3 V c t.val t.isLt = out3_A_3 c (grid3.coords t) (ms3_0 t) (hs3_0 t) (ms3_1 t) (hs3_1 t) (ms3_2 t) (hs3_2 t) (ms3_3 t) (hs3_3 t) ((hcond3_0 t).mpr h0) (iblk3 V c 0 t) (iblk3 V c 1 t) (iblk3 V c 2 t) := by
  obtain ⟨n, hn⟩ := t
  cases n with
  | zero => exact rfl
  | succ n => exact (dif_pos h0).trans rfl

/-- At a later point: the second case's contents, over what the point before left. -/
theorem outsAt3_B (c : Dev nD) (t : Fin cfg3.N) (h0 : ¬t.val % 8 = 0) :
    outsAt3 V c t.val t.isLt = out3_B_3 c (grid3.coords t) (ms3_0 t) (hs3_0 t) (ms3_1 t) (hs3_1 t) (ms3_2 t) (hs3_2 t) (ms3_3 t) (hs3_3 t) (fun h => h0 ((hcond3_0 t).mp h)) (iblk3 V c 0 t) (iblk3 V c 1 t) (iblk3 V c 2 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 3 on core `c`: the arrays as the call finds them; after the body at point `t` each
    input's buffer at its block and the output's at `outsAt3`; the class's invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point the output's staging buffer holds what the body left at the point before: the point is not the
    first, the buffer was not written back between (only the last point writes back), the window is live and uncut. -/
theorem before3_3_B (c : Dev nD) (t : Fin cfg3.N) (h0 : ¬t.val % 8 = 0) (d) :
    (dat3 V c).before 3 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 3 rfl t (by omega) (Bool.eq_false_iff.mpr fun h => by have := (flush3_3 _).mp h; dsimp only at this; omega)
    (fun _ => rfl) (fun _ _ => rfl)]
  dsimp only [dat3]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

set_option maxHeartbeats 1600000 in
/-- The body at any point: the inputs' memrefs hold their blocks; the closed form of the branch says which case the point
    is in; at a later point the output's buffer holds what the point before left; so that case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  have hN : t.val < 8 := lt_of_lt_of_eq t.isLt (show cfg3.N = 8 from N_3)
  by_cases h0 : t.val % 8 = 0
  · rw [outsAt3_A V c t h0]
    unfold out3_A_3
    iintro ⟨HΦ, Ho, ⟨%d0, H0⟩, ⟨%d1, H1⟩, ⟨%d2, H2⟩, ⟨%d3, H3⟩⟩
    iapply ((kernelRun3_A c (grid3.coords t) _ _ _ _ _ _ _ _ ((hcond3_0 t).mpr h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_A_3 c _ _ _ _ _ _ _ _ _ _ _ _ _)
  · rw [outsAt3_B V c t h0]
    simp only [before3_3_B V c t h0]
    unfold out3_B_3
    iintro ⟨HΦ, Ho, ⟨%d0, H0⟩, ⟨%d1, H1⟩, ⟨%d2, H2⟩, ⟨%d3, H3⟩⟩
    iapply ((kernelRun3_B c (grid3.coords t) _ _ _ _ _ _ _ _ (fun h => h0 ((hcond3_0 t).mp h)) (iblk3 V c 0 t) (iblk3 V c 1 t) (iblk3 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.AttnI4.lean ====
/-
  Attention call 4 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- One staging buffer of the output window, through which its contents are stated. -/
abbrev VO4_3 : View sig .tc .vmem S2048x2048 .f32 := (Memref.whole cc4_stg3_0 : Memref sig .tc .vmem S2048x2048 .f32).view
/-- Each window's current staging memref at point `t`, spelled as the pipeline passes it, and its wholeness. -/
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x2048 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x2048 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x2048 .f32 := win4_3.stage (cfg4.slots t 3)
abbrev hs4_3 (t : Fin cfg4.N) : (ms4_3 t).IsWhole := hstage4_3 ((cfg4.slots t 3).cast nbuf4_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun4_A (c : Dev nD) (i : grid4.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond4_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc4_kernel i arg1 harg1 arg2 harg2 arg3 harg3 arg4 harg4) K } := by
  refine ⟨?_, fun E K => ?run⟩
  case run =>
    simp only [cc4_kernel_eq_skeleton]; unfold cc4_kernel_skel
    simp only [k4_part1_eq_skeleton, k4_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun4_B (c : Dev nD) (i : grid4.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond4_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc4_kernel i arg1 harg1 arg2 harg2 arg3 harg3 arg4 harg4) K } := by
  refine ⟨?_, fun E K => ?run⟩
  case run =>
    simp only [cc4_kernel_eq_skeleton]; unfold cc4_kernel_skel
    simp only [k4_part1_eq_skeleton, k4_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## What each case leaves in the output's staging buffer -/

/-- The first case's pieces cover the output block (the zero fill alone does). -/
theorem cover4_A_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond4_0 i)
    (x0 : Vec F S2048x2048 .bf16) (x1 : Vec F S256x2048 .bf16) (x2 : Vec F S256x2048 .bf16) (y : S2048x2048.Idx) :
    ∃ pc ∈ (kernelRun4_A c i arg1 harg1 arg2 harg2 arg3 harg3 arg4 harg4 hc0 x0 x1 x2).1, y ∈ pc.1.set :=
  View.cover_of_tiledL (kernelRun4_A c i arg1 harg1 arg2 harg2 arg3 harg3 arg4 harg4 hc0 x0 x1 x2).1 S2048x2048.size (by sl_kernel_rfl) y

/-- What the first case leaves in the output's staging buffer: its pieces read back. -/
def out4_A_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond4_0 i)
    (x0 : Vec F S2048x2048 .bf16) (x1 : Vec F S256x2048 .bf16) (x2 : Vec F S256x2048 .bf16) : Vec F S2048x2048 .f32 :=
  VO4_3.read (Elt F) (VO4_3.writes (Elt F) VO4_3.junk (kernelRun4_A c i arg1 harg1 arg2 harg2 arg3 harg3 arg4 harg4 hc0 x0 x1 x2).1)

/-- The second case's pieces cover the output block (its four column chunks tile it). -/
theorem cover4_B_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond4_0 i)
    (x0 : Vec F S2048x2048 .bf16) (x1 : Vec F S256x2048 .bf16) (x2 : Vec F S256x2048 .bf16) (xo3 : Vec F S2048x2048 .f32) (y : S2048x2048.Idx) :
    ∃ pc ∈ (kernelRun4_B c i arg1 harg1 arg2 harg2 arg3 harg3 arg4 harg4 hc0 x0 x1 x2 xo3).1, y ∈ pc.1.set :=
  View.cover_of_tiledL (kernelRun4_B c i arg1 harg1 arg2 harg2 arg3 harg3 arg4 harg4 hc0 x0 x1 x2 xo3).1 S2048x512.size (by sl_kernel_rfl) y

/-- What the second case leaves in the output's staging buffer: its pieces read back. -/
def out4_B_3 (c : Dev nD) (i : grid4.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond4_0 i)
    (x0 : Vec F S2048x2048 .bf16) (x1 : Vec F S256x2048 .bf16) (x2 : Vec F S256x2048 .bf16) (xo3 : Vec F S2048x2048 .f32) : Vec F S2048x2048 .f32 :=
  VO4_3.read (Elt F) (VO4_3.writes (Elt F) VO4_3.junk (kernelRun4_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt4 (c : Dev nD) : (n : ℕ) → n < cfg4.N → Vec F S2048x2048 .f32
  | 0, hn => out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) ((hcond4_0 ⟨0, hn⟩).mpr (Nat.zero_mod _)) (iblk4 V c 0 ⟨0, hn⟩) (iblk4 V c 1 ⟨0, hn⟩) (iblk4 V c 2 ⟨0, hn⟩)
  | n + 1, hn =>
    if h0 : (n + 1) % 8 = 0 then
      out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) ((hcond4_0 ⟨n + 1, hn⟩).mpr h0) (iblk4 V c 0 ⟨n + 1, hn⟩) (iblk4 V c 1 ⟨n + 1, hn⟩) (iblk4 V c 2 ⟨n + 1, hn⟩)
    else
      out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn))

/-- At the first point: the first case's contents. -/
theorem outsAt4_A (c : Dev nD) (t : Fin cfg4.N) (h0 : t.val % 8 = 0) :
    outsAt4 V c t.val t.isLt = out4_A_3 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t) (iblk4 V c 2 t) := by
  obtain ⟨n, hn⟩ := t
  cases n with
  | zero => exact rfl
  | succ n => exact (dif_pos h0).trans rfl

/-- At a later point: the second case's contents, over what the point before left. -/
theorem outsAt4_B (c : Dev nD) (t : Fin cfg4.N) (h0 : ¬t.val % 8 = 0) :
    outsAt4 V c t.val t.isLt = out4_B_3 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (iblk4 V c 2 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 4 on core `c`: the arrays as the call finds them; after the body at point `t` each
    input's buffer at its block and the output's at `outsAt4`; the class's invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point the output's staging buffer holds what the body left at the point before: the point is not the
    first, the buffer was not written back between (only the last point writes back), the window is live and uncut. -/
theorem before4_3_B (c : Dev nD) (t : Fin cfg4.N) (h0 : ¬t.val % 8 = 0) (d) :
    (dat4 V c).before 3 t d = (outsAt4 V c (t.val - 1) (Nat.lt_of_le_of_lt (Nat.sub_le _ _) t.isLt)) := by
  have hN : t.val < 8 := lt_of_lt_of_eq t.isLt (show cfg4.N = 8 from N_4)
  rw [Dat.before_out_kept _ 3 rfl t (by omega) (Bool.eq_false_iff.mpr fun h => by have := (flush4_3 _).mp h; dsimp only at this; omega)
    (fun _ => rfl) (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

set_option maxHeartbeats 1600000 in
/-- The body at any point: the inputs' memrefs hold their blocks; the closed form of the branch says which case the point
    is in; at a later point the output's buffer holds what the point before left; so that case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  have hN : t.val < 8 := lt_of_lt_of_eq t.isLt (show cfg4.N = 8 from N_4)
  by_cases h0 : t.val % 8 = 0
  · rw [outsAt4_A V c t h0]
    unfold out4_A_3
    iintro ⟨HΦ, Ho, ⟨%d0, H0⟩, ⟨%d1, H1⟩, ⟨%d2, H2⟩, ⟨%d3, H3⟩⟩
    iapply ((kernelRun4_A c (grid4.coords t) _ _ _ _ _ _ _ _ ((hcond4_0 t).mpr h0) (iblk4 V c 0 t) (iblk4 V c 1 t) (iblk4 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_A_3 c _ _ _ _ _ _ _ _ _ _ _ _ _)
  · rw [outsAt4_B V c t h0]
    simp only [before4_3_B V c t h0]
    unfold out4_B_3
    iintro ⟨HΦ, Ho, ⟨%d0, H0⟩, ⟨%d1, H1⟩, ⟨%d2, H2⟩, ⟨%d3, H3⟩⟩
    iapply ((kernelRun4_B c (grid4.coords t) _ _ _ _ _ _ _ _ (fun h => h0 ((hcond4_0 t).mp h)) (iblk4 V c 0 t) (iblk4 V c 1 t) (iblk4 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_B_3 c _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.AttnI5.lean ====
/-
  Attention call 5 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val % 8 = 0 :=
  (by decide +kernel : ∀ t : Fin grid5.N, cond5_0 (grid5.coords t) ↔ t.val % 8 = 0)

/-- One staging buffer of the output window, through which its contents are stated. -/
abbrev VO5_3 : View sig .tc .vmem S2048x2048 .f32 := (Memref.whole cc5_stg3_0 : Memref sig .tc .vmem S2048x2048 .f32).view
/-- Each window's current staging memref at point `t`, spelled as the pipeline passes it, and its wholeness. -/
abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x2048 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S256x2048 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x2048 .f32 := win5_3.stage (cfg5.slots t 3)
abbrev hs5_3 (t : Fin cfg5.N) : (ms5_3 t).IsWhole := hstage5_3 ((cfg5.slots t 3).cast nbuf5_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun5_A (c : Dev nD) (i : grid5.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond5_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc5_kernel i arg1 harg1 arg2 harg2 arg3 harg3 arg4 harg4) K } := by
  refine ⟨?_, fun E K => ?run⟩
  case run =>
    simp only [cc5_kernel_eq_skeleton]; unfold cc5_kernel_skel
    simp only [k5_part1_eq_skeleton, k5_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun5_B (c : Dev nD) (i : grid5.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond5_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc5_kernel i arg1 harg1 arg2 harg2 arg3 harg3 arg4 harg4) K } := by
  refine ⟨?_, fun E K => ?run⟩
  case run =>
    simp only [cc5_kernel_eq_skeleton]; unfold cc5_kernel_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What each case leaves in the output's staging buffer -/

/-- The first case's pieces cover the output block (the zero fill alone does). -/
theorem cover5_A_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond5_0 i)
    (x0 : Vec F S2048x2048 .bf16) (x1 : Vec F S256x2048 .bf16) (x2 : Vec F S256x2048 .bf16) (y : S2048x2048.Idx) :
    ∃ pc ∈ (kernelRun5_A c i arg1 harg1 arg2 harg2 arg3 harg3 arg4 harg4 hc0 x0 x1 x2).1, y ∈ pc.1.set :=
  View.cover_of_tiledL (kernelRun5_A c i arg1 harg1 arg2 harg2 arg3 harg3 arg4 harg4 hc0 x0 x1 x2).1 S2048x2048.size (by sl_kernel_rfl) y

/-- What the first case leaves in the output's staging buffer: its pieces read back. -/
def out5_A_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond5_0 i)
    (x0 : Vec F S2048x2048 .bf16) (x1 : Vec F S256x2048 .bf16) (x2 : Vec F S256x2048 .bf16) : Vec F S2048x2048 .f32 :=
  VO5_3.read (Elt F) (VO5_3.writes (Elt F) VO5_3.junk (kernelRun5_A c i arg1 harg1 arg2 harg2 arg3 harg3 arg4 harg4 hc0 x0 x1 x2).1)

/-- The second case's pieces cover the output block (its four column chunks tile it). -/
theorem cover5_B_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond5_0 i)
    (x0 : Vec F S2048x2048 .bf16) (x1 : Vec F S256x2048 .bf16) (x2 : Vec F S256x2048 .bf16) (xo3 : Vec F S2048x2048 .f32) (y : S2048x2048.Idx) :
    ∃ pc ∈ (kernelRun5_B c i arg1 harg1 arg2 harg2 arg3 harg3 arg4 harg4 hc0 x0 x1 x2 xo3).1, y ∈ pc.1.set :=
  View.cover_of_tiledL (kernelRun5_B c i arg1 harg1 arg2 harg2 arg3 harg3 arg4 harg4 hc0 x0 x1 x2 xo3).1 S2048x512.size (by sl_kernel_rfl) y

/-- What the second case leaves in the output's staging buffer: its pieces read back. -/
def out5_B_3 (c : Dev nD) (i : grid5.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond5_0 i)
    (x0 : Vec F S2048x2048 .bf16) (x1 : Vec F S256x2048 .bf16) (x2 : Vec F S256x2048 .bf16) (xo3 : Vec F S2048x2048 .f32) : Vec F S2048x2048 .f32 :=
  VO5_3.read (Elt F) (VO5_3.writes (Elt F) VO5_3.junk (kernelRun5_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt5 (c : Dev nD) : (n : ℕ) → n < cfg5.N → Vec F S2048x2048 .f32
  | 0, hn => out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) ((hcond5_0 ⟨0, hn⟩).mpr (Nat.zero_mod _)) (iblk5 V c 0 ⟨0, hn⟩) (iblk5 V c 1 ⟨0, hn⟩) (iblk5 V c 2 ⟨0, hn⟩)
  | n + 1, hn =>
    if h0 : (n + 1) % 8 = 0 then
      out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) ((hcond5_0 ⟨n + 1, hn⟩).mpr h0) (iblk5 V c 0 ⟨n + 1, hn⟩) (iblk5 V c 1 ⟨n + 1, hn⟩) (iblk5 V c 2 ⟨n + 1, hn⟩)
    else
      out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn))

/-- At the first point: the first case's contents. -/
theorem outsAt5_A (c : Dev nD) (t : Fin cfg5.N) (h0 : t.val % 8 = 0) :
    outsAt5 V c t.val t.isLt = out5_A_3 c (grid5.coords t) (ms5_0 t) (hs5_0 t) (ms5_1 t) (hs5_1 t) (ms5_2 t) (hs5_2 t) (ms5_3 t) (hs5_3 t) ((hcond5_0 t).mpr h0) (iblk5 V c 0 t) (iblk5 V c 1 t) (iblk5 V c 2 t) := by
  obtain ⟨n, hn⟩ := t
  cases n with
  | zero => exact rfl
  | succ n => exact (dif_pos h0).trans rfl

/-- At a later point: the second case's contents, over what the point before left. -/
theorem outsAt5_B (c : Dev nD) (t : Fin cfg5.N) (h0 : ¬t.val % 8 = 0) :
    outsAt5 V c t.val t.isLt = out5_B_3 c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t) (iblk5 V c 2 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 5 on core `c`: the arrays as the call finds them; after the body at point `t` each
    input's buffer at its block and the output's at `outsAt5`; the class's invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
/-- At a later point the output's staging buffer holds what the body left at the point before: the point is not the
    first, the buffer was not written back between (only the last point writes back), the window is live and uncut. -/
theorem before5_3_B (c : Dev nD) (t : Fin cfg5.N) (h0 : ¬t.val % 8 = 0) (d) :
    (dat5 V c).before 3 t d = (outsAt5 V c (t.val - 1) (Nat.lt_of_le_of_lt (Nat.sub_le _ _) t.isLt)) := by
  have hN : t.val < 8 := lt_of_lt_of_eq t.isLt (show cfg5.N = 8 from N_5)
  rw [Dat.before_out_kept _ 3 rfl t (by omega) (Bool.eq_false_iff.mpr fun h => by have := (flush5_3 _).mp h; dsimp only at this; omega)
    (fun _ => rfl) (fun _ _ => rfl)]
  dsimp only [dat5]

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 1600000 in
/-- The body at any point: the inputs' memrefs hold their blocks; the closed form of the branch says which case the point
    is in; at a later point the output's buffer holds what the point before left; so that case's run applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  have hN : t.val < 8 := lt_of_lt_of_eq t.isLt (show cfg5.N = 8 from N_5)
  by_cases h0 : t.val % 8 = 0
  · rw [outsAt5_A V c t h0]
    unfold out5_A_3
    iintro ⟨HΦ, Ho, ⟨%d0, H0⟩, ⟨%d1, H1⟩, ⟨%d2, H2⟩, ⟨%d3, H3⟩⟩
    iapply ((kernelRun5_A c (grid5.coords t) _ _ _ _ _ _ _ _ ((hcond5_0 t).mpr h0) (iblk5 V c 0 t) (iblk5 V c 1 t) (iblk5 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_A_3 c _ _ _ _ _ _ _ _ _ _ _ _ _)
  · rw [outsAt5_B V c t h0]
    simp only [before5_3_B V c t h0]
    unfold out5_B_3
    iintro ⟨HΦ, Ho, ⟨%d0, H0⟩, ⟨%d1, H1⟩, ⟨%d2, H2⟩, ⟨%d3, H3⟩⟩
    iapply ((kernelRun5_B c (grid5.coords t) _ _ _ _ _ _ _ _ (fun h => h0 ((hcond5_0 t).mp h)) (iblk5 V c 0 t) (iblk5 V c 1 t) (iblk5 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.AttnI6.lean ====
/-
  Attention call 6 of @main (one batch element): the call's half of the frame, at a PARAMETER `V` (the TensorCore's
  buffer contents when the call is entered).  The grid has 8 points, one per tile of 256 keys.  The whole projected query
  matrix stays resident; at point t the body reads the key tile and the value tile t, and ADDS their contribution to the
  whole output matrix, which is never written back before the last point: at the first point (and only there: the one
  branch of the body, on the grid coordinate being 0) it first fills the output with zeros; at every later point it finds
  what the point before left.  So the body has two cases, and what the output's staging buffer holds after point n is
  defined by recursion on n: the first case's stores at n = 0, the second case's stores over the contents after n − 1.
-/
import proofs.«156009_j19851338842369_2_alg».proof.Proof.Gen.KernelIdeal.Launch
import proofs.«156009_j19851338842369_2_alg».proof.Proof.Gen.KernelIdeal.Skeleton
import proofs.«156009_j19851338842369_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the staging memrefs at a point -/

/-- The condition of the body's one branch, from the grid coordinate: "the key-tile index is 0". -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 8 = 0 :=
  (by decide +kernel : ∀ t : Fin grid6.N, cond6_0 (grid6.coords t) ↔ t.val % 8 = 0)

/-- One staging buffer of the output window, through which its contents are stated. -/
abbrev VO6_3 : View sig .tc .vmem S2048x2048 .f32 := (Memref.whole cc6_stg3_0 : Memref sig .tc .vmem S2048x2048 .f32).view
/-- Each window's current staging memref at point `t`, spelled as the pipeline passes it, and its wholeness. -/
abbrev ms6_0 (t : Fin cfg6.N) : Memref sig .tc .vmem S2048x2048 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x2048 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S256x2048 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x2048 .f32 := win6_3.stage (cfg6.slots t 3)
abbrev hs6_3 (t : Fin cfg6.N) : (ms6_3 t).IsWhole := hstage6_3 ((cfg6.slots t 3).cast nbuf6_3)

/-! ## The body's triple, per case: the pieces the output ends with are the witness the run finds -/

set_option maxHeartbeats 4000000 in
/-- FIRST POINT (the branch taken): on whole staging memrefs, the three inputs' at their contents and the output's at
    anything, the body runs to the continuation holding the inputs' as they were and the output's buffer with the run's
    pieces written (the zero fill, then the eight column-chunk accumulations). -/
noncomputable def kernelRun6_A (c : Dev nD) (i : grid6.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : cond6_0 i)
    (x0 : Vec F S2048x2048 .bf16) (x1 : Vec F S256x2048 .bf16) (x2 : Vec F S256x2048 .bf16) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc6_kernel i arg1 harg1 arg2 harg2 arg3 harg3 arg4 harg4) K } := by
  refine ⟨?_, fun E K => ?run⟩
  case run =>
    simp only [cc6_kernel_eq_skeleton]; unfold cc6_kernel_skel
    simp only [k6_part1_eq_skeleton, k6_part2_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 4000000 in
/-- A LATER POINT (the branch not taken): the same, with the output's buffer at its running contents `xo3` (the
    body reads each column chunk before adding to it). -/
noncomputable def kernelRun6_B (c : Dev nD) (i : grid6.Coords)
    (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole)
    (hc0 : ¬cond6_0 i)
    (x0 : Vec F S2048x2048 .bf16) (x1 : Vec F S256x2048 .bf16) (x2 : Vec F S256x2048 .bf16) (xo3 : Vec F S2048x2048 .f32) :
    { L3 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc6_kernel i arg1 harg1 arg2 harg2 arg3 harg3 arg4 harg4) K } := by
  refine ⟨?_, fun E K => ?run⟩
  case run =>
    simp only [cc6_kernel_eq_skeleton]; unfold cc6_kernel_skel
    simp only [k6_part1_eq_skeleton, k6_part2_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The windows' blocks, and the inputs at their blocks -/

variable (V : (c : Dev nD) → (b : Ref sig .tc) → Buf (Elt F) ((c : Thread nD τ).loc b))

/-- Window `w`'s block at point `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## What each case leaves in the output's staging buffer -/

/-- The first case's pieces cover the output block (the zero fill alone does). -/
theorem cover6_A_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond6_0 i)
    (x0 : Vec F S2048x2048 .bf16) (x1 : Vec F S256x2048 .bf16) (x2 : Vec F S256x2048 .bf16) (y : S2048x2048.Idx) :
    ∃ pc ∈ (kernelRun6_A c i arg1 harg1 arg2 harg2 arg3 harg3 arg4 harg4 hc0 x0 x1 x2).1, y ∈ pc.1.set :=
  View.cover_of_tiledL (kernelRun6_A c i arg1 harg1 arg2 harg2 arg3 harg3 arg4 harg4 hc0 x0 x1 x2).1 S2048x2048.size (by sl_kernel_rfl) y

/-- What the first case leaves in the output's staging buffer: its pieces read back. -/
def out6_A_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : cond6_0 i)
    (x0 : Vec F S2048x2048 .bf16) (x1 : Vec F S256x2048 .bf16) (x2 : Vec F S256x2048 .bf16) : Vec F S2048x2048 .f32 :=
  VO6_3.read (Elt F) (VO6_3.writes (Elt F) VO6_3.junk (kernelRun6_A c i arg1 harg1 arg2 harg2 arg3 harg3 arg4 harg4 hc0 x0 x1 x2).1)

/-- The second case's pieces cover the output block (its four column chunks tile it). -/
theorem cover6_B_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond6_0 i)
    (x0 : Vec F S2048x2048 .bf16) (x1 : Vec F S256x2048 .bf16) (x2 : Vec F S256x2048 .bf16) (xo3 : Vec F S2048x2048 .f32) (y : S2048x2048.Idx) :
    ∃ pc ∈ (kernelRun6_B c i arg1 harg1 arg2 harg2 arg3 harg3 arg4 harg4 hc0 x0 x1 x2 xo3).1, y ∈ pc.1.set :=
  View.cover_of_tiledL (kernelRun6_B c i arg1 harg1 arg2 harg2 arg3 harg3 arg4 harg4 hc0 x0 x1 x2 xo3).1 S2048x512.size (by sl_kernel_rfl) y

/-- What the second case leaves in the output's staging buffer: its pieces read back. -/
def out6_B_3 (c : Dev nD) (i : grid6.Coords) (arg1 : Memref sig .tc .vmem S2048x2048 .bf16) (harg1 : arg1.IsWhole) (arg2 : Memref sig .tc .vmem S256x2048 .bf16) (harg2 : arg2.IsWhole)
    (arg3 : Memref sig .tc .vmem S256x2048 .bf16) (harg3 : arg3.IsWhole) (arg4 : Memref sig .tc .vmem S2048x2048 .f32) (harg4 : arg4.IsWhole) (hc0 : ¬cond6_0 i)
    (x0 : Vec F S2048x2048 .bf16) (x1 : Vec F S256x2048 .bf16) (x2 : Vec F S256x2048 .bf16) (xo3 : Vec F S2048x2048 .f32) : Vec F S2048x2048 .f32 :=
  VO6_3.read (Elt F) (VO6_3.writes (Elt F) VO6_3.junk (kernelRun6_B c i arg1 harg1 arg2 harg2 arg3 harg3 arg4 harg4 hc0 x0 x1 x2 xo3).1)

/-! ## What the output holds after each point -/

/-- THE ACCUMULATION. What the output's staging buffer holds after the body at position `n`: at the first point the first
    case's contents; at a later point the second case's, over what the point before left (the buffer is not written back
    between). -/
def outsAt6 (c : Dev nD) : (n : ℕ) → n < cfg6.N → Vec F S2048x2048 .f32
  | 0, hn => out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) ((hcond6_0 ⟨0, hn⟩).mpr (Nat.zero_mod _)) (iblk6 V c 0 ⟨0, hn⟩) (iblk6 V c 1 ⟨0, hn⟩) (iblk6 V c 2 ⟨0, hn⟩)
  | n + 1, hn =>
    if h0 : (n + 1) % 8 = 0 then
      out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) ((hcond6_0 ⟨n + 1, hn⟩).mpr h0) (iblk6 V c 0 ⟨n + 1, hn⟩) (iblk6 V c 1 ⟨n + 1, hn⟩) (iblk6 V c 2 ⟨n + 1, hn⟩)
    else
      out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn))

/-- At the first point: the first case's contents. -/
theorem outsAt6_A (c : Dev nD) (t : Fin cfg6.N) (h0 : t.val % 8 = 0) :
    outsAt6 V c t.val t.isLt = out6_A_3 c (grid6.coords t) (ms6_0 t) (hs6_0 t) (ms6_1 t) (hs6_1 t) (ms6_2 t) (hs6_2 t) (ms6_3 t) (hs6_3 t) ((hcond6_0 t).mpr h0) (iblk6 V c 0 t) (iblk6 V c 1 t) (iblk6 V c 2 t) := by
  obtain ⟨n, hn⟩ := t
  cases n with
  | zero => exact rfl
  | succ n => exact (dif_pos h0).trans rfl

/-- At a later point: the second case's contents, over what the point before left. -/
theorem outsAt6_B (c : Dev nD) (t : Fin cfg6.N) (h0 : ¬t.val % 8 = 0) :
    outsAt6 V c t.val t.isLt = out6_B_3 c (grid6.coords t) (ms6_0 t) (hs6_0 t) (ms6_1 t) (hs6_1 t) (ms6_2 t) (hs6_2 t) (ms6_3 t) (hs6_3 t) (fun h => h0 ((hcond6_0 t).mp h)) (iblk6 V c 0 t) (iblk6 V c 1 t) (iblk6 V c 2 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The proof data of attention call 6 on core `c`: the arrays as the call finds them; after the body at point `t` each
    input's buffer at its block and the output's at `outsAt6`; the class's invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
/-- At a later point the output's staging buffer holds what the body left at the point before: the point is not the
    first, the buffer was not written back between (only the last point writes back), the window is live and uncut. -/
theorem before6_3_B (c : Dev nD) (t : Fin cfg6.N) (h0 : ¬t.val % 8 = 0) (d) :
    (dat6 V c).before 3 t d = (outsAt6 V c (t.val - 1) (Nat.lt_of_le_of_lt (Nat.sub_le _ _) t.isLt)) := by
  have hN : t.val < 8 := lt_of_lt_of_eq t.isLt (show cfg6.N = 8 from N_6)
  rw [Dat.before_out_kept _ 3 rfl t (by omega) (Bool.eq_false_iff.mpr fun h => by have := (flush6_3 _).mp h; dsimp only at this; omega)
    (fun _ => rfl) (fun _ _ => rfl)]
  dsimp only [dat6]

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 1600000 in
/-- The body at any point: the inputs' memrefs hold their blocks; the closed form of the branch says which case the point
    is in; at a later point the output's buffer holds what the point before left; so that case's run applies. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  have hN : t.val < 8 := lt_of_lt_of_eq t.isLt (show cfg6.N = 8 from N_6)
  by_cases h0 : t.val % 8 = 0
  · rw [outsAt6_A V c t h0]
    unfold out6_A_3
    iintro ⟨HΦ, Ho, ⟨%d0, H0⟩, ⟨%d1, H1⟩, ⟨%d2, H2⟩, ⟨%d3, H3⟩⟩
    iapply ((kernelRun6_A c (grid6.coords t) _ _ _ _ _ _ _ _ ((hcond6_0 t).mpr h0) (iblk6 V c 0 t) (iblk6 V c 1 t) (iblk6 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_A_3 c _ _ _ _ _ _ _ _ _ _ _ _ _)
  · rw [outsAt6_B V c t h0]
    simp only [before6_3_B V c t h0]
    unfold out6_B_3
    iintro ⟨HΦ, Ho, ⟨%d0, H0⟩, ⟨%d1, H1⟩, ⟨%d2, H2⟩, ⟨%d3, H3⟩⟩
    iapply ((kernelRun6_B c (grid6.coords t) _ _ _ _ _ _ _ _ (fun h => h0 ((hcond6_0 t).mp h)) (iblk6 V c 0 t) (iblk6 V c 1 t) (iblk6 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_B_3 c _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.RunI.lean ====
/-
  @main of the kernel program as thirteen segments — a host stretch, the three projection calls, then for each batch
  element a host stretch and its attention call, and the last host stretch that stacks the four results —, the buffer
  contents at each of the fourteen boundaries, and the run: every weakly fair execution terminates and every final
  state holds each unscoped buffer at the last boundary's contents.  The contents are a fold from the launch memory:
  a host stretch applies its operations; a call leaves its arrays at what its write-backs leave and every other buffer
  as entered.
-/
import proofs.«156009_j19851338842369_2_alg».proof.Proof.Gen.KernelIdeal.Regions
import proofs.«156009_j19851338842369_2_alg».proof.Proof.ProjI0
import proofs.«156009_j19851338842369_2_alg».proof.Proof.ProjI1
import proofs.«156009_j19851338842369_2_alg».proof.Proof.ProjI2
import proofs.«156009_j19851338842369_2_alg».proof.Proof.AttnI3
import proofs.«156009_j19851338842369_2_alg».proof.Proof.AttnI4
import proofs.«156009_j19851338842369_2_alg».proof.Proof.AttnI5
import proofs.«156009_j19851338842369_2_alg».proof.Proof.AttnI6

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b

/-- At call 0's exit: its arrays at what the pipeline leaves (the inputs as entered, the output's write-backs folded),
    every other buffer as entered. -/
def W2 (c : Dev nD) : Valuation τ sig (Elt F) :=
  Pipeline.withArrays spec0 c (W1 m ρ c) fun w => (dat0 (Vr1 m ρ) c).arrAt w cfg0.N
theorem W2_arr (c : Dev nD) (w : Fin cfg0.W) :
    W2 m ρ c (Proc.devRef .tc (Pipeline.arrRef spec0 w)) = (dat0 (Vr1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vr2 : (c : Dev nD) → (b : Ref sig .tc) → Buf (Elt F) ((c : Thread nD τ).loc b) := fun c b => W2 m ρ c b
theorem hF0 (c : Dev nD) (w : Fin cfg0.W) : (dat0 (Vr1 m ρ) c).arrAt w cfg0.N = Vr2 m ρ c (Pipeline.arrRef spec0 w) :=
  (W2_arr m ρ c w).symm
theorem hrest0 (c : Dev nD) : ∀ b, b ∉ Finset.univ.image (Pipeline.arrRef spec0) → Vr2 m ρ c b = Vr1 m ρ c b :=
  fun b hb => W2_of_ne m ρ c b fun w e => hb (Finset.mem_image.mpr ⟨w, Finset.mem_univ _, e⟩)

/-- At call 1's exit: its arrays at what the pipeline leaves (the inputs as entered, the output's write-backs folded),
    every other buffer as entered. -/
def W3 (c : Dev nD) : Valuation τ sig (Elt F) :=
  Pipeline.withArrays spec1 c (W2 m ρ c) fun w => (dat1 (Vr2 m ρ) c).arrAt w cfg1.N
theorem W3_arr (c : Dev nD) (w : Fin cfg1.W) :
    W3 m ρ c (Proc.devRef .tc (Pipeline.arrRef spec1 w)) = (dat1 (Vr2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vr3 : (c : Dev nD) → (b : Ref sig .tc) → Buf (Elt F) ((c : Thread nD τ).loc b) := fun c b => W3 m ρ c b
theorem hF1 (c : Dev nD) (w : Fin cfg1.W) : (dat1 (Vr2 m ρ) c).arrAt w cfg1.N = Vr3 m ρ c (Pipeline.arrRef spec1 w) :=
  (W3_arr m ρ c w).symm
theorem hrest1 (c : Dev nD) : ∀ b, b ∉ Finset.univ.image (Pipeline.arrRef spec1) → Vr3 m ρ c b = Vr2 m ρ c b :=
  fun b hb => W3_of_ne m ρ c b fun w e => hb (Finset.mem_image.mpr ⟨w, Finset.mem_univ _, e⟩)

/-- At call 2's exit: its arrays at what the pipeline leaves (the inputs as entered, the output's write-backs folded),
    every other buffer as entered. -/
def W4 (c : Dev nD) : Valuation τ sig (Elt F) :=
  Pipeline.withArrays spec2 c (W3 m ρ c) fun w => (dat2 (Vr3 m ρ) c).arrAt w cfg2.N
theorem W4_arr (c : Dev nD) (w : Fin cfg2.W) :
    W4 m ρ c (Proc.devRef .tc (Pipeline.arrRef spec2 w)) = (dat2 (Vr3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev Vr4 : (c : Dev nD) → (b : Ref sig .tc) → Buf (Elt F) ((c : Thread nD τ).loc b) := fun c b => W4 m ρ c b
theorem hF2 (c : Dev nD) (w : Fin cfg2.W) : (dat2 (Vr3 m ρ) c).arrAt w cfg2.N = Vr4 m ρ c (Pipeline.arrRef spec2 w) :=
  (W4_arr m ρ c w).symm
theorem hrest2 (c : Dev nD) : ∀ b, b ∉ Finset.univ.image (Pipeline.arrRef spec2) → Vr4 m ρ c b = Vr3 m ρ c b :=
  fun b hb => W4_of_ne m ρ c b fun w e => hb (Finset.mem_image.mpr ⟨w, Finset.mem_univ _, e⟩)

/-- After the host stretch `hostOps3`. -/
abbrev W5 : Dev nD → Valuation τ sig (Elt F) := fun c => StableHlo.after hostOps3 (W4 m ρ c)
abbrev Vr5 : (c : Dev nD) → (b : Ref sig .tc) → Buf (Elt F) ((c : Thread nD τ).loc b) := fun c b => W5 m ρ c b

/-- At call 3's exit: its arrays at what the pipeline leaves (the inputs as entered, the output's write-backs folded),
    every other buffer as entered. -/
def W6 (c : Dev nD) : Valuation τ sig (Elt F) :=
  Pipeline.withArrays spec3 c (W5 m ρ c) fun w => (dat3 (Vr5 m ρ) c).arrAt w cfg3.N
theorem W6_arr (c : Dev nD) (w : Fin cfg3.W) :
    W6 m ρ c (Proc.devRef .tc (Pipeline.arrRef spec3 w)) = (dat3 (Vr5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev Vr6 : (c : Dev nD) → (b : Ref sig .tc) → Buf (Elt F) ((c : Thread nD τ).loc b) := fun c b => W6 m ρ c b
theorem hF3 (c : Dev nD) (w : Fin cfg3.W) : (dat3 (Vr5 m ρ) c).arrAt w cfg3.N = Vr6 m ρ c (Pipeline.arrRef spec3 w) :=
  (W6_arr m ρ c w).symm
theorem hrest3 (c : Dev nD) : ∀ b, b ∉ Finset.univ.image (Pipeline.arrRef spec3) → Vr6 m ρ c b = Vr5 m ρ c b :=
  fun b hb => W6_of_ne m ρ c b fun w e => hb (Finset.mem_image.mpr ⟨w, Finset.mem_univ _, e⟩)

/-- After the host stretch `hostOps4`. -/
abbrev W7 : Dev nD → Valuation τ sig (Elt F) := fun c => StableHlo.after hostOps4 (W6 m ρ c)
abbrev Vr7 : (c : Dev nD) → (b : Ref sig .tc) → Buf (Elt F) ((c : Thread nD τ).loc b) := fun c b => W7 m ρ c b

/-- At call 4's exit: its arrays at what the pipeline leaves (the inputs as entered, the output's write-backs folded),
    every other buffer as entered. -/
def W8 (c : Dev nD) : Valuation τ sig (Elt F) :=
  Pipeline.withArrays spec4 c (W7 m ρ c) fun w => (dat4 (Vr7 m ρ) c).arrAt w cfg4.N
theorem W8_arr (c : Dev nD) (w : Fin cfg4.W) :
    W8 m ρ c (Proc.devRef .tc (Pipeline.arrRef spec4 w)) = (dat4 (Vr7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev Vr8 : (c : Dev nD) → (b : Ref sig .tc) → Buf (Elt F) ((c : Thread nD τ).loc b) := fun c b => W8 m ρ c b
theorem hF4 (c : Dev nD) (w : Fin cfg4.W) : (dat4 (Vr7 m ρ) c).arrAt w cfg4.N = Vr8 m ρ c (Pipeline.arrRef spec4 w) :=
  (W8_arr m ρ c w).symm
theorem hrest4 (c : Dev nD) : ∀ b, b ∉ Finset.univ.image (Pipeline.arrRef spec4) → Vr8 m ρ c b = Vr7 m ρ c b :=
  fun b hb => W8_of_ne m ρ c b fun w e => hb (Finset.mem_image.mpr ⟨w, Finset.mem_univ _, e⟩)

/-- After the host stretch `hostOps5`. -/
abbrev W9 : Dev nD → Valuation τ sig (Elt F) := fun c => StableHlo.after hostOps5 (W8 m ρ c)
abbrev Vr9 : (c : Dev nD) → (b : Ref sig .tc) → Buf (Elt F) ((c : Thread nD τ).loc b) := fun c b => W9 m ρ c b

/-- At call 5's exit: its arrays at what the pipeline leaves (the inputs as entered, the output's write-backs folded),
    every other buffer as entered. -/
def W10 (c : Dev nD) : Valuation τ sig (Elt F) :=
  Pipeline.withArrays spec5 c (W9 m ρ c) fun w => (dat5 (Vr9 m ρ) c).arrAt w cfg5.N
theorem W10_arr (c : Dev nD) (w : Fin cfg5.W) :
    W10 m ρ c (Proc.devRef .tc (Pipeline.arrRef spec5 w)) = (dat5 (Vr9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev Vr10 : (c : Dev nD) → (b : Ref sig .tc) → Buf (Elt F) ((c : Thread nD τ).loc b) := fun c b => W10 m ρ c b
theorem hF5 (c : Dev nD) (w : Fin cfg5.W) : (dat5 (Vr9 m ρ) c).arrAt w cfg5.N = Vr10 m ρ c (Pipeline.arrRef spec5 w) :=
  (W10_arr m ρ c w).symm
theorem hrest5 (c : Dev nD) : ∀ b, b ∉ Finset.univ.image (Pipeline.arrRef spec5) → Vr10 m ρ c b = Vr9 m ρ c b :=
  fun b hb => W10_of_ne m ρ c b fun w e => hb (Finset.mem_image.mpr ⟨w, Finset.mem_univ _, e⟩)

/-- After the host stretch `hostOps6`. -/
abbrev W11 : Dev nD → Valuation τ sig (Elt F) := fun c => StableHlo.after hostOps6 (W10 m ρ c)
abbrev Vr11 : (c : Dev nD) → (b : Ref sig .tc) → Buf (Elt F) ((c : Thread nD τ).loc b) := fun c b => W11 m ρ c b

/-- At call 6's exit: its arrays at what the pipeline leaves (the inputs as entered, the output's write-backs folded),
    every other buffer as entered. -/
def W12 (c : Dev nD) : Valuation τ sig (Elt F) :=
  Pipeline.withArrays spec6 c (W11 m ρ c) fun w => (dat6 (Vr11 m ρ) c).arrAt w cfg6.N
theorem W12_arr (c : Dev nD) (w : Fin cfg6.W) :
    W12 m ρ c (Proc.devRef .tc (Pipeline.arrRef spec6 w)) = (dat6 (Vr11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev Vr12 : (c : Dev nD) → (b : Ref sig .tc) → Buf (Elt F) ((c : Thread nD τ).loc b) := fun c b => W12 m ρ c b
theorem hF6 (c : Dev nD) (w : Fin cfg6.W) : (dat6 (Vr11 m ρ) c).arrAt w cfg6.N = Vr12 m ρ c (Pipeline.arrRef spec6 w) :=
  (W12_arr m ρ c w).symm
theorem hrest6 (c : Dev nD) : ∀ b, b ∉ Finset.univ.image (Pipeline.arrRef spec6) → Vr12 m ρ c b = Vr11 m ρ c b :=
  fun b hb => W12_of_ne m ρ c b fun w e => hb (Finset.mem_image.mpr ⟨w, Finset.mem_univ _, e⟩)

/-- After the host stretch `hostOps7`. -/
abbrev W13 : Dev nD → Valuation τ sig (Elt F) := fun c => StableHlo.after hostOps7 (W12 m ρ c)
abbrev Vr13 : (c : Dev nD) → (b : Ref sig .tc) → Buf (Elt F) ((c : Thread nD τ).loc b) := fun c b => W13 m ρ c b

/-! ## The proof data family and the thread state -/

/-- Every call's proof data, each at its call's entry contents — a literal match on the call's number. -/
def pdats : (p : Fin 7) → (c : Dev nD) → Dat τ (Elt F) Unit ℕ (UR sig nD τ) ℕ (Pipeline.pin (pcfgs (F := F)) adm p) c
  | ⟨0, _⟩ => fun c => dat0 (Vr1 m ρ) c
  | ⟨1, _⟩ => fun c => dat1 (Vr2 m ρ) c
  | ⟨2, _⟩ => fun c => dat2 (Vr3 m ρ) c
  | ⟨3, _⟩ => fun c => dat3 (Vr5 m ρ) c
  | ⟨4, _⟩ => fun c => dat4 (Vr7 m ρ) c
  | ⟨5, _⟩ => fun c => dat5 (Vr9 m ρ) c
  | ⟨6, _⟩ => fun c => dat6 (Vr11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W13 m ρ c) ∗ ∃ r, prngReg c r)

/-! ## The calls as segments -/

set_option backward.isDefEq.respectTransparency.types false in
/-- CALL 0 over the thread state: entered from every unscoped buffer at boundary 1's contents, left at boundary 2's.
    Its arrays are split out of the unscoped buffers and put back at the exit contents; the generator register goes into
    the class invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr1 m ρ c) (Vr2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at boundary 2's contents, left at boundary 3's.
    Its arrays are split out of the unscoped buffers and put back at the exit contents; the generator register goes into
    the class invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr2 m ρ c) (Vr3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at boundary 3's contents, left at boundary 4's.
    Its arrays are split out of the unscoped buffers and put back at the exit contents; the generator register goes into
    the class invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr3 m ρ c) (Vr4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 3 over the thread state: entered from every unscoped buffer at boundary 5's contents, left at boundary 6's.
    Its arrays are split out of the unscoped buffers and put back at the exit contents; the generator register goes into
    the class invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr5 m ρ c) (Vr6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 4 over the thread state: entered from every unscoped buffer at boundary 7's contents, left at boundary 8's.
    Its arrays are split out of the unscoped buffers and put back at the exit contents; the generator register goes into
    the class invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (Vr7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vr7 m ρ c) (Vr8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 5 over the thread state: entered from every unscoped buffer at boundary 9's contents, left at boundary 10's.
    Its arrays are split out of the unscoped buffers and put back at the exit contents; the generator register goes into
    the class invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (Vr9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vr9 m ρ c) (Vr10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 6 over the thread state: entered from every unscoped buffer at boundary 11's contents, left at boundary 12's.
    Its arrays are split out of the unscoped buffers and put back at the exit contents; the generator register goes into
    the class invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr11 m ρ) c).loose
  hwaits := Pipeline.hwaits_of_owed_zero _ _ _ _ L lv 6 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (Vr11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vr11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vr11 m ρ c) (Vr12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsAll : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

theorem main_run (c : Dev nD) : main (F := F) c = Pipeline.Seg.run (segsAll m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W13 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-! ## The arguments end as launched -/

/-- A buffer that no host stretch writes and that is no call's window array reaches the end as launched: the fold at
    that buffer walks back to the launch memory. -/
theorem W13_of_untouched (c : Dev nD) (b : Ref sig .tc)
    (h0 : b ∉ hostOps0_W) (h3 : b ∉ hostOps3_W) (h4 : b ∉ hostOps4_W) (h5 : b ∉ hostOps5_W) (h6 : b ∉ hostOps6_W) (h7 : b ∉ hostOps7_W)
    (hr0 : ∀ w, Pipeline.arrRef spec0 w ≠ b) (hr1 : ∀ w, Pipeline.arrRef spec1 w ≠ b) (hr2 : ∀ w, Pipeline.arrRef spec2 w ≠ b)
    (hr3 : ∀ w, Pipeline.arrRef spec3 w ≠ b) (hr4 : ∀ w, Pipeline.arrRef spec4 w ≠ b) (hr5 : ∀ w, Pipeline.arrRef spec5 w ≠ b)
    (hr6 : ∀ w, Pipeline.arrRef spec6 w ≠ b) :
    W13 m ρ c (Proc.devRef .tc b) = m ((c : Thread nD τ).loc b) :=
  (StableHlo.after_of_writes_sub hostOps7 _ hostOps7_writes h7).trans <|
  (W12_of_ne m ρ c b hr6).trans <|
  (StableHlo.after_of_writes_sub hostOps6 _ hostOps6_writes h6).trans <|
  (W10_of_ne m ρ c b hr5).trans <|
  (StableHlo.after_of_writes_sub hostOps5 _ hostOps5_writes h5).trans <|
  (W8_of_ne m ρ c b hr4).trans <|
  (StableHlo.after_of_writes_sub hostOps4 _ hostOps4_writes h4).trans <|
  (W6_of_ne m ρ c b hr3).trans <|
  (StableHlo.after_of_writes_sub hostOps3 _ hostOps3_writes h3).trans <|
  (W4_of_ne m ρ c b hr2).trans <|
  (W3_of_ne m ρ c b hr1).trans <|
  (W2_of_ne m ρ c b hr0).trans <|
  (StableHlo.after_of_writes_sub hostOps0 _ hostOps0_writes h0).trans rfl

theorem W13_main_arg0 (c : Dev nD) : W13 m ρ c (Proc.devRef .tc main_arg0) = m ((c : Thread nD τ).loc main_arg0) :=
  W13_of_untouched m ρ c main_arg0 (by decide) (by decide) (by decide) (by decide) (by decide) (by decide)
    (by decide) (by decide) (by decide) (by decide) (by decide) (by decide) (by decide)
theorem W13_main_arg1 (c : Dev nD) : W13 m ρ c (Proc.devRef .tc main_arg1) = m ((c : Thread nD τ).loc main_arg1) :=
  W13_of_untouched m ρ c main_arg1 (by decide) (by decide) (by decide) (by decide) (by decide) (by decide)
    (by decide) (by decide) (by decide) (by decide) (by decide) (by decide) (by decide)
theorem W13_main_arg2 (c : Dev nD) : W13 m ρ c (Proc.devRef .tc main_arg2) = m ((c : Thread nD τ).loc main_arg2) :=
  W13_of_untouched m ρ c main_arg2 (by decide) (by decide) (by decide) (by decide) (by decide) (by decide)
    (by decide) (by decide) (by decide) (by decide) (by decide) (by decide) (by decide)
theorem W13_main_arg3 (c : Dev nD) : W13 m ρ c (Proc.devRef .tc main_arg3) = m ((c : Thread nD τ).loc main_arg3) :=
  W13_of_untouched m ρ c main_arg3 (by decide) (by decide) (by decide) (by decide) (by decide) (by decide)
    (by decide) (by decide) (by decide) (by decide) (by decide) (by decide) (by decide)
theorem W13_main_arg4 (c : Dev nD) : W13 m ρ c (Proc.devRef .tc main_arg4) = m ((c : Thread nD τ).loc main_arg4) :=
  W13_of_untouched m ρ c main_arg4 (by decide) (by decide) (by decide) (by decide) (by decide) (by decide)
    (by decide) (by decide) (by decide) (by decide) (by decide) (by decide) (by decide)
theorem W13_main_arg5 (c : Dev nD) : W13 m ρ c (Proc.devRef .tc main_arg5) = m ((c : Thread nD τ).loc main_arg5) :=
  W13_of_untouched m ρ c main_arg5 (by decide) (by decide) (by decide) (by decide) (by decide) (by decide)
    (by decide) (by decide) (by decide) (by decide) (by decide) (by decide) (by decide)

/-- THE FRAME at any `F`: every weakly fair execution of @main terminates, nothing faulting, and every final state has
    the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c)⟩) (run_all m ρ)

end Cert.KernelIdeal.Fr

end
-- ==== Proof.LibCanonPrefix.lean ====
/-
  A general fact about what a list of stores leaves in a buffer (the library's `View.canon`: at each index the payload
  of the first piece of the list, last store first, whose rectangle holds it).
-/
import Idealize.ShloMosaic.Lib.Pipeline.Value

namespace Cert.LibCanonPrefix

open Idealize.ShloMosaic

variable {S : Shape} {e : EltTy} {Val : EltTy → Type}

/-- If the LATER stores `L₂` (the front of the list) each carry the block of ONE function `G` of the buffer's index that
    their rectangle names, then at every index some later store covers the buffer holds `G` there, whatever the
    earlier stores `L₁` were: the later stores shadow them.  (The library's `View.canon_apply_of_pieces` is the case
    `L₁ = []`.) -/
theorem canon_prefix_apply [∀ e, Nonempty (Val e)] (G : S.Idx → Val e) :
    ∀ (L₂ L₁ : List (View.Piece Val S e)) (_ : ∀ p ∈ L₂, ∀ x : p.1.shape.Idx, p.2 x = G (p.1.emb x)) (y : S.Idx)
      (_ : ∃ p ∈ L₂, y ∈ p.1.set), View.canon (L₂ ++ L₁) y = G y
  | [], _, _, _, hy => by obtain ⟨p, hp, _⟩ := hy; simp at hp
  | p :: L, L₁, hL, y, hy => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_prefix_apply G L L₁ (fun q hq => hL q (by simp [hq])) y ?_
      obtain ⟨q, hq, hyq⟩ := hy
      rcases List.mem_cons.mp hq with rfl | hq'
      · exact absurd hyq hm
      · exact ⟨q, hq', hyq⟩

/-- A load through the rectangle `B` issued after the stores `P ++ (L₂ ++ L₁)` (last store first): if every store of `P`
    misses `B`, and the stores `L₂` each carry the block of ONE function `G` and together cover `B`, the load reads `G`
    on `B` — the stores after `L₂` do not touch `B`, the stores before it are shadowed. -/
theorem readCov_mid [∀ e, Nonempty (Val e)] {sig : RefSig} {κ : Kind} {sp : Space} (v : View sig κ sp S e)
    (G : S.Idx → Val e) (L₂ L₁ : List (View.Piece Val S e))
    (hb : ∀ p ∈ L₂, ∀ x : p.1.shape.Idx, p.2 x = G (p.1.emb x)) (B : Rect S)
    (hcov : ∀ x : B.shape.Idx, ∃ p ∈ L₂, B.emb x ∈ p.1.set) :
    ∀ (P : List (View.Piece Val S e)) (_ : ∀ p ∈ P, ∀ x : B.shape.Idx, B.emb x ∉ p.1.set),
      v.readCov (P ++ (L₂ ++ L₁)) B.toLoadRect = fun x => G (B.emb x)
  | [], _ => by
    rw [View.readCov_eq_canon']
    funext x
    exact canon_prefix_apply G L₂ L₁ hb (B.emb x) (hcov x)
  | p :: P, hP => by
    have ih := readCov_mid v G L₂ L₁ hb B hcov P (fun q hq => hP q (List.mem_cons_of_mem _ hq))
    rw [View.readCov_eq_canon'] at ih ⊢
    funext x
    have := congrFun ih x
    rw [List.cons_append]
    exact (View.canon_cons_of_not_mem p _ (hP p List.mem_cons_self x)).trans this

/-- The same, for a list given with a proof that it splits so. -/
theorem readCov_mid' [∀ e, Nonempty (Val e)] {sig : RefSig} {κ : Kind} {sp : Space} (v : View sig κ sp S e)
    (G : S.Idx → Val e) (L₂ L₁ : List (View.Piece Val S e))
    (hb : ∀ p ∈ L₂, ∀ x : p.1.shape.Idx, p.2 x = G (p.1.emb x)) (B : Rect S)
    (hcov : ∀ x : B.shape.Idx, ∃ p ∈ L₂, B.emb x ∈ p.1.set)
    (L P : List (View.Piece Val S e)) (hP : ∀ p ∈ P, ∀ x : B.shape.Idx, B.emb x ∉ p.1.set) (hL : L = P ++ (L₂ ++ L₁)) :
    v.readCov L B.toLoadRect = fun x => G (B.emb x) := by
  subst hL
  exact readCov_mid v G L₂ L₁ hb B hcov P hP

/-- The same with the split given by positions: the first `n` stores miss `B`, the next `k` are blocks of `G` covering `B`. -/
theorem readCov_take [∀ e, Nonempty (Val e)] {sig : RefSig} {κ : Kind} {sp : Space} (v : View sig κ sp S e)
    (G : S.Idx → Val e) (L : List (View.Piece Val S e)) (n k : ℕ)
    (hb : ∀ p ∈ (L.drop n).take k, ∀ x : p.1.shape.Idx, p.2 x = G (p.1.emb x)) (B : Rect S)
    (hcov : ∀ x : B.shape.Idx, ∃ p ∈ (L.drop n).take k, B.emb x ∈ p.1.set)
    (hP : ∀ p ∈ L.take n, ∀ x : B.shape.Idx, B.emb x ∉ p.1.set) :
    v.readCov L B.toLoadRect = fun x => G (B.emb x) :=
  readCov_mid' v G ((L.drop n).take k) ((L.drop n).drop k) hb B hcov L (L.take n) hP
    (by rw [List.take_append_drop, List.take_append_drop])

/-- The positional form of `canon_prefix_apply`: if the FIRST `k` pieces of the list (the latest `k` stores) each carry the
    block of ONE function `G` and one of them covers the index, the buffer holds `G` there, whatever the earlier stores were. -/
theorem canon_take_apply [∀ e, Nonempty (Val e)] (G : S.Idx → Val e) (L : List (View.Piece Val S e)) (k : ℕ)
    (hb : ∀ p ∈ L.take k, ∀ x : p.1.shape.Idx, p.2 x = G (p.1.emb x)) (y : S.Idx)
    (hy : ∃ p ∈ L.take k, y ∈ p.1.set) : View.canon L y = G y := by
  have := canon_prefix_apply G (L.take k) (L.drop k) hb y hy
  rwa [List.take_append_drop] at this

/-- A unit-stride rectangle's element, read at a coordinate: its offset plus the local coordinate. -/
theorem emb_unit_val {s : Shape} {off size : Fin s.rank → Nat} {inb} (x : (Rect.unit (s := s) off size inb).shape.Idx) (a : Fin s.rank) :
    (((Rect.unit (s := s) off size inb).emb x) a : Nat) = off a + (x a : Nat) := by
  rw [Rect.emb_apply]; simp only [Rect.off_unit, Rect.stride_unit, Nat.one_mul]

end Cert.LibCanonPrefix
-- ==== Proof.AttnDefsI3.lean ====
/-
  What attention call 3's body leaves in the output's staging buffer, per case, at the ideal instance.  With x0 the whole
  projected query matrix and x1, x2 the key and value tiles of 256 rows, let A_a(q,k), A_b(q,k) (k < 128) be the attention
  weights of the tile's first and second half of 128 keys.  Starting from contents G0 (zeros at the first point, what
  the point before left at a later one) the first half adds  ∑ₖ A_a(q,k)·x2(k,v)  to entry (q,v), column chunk by
  column chunk, and the second half then adds  ∑ₖ A_b(q,k)·x2(128+k,v):  G1 = G0 + first half, G2 = G1 + second half.
  The first half's four chunk stores are the blocks of G1; each second-half chunk loads its chunk (which reads G1: the
  second-half stores made so far miss it, the first-half stores cover it) and stores the block of G2; the four
  second-half stores tile the buffer, so it ends holding G2 whatever was stored before.
-/
import proofs.«156009_j19851338842369_2_alg».proof.Proof.AttnI3
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

theorem hzA3 : (![0, 0] : Fin 2 → Nat) = fun _ => 0 := funext fun a => by fin_cases a <;> rfl

section Values

variable (x0 : Vec Ideal S2048x2048 .bf16) (x1 x2 : Vec Ideal S256x2048 .bf16)

/-- The tile's first 128 key rows, and its last 128. -/
abbrev rA3 : Rect S256x2048 := Rect.unit (s := S256x2048) ![0, 0] S128x2048.size inb_S256x2048_S128x2048_0_0
abbrev rB3 : Rect S256x2048 := Rect.unit (s := S256x2048) ![128, 0] S128x2048.size inb_S256x2048_S128x2048_128_0

/-- The attention weights of the first and of the second half of the key tile. -/
def Aa3 : FVec Ideal S2048x128 .bf16 := k3_pay7 (F := Ideal) x0 (View.ld x1 rA3)
def Ab3 : FVec Ideal S2048x128 .bf16 := k3_pay12 (F := Ideal) (k3_pay6 (F := Ideal) x0) (View.ld x1 rB3)

/-- The contents after the first half, and after the second, from the contents `G0` the point found. -/
def G1_3 (G0 : Vec Ideal S2048x2048 .f32) : S2048x2048.Idx → EReal := fun y =>
  G0 y + ∑ k : Fin 128, Aa3 x0 x1 (ix2 (⟨(y 0).val, (y 0).isLt⟩ : Fin 2048) k)
    * x2 (ix2 (⟨k.val, by have := k.isLt; omega⟩ : Fin 256) (⟨(y 1).val, (y 1).isLt⟩ : Fin 2048))
def G2_3 (G0 : Vec Ideal S2048x2048 .f32) : S2048x2048.Idx → EReal := fun y =>
  G1_3 x0 x1 x2 G0 y + ∑ k : Fin 128, Ab3 x0 x1 (ix2 (⟨(y 0).val, (y 0).isLt⟩ : Fin 2048) k)
    * x2 (ix2 (⟨128 + k.val, by have := k.isLt; omega⟩ : Fin 256) (⟨(y 1).val, (y 1).isLt⟩ : Fin 2048))

theorem G1_3_ix2 (G0 : Vec Ideal S2048x2048 .f32) (q v : Fin 2048) :
    G1_3 x0 x1 x2 G0 (ix2 q v) = G0 (ix2 q v) + ∑ k : Fin 128, Aa3 x0 x1 (ix2 q k) * x2 (ix2 (⟨k.val, by have := k.isLt; omega⟩ : Fin 256) v) := rfl
theorem G2_3_ix2 (G0 : Vec Ideal S2048x2048 .f32) (q v : Fin 2048) :
    G2_3 x0 x1 x2 G0 (ix2 q v) = G1_3 x0 x1 x2 G0 (ix2 q v) + ∑ k : Fin 128, Ab3 x0 x1 (ix2 q k) * x2 (ix2 (⟨128 + k.val, by have := k.isLt; omega⟩ : Fin 256) v) := rfl

end Values

/-! ## Rectangles: where a chunk's element sits, and which chunks miss which -/

/-- Element (q, l) of the column chunk at offset `o` of the output block is entry (q, o + l). -/
theorem embC3 {o : Nat} (sz : Fin 2 → Nat) (hsz : sz = ![2048, 512]) (inb : ∀ a, (![0, o] : Fin 2 → Nat) a + sz a ≤ S2048x2048.size a)
    (q : Fin 2048) (l : Fin 512) (ho : o + 512 ≤ 2048) (x : (Rect.unit (s := S2048x2048) ![0, o] sz inb).shape.Idx)
    (hx0 : (x 0).val = q.val) (hx1 : (x 1).val = l.val) :
    (Rect.unit (s := S2048x2048) ![0, o] sz inb).emb x = ix2 q (⟨o + l.val, by have := l.isLt; omega⟩ : Fin 2048) := by
  subst hsz
  funext a; apply Fin.ext
  match a with
  | ⟨0, _⟩ => show 0 + 1 * (x 0).val = q.val; omega
  | ⟨1, _⟩ => show o + 1 * (x 1).val = o + l.val; omega

/-- Element (k, l) of the [128, 512] rectangle at offsets (r0, o) of the value tile is entry (r0 + k, o + l). -/
theorem embT3 {r0 o : Nat} (sz : Fin 2 → Nat) (hsz : sz = ![128, 512]) (inb : ∀ a, (![r0, o] : Fin 2 → Nat) a + sz a ≤ S256x2048.size a)
    (k : Fin 128) (l : Fin 512) (hr : r0 + 128 ≤ 256) (ho : o + 512 ≤ 2048) (x : (Rect.unit (s := S256x2048) ![r0, o] sz inb).shape.Idx)
    (hx0 : (x 0).val = k.val) (hx1 : (x 1).val = l.val) :
    (Rect.unit (s := S256x2048) ![r0, o] sz inb).emb x = ix2 (⟨r0 + k.val, by have := k.isLt; omega⟩ : Fin 256) (⟨o + l.val, by have := l.isLt; omega⟩ : Fin 2048) := by
  subst hsz
  funext a; apply Fin.ext
  match a with
  | ⟨0, _⟩ => show r0 + 1 * (x 0).val = r0 + k.val; omega
  | ⟨1, _⟩ => show o + 1 * (x 1).val = o + l.val; omega

/-- An element of the chunk at offset `o'` is outside the chunk at offset `o` when the two do not overlap. -/
theorem notmemC3 {o o' : Nat} (sz sz' : Fin 2 → Nat) (hsz : sz = ![2048, 512]) (hsz' : sz' = ![2048, 512])
    (inb : ∀ a, (![0, o] : Fin 2 → Nat) a + sz a ≤ S2048x2048.size a) (inb' : ∀ a, (![0, o'] : Fin 2 → Nat) a + sz' a ≤ S2048x2048.size a)
    (h : o + 512 ≤ o' ∨ o' + 512 ≤ o) (x : (Rect.unit (s := S2048x2048) ![0, o'] sz' inb').shape.Idx) :
    (Rect.unit (s := S2048x2048) ![0, o'] sz' inb').emb x ∉ (Rect.unit (s := S2048x2048) ![0, o] sz inb).set := by
  subst hsz; subst hsz'
  rw [Rect.mem_set_unit]
  intro hm
  have h1 := hm 1
  have hx : (x 1).val < 512 := (x 1).isLt
  change o ≤ o' + 1 * (x 1).val ∧ o' + 1 * (x 1).val < o + 512 at h1
  omega

/-- An element of a chunk is inside that chunk, however the chunk's size is spelt. -/
theorem memC3 {o : Nat} (sz sz' : Fin 2 → Nat) (hsz : sz = ![2048, 512]) (hsz' : sz' = ![2048, 512])
    (inb : ∀ a, (![0, o] : Fin 2 → Nat) a + sz a ≤ S2048x2048.size a) (inb' : ∀ a, (![0, o] : Fin 2 → Nat) a + sz' a ≤ S2048x2048.size a)
    (x : (Rect.unit (s := S2048x2048) ![0, o] sz' inb').shape.Idx) :
    (Rect.unit (s := S2048x2048) ![0, o] sz' inb').emb x ∈ (Rect.unit (s := S2048x2048) ![0, o] sz inb).set := by
  subst hsz; subst hsz'
  rw [Rect.mem_set_unit]
  intro a
  match a with
  | ⟨0, _⟩ => have hx : (x 0).val < 2048 := (x 0).isLt; change 0 ≤ 0 + 1 * (x 0).val ∧ 0 + 1 * (x 0).val < 0 + 2048; omega
  | ⟨1, _⟩ => have hx : (x 1).val < 512 := (x 1).isLt; change o ≤ o + 1 * (x 1).val ∧ o + 1 * (x 1).val < o + 512; omega

end Cert.KernelIdeal.Fr

end
-- ==== Proof.Spec.lean ====
/-
  The specification both programs are proved to compute, at the ideal instance (floats are extended reals): single-head
  attention with the softmax taken over the QUERY axis.  For x, W the linear map  proj x W (b,s,k) = ∑ₘ x(b,s,m)·W(k,m);
  the scaled scores  s(b,q,k) = (∑_d qp(b,q,d)·kp(b,k,d))·c  with c the one shared f32 word; for each batch b and KEY k
  the column maximum  M(b,k) = max over q of s(b,q,k)  (from −∞), the exponentials  e(b,q,k) = exp(s(b,q,k) − M(b,k)),
  their column sum  Z(b,k) = ∑_q e(b,q,k), the weights  a(b,q,k) = e(b,q,k) / Z(b,k); and the result
  out(b,i,j) = ∑ₗ a(b,i,l)·vp(b,l,j).  Arrays are functions of their coordinates.
-/
import Idealize.ShloMosaic.PureOps.Ideal
import Idealize.ShloMosaic.Lib.ValueIdx

noncomputable section

namespace Cert.Spec

open Idealize.ShloMosaic

/-- A rank-3 array [4, 2048, 2048] read at its coordinates. -/
abbrev arr3 (x : (⟨3, ![4, 2048, 2048]⟩ : Shape).Idx → EReal) (b : Fin 4) (s m : Fin 2048) : EReal := x (ValueIdx.ix3 b s m)
/-- A matrix [2048, 2048] read at its coordinates. -/
abbrev arr2 (W : (⟨2, ![2048, 2048]⟩ : Shape).Idx → EReal) (k m : Fin 2048) : EReal := W (ValueIdx.ix2 k m)

/-- The scale both programs multiply the scores by: the f32 word `0x3CB504F3`, never evaluated. -/
abbrev scale : EReal := Ideal.ofBits .f32 0x3CB504F3#32

/-- A linear layer without bias, y = x·Wᵀ. -/
def proj (x : Fin 4 → Fin 2048 → Fin 2048 → EReal) (W : Fin 2048 → Fin 2048 → EReal) (b : Fin 4) (s k : Fin 2048) : EReal :=
  ∑ m : Fin 2048, x b s m * W k m

/-- The scaled scores of one batch element's queries against its keys. -/
def score (qp kp : Fin 4 → Fin 2048 → Fin 2048 → EReal) (b : Fin 4) (q k : Fin 2048) : EReal :=
  (∑ d : Fin 2048, qp b q d * kp b k d) * scale

/-- The maximum of a key's column of scores over all queries, from −∞. -/
def colmax (s : Fin 4 → Fin 2048 → Fin 2048 → EReal) (b : Fin 4) (k : Fin 2048) : EReal :=
  Finset.univ.fold max ⊥ (fun q : Fin 2048 => s b q k)

/-- The shifted exponentials. -/
def ex (s : Fin 4 → Fin 2048 → Fin 2048 → EReal) (b : Fin 4) (q k : Fin 2048) : EReal :=
  Ideal.exp (s b q k - colmax s b k)

/-- A key's column of exponentials summed over all queries. -/
def colsum (s : Fin 4 → Fin 2048 → Fin 2048 → EReal) (b : Fin 4) (k : Fin 2048) : EReal :=
  ∑ q : Fin 2048, ex s b q k

/-- The attention weights: the softmax over the query axis. -/
def attn (s : Fin 4 → Fin 2048 → Fin 2048 → EReal) (b : Fin 4) (q k : Fin 2048) : EReal :=
  Ideal.div (ex s b q k) (colsum s b k)

/-- The result array. -/
def out (q k v : Fin 4 → Fin 2048 → Fin 2048 → EReal) (Wq Wk Wv : Fin 2048 → Fin 2048 → EReal)
    (b : Fin 4) (i j : Fin 2048) : EReal :=
  ∑ l : Fin 2048, attn (score (proj q Wq) (proj k Wk)) b i l * proj v Wv b l j

end Cert.Spec

end
-- ==== Proof.AttnMathI.lean ====
/-
  The mathematics of one attention kernel body at the ideal instance, free of any payload: the two block products read
  at an index (queries against a half tile of 128 keys over the 2048 features; weights against a [128,512] block of
  values over the 128 keys), the scaled scores, and the column softmax of a [2048,128] array of scores — the column
  maximum as a fold of max from −∞ over the queries, the shifted exponentials, their column sum, the quotient.
-/
import proofs.«156009_j19851338842369_2_alg».proof.Proof.Gen.KernelIdeal
import proofs.«156009_j19851338842369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.Fr

open Cert.KernelIdeal Cert.KernelIdeal.Gen Idealize.ShloMosaic Idealize.ShloMosaic.ValueIdx

/-! ## The contraction of a [2048,128] block with a [128,512] block over the 128 keys -/

theorem pv_lhs0 (i : S2048x512.Idx) (c : dot_S2048x128_S128x512_S2048x512_1_0_0_1_n_n.contr.Idx) :
    (dot_S2048x128_S128x512_S2048x512_1_0_0_1_n_n.lhsIdx i c 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem pv_lhs1 (i : S2048x512.Idx) (c : dot_S2048x128_S128x512_S2048x512_1_0_0_1_n_n.contr.Idx) :
    (dot_S2048x128_S128x512_S2048x512_1_0_0_1_n_n.lhsIdx i c 1).val = (c ⟨0, by decide⟩).val :=
  dot_S2048x128_S128x512_S2048x512_1_0_0_1_n_n.lhsIdx_val_of_single rfl i c
theorem pv_rhs0 (i : S2048x512.Idx) (c : dot_S2048x128_S128x512_S2048x512_1_0_0_1_n_n.contr.Idx) :
    (dot_S2048x128_S128x512_S2048x512_1_0_0_1_n_n.rhsIdx i c 0).val = (c ⟨0, by decide⟩).val :=
  dot_S2048x128_S128x512_S2048x512_1_0_0_1_n_n.rhsIdx_val_of_single rfl i c
theorem pv_rhs1 (i : S2048x512.Idx) (c : dot_S2048x128_S128x512_S2048x512_1_0_0_1_n_n.contr.Idx) :
    (dot_S2048x128_S128x512_S2048x512_1_0_0_1_n_n.rhsIdx i c 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The block product into the zero splat, at (q, l): the sum over the 128 keys of weight times value. -/
theorem pv_apply (v : FVec Ideal S2048x128 .bf16) (w : FVec Ideal S128x512 .bf16) (q : Fin 2048) (l : Fin 512) :
    matmul dot_S2048x128_S128x512_S2048x512_1_0_0_1_n_n none v w (constant (F := Ideal) S2048x512 .f32 0x00000000#32) (ix2 q l)
      = ∑ k : Fin 128, v (ix2 q k) * w (ix2 k l) := by
  simp only [matmul]
  rw [Ideal.matmul_constant_zero_apply (φ₁ := .bf16) (φ₂ := .bf16), ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 q l) ((contrEquiv1 dot_S2048x128_S128x512_S2048x512_1_0_0_1_n_n 128 rfl rfl).symm k) = ix2 q k := funext fun a => Fin.ext (by
    match a with
    | ⟨0, _⟩ => exact pv_lhs0 _ _
    | ⟨1, _⟩ => exact (pv_lhs1 _ _).trans hk)
  have er : dot_S2048x128_S128x512_S2048x512_1_0_0_1_n_n.rhsIdx (ix2 q l) ((contrEquiv1 dot_S2048x128_S128x512_S2048x512_1_0_0_1_n_n 128 rfl rfl).symm k) = ix2 k l := funext fun a => Fin.ext (by
    match a with
    | ⟨0, _⟩ => exact (pv_rhs0 _ _).trans hk
    | ⟨1, _⟩ => exact pv_rhs1 _ _)
  rw [el, er]

/-! ## The scores of all queries against a half tile of 128 keys -/

theorem qk_lhs0 (i : S2048x128.Idx) (c : dot_S2048x2048_S128x2048_S2048x128_1_1_0_0_n_n.contr.Idx) :
    (dot_S2048x2048_S128x2048_S2048x128_1_1_0_0_n_n.lhsIdx i c 0).val = (i 0).val := by
  unfold DotDims.lhsIdx
  rw [dif_neg (show ¬(0 : Fin S2048x2048.rank) ∈ dot_S2048x2048_S128x2048_S2048x128_1_1_0_0_n_n.lhsBatch by decide), dif_pos (show (0 : Fin S2048x2048.rank) ∈ dot_S2048x2048_S128x2048_S2048x128_1_1_0_0_n_n.lhsNonContracting by decide)]
  rfl
theorem qk_lhs1 (i : S2048x128.Idx) (c : dot_S2048x2048_S128x2048_S2048x128_1_1_0_0_n_n.contr.Idx) :
    (dot_S2048x2048_S128x2048_S2048x128_1_1_0_0_n_n.lhsIdx i c 1).val = (c ⟨0, by decide⟩).val :=
  dot_S2048x2048_S128x2048_S2048x128_1_1_0_0_n_n.lhsIdx_val_of_single rfl i c
theorem qk_rhs0 (i : S2048x128.Idx) (c : dot_S2048x2048_S128x2048_S2048x128_1_1_0_0_n_n.contr.Idx) :
    (dot_S2048x2048_S128x2048_S2048x128_1_1_0_0_n_n.rhsIdx i c 0).val = (i 1).val := by
  unfold DotDims.rhsIdx
  rw [dif_neg (show ¬(0 : Fin S128x2048.rank) ∈ dot_S2048x2048_S128x2048_S2048x128_1_1_0_0_n_n.rhsBatch by decide), dif_pos (show (0 : Fin S128x2048.rank) ∈ dot_S2048x2048_S128x2048_S2048x128_1_1_0_0_n_n.rhsNonContracting by decide)]
  rfl
theorem qk_rhs1 (i : S2048x128.Idx) (c : dot_S2048x2048_S128x2048_S2048x128_1_1_0_0_n_n.contr.Idx) :
    (dot_S2048x2048_S128x2048_S2048x128_1_1_0_0_n_n.rhsIdx i c 1).val = (c ⟨0, by decide⟩).val :=
  dot_S2048x2048_S128x2048_S2048x128_1_1_0_0_n_n.rhsIdx_val_of_single rfl i c

/-- The block product of the queries with a half tile of keys, into the zero splat, at (q, k): the sum over the
    2048 features of query times key. -/
theorem qk_apply (v : FVec Ideal S2048x2048 .bf16) (w : FVec Ideal S128x2048 .bf16) (q : Fin 2048) (k : Fin 128) :
    matmul dot_S2048x2048_S128x2048_S2048x128_1_1_0_0_n_n none v w (constant (F := Ideal) S2048x128 .f32 0x00000000#32) (ix2 q k)
      = ∑ d : Fin 2048, v (ix2 q d) * w (ix2 k d) := by
  simp only [matmul]
  rw [Ideal.matmul_constant_zero_apply (φ₁ := .bf16) (φ₂ := .bf16), ← Equiv.sum_comp (contrEquiv1 dot_S2048x2048_S128x2048_S2048x128_1_1_0_0_n_n 2048 rfl rfl).symm]
  refine Finset.sum_congr rfl fun d _ => ?_
  have hd := contrEquiv1_symm_val dot_S2048x2048_S128x2048_S2048x128_1_1_0_0_n_n 2048 rfl rfl d
  have el : dot_S2048x2048_S128x2048_S2048x128_1_1_0_0_n_n.lhsIdx (ix2 q k) ((contrEquiv1 dot_S2048x2048_S128x2048_S2048x128_1_1_0_0_n_n 2048 rfl rfl).symm d) = ix2 q d := funext fun a => Fin.ext (by
    match a with
    | ⟨0, _⟩ => exact qk_lhs0 _ _
    | ⟨1, _⟩ => exact (qk_lhs1 _ _).trans hd)
  have er : dot_S2048x2048_S128x2048_S2048x128_1_1_0_0_n_n.rhsIdx (ix2 q k) ((contrEquiv1 dot_S2048x2048_S128x2048_S2048x128_1_1_0_0_n_n 2048 rfl rfl).symm d) = ix2 k d := funext fun a => Fin.ext (by
    match a with
    | ⟨0, _⟩ => exact qk_rhs0 _ _
    | ⟨1, _⟩ => exact (qk_rhs1 _ _).trans hd)
  rw [el, er]

/-- The scaled score of query q against key k of the half tile. -/
def sc (x0 : FVec Ideal S2048x2048 .bf16) (x5 : FVec Ideal S128x2048 .bf16) (q : Fin 2048) (k : Fin 128) : EReal :=
  (∑ d : Fin 2048, x0 (ix2 q d) * x5 (ix2 k d)) * Cert.Spec.scale

/-- The column softmax of one half tile of 128 keys against ALL 2048 queries. -/
def softcol (x0 : FVec Ideal S2048x2048 .bf16) (x5 : FVec Ideal S128x2048 .bf16) (q : Fin 2048) (k : Fin 128) : EReal :=
  Ideal.div (Ideal.exp (sc x0 x5 q k - Finset.univ.fold max ⊥ (fun q' : Fin 2048 => sc x0 x5 q' k))) (∑ q' : Fin 2048, Ideal.exp (sc x0 x5 q' k - Finset.univ.fold max ⊥ (fun q'' : Fin 2048 => sc x0 x5 q'' k)))

/-- The scaled scores as the body computes them: the block product times the splat of the scale word. -/
def scoreV (v : FVec Ideal S2048x2048 .bf16) (w : FVec Ideal S128x2048 .bf16) : FVec Ideal S2048x128 .f32 :=
  mulf (matmul dot_S2048x2048_S128x2048_S2048x128_1_1_0_0_n_n none v w (constant S2048x128 .f32 0x00000000#32))
    (broadcast S2048x128 (Scalar.ofBits .f32 0x3CB504F3#32))

theorem scoreV_apply (v : FVec Ideal S2048x2048 .bf16) (w : FVec Ideal S128x2048 .bf16) (q : Fin 2048) (k : Fin 128) :
    scoreV v w (ix2 q k) = sc v w q k := by
  unfold scoreV sc
  rw [mulf_apply, qk_apply]
  rfl

/-! ## The column softmax of a [2048,128] array of scores -/

/-- The f32 word of −∞ is −∞. -/
theorem ofBits_neg_inf : Ideal.ofBits .f32 0xFF800000#32 = (⊥ : EReal) := by
  simp [Ideal.ofBits, Ideal.ieee]

/-- The reduced index k with the query coordinate put back is (q, k). -/
theorem lift_ix2 (h : S2048x128.Reduces [0] S128) (k : Fin 128) (q : Fin (S2048x128.size 0)) :
    h.lift (ix1 k) q = ix2 (⟨q.val, q.isLt⟩ : Fin 2048) k := by
  funext c; apply Fin.ext
  fin_cases c <;> rfl

/-- A maximum over the query axis from the −∞ word, at key k: the fold of max from −∞ over the queries. -/
theorem colmax_apply (s : FVec Ideal S2048x128 .f32) (h : S2048x128.Reduces [0] S128) (hφ : FKind.Formats FTy.f32)
    (hacc : (0xFF800000#32 : BitVec FTy.f32.bits) = FKind.maximumf.neutral .f32 hφ) (k : Fin 128) :
    multiReduction (F := Ideal) .maximumf [0] S128 s 0xFF800000#32 h hφ hacc (ix1 k)
      = Finset.univ.fold max ⊥ (fun q : Fin 2048 => s (ix2 q k)) := by
  refine (Ideal.multiReduction_maximumf_single s 0xFF800000#32 h hφ hacc (ix1 k)).trans ?_
  rw [Ideal.ofBits_def, ofBits_neg_inf]
  exact congrArg (fun f => Finset.fold max (⊥ : EReal) f (Finset.univ : Finset (Fin 2048)))
    (funext fun q => congrArg s (lift_ix2 h k q))

/-- A sum over the query axis from the zero word, at key k: the sum over the queries. -/
theorem colsum_apply (s : FVec Ideal S2048x128 .f32) (h : S2048x128.Reduces [0] S128) (hφ : FKind.Formats FTy.f32)
    (hacc : (0x00000000#32 : BitVec FTy.f32.bits) = FKind.add.neutral .f32 hφ) (k : Fin 128) :
    multiReduction (F := Ideal) .add [0] S128 s 0x00000000#32 h hφ hacc (ix1 k) = ∑ q : Fin 2048, s (ix2 q k) := by
  refine (Ideal.multiReduction_add_single s 0x00000000#32 h hφ hacc (ix1 k)).trans ?_
  exact Finset.sum_congr rfl fun q _ => congrArg s (lift_ix2 h k q)

/-- The column maxima of an array of scores. -/
def cmaxV (s : FVec Ideal S2048x128 .f32) : FVec Ideal S128 .f32 :=
  multiReduction .maximumf [0] S128 s 0xFF800000#32 reduces_S2048x128_S128 (.inl rfl) rfl

theorem cmaxV_apply (s : FVec Ideal S2048x128 .f32) (k : Fin 128) :
    cmaxV s (ix1 k) = Finset.univ.fold max ⊥ (fun q : Fin 2048 => s (ix2 q k)) :=
  colmax_apply s _ _ _ k

/-- A row of 128 values as a one-row matrix broadcast down the 2048 rows. -/
def rowB (m : FVec Ideal S128 .f32) : FVec Ideal S2048x128 .f32 :=
  broadcastTo S2048x128 (shapeCast S1x128 m shapeCasts_S128_S1x128) broadcasts_S1x128_S2048x128

theorem rowB_apply (m : FVec Ideal S128 .f32) (q : Fin 2048) (k : Fin 128) : rowB m (ix2 q k) = m (ix1 k) := by
  unfold rowB
  rw [broadcastTo_1b_ab_apply, shapeCast_a_1a_apply]

/-- The shifted exponentials of an array of scores. -/
def exV (s : FVec Ideal S2048x128 .f32) : FVec Ideal S2048x128 .f32 :=
  exp (subf s (rowB (cmaxV s)))

theorem exV_apply (s : FVec Ideal S2048x128 .f32) (q : Fin 2048) (k : Fin 128) :
    exV s (ix2 q k) = Ideal.exp (s (ix2 q k) - Finset.univ.fold max ⊥ (fun q' : Fin 2048 => s (ix2 q' k))) := by
  unfold exV
  show Ideal.exp (subf s (rowB (cmaxV s)) (ix2 q k)) = _
  rw [subf_apply, rowB_apply, cmaxV_apply]

/-- The column sums of the shifted exponentials. -/
def csumV (s : FVec Ideal S2048x128 .f32) : FVec Ideal S128 .f32 :=
  multiReduction .add [0] S128 (exV s) 0x00000000#32 reduces_S2048x128_S128 (.inl rfl) rfl

theorem csumV_apply (s : FVec Ideal S2048x128 .f32) (k : Fin 128) :
    csumV s (ix1 k) = ∑ q : Fin 2048, exV s (ix2 q k) :=
  colsum_apply (exV s) _ _ _ k

/-- The column softmax of an array of scores, narrowed to bf16 (the identity at the ideal instance). -/
def softV (s : FVec Ideal S2048x128 .f32) : FVec Ideal S2048x128 .bf16 :=
  truncf .bf16 (divf (exV s) (rowB (csumV s))) bitsLt_bf16_f32

theorem softV_apply (s : FVec Ideal S2048x128 .f32) (q : Fin 2048) (k : Fin 128) :
    softV s (ix2 q k)
      = Ideal.div (Ideal.exp (s (ix2 q k) - Finset.univ.fold max ⊥ (fun q' : Fin 2048 => s (ix2 q' k))))
          (∑ q' : Fin 2048, Ideal.exp (s (ix2 q' k) - Finset.univ.fold max ⊥ (fun q'' : Fin 2048 => s (ix2 q'' k)))) := by
  unfold softV
  rw [truncf_apply, divf_apply, rowB_apply, csumV_apply, exV_apply]
  exact congrArg (Ideal.div _) (Finset.sum_congr rfl fun q' _ => exV_apply s q' k)

/-- The column softmax of the scaled scores is the specification's column softmax. -/
theorem softV_scoreV_apply (v : FVec Ideal S2048x2048 .bf16) (w : FVec Ideal S128x2048 .bf16) (q : Fin 2048) (k : Fin 128) :
    softV (scoreV v w) (ix2 q k) = softcol v w q k := by
  rw [softV_apply]
  unfold softcol
  simp only [scoreV_apply]

end Cert.KernelIdeal.Fr

end
-- ==== Proof.AttnPayI3.lean ====
/-
  The pure payloads of attention call 3's kernel body, read at an index at the ideal instance: each chunk payload is
  what was loaded from the output chunk plus a contraction over a half tile's 128 keys; each weights payload is the
  column softmax of one half tile of 128 keys against all 2048 queries.
-/
import proofs.«156009_j19851338842369_2_alg».proof.Proof.Gen.KernelIdeal.Skeleton
import proofs.«156009_j19851338842369_2_alg».proof.Proof.AttnMathI
import proofs.«156009_j19851338842369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.Fr.P3

open Cert.KernelIdeal Cert.KernelIdeal.Gen Cert.KernelIdeal.Fr Idealize.ShloMosaic Idealize.ShloMosaic.ValueIdx

/-! ## The chunk payloads -/

theorem pay8_apply (x0 : FVec Ideal S2048x2048 .bf16) (x5 : FVec Ideal S128x2048 .bf16) (x20 : FVec Ideal S128x512 .bf16)
    (x23 : FVec Ideal S2048x512 .f32) (q : Fin 2048) (l : Fin 512) :
    k3_pay8 (F := Ideal) x0 x5 x20 x23 (ix2 q l) = x23 (ix2 q l) + ∑ k : Fin 128, k3_pay7 (F := Ideal) x0 x5 (ix2 q k) * x20 (ix2 k l) := by
  unfold k3_pay8
  simp only [shapeCast_self]
  rw [addf_apply, pv_apply]

theorem pay9_apply (x0 : FVec Ideal S2048x2048 .bf16) (x5 : FVec Ideal S128x2048 .bf16) (x27 : FVec Ideal S128x512 .bf16)
    (x30 : FVec Ideal S2048x512 .f32) (q : Fin 2048) (l : Fin 512) :
    k3_pay9 (F := Ideal) x0 x5 x27 x30 (ix2 q l) = x30 (ix2 q l) + ∑ k : Fin 128, k3_pay7 (F := Ideal) x0 x5 (ix2 q k) * x27 (ix2 k l) := by
  unfold k3_pay9
  simp only [shapeCast_self]
  rw [addf_apply, pv_apply]

theorem pay10_apply (v19 : FVec Ideal S2048x128 .bf16) (x34 : FVec Ideal S128x512 .bf16) (x37 : FVec Ideal S2048x512 .f32)
    (q : Fin 2048) (l : Fin 512) :
    k3_pay10 (F := Ideal) v19 x34 x37 (ix2 q l) = x37 (ix2 q l) + ∑ k : Fin 128, v19 (ix2 q k) * x34 (ix2 k l) := by
  unfold k3_pay10
  simp only [shapeCast_self]
  rw [addf_apply, pv_apply]

theorem pay11_apply (v19 : FVec Ideal S2048x128 .bf16) (x41 : FVec Ideal S128x512 .bf16) (x44 : FVec Ideal S2048x512 .f32)
    (q : Fin 2048) (l : Fin 512) :
    k3_pay11 (F := Ideal) v19 x41 x44 (ix2 q l) = x44 (ix2 q l) + ∑ k : Fin 128, v19 (ix2 q k) * x41 (ix2 k l) := by
  unfold k3_pay11
  simp only [shapeCast_self]
  rw [addf_apply, pv_apply]

theorem pay2_apply (v62 : FVec Ideal S2048x128 .bf16) (x70 : FVec Ideal S128x512 .bf16) (x73 : FVec Ideal S2048x512 .f32)
    (q : Fin 2048) (l : Fin 512) :
    k3_pay2 (F := Ideal) v62 x70 x73 (ix2 q l) = x73 (ix2 q l) + ∑ k : Fin 128, v62 (ix2 q k) * x70 (ix2 k l) := by
  unfold k3_pay2
  simp only [shapeCast_self]
  rw [addf_apply, pv_apply]

theorem pay3_apply (v62 : FVec Ideal S2048x128 .bf16) (x77 : FVec Ideal S128x512 .bf16) (x80 : FVec Ideal S2048x512 .f32)
    (q : Fin 2048) (l : Fin 512) :
    k3_pay3 (F := Ideal) v62 x77 x80 (ix2 q l) = x80 (ix2 q l) + ∑ k : Fin 128, v62 (ix2 q k) * x77 (ix2 k l) := by
  unfold k3_pay3
  simp only [shapeCast_self]
  rw [addf_apply, pv_apply]

theorem pay4_apply (v62 : FVec Ideal S2048x128 .bf16) (x84 : FVec Ideal S128x512 .bf16) (x87 : FVec Ideal S2048x512 .f32)
    (q : Fin 2048) (l : Fin 512) :
    k3_pay4 (F := Ideal) v62 x84 x87 (ix2 q l) = x87 (ix2 q l) + ∑ k : Fin 128, v62 (ix2 q k) * x84 (ix2 k l) := by
  unfold k3_pay4
  simp only [shapeCast_self]
  rw [addf_apply, pv_apply]

theorem pay13_apply (v4 : FVec Ideal S2048x2048 .bf16) (x48 : FVec Ideal S128x2048 .bf16) (x63 : FVec Ideal S128x512 .bf16)
    (q : Fin 2048) (l : Fin 512) :
    k3_pay13 (F := Ideal) v4 x48 x63 (ix2 q l) = ∑ k : Fin 128, k3_pay12 (F := Ideal) v4 x48 (ix2 q k) * x63 (ix2 k l) := by
  unfold k3_pay13
  simp only [shapeCast_self]
  rw [pv_apply]

theorem pay1_apply (v65 : FVec Ideal S2048x512 .f32) (x66 : FVec Ideal S2048x512 .f32) (q : Fin 2048) (l : Fin 512) :
    k3_pay1 (F := Ideal) v65 x66 (ix2 q l) = x66 (ix2 q l) + v65 (ix2 q l) := by
  unfold k3_pay1
  simp only [shapeCast_self]
  rw [addf_apply]

theorem pay5_apply (i : S2048x2048.Idx) : k3_pay5 (F := Ideal) i = 0 := by
  unfold k3_pay5
  exact Ideal.ofBits_zero_f32

/-! ## The weights payloads -/

theorem pay6_eq (v3 : FVec Ideal S2048x2048 .bf16) : k3_pay6 (F := Ideal) v3 = v3 := by
  unfold k3_pay6
  exact shapeCast_self _ _

theorem pay7_eq (x0 : FVec Ideal S2048x2048 .bf16) (x5 : FVec Ideal S128x2048 .bf16) :
    k3_pay7 (F := Ideal) x0 x5 = softV (scoreV x0 x5) := by
  unfold k3_pay7
  rw [pay6_eq]
  simp only [shapeCast_self]
  rfl

theorem pay7_apply (x0 : FVec Ideal S2048x2048 .bf16) (x5 : FVec Ideal S128x2048 .bf16) (q : Fin 2048) (k : Fin 128) :
    k3_pay7 (F := Ideal) x0 x5 (ix2 q k) = softcol x0 x5 q k := by
  rw [pay7_eq, softV_scoreV_apply]

theorem pay12_eq (v4 : FVec Ideal S2048x2048 .bf16) (x48 : FVec Ideal S128x2048 .bf16) :
    k3_pay12 (F := Ideal) v4 x48 = softV (scoreV v4 x48) := by
  unfold k3_pay12
  simp only [shapeCast_self]
  rfl

theorem pay12_apply (v4 : FVec Ideal S2048x2048 .bf16) (x48 : FVec Ideal S128x2048 .bf16) (q : Fin 2048) (k : Fin 128) :
    k3_pay12 (F := Ideal) v4 x48 (ix2 q k) = softcol v4 x48 q k := by
  rw [pay12_eq, softV_scoreV_apply]

end Cert.KernelIdeal.Fr.P3

end
-- ==== Proof.AttnValI3.lean ====
/-
  What attention call 3's body leaves in the output's staging buffer in each of its two cases, read off the pieces the
  body's run found: from contents G0 (zeros at the first point; what the point before left at a later one) the buffer
  ends holding G2 = (G0 + the first 128 keys' contribution) + the last 128 keys' contribution, entry by entry.
-/
import proofs.«156009_j19851338842369_2_alg».proof.Proof.AttnDefsI3
import proofs.«156009_j19851338842369_2_alg».proof.Proof.AttnPayI3
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

/-! ## A chunk's new contents are the block of "old contents + the half tile's contribution" -/

section Blocks

variable (x0 : Vec Ideal S2048x2048 .bf16) (x1 x2 : Vec Ideal S256x2048 .bf16)

/-- First half: what was in the chunk plus the first 128 keys' contribution is the block of G1. -/
theorem blk_first3 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![0, o] : Fin 2 → Nat) a + (![128, 512] : Fin 2 → Nat) a ≤ S256x2048.size a) (q : Fin 2048) (l : Fin 512) :
    View.ld X (Rect.unit (s := S2048x2048) ![0, o] ![2048, 512] inbC) (ix2 q l)
      + ∑ k : Fin 128, k3_pay7 (F := Ideal) x0 (View.ld x1 rA3) (ix2 q k) * View.ld x2 (Rect.unit (s := S256x2048) ![0, o] ![128, 512] inbT) (ix2 k l)
    = G1_3 x0 x1 x2 X ((Rect.unit (s := S2048x2048) ![0, o] ![2048, 512] inbC).emb (ix2 q l)) := by
  rw [embC3 _ rfl inbC q l ho (ix2 q l) rfl rfl, G1_3_ix2]
  unfold Aa3
  refine congrArg₂ (· + ·) ?_ (Finset.sum_congr rfl fun k _ => congrArg (_ * ·) ?_)
  · show X ((Rect.unit (s := S2048x2048) ![0, o] ![2048, 512] inbC).emb (ix2 q l)) = _
    rw [embC3 _ rfl inbC q l ho (ix2 q l) rfl rfl]
  · show x2 ((Rect.unit (s := S256x2048) ![0, o] ![128, 512] inbT).emb (ix2 k l)) = _
    rw [embT3 _ rfl inbT k l (by omega) ho (ix2 k l) rfl rfl]
    exact congrArg (fun r => x2 (ix2 r _)) (Fin.ext (Nat.zero_add _))

/-- Second half: the contents after the first half plus the last 128 keys' contribution is the block of G2. -/
theorem blk_second3 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![128, o] : Fin 2 → Nat) a + (![128, 512] : Fin 2 → Nat) a ≤ S256x2048.size a) (q : Fin 2048) (l : Fin 512)
    (z : EReal) (hz : z = G1_3 x0 x1 x2 X ((Rect.unit (s := S2048x2048) ![0, o] ![2048, 512] inbC).emb (ix2 q l))) :
    z + ∑ k : Fin 128, k3_pay12 (F := Ideal) (k3_pay6 (F := Ideal) x0) (View.ld x1 rB3) (ix2 q k) * View.ld x2 (Rect.unit (s := S256x2048) ![128, o] ![128, 512] inbT) (ix2 k l)
    = G2_3 x0 x1 x2 X ((Rect.unit (s := S2048x2048) ![0, o] ![2048, 512] inbC).emb (ix2 q l)) := by
  subst hz
  rw [embC3 _ rfl inbC q l ho (ix2 q l) rfl rfl, G2_3_ix2]
  unfold Ab3
  refine congrArg₂ (· + ·) rfl (Finset.sum_congr rfl fun k _ => congrArg (_ * ·) ?_)
  show x2 ((Rect.unit (s := S256x2048) ![128, o] ![128, 512] inbT).emb (ix2 k l)) = _
  rw [embT3 _ rfl inbT k l (by omega) ho (ix2 k l) rfl rfl]

end Blocks

/-! ## A later point: the buffer holds `xo`, no branch taken -/

section CaseB

variable (c : Dev nD) (i : grid3.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond3_0 i)
  (x0 : Vec Ideal S2048x2048 .bf16) (x1 x2 : Vec Ideal S256x2048 .bf16) (xo : Vec Ideal S2048x2048 .f32)

/-- The first half's four chunk stores are the blocks of the contents after the first half. -/
theorem H4_blocks_B3 : ∀ p ∈ kernelRun3_B.sl.H3_4 (F := Ideal) c a1 h1 a2 h2 a3 h3 a4 h4 x0 x1 x2 xo, ∀ x : p.1.shape.Idx,
    p.2 x = G1_3 x0 x1 x2 xo (p.1.emb x) := by
  unfold kernelRun3_B.sl.H3_4
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun3_B.sl.r_1 kernelRun3_B.sl.v44
    simp only [View.readAt_eq_ld, h1.read_unread, h2.read_unread, h3.read_unread, h4.read_unread, View.ld_unit_zero (S := S2048x2048) hzA3]
    exact (P3.pay11_apply _ _ _ q l).trans (blk_first3 x0 x1 x2 xo (by omega) _ _ q l)
  · intro x
    obtain ⟨q, l, rfl⟩ : ∃ (q : Fin 2048) (l : Fin 512), x = ix2 q l := ⟨x 0, x 1, eq_ix2 x⟩
    dsimp only
    unfold kernelRun3_B.sl.r_1 kernelRun3_B.sl.v37
    simp only [View.readAt_eq_ld, h1.read_unread, h2.read_unread, h3.read_unread, h4.read_unread, View.ld_unit_zero (S := S2048x2048) hzA3]
    exact (P3.pay10_apply _ _ _ q l).trans (blk_first3 x0 x1 x2 xo (by omega) _ _ q l)
  · intro x
    obtain ⟨q, l, rfl⟩ : ∃ (q : Fin 2048) (l : Fin 512), x = ix2 q l := ⟨x 0, x 1, eq_ix2 x⟩
    dsimp only
    unfold kernelRun3_B.sl.r_2 kernelRun3_B.sl.v30
    simp only [View.readAt_eq_ld, h1.read_unread, h2.read_unread, h3.read_unread, h4.read_unread, View.ld_unit_zero (S := S2048x2048) hzA3]
    exact (P3.pay9_apply _ _ _ _ q l).trans (blk_first3 x0 x1 x2 xo (by omega) _ _ q l)
  · intro x
    obtain ⟨q, l, rfl⟩ : ∃ (q : Fin 2048) (l : Fin 512), x = ix2 q l := ⟨x 0, x 1, eq_ix2 x⟩
    dsimp only
    simp only [View.readAt_eq_ld, h1.read_unread, h2.read_unread, h3.read_unread, h4.read_unread, View.ld_unit_zero (S := S2048x2048) hzA3]
    exact (P3.pay8_apply _ _ _ _ q l).trans (blk_first3 x0 x1 x2 xo (by omega) _ _ q l)

/-- Every element of every column chunk is covered by the first half's stores. -/
theorem H4_cover_B3 {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ kernelRun3_B.sl.H3_4 (F := Ideal) c a1 h1 a2 h2 a3 h3 a4 h4 x0 x1 x2 xo,
      (Rect.unit (s := S2048x2048) ![0, o] ![2048, 512] inb).emb x ∈ p.1.set := by
  unfold kernelRun3_B.sl.H3_4
  rcases ho with rfl | rfl | rfl | rfl
  · refine ⟨_, List.mem_cons_of_mem _ (List.mem_cons_of_mem _ (List.mem_cons_of_mem _ List.mem_cons_self)), ?_⟩
    exact memC3 S2048x512.size ![2048, 512] rfl rfl inb_S2048x2048_S2048x512_0_0 inb x
  · refine ⟨_, List.mem_cons_of_mem _ (List.mem_cons_of_mem _ List.mem_cons_self), ?_⟩
    exact memC3 S2048x512.size ![2048, 512] rfl rfl inb_S2048x2048_S2048x512_0_512 inb x
  · refine ⟨_, List.mem_cons_of_mem _ List.mem_cons_self, ?_⟩
    exact memC3 S2048x512.size ![2048, 512] rfl rfl inb_S2048x2048_S2048x512_0_1024 inb x
  · refine ⟨_, List.mem_cons_self, ?_⟩
    exact memC3 S2048x512.size ![2048, 512] rfl rfl inb_S2048x2048_S2048x512_0_1536 inb x

end CaseB

section CaseB2

variable (c : Dev nD) (i : grid3.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond3_0 i)
  (x0 : Vec Ideal S2048x2048 .bf16) (x1 x2 : Vec Ideal S256x2048 .bf16) (xo : Vec Ideal S2048x2048 .f32)

/-- The second half's four chunk stores, as the run names them. -/
abbrev pB3_0 := (⟨Rect.unit (s := S2048x2048) ![0, 0] ![2048, 512] inb_S2048x2048_S2048x512_0_0, k3_pay1 (kernelRun3_B.sl.r_4 (F := Ideal) c a1 h1 a2 h2 a3 h3 x0 x1 x2) (kernelRun3_B.sl.v66 (F := Ideal) c a1 h1 a2 h2 a3 h3 a4 h4 x0 x1 x2 xo)⟩ : View.Piece (Elt Ideal) S2048x2048 .f32)
abbrev pB3_1 := (⟨Rect.unit (s := S2048x2048) ![0, 512] ![2048, 512] inb_S2048x2048_S2048x512_0_512, k3_pay2 (kernelRun3_B.sl.r_3 (F := Ideal) c a1 h1 a2 h2 x0 x1) (View.readAt (Elt Ideal) a3.view (Rect.unit (s := S256x2048) ![128, 512] ![128, 512] inb_S256x2048_S128x512_128_512).toLoadRect (h3.unread x2)) (kernelRun3_B.sl.v73 (F := Ideal) c a1 h1 a2 h2 a3 h3 a4 h4 x0 x1 x2 xo)⟩ : View.Piece (Elt Ideal) S2048x2048 .f32)
abbrev pB3_2 := (⟨Rect.unit (s := S2048x2048) ![0, 1024] ![2048, 512] inb_S2048x2048_S2048x512_0_1024, k3_pay3 (kernelRun3_B.sl.r_3 (F := Ideal) c a1 h1 a2 h2 x0 x1) (View.readAt (Elt Ideal) a3.view (Rect.unit (s := S256x2048) ![128, 1024] ![128, 512] inb_S256x2048_S128x512_128_1024).toLoadRect (h3.unread x2)) (kernelRun3_B.sl.v80 (F := Ideal) c a1 h1 a2 h2 a3 h3 a4 h4 x0 x1 x2 xo)⟩ : View.Piece (Elt Ideal) S2048x2048 .f32)
abbrev pB3_3 := (⟨Rect.unit (s := S2048x2048) ![0, 1536] ![2048, 512] inb_S2048x2048_S2048x512_0_1536, k3_pay4 (kernelRun3_B.sl.r_3 (F := Ideal) c a1 h1 a2 h2 x0 x1) (View.readAt (Elt Ideal) a3.view (Rect.unit (s := S256x2048) ![128, 1536] ![128, 512] inb_S256x2048_S128x512_128_1536).toLoadRect (h3.unread x2)) (kernelRun3_B.sl.v87 (F := Ideal) c a1 h1 a2 h2 a3 h3 a4 h4 x0 x1 x2 xo)⟩ : View.Piece (Elt Ideal) S2048x2048 .f32)

/-- Each second-half chunk first loads its chunk; the load reads the contents after the first half (the second-half
    stores made so far miss the chunk, the first half's cover it). -/
theorem v66_B3 : kernelRun3_B.sl.v66 (F := Ideal) c a1 h1 a2 h2 a3 h3 a4 h4 x0 x1 x2 xo
    = fun x => G1_3 x0 x1 x2 xo ((Rect.unit (s := S2048x2048) ![0, 0] ![2048, 512] inb_S2048x2048_S2048x512_0_0).emb x) := by
  unfold kernelRun3_B.sl.v66
  exact readCov_mid' a4.view (G1_3 x0 x1 x2 xo) (kernelRun3_B.sl.H3_4 (F := Ideal) c a1 h1 a2 h2 a3 h3 a4 h4 x0 x1 x2 xo) []
    (H4_blocks_B3 c a1 h1 a2 h2 a3 h3 a4 h4 x0 x1 x2 xo) _ (fun x => H4_cover_B3 c a1 h1 a2 h2 a3 h3 a4 h4 x0 x1 x2 xo (Or.inl rfl) _ x)
    (kernelRun3_B.sl.H3_4 (F := Ideal) c a1 h1 a2 h2 a3 h3 a4 h4 x0 x1 x2 xo) [] (fun p hp => by simp at hp) (by simp)

theorem v73_B3 : kernelRun3_B.sl.v73 (F := Ideal) c a1 h1 a2 h2 a3 h3 a4 h4 x0 x1 x2 xo
    = fun x => G1_3 x0 x1 x2 xo ((Rect.unit (s := S2048x2048) ![0, 512] ![2048, 512] inb_S2048x2048_S2048x512_0_512).emb x) := by
  unfold kernelRun3_B.sl.v73
  refine readCov_mid' a4.view (G1_3 x0 x1 x2 xo) (kernelRun3_B.sl.H3_4 (F := Ideal) c a1 h1 a2 h2 a3 h3 a4 h4 x0 x1 x2 xo) []
    (H4_blocks_B3 c a1 h1 a2 h2 a3 h3 a4 h4 x0 x1 x2 xo) _ (fun x => H4_cover_B3 c a1 h1 a2 h2 a3 h3 a4 h4 x0 x1 x2 xo (Or.inr (Or.inl rfl)) _ x)
    _ [pB3_0 c a1 h1 a2 h2 a3 h3 a4 h4 x0 x1 x2 xo] ?_ ?_
  · intro p hp x
    simp only [List.mem_singleton] at hp; subst hp
    exact notmemC3 ![2048, 512] ![2048, 512] rfl rfl inb_S2048x2048_S2048x512_0_0 inb_S2048x2048_S2048x512_0_512 (Or.inl (by omega)) x
  · unfold kernelRun3_B.sl.H3_5; rfl

theorem v80_B3 : kernelRun3_B.sl.v80 (F := Ideal) c a1 h1 a2 h2 a3 h3 a4 h4 x0 x1 x2 xo
    = fun x => G1_3 x0 x1 x2 xo ((Rect.unit (s := S2048x2048) ![0, 1024] ![2048, 512] inb_S2048x2048_S2048x512_0_1024).emb x) := by
  unfold kernelRun3_B.sl.v80
  refine readCov_mid' a4.view (G1_3 x0 x1 x2 xo) (kernelRun3_B.sl.H3_4 (F := Ideal) c a1 h1 a2 h2 a3 h3 a4 h4 x0 x1 x2 xo) []
    (H4_blocks_B3 c a1 h1 a2 h2 a3 h3 a4 h4 x0 x1 x2 xo) _ (fun x => H4_cover_B3 c a1 h1 a2 h2 a3 h3 a4 h4 x0 x1 x2 xo (Or.inr (Or.inr (Or.inl rfl))) _ x)
    _ [pB3_1 c a1 h1 a2 h2 a3 h3 a4 h4 x0 x1 x2 xo, pB3_0 c a1 h1 a2 h2 a3 h3 a4 h4 x0 x1 x2 xo] ?_ ?_
  · intro p hp x
    simp only [List.mem_cons, List.mem_nil_iff, or_false] at hp
    rcases hp with rfl | rfl
    · exact notmemC3 ![2048, 512] ![2048, 512] rfl rfl inb_S2048x2048_S2048x512_0_512 inb_S2048x2048_S2048x512_0_1024 (Or.inl (by omega)) x
    · exact notmemC3 ![2048, 512] ![2048, 512] rfl rfl inb_S2048x2048_S2048x512_0_0 inb_S2048x2048_S2048x512_0_1024 (Or.inl (by omega)) x
  · unfold kernelRun3_B.sl.H3_6 kernelRun3_B.sl.H3_5; rfl

theorem v87_B3 : kernelRun3_B.sl.v87 (F := Ideal) c a1 h1 a2 h2 a3 h3 a4 h4 x0 x1 x2 xo
    = fun x => G1_3 x0 x1 x2 xo ((Rect.unit (s := S2048x2048) ![0, 1536] ![2048, 512] inb_S2048x2048_S2048x512_0_1536).emb x) := by
  unfold kernelRun3_B.sl.v87
  refine readCov_mid' a4.view (G1_3 x0 x1 x2 xo) (kernelRun3_B.sl.H3_4 (F := Ideal) c a1 h1 a2 h2 a3 h3 a4 h4 x0 x1 x2 xo) []
    (H4_blocks_B3 c a1 h1 a2 h2 a3 h3 a4 h4 x0 x1 x2 xo) _ (fun x => H4_cover_B3 c a1 h1 a2 h2 a3 h3 a4 h4 x0 x1 x2 xo (Or.inr (Or.inr (Or.inr rfl))) _ x)
    _ [pB3_2 c a1 h1 a2 h2 a3 h3 a4 h4 x0 x1 x2 xo, pB3_1 c a1 h1 a2 h2 a3 h3 a4 h4 x0 x1 x2 xo, pB3_0 c a1 h1 a2 h2 a3 h3 a4 h4 x0 x1 x2 xo] ?_ ?_
  · intro p hp x
    simp only [List.mem_cons, List.mem_nil_iff, or_false] at hp
    rcases hp with rfl | rfl | rfl
    · exact notmemC3 ![2048, 512] ![2048, 512] rfl rfl inb_S2048x2048_S2048x512_0_1024 inb_S2048x2048_S2048x512_0_1536 (Or.inl (by omega)) x
    · exact notmemC3 ![2048, 512] ![2048, 512] rfl rfl inb_S2048x2048_S2048x512_0_512 inb_S2048x2048_S2048x512_0_1536 (Or.inl (by omega)) x
    · exact notmemC3 ![2048, 512] ![2048, 512] rfl rfl inb_S2048x2048_S2048x512_0_0 inb_S2048x2048_S2048x512_0_1536 (Or.inl (by omega)) x
  · unfold kernelRun3_B.sl.H3_7 kernelRun3_B.sl.H3_6 kernelRun3_B.sl.H3_5; rfl

end CaseB2

/-- An index whose column lies in a chunk's range is in that chunk. -/
theorem mem_chunk3 {o : Nat} (inb : ∀ a, (![0, o] : Fin 2 → Nat) a + (![2048, 512] : Fin 2 → Nat) a ≤ S2048x2048.size a)
    (y : S2048x2048.Idx) (h : o ≤ (y 1).val ∧ (y 1).val < o + 512) :
    y ∈ (Rect.unit (s := S2048x2048) ![0, o] ![2048, 512] inb).set := by
  rw [Rect.mem_set_unit]
  intro a
  match a with
  | ⟨0, _⟩ => have h0 : (y 0).val < 2048 := (y 0).isLt; change 0 ≤ (y 0).val ∧ (y 0).val < 0 + 2048; omega
  | ⟨1, _⟩ => change o ≤ (y 1).val ∧ (y 1).val < o + 512; exact h

section CaseB3

variable (c : Dev nD) (i : grid3.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond3_0 i)
  (x0 : Vec Ideal S2048x2048 .bf16) (x1 x2 : Vec Ideal S256x2048 .bf16) (xo : Vec Ideal S2048x2048 .f32)

/-- The second half's four chunk stores are the blocks of the contents after the second half. -/
theorem second_blocks_B3 : ∀ p ∈ [pB3_3 c a1 h1 a2 h2 a3 h3 a4 h4 x0 x1 x2 xo, pB3_2 c a1 h1 a2 h2 a3 h3 a4 h4 x0 x1 x2 xo, pB3_1 c a1 h1 a2 h2 a3 h3 a4 h4 x0 x1 x2 xo, pB3_0 c a1 h1 a2 h2 a3 h3 a4 h4 x0 x1 x2 xo],
    ∀ x : p.1.shape.Idx, p.2 x = G2_3 x0 x1 x2 xo (p.1.emb x) := by
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun3_B.sl.r_3 kernelRun3_B.sl.r
    rw [v87_B3]
    simp only [View.readAt_eq_ld, h1.read_unread, h2.read_unread, h3.read_unread, View.ld_unit_zero (S := S2048x2048) hzA3]
    exact (P3.pay4_apply _ _ _ q l).trans (blk_second3 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun3_B.sl.r_3 kernelRun3_B.sl.r
    rw [v80_B3]
    simp only [View.readAt_eq_ld, h1.read_unread, h2.read_unread, h3.read_unread, View.ld_unit_zero (S := S2048x2048) hzA3]
    exact (P3.pay3_apply _ _ _ q l).trans (blk_second3 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun3_B.sl.r_3 kernelRun3_B.sl.r
    rw [v73_B3]
    simp only [View.readAt_eq_ld, h1.read_unread, h2.read_unread, h3.read_unread, View.ld_unit_zero (S := S2048x2048) hzA3]
    exact (P3.pay2_apply _ _ _ q l).trans (blk_second3 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun3_B.sl.r_4 kernelRun3_B.sl.r
    rw [v66_B3]
    simp only [View.readAt_eq_ld, h1.read_unread, h2.read_unread, h3.read_unread, View.ld_unit_zero (S := S2048x2048) hzA3]
    refine (P3.pay1_apply _ _ q l).trans ?_
    refine (congrArg (_ + ·) (P3.pay13_apply _ _ _ q l)).trans ?_
    exact blk_second3 x0 x1 x2 xo (by omega) _ _ q l _ rfl

/-- They tile the buffer: every index is in one of the four chunks. -/
theorem second_cover_B3 (y : S2048x2048.Idx) : ∃ p ∈ [pB3_3 c a1 h1 a2 h2 a3 h3 a4 h4 x0 x1 x2 xo, pB3_2 c a1 h1 a2 h2 a3 h3 a4 h4 x0 x1 x2 xo, pB3_1 c a1 h1 a2 h2 a3 h3 a4 h4 x0 x1 x2 xo, pB3_0 c a1 h1 a2 h2 a3 h3 a4 h4 x0 x1 x2 xo], y ∈ p.1.set := by
  have hy : (y 1).val < 2048 := (y 1).isLt
  by_cases h3 : 1536 ≤ (y 1).val
  · exact ⟨_, List.mem_cons_self, mem_chunk3 inb_S2048x2048_S2048x512_0_1536 y ⟨h3, by omega⟩⟩
  by_cases h2 : 1024 ≤ (y 1).val
  · exact ⟨_, List.mem_cons_of_mem _ List.mem_cons_self, mem_chunk3 inb_S2048x2048_S2048x512_0_1024 y ⟨h2, by omega⟩⟩
  by_cases h1' : 512 ≤ (y 1).val
  · exact ⟨_, List.mem_cons_of_mem _ (List.mem_cons_of_mem _ List.mem_cons_self), mem_chunk3 inb_S2048x2048_S2048x512_0_512 y ⟨h1', by omega⟩⟩
  · exact ⟨_, List.mem_cons_of_mem _ (List.mem_cons_of_mem _ (List.mem_cons_of_mem _ List.mem_cons_self)), mem_chunk3 inb_S2048x2048_S2048x512_0_0 y ⟨by omega, by omega⟩⟩

/-- A LATER POINT's contents: from the contents `xo` the point before left, the buffer ends holding G2. -/
theorem out_B_eq3 : out3_B_3 c i a1 h1 a2 h2 a3 h3 a4 h4 hc x0 x1 x2 xo = G2_3 x0 x1 x2 xo := by
  unfold out3_B_3
  rw [View.read_writes_eq_canon _ _ _ (cover3_B_3 c i a1 h1 a2 h2 a3 h3 a4 h4 hc x0 x1 x2 xo)]
  unfold kernelRun3_B
  dsimp only
  funext y
  show View.canon ([pB3_3 c a1 h1 a2 h2 a3 h3 a4 h4 x0 x1 x2 xo, pB3_2 c a1 h1 a2 h2 a3 h3 a4 h4 x0 x1 x2 xo, pB3_1 c a1 h1 a2 h2 a3 h3 a4 h4 x0 x1 x2 xo, pB3_0 c a1 h1 a2 h2 a3 h3 a4 h4 x0 x1 x2 xo] ++ kernelRun3_B.sl.H3_4 (F := Ideal) c a1 h1 a2 h2 a3 h3 a4 h4 x0 x1 x2 xo) y = _
  exact canon_prefix_apply (G2_3 x0 x1 x2 xo) _ _ (second_blocks_B3 c a1 h1 a2 h2 a3 h3 a4 h4 x0 x1 x2 xo) y
    (second_cover_B3 c a1 h1 a2 h2 a3 h3 a4 h4 x0 x1 x2 xo y)

end CaseB3

/-! ## The first point: the branch taken, the buffer filled with zeros first -/

section CaseA

variable (c : Dev nD) (i : grid3.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : cond3_0 i)
  (x0 : Vec Ideal S2048x2048 .bf16) (x1 x2 : Vec Ideal S256x2048 .bf16)

/-- The zero fill is a block of the zero function, and covers the buffer. -/
theorem hbZ3 (L : List (View.Piece (Elt Ideal) S2048x2048 .f32)) (hL : L = [(⟨Rect.unit (s := S2048x2048) ![0, 0] S2048x2048.size inb_S2048x2048_S2048x2048_0_0, k3_pay5 (F := Ideal)⟩ : View.Piece (Elt Ideal) S2048x2048 .f32)]) :
    ∀ p ∈ L, ∀ x : p.1.shape.Idx, p.2 x = (fun _ : S2048x2048.Idx => (0 : EReal)) (p.1.emb x) := by
  subst hL
  intro p hp x
  simp only [List.mem_singleton] at hp; subst hp
  exact P3.pay5_apply x
theorem covZ3 (L : List (View.Piece (Elt Ideal) S2048x2048 .f32)) (hL : L = [(⟨Rect.unit (s := S2048x2048) ![0, 0] S2048x2048.size inb_S2048x2048_S2048x2048_0_0, k3_pay5 (F := Ideal)⟩ : View.Piece (Elt Ideal) S2048x2048 .f32)]) (y : S2048x2048.Idx) :
    ∃ p ∈ L, y ∈ p.1.set := by
  subst hL
  exact ⟨_, List.mem_singleton_self _, View.mem_set_unit_zero hzA3 inb_S2048x2048_S2048x2048_0_0 y⟩

/-- The first half's loads read zeros: the chunk stores made so far miss the chunk being loaded, the zero fill covers it. -/
theorem v23_A3 : kernelRun3_A.sl.v23 (F := Ideal) c a4 = fun _ => (0 : EReal) := by
  unfold kernelRun3_A.sl.v23
  refine readCov_take a4.view (fun _ : S2048x2048.Idx => (0 : EReal)) (kernelRun3_A.sl.H3_1 (F := Ideal)) 0 1 ?hb (Rect.unit (s := S2048x2048) ![0, 0] S2048x512.size inb_S2048x2048_S2048x512_0_0) ?hcov ?hP
  case hb => exact hbZ3 _ (by unfold kernelRun3_A.sl.H3_1; rfl)
  case hcov => intro x; exact covZ3 _ (by unfold kernelRun3_A.sl.H3_1; rfl) _
  case hP => intro p hp; simp at hp

theorem v30_A3 : kernelRun3_A.sl.v30 (F := Ideal) c a1 h1 a2 h2 a3 h3 a4 x0 x1 x2 = fun _ => (0 : EReal) := by
  unfold kernelRun3_A.sl.v30
  refine readCov_take a4.view (fun _ : S2048x2048.Idx => (0 : EReal)) (kernelRun3_A.sl.H3_2 (F := Ideal) c a1 h1 a2 h2 a3 h3 a4 x0 x1 x2) 1 1 ?hb (Rect.unit (s := S2048x2048) ![0, 512] S2048x512.size inb_S2048x2048_S2048x512_0_512) ?hcov ?hP
  case hb => exact hbZ3 _ (by unfold kernelRun3_A.sl.H3_2 kernelRun3_A.sl.H3_1; rfl)
  case hcov => intro x; exact covZ3 _ (by unfold kernelRun3_A.sl.H3_2 kernelRun3_A.sl.H3_1; rfl) _
  case hP =>
    intro p hp x
    unfold kernelRun3_A.sl.H3_2 at hp
    simp only [List.take_succ_cons, List.take_zero, List.mem_cons, List.mem_nil_iff, or_false] at hp
    rcases hp with rfl
    · exact notmemC3 _ S2048x512.size rfl rfl inb_S2048x2048_S2048x512_0_0 inb_S2048x2048_S2048x512_0_512 (Or.inl (by omega)) x

theorem v37_A3 : kernelRun3_A.sl.v37 (F := Ideal) c a1 h1 a2 h2 a3 h3 a4 x0 x1 x2 = fun _ => (0 : EReal) := by
  unfold kernelRun3_A.sl.v37
  refine readCov_take a4.view (fun _ : S2048x2048.Idx => (0 : EReal)) (kernelRun3_A.sl.H3_3 (F := Ideal) c a1 h1 a2 h2 a3 h3 a4 x0 x1 x2) 2 1 ?hb (Rect.unit (s := S2048x2048) ![0, 1024] S2048x512.size inb_S2048x2048_S2048x512_0_1024) ?hcov ?hP
  case hb => exact hbZ3 _ (by unfold kernelRun3_A.sl.H3_3 kernelRun3_A.sl.H3_2 kernelRun3_A.sl.H3_1; rfl)
  case hcov => intro x; exact covZ3 _ (by unfold kernelRun3_A.sl.H3_3 kernelRun3_A.sl.H3_2 kernelRun3_A.sl.H3_1; rfl) _
  case hP =>
    intro p hp x
    unfold kernelRun3_A.sl.H3_3 kernelRun3_A.sl.H3_2 at hp
    simp only [List.take_succ_cons, List.take_zero, List.mem_cons, List.mem_nil_iff, or_false] at hp
    rcases hp with rfl | rfl
    · exact notmemC3 _ S2048x512.size rfl rfl inb_S2048x2048_S2048x512_0_512 inb_S2048x2048_S2048x512_0_1024 (Or.inl (by omega)) x
    · exact notmemC3 _ S2048x512.size rfl rfl inb_S2048x2048_S2048x512_0_0 inb_S2048x2048_S2048x512_0_1024 (Or.inl (by omega)) x

theorem v44_A3 : kernelRun3_A.sl.v44 (F := Ideal) c a1 h1 a2 h2 a3 h3 a4 x0 x1 x2 = fun _ => (0 : EReal) := by
  unfold kernelRun3_A.sl.v44
  refine readCov_take a4.view (fun _ : S2048x2048.Idx => (0 : EReal)) (kernelRun3_A.sl.H3_4 (F := Ideal) c a1 h1 a2 h2 a3 h3 a4 x0 x1 x2) 3 1 ?hb (Rect.unit (s := S2048x2048) ![0, 1536] S2048x512.size inb_S2048x2048_S2048x512_0_1536) ?hcov ?hP
  case hb => exact hbZ3 _ (by unfold kernelRun3_A.sl.H3_4 kernelRun3_A.sl.H3_3 kernelRun3_A.sl.H3_2 kernelRun3_A.sl.H3_1; rfl)
  case hcov => intro x; exact covZ3 _ (by unfold kernelRun3_A.sl.H3_4 kernelRun3_A.sl.H3_3 kernelRun3_A.sl.H3_2 kernelRun3_A.sl.H3_1; rfl) _
  case hP =>
    intro p hp x
    unfold kernelRun3_A.sl.H3_4 kernelRun3_A.sl.H3_3 kernelRun3_A.sl.H3_2 at hp
    simp only [List.take_succ_cons, List.take_zero, List.mem_cons, List.mem_nil_iff, or_false] at hp
    rcases hp with rfl | rfl | rfl
    · exact notmemC3 _ S2048x512.size rfl rfl inb_S2048x2048_S2048x512_0_1024 inb_S2048x2048_S2048x512_0_1536 (Or.inl (by omega)) x
    · exact notmemC3 _ S2048x512.size rfl rfl inb_S2048x2048_S2048x512_0_512 inb_S2048x2048_S2048x512_0_1536 (Or.inl (by omega)) x
    · exact notmemC3 _ S2048x512.size rfl rfl inb_S2048x2048_S2048x512_0_0 inb_S2048x2048_S2048x512_0_1536 (Or.inl (by omega)) x

/-- The first half's four chunk stores are the blocks of the contents after the first half (from zeros). -/
theorem first_blocks_A3 (L : List (View.Piece (Elt Ideal) S2048x2048 .f32)) (hL : L = ((kernelRun3_A.sl.H3_5 (F := Ideal) c a1 h1 a2 h2 a3 h3 a4 x0 x1 x2)).take 4) :
    ∀ p ∈ L, ∀ x : p.1.shape.Idx, p.2 x = G1_3 x0 x1 x2 (fun _ : S2048x2048.Idx => (0 : EReal)) (p.1.emb x) := by
  subst hL
  unfold kernelRun3_A.sl.H3_5 kernelRun3_A.sl.H3_4 kernelRun3_A.sl.H3_3 kernelRun3_A.sl.H3_2
  intro p hp
  simp only [List.take_succ_cons, List.take_zero, List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun3_A.sl.r_1
    rw [v44_A3]
    simp only [View.readAt_eq_ld, h1.read_unread, h2.read_unread, h3.read_unread, View.ld_unit_zero (S := S2048x2048) hzA3]
    exact (P3.pay11_apply _ _ _ q l).trans (blk_first3 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun3_A.sl.r_1
    rw [v37_A3]
    simp only [View.readAt_eq_ld, h1.read_unread, h2.read_unread, h3.read_unread, View.ld_unit_zero (S := S2048x2048) hzA3]
    exact (P3.pay10_apply _ _ _ q l).trans (blk_first3 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun3_A.sl.r_2
    rw [v30_A3]
    simp only [View.readAt_eq_ld, h1.read_unread, h2.read_unread, h3.read_unread, View.ld_unit_zero (S := S2048x2048) hzA3]
    exact (P3.pay9_apply _ _ _ _ q l).trans (blk_first3 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    rw [v23_A3]
    simp only [View.readAt_eq_ld, h1.read_unread, h2.read_unread, h3.read_unread, View.ld_unit_zero (S := S2048x2048) hzA3]
    exact (P3.pay8_apply _ _ _ _ q l).trans (blk_first3 x0 x1 x2 (fun _ : S2048x2048.Idx => (0 : EReal)) (by omega) _ _ q l)

theorem first_cover_A3 (L : List (View.Piece (Elt Ideal) S2048x2048 .f32)) (hL : L = ((kernelRun3_A.sl.H3_5 (F := Ideal) c a1 h1 a2 h2 a3 h3 a4 x0 x1 x2)).take 4)
    {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ L, (Rect.unit (s := S2048x2048) ![0, o] ![2048, 512] inb).emb x ∈ p.1.set := by
  subst hL
  unfold kernelRun3_A.sl.H3_5 kernelRun3_A.sl.H3_4 kernelRun3_A.sl.H3_3 kernelRun3_A.sl.H3_2
  simp only [List.take_succ_cons, List.take_zero]
  rcases ho with rfl | rfl | rfl | rfl
  · refine ⟨_, List.mem_cons_of_mem _ (List.mem_cons_of_mem _ (List.mem_cons_of_mem _ List.mem_cons_self)), ?_⟩
    exact memC3 S2048x512.size ![2048, 512] rfl rfl inb_S2048x2048_S2048x512_0_0 inb x
  · refine ⟨_, List.mem_cons_of_mem _ (List.mem_cons_of_mem _ List.mem_cons_self), ?_⟩
    exact memC3 S2048x512.size ![2048, 512] rfl rfl inb_S2048x2048_S2048x512_0_512 inb x
  · refine ⟨_, List.mem_cons_of_mem _ List.mem_cons_self, ?_⟩
    exact memC3 S2048x512.size ![2048, 512] rfl rfl inb_S2048x2048_S2048x512_0_1024 inb x
  · refine ⟨_, List.mem_cons_self, ?_⟩
    exact memC3 S2048x512.size ![2048, 512] rfl rfl inb_S2048x2048_S2048x512_0_1536 inb x

/-- The second half's loads read the contents after the first half. -/
theorem v66_A3 : kernelRun3_A.sl.v66 (F := Ideal) c a1 h1 a2 h2 a3 h3 a4 x0 x1 x2
    = fun x => G1_3 x0 x1 x2 (fun _ : S2048x2048.Idx => (0 : EReal)) ((Rect.unit (s := S2048x2048) ![0, 0] ![2048, 512] inb_S2048x2048_S2048x512_0_0).emb x) := by
  unfold kernelRun3_A.sl.v66
  refine readCov_take a4.view (G1_3 x0 x1 x2 (fun _ : S2048x2048.Idx => (0 : EReal))) (kernelRun3_A.sl.H3_5 (F := Ideal) c a1 h1 a2 h2 a3 h3 a4 x0 x1 x2) 0 4 ?hb (Rect.unit (s := S2048x2048) ![0, 0] ![2048, 512] inb_S2048x2048_S2048x512_0_0) ?hcov ?hP
  case hb => exact first_blocks_A3 c a1 h1 a2 h2 a3 h3 a4 x0 x1 x2 _ (by rfl)
  case hcov => intro x; exact first_cover_A3 c a1 h1 a2 h2 a3 h3 a4 x0 x1 x2 _ (by rfl) (Or.inl rfl) _ x
  case hP => intro p hp; simp at hp

theorem v73_A3 : kernelRun3_A.sl.v73 (F := Ideal) c a1 h1 a2 h2 a3 h3 a4 x0 x1 x2
    = fun x => G1_3 x0 x1 x2 (fun _ : S2048x2048.Idx => (0 : EReal)) ((Rect.unit (s := S2048x2048) ![0, 512] ![2048, 512] inb_S2048x2048_S2048x512_0_512).emb x) := by
  unfold kernelRun3_A.sl.v73
  refine readCov_take a4.view (G1_3 x0 x1 x2 (fun _ : S2048x2048.Idx => (0 : EReal))) (kernelRun3_A.sl.H3_6 (F := Ideal) c a1 h1 a2 h2 a3 h3 a4 x0 x1 x2) 1 4 ?hb (Rect.unit (s := S2048x2048) ![0, 512] ![2048, 512] inb_S2048x2048_S2048x512_0_512) ?hcov ?hP
  case hb => exact first_blocks_A3 c a1 h1 a2 h2 a3 h3 a4 x0 x1 x2 _ (by unfold kernelRun3_A.sl.H3_6; rfl)
  case hcov => intro x; exact first_cover_A3 c a1 h1 a2 h2 a3 h3 a4 x0 x1 x2 _ (by unfold kernelRun3_A.sl.H3_6; rfl) (Or.inr (Or.inl rfl)) _ x
  case hP =>
    intro p hp x
    unfold kernelRun3_A.sl.H3_6 at hp
    simp only [List.take_succ_cons, List.take_zero, List.mem_cons, List.mem_nil_iff, or_false] at hp
    rcases hp with rfl
    · exact notmemC3 _ ![2048, 512] rfl rfl inb_S2048x2048_S2048x512_0_0 inb_S2048x2048_S2048x512_0_512 (Or.inl (by omega)) x

theorem v80_A3 : kernelRun3_A.sl.v80 (F := Ideal) c a1 h1 a2 h2 a3 h3 a4 x0 x1 x2
    = fun x => G1_3 x0 x1 x2 (fun _ : S2048x2048.Idx => (0 : EReal)) ((Rect.unit (s := S2048x2048) ![0, 1024] ![2048, 512] inb_S2048x2048_S2048x512_0_1024).emb x) := by
  unfold kernelRun3_A.sl.v80
  refine readCov_take a4.view (G1_3 x0 x1 x2 (fun _ : S2048x2048.Idx => (0 : EReal))) (kernelRun3_A.sl.H3_7 (F := Ideal) c a1 h1 a2 h2 a3 h3 a4 x0 x1 x2) 2 4 ?hb (Rect.unit (s := S2048x2048) ![0, 1024] ![2048, 512] inb_S2048x2048_S2048x512_0_1024) ?hcov ?hP
  case hb => exact first_blocks_A3 c a1 h1 a2 h2 a3 h3 a4 x0 x1 x2 _ (by unfold kernelRun3_A.sl.H3_7 kernelRun3_A.sl.H3_6; rfl)
  case hcov => intro x; exact first_cover_A3 c a1 h1 a2 h2 a3 h3 a4 x0 x1 x2 _ (by unfold kernelRun3_A.sl.H3_7 kernelRun3_A.sl.H3_6; rfl) (Or.inr (Or.inr (Or.inl rfl))) _ x
  case hP =>
    intro p hp x
    unfold kernelRun3_A.sl.H3_7 kernelRun3_A.sl.H3_6 at hp
    simp only [List.take_succ_cons, List.take_zero, List.mem_cons, List.mem_nil_iff, or_false] at hp
    rcases hp with rfl | rfl
    · exact notmemC3 _ ![2048, 512] rfl rfl inb_S2048x2048_S2048x512_0_512 inb_S2048x2048_S2048x512_0_1024 (Or.inl (by omega)) x
    · exact notmemC3 _ ![2048, 512] rfl rfl inb_S2048x2048_S2048x512_0_0 inb_S2048x2048_S2048x512_0_1024 (Or.inl (by omega)) x

theorem v87_A3 : kernelRun3_A.sl.v87 (F := Ideal) c a1 h1 a2 h2 a3 h3 a4 x0 x1 x2
    = fun x => G1_3 x0 x1 x2 (fun _ : S2048x2048.Idx => (0 : EReal)) ((Rect.unit (s := S2048x2048) ![0, 1536] ![2048, 512] inb_S2048x2048_S2048x512_0_1536).emb x) := by
  unfold kernelRun3_A.sl.v87
  refine readCov_take a4.view (G1_3 x0 x1 x2 (fun _ : S2048x2048.Idx => (0 : EReal))) (kernelRun3_A.sl.H3_8 (F := Ideal) c a1 h1 a2 h2 a3 h3 a4 x0 x1 x2) 3 4 ?hb (Rect.unit (s := S2048x2048) ![0, 1536] ![2048, 512] inb_S2048x2048_S2048x512_0_1536) ?hcov ?hP
  case hb => exact first_blocks_A3 c a1 h1 a2 h2 a3 h3 a4 x0 x1 x2 _ (by unfold kernelRun3_A.sl.H3_8 kernelRun3_A.sl.H3_7 kernelRun3_A.sl.H3_6; rfl)
  case hcov => intro x; exact first_cover_A3 c a1 h1 a2 h2 a3 h3 a4 x0 x1 x2 _ (by unfold kernelRun3_A.sl.H3_8 kernelRun3_A.sl.H3_7 kernelRun3_A.sl.H3_6; rfl) (Or.inr (Or.inr (Or.inr rfl))) _ x
  case hP =>
    intro p hp x
    unfold kernelRun3_A.sl.H3_8 kernelRun3_A.sl.H3_7 kernelRun3_A.sl.H3_6 at hp
    simp only [List.take_succ_cons, List.take_zero, List.mem_cons, List.mem_nil_iff, or_false] at hp
    rcases hp with rfl | rfl | rfl
    · exact notmemC3 _ ![2048, 512] rfl rfl inb_S2048x2048_S2048x512_0_1024 inb_S2048x2048_S2048x512_0_1536 (Or.inl (by omega)) x
    · exact notmemC3 _ ![2048, 512] rfl rfl inb_S2048x2048_S2048x512_0_512 inb_S2048x2048_S2048x512_0_1536 (Or.inl (by omega)) x
    · exact notmemC3 _ ![2048, 512] rfl rfl inb_S2048x2048_S2048x512_0_0 inb_S2048x2048_S2048x512_0_1536 (Or.inl (by omega)) x

/-- THE FIRST POINT's contents: from zeros, the buffer ends holding G2. -/
theorem out_A_eq3 : out3_A_3 c i a1 h1 a2 h2 a3 h3 a4 h4 hc x0 x1 x2 = G2_3 x0 x1 x2 (fun _ : S2048x2048.Idx => (0 : EReal)) := by
  unfold out3_A_3
  rw [View.read_writes_eq_canon _ _ _ (cover3_A_3 c i a1 h1 a2 h2 a3 h3 a4 h4 hc x0 x1 x2)]
  unfold kernelRun3_A
  dsimp only
  funext y
  refine canon_take_apply (S := S2048x2048) (e := .f32) (Val := Elt Ideal) (G2_3 x0 x1 x2 (fun _ : S2048x2048.Idx => (0 : EReal))) _ 4 ?hb y ?hy
  case hb =>
    unfold kernelRun3_A.sl.H3_8 kernelRun3_A.sl.H3_7 kernelRun3_A.sl.H3_6
    intro p hp
    simp only [List.take_succ_cons, List.take_zero, List.mem_cons, List.mem_nil_iff, or_false] at hp
    rcases hp with rfl | rfl | rfl | rfl
    · intro x
      obtain ⟨q, l, rfl⟩ : ∃ (q : Fin 2048) (l : Fin 512), x = ix2 q l := ⟨x 0, x 1, eq_ix2 x⟩
      dsimp only
      unfold kernelRun3_A.sl.r_3 kernelRun3_A.sl.r
      rw [v87_A3]
      simp only [View.readAt_eq_ld, h1.read_unread, h2.read_unread, h3.read_unread, View.ld_unit_zero (S := S2048x2048) hzA3]
      exact (P3.pay4_apply _ _ _ q l).trans (blk_second3 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun3_A.sl.r_3 kernelRun3_A.sl.r
      rw [v80_A3]
      simp only [View.readAt_eq_ld, h1.read_unread, h2.read_unread, h3.read_unread, View.ld_unit_zero (S := S2048x2048) hzA3]
      exact (P3.pay3_apply _ _ _ q l).trans (blk_second3 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun3_A.sl.r_3 kernelRun3_A.sl.r
      rw [v73_A3]
      simp only [View.readAt_eq_ld, h1.read_unread, h2.read_unread, h3.read_unread, View.ld_unit_zero (S := S2048x2048) hzA3]
      exact (P3.pay2_apply _ _ _ q l).trans (blk_second3 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun3_A.sl.r_4 kernelRun3_A.sl.r
      rw [v66_A3]
      simp only [View.readAt_eq_ld, h1.read_unread, h2.read_unread, h3.read_unread, View.ld_unit_zero (S := S2048x2048) hzA3]
      refine (P3.pay1_apply _ _ q l).trans ?_
      refine (congrArg (_ + ·) (P3.pay13_apply _ _ _ q l)).trans ?_
      exact blk_second3 x0 x1 x2 (fun _ : S2048x2048.Idx => (0 : EReal)) (by omega) _ _ q l _ rfl
  case hy =>
    unfold kernelRun3_A.sl.H3_8 kernelRun3_A.sl.H3_7 kernelRun3_A.sl.H3_6
    simp only [List.take_succ_cons, List.take_zero]
    have hy : (y 1).val < 2048 := (y 1).isLt
    by_cases h3' : 1536 ≤ (y 1).val
    · exact ⟨_, List.mem_cons_self, mem_chunk3 inb_S2048x2048_S2048x512_0_1536 y ⟨h3', by omega⟩⟩
    by_cases h2' : 1024 ≤ (y 1).val
    · exact ⟨_, List.mem_cons_of_mem _ List.mem_cons_self, mem_chunk3 inb_S2048x2048_S2048x512_0_1024 y ⟨h2', by omega⟩⟩
    by_cases h1' : 512 ≤ (y 1).val
    · exact ⟨_, List.mem_cons_of_mem _ (List.mem_cons_of_mem _ List.mem_cons_self), mem_chunk3 inb_S2048x2048_S2048x512_0_512 y ⟨h1', by omega⟩⟩
    · exact ⟨_, List.mem_cons_of_mem _ (List.mem_cons_of_mem _ (List.mem_cons_of_mem _ List.mem_cons_self)), mem_chunk3 inb_S2048x2048_S2048x512_0_0 y ⟨by omega, by omega⟩⟩

end CaseA

end Cert.KernelIdeal.Fr

end
-- ==== Proof.AttnDefsI4.lean ====
/-
  What attention call 4's body leaves in the output's staging buffer, per case, at the ideal instance.  With x0 the whole
  projected query matrix and x1, x2 the key and value tiles of 256 rows, let A_a(q,k), A_b(q,k) (k < 128) be the attention
  weights of the tile's first and second half of 128 keys.  Starting from contents G0 (zeros at the first point, what
  the point before left at a later one) the first half adds  ∑ₖ A_a(q,k)·x2(k,v)  to entry (q,v), column chunk by
  column chunk, and the second half then adds  ∑ₖ A_b(q,k)·x2(128+k,v):  G1 = G0 + first half, G2 = G1 + second half.
  The first half's four chunk stores are the blocks of G1; each second-half chunk loads its chunk (which reads G1: the
  second-half stores made so far miss it, the first-half stores cover it) and stores the block of G2; the four
  second-half stores tile the buffer, so it ends holding G2 whatever was stored before.
-/
import proofs.«156009_j19851338842369_2_alg».proof.Proof.AttnI4
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

theorem hzA4 : (![0, 0] : Fin 2 → Nat) = fun _ => 0 := funext fun a => by fin_cases a <;> rfl

section Values

variable (x0 : Vec Ideal S2048x2048 .bf16) (x1 x2 : Vec Ideal S256x2048 .bf16)

/-- The tile's first 128 key rows, and its last 128. -/
abbrev rA4 : Rect S256x2048 := Rect.unit (s := S256x2048) ![0, 0] S128x2048.size inb_S256x2048_S128x2048_0_0
abbrev rB4 : Rect S256x2048 := Rect.unit (s := S256x2048) ![128, 0] S128x2048.size inb_S256x2048_S128x2048_128_0

/-- The attention weights of the first and of the second half of the key tile. -/
def Aa4 : FVec Ideal S2048x128 .bf16 := k4_pay7 (F := Ideal) x0 (View.ld x1 rA4)
def Ab4 : FVec Ideal S2048x128 .bf16 := k4_pay12 (F := Ideal) (k4_pay6 (F := Ideal) x0) (View.ld x1 rB4)

/-- The contents after the first half, and after the second, from the contents `G0` the point found. -/
def G1_4 (G0 : Vec Ideal S2048x2048 .f32) : S2048x2048.Idx → EReal := fun y =>
  G0 y + ∑ k : Fin 128, Aa4 x0 x1 (ix2 (⟨(y 0).val, (y 0).isLt⟩ : Fin 2048) k)
    * x2 (ix2 (⟨k.val, by have := k.isLt; omega⟩ : Fin 256) (⟨(y 1).val, (y 1).isLt⟩ : Fin 2048))
def G2_4 (G0 : Vec Ideal S2048x2048 .f32) : S2048x2048.Idx → EReal := fun y =>
  G1_4 x0 x1 x2 G0 y + ∑ k : Fin 128, Ab4 x0 x1 (ix2 (⟨(y 0).val, (y 0).isLt⟩ : Fin 2048) k)
    * x2 (ix2 (⟨128 + k.val, by have := k.isLt; omega⟩ : Fin 256) (⟨(y 1).val, (y 1).isLt⟩ : Fin 2048))

theorem G1_4_ix2 (G0 : Vec Ideal S2048x2048 .f32) (q v : Fin 2048) :
    G1_4 x0 x1 x2 G0 (ix2 q v) = G0 (ix2 q v) + ∑ k : Fin 128, Aa4 x0 x1 (ix2 q k) * x2 (ix2 (⟨k.val, by have := k.isLt; omega⟩ : Fin 256) v) := rfl
theorem G2_4_ix2 (G0 : Vec Ideal S2048x2048 .f32) (q v : Fin 2048) :
    G2_4 x0 x1 x2 G0 (ix2 q v) = G1_4 x0 x1 x2 G0 (ix2 q v) + ∑ k : Fin 128, Ab4 x0 x1 (ix2 q k) * x2 (ix2 (⟨128 + k.val, by have := k.isLt; omega⟩ : Fin 256) v) := rfl

end Values

/-! ## Rectangles: where a chunk's element sits, and which chunks miss which -/

/-- Element (q, l) of the column chunk at offset `o` of the output block is entry (q, o + l). -/
theorem embC4 {o : Nat} (sz : Fin 2 → Nat) (hsz : sz = ![2048, 512]) (inb : ∀ a, (![0, o] : Fin 2 → Nat) a + sz a ≤ S2048x2048.size a)
    (q : Fin 2048) (l : Fin 512) (ho : o + 512 ≤ 2048) (x : (Rect.unit (s := S2048x2048) ![0, o] sz inb).shape.Idx)
    (hx0 : (x 0).val = q.val) (hx1 : (x 1).val = l.val) :
    (Rect.unit (s := S2048x2048) ![0, o] sz inb).emb x = ix2 q (⟨o + l.val, by have := l.isLt; omega⟩ : Fin 2048) := by
  subst hsz
  funext a; apply Fin.ext
  match a with
  | ⟨0, _⟩ => show 0 + 1 * (x 0).val = q.val; omega
  | ⟨1, _⟩ => show o + 1 * (x 1).val = o + l.val; omega

/-- Element (k, l) of the [128, 512] rectangle at offsets (r0, o) of the value tile is entry (r0 + k, o + l). -/
theorem embT4 {r0 o : Nat} (sz : Fin 2 → Nat) (hsz : sz = ![128, 512]) (inb : ∀ a, (![r0, o] : Fin 2 → Nat) a + sz a ≤ S256x2048.size a)
    (k : Fin 128) (l : Fin 512) (hr : r0 + 128 ≤ 256) (ho : o + 512 ≤ 2048) (x : (Rect.unit (s := S256x2048) ![r0, o] sz inb).shape.Idx)
    (hx0 : (x 0).val = k.val) (hx1 : (x 1).val = l.val) :
    (Rect.unit (s := S256x2048) ![r0, o] sz inb).emb x = ix2 (⟨r0 + k.val, by have := k.isLt; omega⟩ : Fin 256) (⟨o + l.val, by have := l.isLt; omega⟩ : Fin 2048) := by
  subst hsz
  funext a; apply Fin.ext
  match a with
  | ⟨0, _⟩ => show r0 + 1 * (x 0).val = r0 + k.val; omega
  | ⟨1, _⟩ => show o + 1 * (x 1).val = o + l.val; omega

/-- An element of the chunk at offset `o'` is outside the chunk at offset `o` when the two do not overlap. -/
theorem notmemC4 {o o' : Nat} (sz sz' : Fin 2 → Nat) (hsz : sz = ![2048, 512]) (hsz' : sz' = ![2048, 512])
    (inb : ∀ a, (![0, o] : Fin 2 → Nat) a + sz a ≤ S2048x2048.size a) (inb' : ∀ a, (![0, o'] : Fin 2 → Nat) a + sz' a ≤ S2048x2048.size a)
    (h : o + 512 ≤ o' ∨ o' + 512 ≤ o) (x : (Rect.unit (s := S2048x2048) ![0, o'] sz' inb').shape.Idx) :
    (Rect.unit (s := S2048x2048) ![0, o'] sz' inb').emb x ∉ (Rect.unit (s := S2048x2048) ![0, o] sz inb).set := by
  subst hsz; subst hsz'
  rw [Rect.mem_set_unit]
  intro hm
  have h1 := hm 1
  have hx : (x 1).val < 512 := (x 1).isLt
  change o ≤ o' + 1 * (x 1).val ∧ o' + 1 * (x 1).val < o + 512 at h1
  omega

/-- An element of a chunk is inside that chunk, however the chunk's size is spelt. -/
theorem memC4 {o : Nat} (sz sz' : Fin 2 → Nat) (hsz : sz = ![2048, 512]) (hsz' : sz' = ![2048, 512])
    (inb : ∀ a, (![0, o] : Fin 2 → Nat) a + sz a ≤ S2048x2048.size a) (inb' : ∀ a, (![0, o] : Fin 2 → Nat) a + sz' a ≤ S2048x2048.size a)
    (x : (Rect.unit (s := S2048x2048) ![0, o] sz' inb').shape.Idx) :
    (Rect.unit (s := S2048x2048) ![0, o] sz' inb').emb x ∈ (Rect.unit (s := S2048x2048) ![0, o] sz inb).set := by
  subst hsz; subst hsz'
  rw [Rect.mem_set_unit]
  intro a
  match a with
  | ⟨0, _⟩ => have hx : (x 0).val < 2048 := (x 0).isLt; change 0 ≤ 0 + 1 * (x 0).val ∧ 0 + 1 * (x 0).val < 0 + 2048; omega
  | ⟨1, _⟩ => have hx : (x 1).val < 512 := (x 1).isLt; change o ≤ o + 1 * (x 1).val ∧ o + 1 * (x 1).val < o + 512; omega

end Cert.KernelIdeal.Fr

end
-- ==== Proof.AttnPayI4.lean ====
/-
  The pure payloads of attention call 4's kernel body, read at an index at the ideal instance: each chunk payload is
  what was loaded from the output chunk plus a contraction over a half tile's 128 keys; each weights payload is the
  column softmax of one half tile of 128 keys against all 2048 queries.
-/
import proofs.«156009_j19851338842369_2_alg».proof.Proof.Gen.KernelIdeal.Skeleton
import proofs.«156009_j19851338842369_2_alg».proof.Proof.AttnMathI
import proofs.«156009_j19851338842369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.Fr.P4

open Cert.KernelIdeal Cert.KernelIdeal.Gen Cert.KernelIdeal.Fr Idealize.ShloMosaic Idealize.ShloMosaic.ValueIdx

/-! ## The chunk payloads -/

theorem pay8_apply (x0 : FVec Ideal S2048x2048 .bf16) (x5 : FVec Ideal S128x2048 .bf16) (x20 : FVec Ideal S128x512 .bf16)
    (x23 : FVec Ideal S2048x512 .f32) (q : Fin 2048) (l : Fin 512) :
    k4_pay8 (F := Ideal) x0 x5 x20 x23 (ix2 q l) = x23 (ix2 q l) + ∑ k : Fin 128, k4_pay7 (F := Ideal) x0 x5 (ix2 q k) * x20 (ix2 k l) := by
  unfold k4_pay8
  simp only [shapeCast_self]
  rw [addf_apply, pv_apply]

theorem pay9_apply (x0 : FVec Ideal S2048x2048 .bf16) (x5 : FVec Ideal S128x2048 .bf16) (x27 : FVec Ideal S128x512 .bf16)
    (x30 : FVec Ideal S2048x512 .f32) (q : Fin 2048) (l : Fin 512) :
    k4_pay9 (F := Ideal) x0 x5 x27 x30 (ix2 q l) = x30 (ix2 q l) + ∑ k : Fin 128, k4_pay7 (F := Ideal) x0 x5 (ix2 q k) * x27 (ix2 k l) := by
  unfold k4_pay9
  simp only [shapeCast_self]
  rw [addf_apply, pv_apply]

theorem pay10_apply (v19 : FVec Ideal S2048x128 .bf16) (x34 : FVec Ideal S128x512 .bf16) (x37 : FVec Ideal S2048x512 .f32)
    (q : Fin 2048) (l : Fin 512) :
    k4_pay10 (F := Ideal) v19 x34 x37 (ix2 q l) = x37 (ix2 q l) + ∑ k : Fin 128, v19 (ix2 q k) * x34 (ix2 k l) := by
  unfold k4_pay10
  simp only [shapeCast_self]
  rw [addf_apply, pv_apply]

theorem pay11_apply (v19 : FVec Ideal S2048x128 .bf16) (x41 : FVec Ideal S128x512 .bf16) (x44 : FVec Ideal S2048x512 .f32)
    (q : Fin 2048) (l : Fin 512) :
    k4_pay11 (F := Ideal) v19 x41 x44 (ix2 q l) = x44 (ix2 q l) + ∑ k : Fin 128, v19 (ix2 q k) * x41 (ix2 k l) := by
  unfold k4_pay11
  simp only [shapeCast_self]
  rw [addf_apply, pv_apply]

theorem pay2_apply (v62 : FVec Ideal S2048x128 .bf16) (x70 : FVec Ideal S128x512 .bf16) (x73 : FVec Ideal S2048x512 .f32)
    (q : Fin 2048) (l : Fin 512) :
    k4_pay2 (F := Ideal) v62 x70 x73 (ix2 q l) = x73 (ix2 q l) + ∑ k : Fin 128, v62 (ix2 q k) * x70 (ix2 k l) := by
  unfold k4_pay2
  simp only [shapeCast_self]
  rw [addf_apply, pv_apply]

theorem pay3_apply (v62 : FVec Ideal S2048x128 .bf16) (x77 : FVec Ideal S128x512 .bf16) (x80 : FVec Ideal S2048x512 .f32)
    (q : Fin 2048) (l : Fin 512) :
    k4_pay3 (F := Ideal) v62 x77 x80 (ix2 q l) = x80 (ix2 q l) + ∑ k : Fin 128, v62 (ix2 q k) * x77 (ix2 k l) := by
  unfold k4_pay3
  simp only [shapeCast_self]
  rw [addf_apply, pv_apply]

theorem pay4_apply (v62 : FVec Ideal S2048x128 .bf16) (x84 : FVec Ideal S128x512 .bf16) (x87 : FVec Ideal S2048x512 .f32)
    (q : Fin 2048) (l : Fin 512) :
    k4_pay4 (F := Ideal) v62 x84 x87 (ix2 q l) = x87 (ix2 q l) + ∑ k : Fin 128, v62 (ix2 q k) * x84 (ix2 k l) := by
  unfold k4_pay4
  simp only [shapeCast_self]
  rw [addf_apply, pv_apply]

theorem pay13_apply (v4 : FVec Ideal S2048x2048 .bf16) (x48 : FVec Ideal S128x2048 .bf16) (x63 : FVec Ideal S128x512 .bf16)
    (q : Fin 2048) (l : Fin 512) :
    k4_pay13 (F := Ideal) v4 x48 x63 (ix2 q l) = ∑ k : Fin 128, k4_pay12 (F := Ideal) v4 x48 (ix2 q k) * x63 (ix2 k l) := by
  unfold k4_pay13
  simp only [shapeCast_self]
  rw [pv_apply]

theorem pay1_apply (v65 : FVec Ideal S2048x512 .f32) (x66 : FVec Ideal S2048x512 .f32) (q : Fin 2048) (l : Fin 512) :
    k4_pay1 (F := Ideal) v65 x66 (ix2 q l) = x66 (ix2 q l) + v65 (ix2 q l) := by
  unfold k4_pay1
  simp only [shapeCast_self]
  rw [addf_apply]

theorem pay5_apply (i : S2048x2048.Idx) : k4_pay5 (F := Ideal) i = 0 := by
  unfold k4_pay5
  exact Ideal.ofBits_zero_f32

/-! ## The weights payloads -/

theorem pay6_eq (v3 : FVec Ideal S2048x2048 .bf16) : k4_pay6 (F := Ideal) v3 = v3 := by
  unfold k4_pay6
  exact shapeCast_self _ _

theorem pay7_eq (x0 : FVec Ideal S2048x2048 .bf16) (x5 : FVec Ideal S128x2048 .bf16) :
    k4_pay7 (F := Ideal) x0 x5 = softV (scoreV x0 x5) := by
  unfold k4_pay7
  rw [pay6_eq]
  simp only [shapeCast_self]
  rfl

theorem pay7_apply (x0 : FVec Ideal S2048x2048 .bf16) (x5 : FVec Ideal S128x2048 .bf16) (q : Fin 2048) (k : Fin 128) :
    k4_pay7 (F := Ideal) x0 x5 (ix2 q k) = softcol x0 x5 q k := by
  rw [pay7_eq, softV_scoreV_apply]

theorem pay12_eq (v4 : FVec Ideal S2048x2048 .bf16) (x48 : FVec Ideal S128x2048 .bf16) :
    k4_pay12 (F := Ideal) v4 x48 = softV (scoreV v4 x48) := by
  unfold k4_pay12
  simp only [shapeCast_self]
  rfl

theorem pay12_apply (v4 : FVec Ideal S2048x2048 .bf16) (x48 : FVec Ideal S128x2048 .bf16) (q : Fin 2048) (k : Fin 128) :
    k4_pay12 (F := Ideal) v4 x48 (ix2 q k) = softcol v4 x48 q k := by
  rw [pay12_eq, softV_scoreV_apply]

end Cert.KernelIdeal.Fr.P4

end
-- ==== Proof.AttnValI4.lean ====
/-
  What attention call 4's body leaves in the output's staging buffer in each of its two cases, read off the pieces the
  body's run found: from contents G0 (zeros at the first point; what the point before left at a later one) the buffer
  ends holding G2 = (G0 + the first 128 keys' contribution) + the last 128 keys' contribution, entry by entry.
-/
import proofs.«156009_j19851338842369_2_alg».proof.Proof.AttnDefsI4
import proofs.«156009_j19851338842369_2_alg».proof.Proof.AttnPayI4
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

/-! ## A chunk's new contents are the block of "old contents + the half tile's contribution" -/

section Blocks

variable (x0 : Vec Ideal S2048x2048 .bf16) (x1 x2 : Vec Ideal S256x2048 .bf16)

/-- First half: what was in the chunk plus the first 128 keys' contribution is the block of G1. -/
theorem blk_first4 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![0, o] : Fin 2 → Nat) a + (![128, 512] : Fin 2 → Nat) a ≤ S256x2048.size a) (q : Fin 2048) (l : Fin 512) :
    View.ld X (Rect.unit (s := S2048x2048) ![0, o] ![2048, 512] inbC) (ix2 q l)
      + ∑ k : Fin 128, k4_pay7 (F := Ideal) x0 (View.ld x1 rA4) (ix2 q k) * View.ld x2 (Rect.unit (s := S256x2048) ![0, o] ![128, 512] inbT) (ix2 k l)
    = G1_4 x0 x1 x2 X ((Rect.unit (s := S2048x2048) ![0, o] ![2048, 512] inbC).emb (ix2 q l)) := by
  rw [embC4 _ rfl inbC q l ho (ix2 q l) rfl rfl, G1_4_ix2]
  unfold Aa4
  refine congrArg₂ (· + ·) ?_ (Finset.sum_congr rfl fun k _ => congrArg (_ * ·) ?_)
  · show X ((Rect.unit (s := S2048x2048) ![0, o] ![2048, 512] inbC).emb (ix2 q l)) = _
    rw [embC4 _ rfl inbC q l ho (ix2 q l) rfl rfl]
  · show x2 ((Rect.unit (s := S256x2048) ![0, o] ![128, 512] inbT).emb (ix2 k l)) = _
    rw [embT4 _ rfl inbT k l (by omega) ho (ix2 k l) rfl rfl]
    exact congrArg (fun r => x2 (ix2 r _)) (Fin.ext (Nat.zero_add _))

/-- Second half: the contents after the first half plus the last 128 keys' contribution is the block of G2. -/
theorem blk_second4 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![128, o] : Fin 2 → Nat) a + (![128, 512] : Fin 2 → Nat) a ≤ S256x2048.size a) (q : Fin 2048) (l : Fin 512)
    (z : EReal) (hz : z = G1_4 x0 x1 x2 X ((Rect.unit (s := S2048x2048) ![0, o] ![2048, 512] inbC).emb (ix2 q l))) :
    z + ∑ k : Fin 128, k4_pay12 (F := Ideal) (k4_pay6 (F := Ideal) x0) (View.ld x1 rB4) (ix2 q k) * View.ld x2 (Rect.unit (s := S256x2048) ![128, o] ![128, 512] inbT) (ix2 k l)
    = G2_4 x0 x1 x2 X ((Rect.unit (s := S2048x2048) ![0, o] ![2048, 512] inbC).emb (ix2 q l)) := by
  subst hz
  rw [embC4 _ rfl inbC q l ho (ix2 q l) rfl rfl, G2_4_ix2]
  unfold Ab4
  refine congrArg₂ (· + ·) rfl (Finset.sum_congr rfl fun k _ => congrArg (_ * ·) ?_)
  show x2 ((Rect.unit (s := S256x2048) ![128, o] ![128, 512] inbT).emb (ix2 k l)) = _
  rw [embT4 _ rfl inbT k l (by omega) ho (ix2 k l) rfl rfl]

end Blocks

/-! ## A later point: the buffer holds `xo`, no branch taken -/

section CaseB

variable (c : Dev nD) (i : grid4.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond4_0 i)
  (x0 : Vec Ideal S2048x2048 .bf16) (x1 x2 : Vec Ideal S256x2048 .bf16) (xo : Vec Ideal S2048x2048 .f32)

/-- The first half's four chunk stores are the blocks of the contents after the first half. -/
theorem H4_blocks_B4 : ∀ p ∈ kernelRun4_B.sl.H3_4 (F := Ideal) c a1 h1 a2 h2 a3 h3 a4 h4 x0 x1 x2 xo, ∀ x : p.1.shape.Idx,
    p.2 x = G1_4 x0 x1 x2 xo (p.1.emb x) := by
  unfold kernelRun4_B.sl.H3_4
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun4_B.sl.r_1 kernelRun4_B.sl.v44
    simp only [View.readAt_eq_ld, h1.read_unread, h2.read_unread, h3.read_unread, h4.read_unread, View.ld_unit_zero (S := S2048x2048) hzA4]
    exact (P4.pay11_apply _ _ _ q l).trans (blk_first4 x0 x1 x2 xo (by omega) _ _ q l)
  · intro x
    obtain ⟨q, l, rfl⟩ : ∃ (q : Fin 2048) (l : Fin 512), x = ix2 q l := ⟨x 0, x 1, eq_ix2 x⟩
    dsimp only
    unfold kernelRun4_B.sl.r_1 kernelRun4_B.sl.v37
    simp only [View.readAt_eq_ld, h1.read_unread, h2.read_unread, h3.read_unread, h4.read_unread, View.ld_unit_zero (S := S2048x2048) hzA4]
    exact (P4.pay10_apply _ _ _ q l).trans (blk_first4 x0 x1 x2 xo (by omega) _ _ q l)
  · intro x
    obtain ⟨q, l, rfl⟩ : ∃ (q : Fin 2048) (l : Fin 512), x = ix2 q l := ⟨x 0, x 1, eq_ix2 x⟩
    dsimp only
    unfold kernelRun4_B.sl.r_2 kernelRun4_B.sl.v30
    simp only [View.readAt_eq_ld, h1.read_unread, h2.read_unread, h3.read_unread, h4.read_unread, View.ld_unit_zero (S := S2048x2048) hzA4]
    exact (P4.pay9_apply _ _ _ _ q l).trans (blk_first4 x0 x1 x2 xo (by omega) _ _ q l)
  · intro x
    obtain ⟨q, l, rfl⟩ : ∃ (q : Fin 2048) (l : Fin 512), x = ix2 q l := ⟨x 0, x 1, eq_ix2 x⟩
    dsimp only
    simp only [View.readAt_eq_ld, h1.read_unread, h2.read_unread, h3.read_unread, h4.read_unread, View.ld_unit_zero (S := S2048x2048) hzA4]
    exact (P4.pay8_apply _ _ _ _ q l).trans (blk_first4 x0 x1 x2 xo (by omega) _ _ q l)

/-- Every element of every column chunk is covered by the first half's stores. -/
theorem H4_cover_B4 {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ kernelRun4_B.sl.H3_4 (F := Ideal) c a1 h1 a2 h2 a3 h3 a4 h4 x0 x1 x2 xo,
      (Rect.unit (s := S2048x2048) ![0, o] ![2048, 512] inb).emb x ∈ p.1.set := by
  unfold kernelRun4_B.sl.H3_4
  rcases ho with rfl | rfl | rfl | rfl
  · refine ⟨_, List.mem_cons_of_mem _ (List.mem_cons_of_mem _ (List.mem_cons_of_mem _ List.mem_cons_self)), ?_⟩
    exact memC4 S2048x512.size ![2048, 512] rfl rfl inb_S2048x2048_S2048x512_0_0 inb x
  · refine ⟨_, List.mem_cons_of_mem _ (List.mem_cons_of_mem _ List.mem_cons_self), ?_⟩
    exact memC4 S2048x512.size ![2048, 512] rfl rfl inb_S2048x2048_S2048x512_0_512 inb x
  · refine ⟨_, List.mem_cons_of_mem _ List.mem_cons_self, ?_⟩
    exact memC4 S2048x512.size ![2048, 512] rfl rfl inb_S2048x2048_S2048x512_0_1024 inb x
  · refine ⟨_, List.mem_cons_self, ?_⟩
    exact memC4 S2048x512.size ![2048, 512] rfl rfl inb_S2048x2048_S2048x512_0_1536 inb x

end CaseB

section CaseB2

variable (c : Dev nD) (i : grid4.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond4_0 i)
  (x0 : Vec Ideal S2048x2048 .bf16) (x1 x2 : Vec Ideal S256x2048 .bf16) (xo : Vec Ideal S2048x2048 .f32)

/-- The second half's four chunk stores, as the run names them. -/
abbrev pB4_0 := (⟨Rect.unit (s := S2048x2048) ![0, 0] ![2048, 512] inb_S2048x2048_S2048x512_0_0, k4_pay1 (kernelRun4_B.sl.r_4 (F := Ideal) c a1 h1 a2 h2 a3 h3 x0 x1 x2) (kernelRun4_B.sl.v66 (F := Ideal) c a1 h1 a2 h2 a3 h3 a4 h4 x0 x1 x2 xo)⟩ : View.Piece (Elt Ideal) S2048x2048 .f32)
abbrev pB4_1 := (⟨Rect.unit (s := S2048x2048) ![0, 512] ![2048, 512] inb_S2048x2048_S2048x512_0_512, k4_pay2 (kernelRun4_B.sl.r_3 (F := Ideal) c a1 h1 a2 h2 x0 x1) (View.readAt (Elt Ideal) a3.view (Rect.unit (s := S256x2048) ![128, 512] ![128, 512] inb_S256x2048_S128x512_128_512).toLoadRect (h3.unread x2)) (kernelRun4_B.sl.v73 (F := Ideal) c a1 h1 a2 h2 a3 h3 a4 h4 x0 x1 x2 xo)⟩ : View.Piece (Elt Ideal) S2048x2048 .f32)
abbrev pB4_2 := (⟨Rect.unit (s := S2048x2048) ![0, 1024] ![2048, 512] inb_S2048x2048_S2048x512_0_1024, k4_pay3 (kernelRun4_B.sl.r_3 (F := Ideal) c a1 h1 a2 h2 x0 x1) (View.readAt (Elt Ideal) a3.view (Rect.unit (s := S256x2048) ![128, 1024] ![128, 512] inb_S256x2048_S128x512_128_1024).toLoadRect (h3.unread x2)) (kernelRun4_B.sl.v80 (F := Ideal) c a1 h1 a2 h2 a3 h3 a4 h4 x0 x1 x2 xo)⟩ : View.Piece (Elt Ideal) S2048x2048 .f32)
abbrev pB4_3 := (⟨Rect.unit (s := S2048x2048) ![0, 1536] ![2048, 512] inb_S2048x2048_S2048x512_0_1536, k4_pay4 (kernelRun4_B.sl.r_3 (F := Ideal) c a1 h1 a2 h2 x0 x1) (View.readAt (Elt Ideal) a3.view (Rect.unit (s := S256x2048) ![128, 1536] ![128, 512] inb_S256x2048_S128x512_128_1536).toLoadRect (h3.unread x2)) (kernelRun4_B.sl.v87 (F := Ideal) c a1 h1 a2 h2 a3 h3 a4 h4 x0 x1 x2 xo)⟩ : View.Piece (Elt Ideal) S2048x2048 .f32)

/-- Each second-half chunk first loads its chunk; the load reads the contents after the first half (the second-half
    stores made so far miss the chunk, the first half's cover it). -/
theorem v66_B4 : kernelRun4_B.sl.v66 (F := Ideal) c a1 h1 a2 h2 a3 h3 a4 h4 x0 x1 x2 xo
    = fun x => G1_4 x0 x1 x2 xo ((Rect.unit (s := S2048x2048) ![0, 0] ![2048, 512] inb_S2048x2048_S2048x512_0_0).emb x) := by
  unfold kernelRun4_B.sl.v66
  exact readCov_mid' a4.view (G1_4 x0 x1 x2 xo) (kernelRun4_B.sl.H3_4 (F := Ideal) c a1 h1 a2 h2 a3 h3 a4 h4 x0 x1 x2 xo) []
    (H4_blocks_B4 c a1 h1 a2 h2 a3 h3 a4 h4 x0 x1 x2 xo) _ (fun x => H4_cover_B4 c a1 h1 a2 h2 a3 h3 a4 h4 x0 x1 x2 xo (Or.inl rfl) _ x)
    (kernelRun4_B.sl.H3_4 (F := Ideal) c a1 h1 a2 h2 a3 h3 a4 h4 x0 x1 x2 xo) [] (fun p hp => by simp at hp) (by simp)

theorem v73_B4 : kernelRun4_B.sl.v73 (F := Ideal) c a1 h1 a2 h2 a3 h3 a4 h4 x0 x1 x2 xo
    = fun x => G1_4 x0 x1 x2 xo ((Rect.unit (s := S2048x2048) ![0, 512] ![2048, 512] inb_S2048x2048_S2048x512_0_512).emb x) := by
  unfold kernelRun4_B.sl.v73
  refine readCov_mid' a4.view (G1_4 x0 x1 x2 xo) (kernelRun4_B.sl.H3_4 (F := Ideal) c a1 h1 a2 h2 a3 h3 a4 h4 x0 x1 x2 xo) []
    (H4_blocks_B4 c a1 h1 a2 h2 a3 h3 a4 h4 x0 x1 x2 xo) _ (fun x => H4_cover_B4 c a1 h1 a2 h2 a3 h3 a4 h4 x0 x1 x2 xo (Or.inr (Or.inl rfl)) _ x)
    _ [pB4_0 c a1 h1 a2 h2 a3 h3 a4 h4 x0 x1 x2 xo] ?_ ?_
  · intro p hp x
    simp only [List.mem_singleton] at hp; subst hp
    exact notmemC4 ![2048, 512] ![2048, 512] rfl rfl inb_S2048x2048_S2048x512_0_0 inb_S2048x2048_S2048x512_0_512 (Or.inl (by omega)) x
  · unfold kernelRun4_B.sl.H3_5; rfl

theorem v80_B4 : kernelRun4_B.sl.v80 (F := Ideal) c a1 h1 a2 h2 a3 h3 a4 h4 x0 x1 x2 xo
    = fun x => G1_4 x0 x1 x2 xo ((Rect.unit (s := S2048x2048) ![0, 1024] ![2048, 512] inb_S2048x2048_S2048x512_0_1024).emb x) := by
  unfold kernelRun4_B.sl.v80
  refine readCov_mid' a4.view (G1_4 x0 x1 x2 xo) (kernelRun4_B.sl.H3_4 (F := Ideal) c a1 h1 a2 h2 a3 h3 a4 h4 x0 x1 x2 xo) []
    (H4_blocks_B4 c a1 h1 a2 h2 a3 h3 a4 h4 x0 x1 x2 xo) _ (fun x => H4_cover_B4 c a1 h1 a2 h2 a3 h3 a4 h4 x0 x1 x2 xo (Or.inr (Or.inr (Or.inl rfl))) _ x)
    _ [pB4_1 c a1 h1 a2 h2 a3 h3 a4 h4 x0 x1 x2 xo, pB4_0 c a1 h1 a2 h2 a3 h3 a4 h4 x0 x1 x2 xo] ?_ ?_
  · intro p hp x
    simp only [List.mem_cons, List.mem_nil_iff, or_false] at hp
    rcases hp with rfl | rfl
    · exact notmemC4 ![2048, 512] ![2048, 512] rfl rfl inb_S2048x2048_S2048x512_0_512 inb_S2048x2048_S2048x512_0_1024 (Or.inl (by omega)) x
    · exact notmemC4 ![2048, 512] ![2048, 512] rfl rfl inb_S2048x2048_S2048x512_0_0 inb_S2048x2048_S2048x512_0_1024 (Or.inl (by omega)) x
  · unfold kernelRun4_B.sl.H3_6 kernelRun4_B.sl.H3_5; rfl

theorem v87_B4 : kernelRun4_B.sl.v87 (F := Ideal) c a1 h1 a2 h2 a3 h3 a4 h4 x0 x1 x2 xo
    = fun x => G1_4 x0 x1 x2 xo ((Rect.unit (s := S2048x2048) ![0, 1536] ![2048, 512] inb_S2048x2048_S2048x512_0_1536).emb x) := by
  unfold kernelRun4_B.sl.v87
  refine readCov_mid' a4.view (G1_4 x0 x1 x2 xo) (kernelRun4_B.sl.H3_4 (F := Ideal) c a1 h1 a2 h2 a3 h3 a4 h4 x0 x1 x2 xo) []
    (H4_blocks_B4 c a1 h1 a2 h2 a3 h3 a4 h4 x0 x1 x2 xo) _ (fun x => H4_cover_B4 c a1 h1 a2 h2 a3 h3 a4 h4 x0 x1 x2 xo (Or.inr (Or.inr (Or.inr rfl))) _ x)
    _ [pB4_2 c a1 h1 a2 h2 a3 h3 a4 h4 x0 x1 x2 xo, pB4_1 c a1 h1 a2 h2 a3 h3 a4 h4 x0 x1 x2 xo, pB4_0 c a1 h1 a2 h2 a3 h3 a4 h4 x0 x1 x2 xo] ?_ ?_
  · intro p hp x
    simp only [List.mem_cons, List.mem_nil_iff, or_false] at hp
    rcases hp with rfl | rfl | rfl
    · exact notmemC4 ![2048, 512] ![2048, 512] rfl rfl inb_S2048x2048_S2048x512_0_1024 inb_S2048x2048_S2048x512_0_1536 (Or.inl (by omega)) x
    · exact notmemC4 ![2048, 512] ![2048, 512] rfl rfl inb_S2048x2048_S2048x512_0_512 inb_S2048x2048_S2048x512_0_1536 (Or.inl (by omega)) x
    · exact notmemC4 ![2048, 512] ![2048, 512] rfl rfl inb_S2048x2048_S2048x512_0_0 inb_S2048x2048_S2048x512_0_1536 (Or.inl (by omega)) x
  · unfold kernelRun4_B.sl.H3_7 kernelRun4_B.sl.H3_6 kernelRun4_B.sl.H3_5; rfl

end CaseB2

/-- An index whose column lies in a chunk's range is in that chunk. -/
theorem mem_chunk4 {o : Nat} (inb : ∀ a, (![0, o] : Fin 2 → Nat) a + (![2048, 512] : Fin 2 → Nat) a ≤ S2048x2048.size a)
    (y : S2048x2048.Idx) (h : o ≤ (y 1).val ∧ (y 1).val < o + 512) :
    y ∈ (Rect.unit (s := S2048x2048) ![0, o] ![2048, 512] inb).set := by
  rw [Rect.mem_set_unit]
  intro a
  match a with
  | ⟨0, _⟩ => have h0 : (y 0).val < 2048 := (y 0).isLt; change 0 ≤ (y 0).val ∧ (y 0).val < 0 + 2048; omega
  | ⟨1, _⟩ => change o ≤ (y 1).val ∧ (y 1).val < o + 512; exact h

section CaseB3

variable (c : Dev nD) (i : grid4.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond4_0 i)
  (x0 : Vec Ideal S2048x2048 .bf16) (x1 x2 : Vec Ideal S256x2048 .bf16) (xo : Vec Ideal S2048x2048 .f32)

/-- The second half's four chunk stores are the blocks of the contents after the second half. -/
theorem second_blocks_B4 : ∀ p ∈ [pB4_3 c a1 h1 a2 h2 a3 h3 a4 h4 x0 x1 x2 xo, pB4_2 c a1 h1 a2 h2 a3 h3 a4 h4 x0 x1 x2 xo, pB4_1 c a1 h1 a2 h2 a3 h3 a4 h4 x0 x1 x2 xo, pB4_0 c a1 h1 a2 h2 a3 h3 a4 h4 x0 x1 x2 xo],
    ∀ x : p.1.shape.Idx, p.2 x = G2_4 x0 x1 x2 xo (p.1.emb x) := by
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun4_B.sl.r_3 kernelRun4_B.sl.r
    rw [v87_B4]
    simp only [View.readAt_eq_ld, h1.read_unread, h2.read_unread, h3.read_unread, View.ld_unit_zero (S := S2048x2048) hzA4]
    exact (P4.pay4_apply _ _ _ q l).trans (blk_second4 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun4_B.sl.r_3 kernelRun4_B.sl.r
    rw [v80_B4]
    simp only [View.readAt_eq_ld, h1.read_unread, h2.read_unread, h3.read_unread, View.ld_unit_zero (S := S2048x2048) hzA4]
    exact (P4.pay3_apply _ _ _ q l).trans (blk_second4 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun4_B.sl.r_3 kernelRun4_B.sl.r
    rw [v73_B4]
    simp only [View.readAt_eq_ld, h1.read_unread, h2.read_unread, h3.read_unread, View.ld_unit_zero (S := S2048x2048) hzA4]
    exact (P4.pay2_apply _ _ _ q l).trans (blk_second4 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun4_B.sl.r_4 kernelRun4_B.sl.r
    rw [v66_B4]
    simp only [View.readAt_eq_ld, h1.read_unread, h2.read_unread, h3.read_unread, View.ld_unit_zero (S := S2048x2048) hzA4]
    refine (P4.pay1_apply _ _ q l).trans ?_
    refine (congrArg (_ + ·) (P4.pay13_apply _ _ _ q l)).trans ?_
    exact blk_second4 x0 x1 x2 xo (by omega) _ _ q l _ rfl

/-- They tile the buffer: every index is in one of the four chunks. -/
theorem second_cover_B4 (y : S2048x2048.Idx) : ∃ p ∈ [pB4_3 c a1 h1 a2 h2 a3 h3 a4 h4 x0 x1 x2 xo, pB4_2 c a1 h1 a2 h2 a3 h3 a4 h4 x0 x1 x2 xo, pB4_1 c a1 h1 a2 h2 a3 h3 a4 h4 x0 x1 x2 xo, pB4_0 c a1 h1 a2 h2 a3 h3 a4 h4 x0 x1 x2 xo], y ∈ p.1.set := by
  have hy : (y 1).val < 2048 := (y 1).isLt
  by_cases h3 : 1536 ≤ (y 1).val
  · exact ⟨_, List.mem_cons_self, mem_chunk4 inb_S2048x2048_S2048x512_0_1536 y ⟨h3, by omega⟩⟩
  by_cases h2 : 1024 ≤ (y 1).val
  · exact ⟨_, List.mem_cons_of_mem _ List.mem_cons_self, mem_chunk4 inb_S2048x2048_S2048x512_0_1024 y ⟨h2, by omega⟩⟩
  by_cases h1' : 512 ≤ (y 1).val
  · exact ⟨_, List.mem_cons_of_mem _ (List.mem_cons_of_mem _ List.mem_cons_self), mem_chunk4 inb_S2048x2048_S2048x512_0_512 y ⟨h1', by omega⟩⟩
  · exact ⟨_, List.mem_cons_of_mem _ (List.mem_cons_of_mem _ (List.mem_cons_of_mem _ List.mem_cons_self)), mem_chunk4 inb_S2048x2048_S2048x512_0_0 y ⟨by omega, by omega⟩⟩

/-- A LATER POINT's contents: from the contents `xo` the point before left, the buffer ends holding G2. -/
theorem out_B_eq4 : out4_B_3 c i a1 h1 a2 h2 a3 h3 a4 h4 hc x0 x1 x2 xo = G2_4 x0 x1 x2 xo := by
  unfold out4_B_3
  rw [View.read_writes_eq_canon _ _ _ (cover4_B_3 c i a1 h1 a2 h2 a3 h3 a4 h4 hc x0 x1 x2 xo)]
  unfold kernelRun4_B
  dsimp only
  funext y
  show View.canon ([pB4_3 c a1 h1 a2 h2 a3 h3 a4 h4 x0 x1 x2 xo, pB4_2 c a1 h1 a2 h2 a3 h3 a4 h4 x0 x1 x2 xo, pB4_1 c a1 h1 a2 h2 a3 h3 a4 h4 x0 x1 x2 xo, pB4_0 c a1 h1 a2 h2 a3 h3 a4 h4 x0 x1 x2 xo] ++ kernelRun4_B.sl.H3_4 (F := Ideal) c a1 h1 a2 h2 a3 h3 a4 h4 x0 x1 x2 xo) y = _
  exact canon_prefix_apply (G2_4 x0 x1 x2 xo) _ _ (second_blocks_B4 c a1 h1 a2 h2 a3 h3 a4 h4 x0 x1 x2 xo) y
    (second_cover_B4 c a1 h1 a2 h2 a3 h3 a4 h4 x0 x1 x2 xo y)

end CaseB3

/-! ## The first point: the branch taken, the buffer filled with zeros first -/

section CaseA

variable (c : Dev nD) (i : grid4.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : cond4_0 i)
  (x0 : Vec Ideal S2048x2048 .bf16) (x1 x2 : Vec Ideal S256x2048 .bf16)

/-- The zero fill is a block of the zero function, and covers the buffer. -/
theorem hbZ4 (L : List (View.Piece (Elt Ideal) S2048x2048 .f32)) (hL : L = [(⟨Rect.unit (s := S2048x2048) ![0, 0] S2048x2048.size inb_S2048x2048_S2048x2048_0_0, k4_pay5 (F := Ideal)⟩ : View.Piece (Elt Ideal) S2048x2048 .f32)]) :
    ∀ p ∈ L, ∀ x : p.1.shape.Idx, p.2 x = (fun _ : S2048x2048.Idx => (0 : EReal)) (p.1.emb x) := by
  subst hL
  intro p hp x
  simp only [List.mem_singleton] at hp; subst hp
  exact P4.pay5_apply x
theorem covZ4 (L : List (View.Piece (Elt Ideal) S2048x2048 .f32)) (hL : L = [(⟨Rect.unit (s := S2048x2048) ![0, 0] S2048x2048.size inb_S2048x2048_S2048x2048_0_0, k4_pay5 (F := Ideal)⟩ : View.Piece (Elt Ideal) S2048x2048 .f32)]) (y : S2048x2048.Idx) :
    ∃ p ∈ L, y ∈ p.1.set := by
  subst hL
  exact ⟨_, List.mem_singleton_self _, View.mem_set_unit_zero hzA4 inb_S2048x2048_S2048x2048_0_0 y⟩

/-- The first half's loads read zeros: the chunk stores made so far miss the chunk being loaded, the zero fill covers it. -/
theorem v23_A4 : kernelRun4_A.sl.v23 (F := Ideal) c a4 = fun _ => (0 : EReal) := by
  unfold kernelRun4_A.sl.v23
  refine readCov_take a4.view (fun _ : S2048x2048.Idx => (0 : EReal)) (kernelRun4_A.sl.H3_1 (F := Ideal)) 0 1 ?hb (Rect.unit (s := S2048x2048) ![0, 0] S2048x512.size inb_S2048x2048_S2048x512_0_0) ?hcov ?hP
  case hb => exact hbZ4 _ (by unfold kernelRun4_A.sl.H3_1; rfl)
  case hcov => intro x; exact covZ4 _ (by unfold kernelRun4_A.sl.H3_1; rfl) _
  case hP => intro p hp; simp at hp

theorem v30_A4 : kernelRun4_A.sl.v30 (F := Ideal) c a1 h1 a2 h2 a3 h3 a4 x0 x1 x2 = fun _ => (0 : EReal) := by
  unfold kernelRun4_A.sl.v30
  refine readCov_take a4.view (fun _ : S2048x2048.Idx => (0 : EReal)) (kernelRun4_A.sl.H3_2 (F := Ideal) c a1 h1 a2 h2 a3 h3 a4 x0 x1 x2) 1 1 ?hb (Rect.unit (s := S2048x2048) ![0, 512] S2048x512.size inb_S2048x2048_S2048x512_0_512) ?hcov ?hP
  case hb => exact hbZ4 _ (by unfold kernelRun4_A.sl.H3_2 kernelRun4_A.sl.H3_1; rfl)
  case hcov => intro x; exact covZ4 _ (by unfold kernelRun4_A.sl.H3_2 kernelRun4_A.sl.H3_1; rfl) _
  case hP =>
    intro p hp x
    unfold kernelRun4_A.sl.H3_2 at hp
    simp only [List.take_succ_cons, List.take_zero, List.mem_cons, List.mem_nil_iff, or_false] at hp
    rcases hp with rfl
    · exact notmemC4 _ S2048x512.size rfl rfl inb_S2048x2048_S2048x512_0_0 inb_S2048x2048_S2048x512_0_512 (Or.inl (by omega)) x

theorem v37_A4 : kernelRun4_A.sl.v37 (F := Ideal) c a1 h1 a2 h2 a3 h3 a4 x0 x1 x2 = fun _ => (0 : EReal) := by
  unfold kernelRun4_A.sl.v37
  refine readCov_take a4.view (fun _ : S2048x2048.Idx => (0 : EReal)) (kernelRun4_A.sl.H3_3 (F := Ideal) c a1 h1 a2 h2 a3 h3 a4 x0 x1 x2) 2 1 ?hb (Rect.unit (s := S2048x2048) ![0, 1024] S2048x512.size inb_S2048x2048_S2048x512_0_1024) ?hcov ?hP
  case hb => exact hbZ4 _ (by unfold kernelRun4_A.sl.H3_3 kernelRun4_A.sl.H3_2 kernelRun4_A.sl.H3_1; rfl)
  case hcov => intro x; exact covZ4 _ (by unfold kernelRun4_A.sl.H3_3 kernelRun4_A.sl.H3_2 kernelRun4_A.sl.H3_1; rfl) _
  case hP =>
    intro p hp x
    unfold kernelRun4_A.sl.H3_3 kernelRun4_A.sl.H3_2 at hp
    simp only [List.take_succ_cons, List.take_zero, List.mem_cons, List.mem_nil_iff, or_false] at hp
    rcases hp with rfl | rfl
    · exact notmemC4 _ S2048x512.size rfl rfl inb_S2048x2048_S2048x512_0_512 inb_S2048x2048_S2048x512_0_1024 (Or.inl (by omega)) x
    · exact notmemC4 _ S2048x512.size rfl rfl inb_S2048x2048_S2048x512_0_0 inb_S2048x2048_S2048x512_0_1024 (Or.inl (by omega)) x

theorem v44_A4 : kernelRun4_A.sl.v44 (F := Ideal) c a1 h1 a2 h2 a3 h3 a4 x0 x1 x2 = fun _ => (0 : EReal) := by
  unfold kernelRun4_A.sl.v44
  refine readCov_take a4.view (fun _ : S2048x2048.Idx => (0 : EReal)) (kernelRun4_A.sl.H3_4 (F := Ideal) c a1 h1 a2 h2 a3 h3 a4 x0 x1 x2) 3 1 ?hb (Rect.unit (s := S2048x2048) ![0, 1536] S2048x512.size inb_S2048x2048_S2048x512_0_1536) ?hcov ?hP
  case hb => exact hbZ4 _ (by unfold kernelRun4_A.sl.H3_4 kernelRun4_A.sl.H3_3 kernelRun4_A.sl.H3_2 kernelRun4_A.sl.H3_1; rfl)
  case hcov => intro x; exact covZ4 _ (by unfold kernelRun4_A.sl.H3_4 kernelRun4_A.sl.H3_3 kernelRun4_A.sl.H3_2 kernelRun4_A.sl.H3_1; rfl) _
  case hP =>
    intro p hp x
    unfold kernelRun4_A.sl.H3_4 kernelRun4_A.sl.H3_3 kernelRun4_A.sl.H3_2 at hp
    simp only [List.take_succ_cons, List.take_zero, List.mem_cons, List.mem_nil_iff, or_false] at hp
    rcases hp with rfl | rfl | rfl
    · exact notmemC4 _ S2048x512.size rfl rfl inb_S2048x2048_S2048x512_0_1024 inb_S2048x2048_S2048x512_0_1536 (Or.inl (by omega)) x
    · exact notmemC4 _ S2048x512.size rfl rfl inb_S2048x2048_S2048x512_0_512 inb_S2048x2048_S2048x512_0_1536 (Or.inl (by omega)) x
    · exact notmemC4 _ S2048x512.size rfl rfl inb_S2048x2048_S2048x512_0_0 inb_S2048x2048_S2048x512_0_1536 (Or.inl (by omega)) x

/-- The first half's four chunk stores are the blocks of the contents after the first half (from zeros). -/
theorem first_blocks_A4 (L : List (View.Piece (Elt Ideal) S2048x2048 .f32)) (hL : L = ((kernelRun4_A.sl.H3_5 (F := Ideal) c a1 h1 a2 h2 a3 h3 a4 x0 x1 x2)).take 4) :
    ∀ p ∈ L, ∀ x : p.1.shape.Idx, p.2 x = G1_4 x0 x1 x2 (fun _ : S2048x2048.Idx => (0 : EReal)) (p.1.emb x) := by
  subst hL
  unfold kernelRun4_A.sl.H3_5 kernelRun4_A.sl.H3_4 kernelRun4_A.sl.H3_3 kernelRun4_A.sl.H3_2
  intro p hp
  simp only [List.take_succ_cons, List.take_zero, List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun4_A.sl.r_1
    rw [v44_A4]
    simp only [View.readAt_eq_ld, h1.read_unread, h2.read_unread, h3.read_unread, View.ld_unit_zero (S := S2048x2048) hzA4]
    exact (P4.pay11_apply _ _ _ q l).trans (blk_first4 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun4_A.sl.r_1
    rw [v37_A4]
    simp only [View.readAt_eq_ld, h1.read_unread, h2.read_unread, h3.read_unread, View.ld_unit_zero (S := S2048x2048) hzA4]
    exact (P4.pay10_apply _ _ _ q l).trans (blk_first4 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun4_A.sl.r_2
    rw [v30_A4]
    simp only [View.readAt_eq_ld, h1.read_unread, h2.read_unread, h3.read_unread, View.ld_unit_zero (S := S2048x2048) hzA4]
    exact (P4.pay9_apply _ _ _ _ q l).trans (blk_first4 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    rw [v23_A4]
    simp only [View.readAt_eq_ld, h1.read_unread, h2.read_unread, h3.read_unread, View.ld_unit_zero (S := S2048x2048) hzA4]
    exact (P4.pay8_apply _ _ _ _ q l).trans (blk_first4 x0 x1 x2 (fun _ : S2048x2048.Idx => (0 : EReal)) (by omega) _ _ q l)

theorem first_cover_A4 (L : List (View.Piece (Elt Ideal) S2048x2048 .f32)) (hL : L = ((kernelRun4_A.sl.H3_5 (F := Ideal) c a1 h1 a2 h2 a3 h3 a4 x0 x1 x2)).take 4)
    {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ L, (Rect.unit (s := S2048x2048) ![0, o] ![2048, 512] inb).emb x ∈ p.1.set := by
  subst hL
  unfold kernelRun4_A.sl.H3_5 kernelRun4_A.sl.H3_4 kernelRun4_A.sl.H3_3 kernelRun4_A.sl.H3_2
  simp only [List.take_succ_cons, List.take_zero]
  rcases ho with rfl | rfl | rfl | rfl
  · refine ⟨_, List.mem_cons_of_mem _ (List.mem_cons_of_mem _ (List.mem_cons_of_mem _ List.mem_cons_self)), ?_⟩
    exact memC4 S2048x512.size ![2048, 512] rfl rfl inb_S2048x2048_S2048x512_0_0 inb x
  · refine ⟨_, List.mem_cons_of_mem _ (List.mem_cons_of_mem _ List.mem_cons_self), ?_⟩
    exact memC4 S2048x512.size ![2048, 512] rfl rfl inb_S2048x2048_S2048x512_0_512 inb x
  · refine ⟨_, List.mem_cons_of_mem _ List.mem_cons_self, ?_⟩
    exact memC4 S2048x512.size ![2048, 512] rfl rfl inb_S2048x2048_S2048x512_0_1024 inb x
  · refine ⟨_, List.mem_cons_self, ?_⟩
    exact memC4 S2048x512.size ![2048, 512] rfl rfl inb_S2048x2048_S2048x512_0_1536 inb x

/-- The second half's loads read the contents after the first half. -/
theorem v66_A4 : kernelRun4_A.sl.v66 (F := Ideal) c a1 h1 a2 h2 a3 h3 a4 x0 x1 x2
    = fun x => G1_4 x0 x1 x2 (fun _ : S2048x2048.Idx => (0 : EReal)) ((Rect.unit (s := S2048x2048) ![0, 0] ![2048, 512] inb_S2048x2048_S2048x512_0_0).emb x) := by
  unfold kernelRun4_A.sl.v66
  refine readCov_take a4.view (G1_4 x0 x1 x2 (fun _ : S2048x2048.Idx => (0 : EReal))) (kernelRun4_A.sl.H3_5 (F := Ideal) c a1 h1 a2 h2 a3 h3 a4 x0 x1 x2) 0 4 ?hb (Rect.unit (s := S2048x2048) ![0, 0] ![2048, 512] inb_S2048x2048_S2048x512_0_0) ?hcov ?hP
  case hb => exact first_blocks_A4 c a1 h1 a2 h2 a3 h3 a4 x0 x1 x2 _ (by rfl)
  case hcov => intro x; exact first_cover_A4 c a1 h1 a2 h2 a3 h3 a4 x0 x1 x2 _ (by rfl) (Or.inl rfl) _ x
  case hP => intro p hp; simp at hp

theorem v73_A4 : kernelRun4_A.sl.v73 (F := Ideal) c a1 h1 a2 h2 a3 h3 a4 x0 x1 x2
    = fun x => G1_4 x0 x1 x2 (fun _ : S2048x2048.Idx => (0 : EReal)) ((Rect.unit (s := S2048x2048) ![0, 512] ![2048, 512] inb_S2048x2048_S2048x512_0_512).emb x) := by
  unfold kernelRun4_A.sl.v73
  refine readCov_take a4.view (G1_4 x0 x1 x2 (fun _ : S2048x2048.Idx => (0 : EReal))) (kernelRun4_A.sl.H3_6 (F := Ideal) c a1 h1 a2 h2 a3 h3 a4 x0 x1 x2) 1 4 ?hb (Rect.unit (s := S2048x2048) ![0, 512] ![2048, 512] inb_S2048x2048_S2048x512_0_512) ?hcov ?hP
  case hb => exact first_blocks_A4 c a1 h1 a2 h2 a3 h3 a4 x0 x1 x2 _ (by unfold kernelRun4_A.sl.H3_6; rfl)
  case hcov => intro x; exact first_cover_A4 c a1 h1 a2 h2 a3 h3 a4 x0 x1 x2 _ (by unfold kernelRun4_A.sl.H3_6; rfl) (Or.inr (Or.inl rfl)) _ x
  case hP =>
    intro p hp x
    unfold kernelRun4_A.sl.H3_6 at hp
    simp only [List.take_succ_cons, List.take_zero, List.mem_cons, List.mem_nil_iff, or_false] at hp
    rcases hp with rfl
    · exact notmemC4 _ ![2048, 512] rfl rfl inb_S2048x2048_S2048x512_0_0 inb_S2048x2048_S2048x512_0_512 (Or.inl (by omega)) x

theorem v80_A4 : kernelRun4_A.sl.v80 (F := Ideal) c a1 h1 a2 h2 a3 h3 a4 x0 x1 x2
    = fun x => G1_4 x0 x1 x2 (fun _ : S2048x2048.Idx => (0 : EReal)) ((Rect.unit (s := S2048x2048) ![0, 1024] ![2048, 512] inb_S2048x2048_S2048x512_0_1024).emb x) := by
  unfold kernelRun4_A.sl.v80
  refine readCov_take a4.view (G1_4 x0 x1 x2 (fun _ : S2048x2048.Idx => (0 : EReal))) (kernelRun4_A.sl.H3_7 (F := Ideal) c a1 h1 a2 h2 a3 h3 a4 x0 x1 x2) 2 4 ?hb (Rect.unit (s := S2048x2048) ![0, 1024] ![2048, 512] inb_S2048x2048_S2048x512_0_1024) ?hcov ?hP
  case hb => exact first_blocks_A4 c a1 h1 a2 h2 a3 h3 a4 x0 x1 x2 _ (by unfold kernelRun4_A.sl.H3_7 kernelRun4_A.sl.H3_6; rfl)
  case hcov => intro x; exact first_cover_A4 c a1 h1 a2 h2 a3 h3 a4 x0 x1 x2 _ (by unfold kernelRun4_A.sl.H3_7 kernelRun4_A.sl.H3_6; rfl) (Or.inr (Or.inr (Or.inl rfl))) _ x
  case hP =>
    intro p hp x
    unfold kernelRun4_A.sl.H3_7 kernelRun4_A.sl.H3_6 at hp
    simp only [List.take_succ_cons, List.take_zero, List.mem_cons, List.mem_nil_iff, or_false] at hp
    rcases hp with rfl | rfl
    · exact notmemC4 _ ![2048, 512] rfl rfl inb_S2048x2048_S2048x512_0_512 inb_S2048x2048_S2048x512_0_1024 (Or.inl (by omega)) x
    · exact notmemC4 _ ![2048, 512] rfl rfl inb_S2048x2048_S2048x512_0_0 inb_S2048x2048_S2048x512_0_1024 (Or.inl (by omega)) x

theorem v87_A4 : kernelRun4_A.sl.v87 (F := Ideal) c a1 h1 a2 h2 a3 h3 a4 x0 x1 x2
    = fun x => G1_4 x0 x1 x2 (fun _ : S2048x2048.Idx => (0 : EReal)) ((Rect.unit (s := S2048x2048) ![0, 1536] ![2048, 512] inb_S2048x2048_S2048x512_0_1536).emb x) := by
  unfold kernelRun4_A.sl.v87
  refine readCov_take a4.view (G1_4 x0 x1 x2 (fun _ : S2048x2048.Idx => (0 : EReal))) (kernelRun4_A.sl.H3_8 (F := Ideal) c a1 h1 a2 h2 a3 h3 a4 x0 x1 x2) 3 4 ?hb (Rect.unit (s := S2048x2048) ![0, 1536] ![2048, 512] inb_S2048x2048_S2048x512_0_1536) ?hcov ?hP
  case hb => exact first_blocks_A4 c a1 h1 a2 h2 a3 h3 a4 x0 x1 x2 _ (by unfold kernelRun4_A.sl.H3_8 kernelRun4_A.sl.H3_7 kernelRun4_A.sl.H3_6; rfl)
  case hcov => intro x; exact first_cover_A4 c a1 h1 a2 h2 a3 h3 a4 x0 x1 x2 _ (by unfold kernelRun4_A.sl.H3_8 kernelRun4_A.sl.H3_7 kernelRun4_A.sl.H3_6; rfl) (Or.inr (Or.inr (Or.inr rfl))) _ x
  case hP =>
    intro p hp x
    unfold kernelRun4_A.sl.H3_8 kernelRun4_A.sl.H3_7 kernelRun4_A.sl.H3_6 at hp
    simp only [List.take_succ_cons, List.take_zero, List.mem_cons, List.mem_nil_iff, or_false] at hp
    rcases hp with rfl | rfl | rfl
    · exact notmemC4 _ ![2048, 512] rfl rfl inb_S2048x2048_S2048x512_0_1024 inb_S2048x2048_S2048x512_0_1536 (Or.inl (by omega)) x
    · exact notmemC4 _ ![2048, 512] rfl rfl inb_S2048x2048_S2048x512_0_512 inb_S2048x2048_S2048x512_0_1536 (Or.inl (by omega)) x
    · exact notmemC4 _ ![2048, 512] rfl rfl inb_S2048x2048_S2048x512_0_0 inb_S2048x2048_S2048x512_0_1536 (Or.inl (by omega)) x

/-- THE FIRST POINT's contents: from zeros, the buffer ends holding G2. -/
theorem out_A_eq4 : out4_A_3 c i a1 h1 a2 h2 a3 h3 a4 h4 hc x0 x1 x2 = G2_4 x0 x1 x2 (fun _ : S2048x2048.Idx => (0 : EReal)) := by
  unfold out4_A_3
  rw [View.read_writes_eq_canon _ _ _ (cover4_A_3 c i a1 h1 a2 h2 a3 h3 a4 h4 hc x0 x1 x2)]
  unfold kernelRun4_A
  dsimp only
  funext y
  refine canon_take_apply (S := S2048x2048) (e := .f32) (Val := Elt Ideal) (G2_4 x0 x1 x2 (fun _ : S2048x2048.Idx => (0 : EReal))) _ 4 ?hb y ?hy
  case hb =>
    unfold kernelRun4_A.sl.H3_8 kernelRun4_A.sl.H3_7 kernelRun4_A.sl.H3_6
    intro p hp
    simp only [List.take_succ_cons, List.take_zero, List.mem_cons, List.mem_nil_iff, or_false] at hp
    rcases hp with rfl | rfl | rfl | rfl
    · intro x
      obtain ⟨q, l, rfl⟩ : ∃ (q : Fin 2048) (l : Fin 512), x = ix2 q l := ⟨x 0, x 1, eq_ix2 x⟩
      dsimp only
      unfold kernelRun4_A.sl.r_3 kernelRun4_A.sl.r
      rw [v87_A4]
      simp only [View.readAt_eq_ld, h1.read_unread, h2.read_unread, h3.read_unread, View.ld_unit_zero (S := S2048x2048) hzA4]
      exact (P4.pay4_apply _ _ _ q l).trans (blk_second4 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun4_A.sl.r_3 kernelRun4_A.sl.r
      rw [v80_A4]
      simp only [View.readAt_eq_ld, h1.read_unread, h2.read_unread, h3.read_unread, View.ld_unit_zero (S := S2048x2048) hzA4]
      exact (P4.pay3_apply _ _ _ q l).trans (blk_second4 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun4_A.sl.r_3 kernelRun4_A.sl.r
      rw [v73_A4]
      simp only [View.readAt_eq_ld, h1.read_unread, h2.read_unread, h3.read_unread, View.ld_unit_zero (S := S2048x2048) hzA4]
      exact (P4.pay2_apply _ _ _ q l).trans (blk_second4 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun4_A.sl.r_4 kernelRun4_A.sl.r
      rw [v66_A4]
      simp only [View.readAt_eq_ld, h1.read_unread, h2.read_unread, h3.read_unread, View.ld_unit_zero (S := S2048x2048) hzA4]
      refine (P4.pay1_apply _ _ q l).trans ?_
      refine (congrArg (_ + ·) (P4.pay13_apply _ _ _ q l)).trans ?_
      exact blk_second4 x0 x1 x2 (fun _ : S2048x2048.Idx => (0 : EReal)) (by omega) _ _ q l _ rfl
  case hy =>
    unfold kernelRun4_A.sl.H3_8 kernelRun4_A.sl.H3_7 kernelRun4_A.sl.H3_6
    simp only [List.take_succ_cons, List.take_zero]
    have hy : (y 1).val < 2048 := (y 1).isLt
    by_cases h3' : 1536 ≤ (y 1).val
    · exact ⟨_, List.mem_cons_self, mem_chunk4 inb_S2048x2048_S2048x512_0_1536 y ⟨h3', by omega⟩⟩
    by_cases h2' : 1024 ≤ (y 1).val
    · exact ⟨_, List.mem_cons_of_mem _ List.mem_cons_self, mem_chunk4 inb_S2048x2048_S2048x512_0_1024 y ⟨h2', by omega⟩⟩
    by_cases h1' : 512 ≤ (y 1).val
    · exact ⟨_, List.mem_cons_of_mem _ (List.mem_cons_of_mem _ List.mem_cons_self), mem_chunk4 inb_S2048x2048_S2048x512_0_512 y ⟨h1', by omega⟩⟩
    · exact ⟨_, List.mem_cons_of_mem _ (List.mem_cons_of_mem _ (List.mem_cons_of_mem _ List.mem_cons_self)), mem_chunk4 inb_S2048x2048_S2048x512_0_0 y ⟨by omega, by omega⟩⟩

end CaseA

end Cert.KernelIdeal.Fr

end
-- ==== Proof.AttnDefsI5.lean ====
/-
  What attention call 5's body leaves in the output's staging buffer, per case, at the ideal instance.  With x0 the whole
  projected query matrix and x1, x2 the key and value tiles of 256 rows, let A_a(q,k), A_b(q,k) (k < 128) be the attention
  weights of the tile's first and second half of 128 keys.  Starting from contents G0 (zeros at the first point, what
  the point before left at a later one) the first half adds  ∑ₖ A_a(q,k)·x2(k,v)  to entry (q,v), column chunk by
  column chunk, and the second half then adds  ∑ₖ A_b(q,k)·x2(128+k,v):  G1 = G0 + first half, G2 = G1 + second half.
  The first half's four chunk stores are the blocks of G1; each second-half chunk loads its chunk (which reads G1: the
  second-half stores made so far miss it, the first-half stores cover it) and stores the block of G2; the four
  second-half stores tile the buffer, so it ends holding G2 whatever was stored before.
-/
import proofs.«156009_j19851338842369_2_alg».proof.Proof.AttnI5
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

theorem hzA5 : (![0, 0] : Fin 2 → Nat) = fun _ => 0 := funext fun a => by fin_cases a <;> rfl

section Values

variable (x0 : Vec Ideal S2048x2048 .bf16) (x1 x2 : Vec Ideal S256x2048 .bf16)

/-- The tile's first 128 key rows, and its last 128. -/
abbrev rA5 : Rect S256x2048 := Rect.unit (s := S256x2048) ![0, 0] S128x2048.size inb_S256x2048_S128x2048_0_0
abbrev rB5 : Rect S256x2048 := Rect.unit (s := S256x2048) ![128, 0] S128x2048.size inb_S256x2048_S128x2048_128_0

/-- The attention weights of the first and of the second half of the key tile. -/
def Aa5 : FVec Ideal S2048x128 .bf16 := k5_pay7 (F := Ideal) x0 (View.ld x1 rA5)
def Ab5 : FVec Ideal S2048x128 .bf16 := k5_pay12 (F := Ideal) (k5_pay6 (F := Ideal) x0) (View.ld x1 rB5)

/-- The contents after the first half, and after the second, from the contents `G0` the point found. -/
def G1_5 (G0 : Vec Ideal S2048x2048 .f32) : S2048x2048.Idx → EReal := fun y =>
  G0 y + ∑ k : Fin 128, Aa5 x0 x1 (ix2 (⟨(y 0).val, (y 0).isLt⟩ : Fin 2048) k)
    * x2 (ix2 (⟨k.val, by have := k.isLt; omega⟩ : Fin 256) (⟨(y 1).val, (y 1).isLt⟩ : Fin 2048))
def G2_5 (G0 : Vec Ideal S2048x2048 .f32) : S2048x2048.Idx → EReal := fun y =>
  G1_5 x0 x1 x2 G0 y + ∑ k : Fin 128, Ab5 x0 x1 (ix2 (⟨(y 0).val, (y 0).isLt⟩ : Fin 2048) k)
    * x2 (ix2 (⟨128 + k.val, by have := k.isLt; omega⟩ : Fin 256) (⟨(y 1).val, (y 1).isLt⟩ : Fin 2048))

theorem G1_5_ix2 (G0 : Vec Ideal S2048x2048 .f32) (q v : Fin 2048) :
    G1_5 x0 x1 x2 G0 (ix2 q v) = G0 (ix2 q v) + ∑ k : Fin 128, Aa5 x0 x1 (ix2 q k) * x2 (ix2 (⟨k.val, by have := k.isLt; omega⟩ : Fin 256) v) := rfl
theorem G2_5_ix2 (G0 : Vec Ideal S2048x2048 .f32) (q v : Fin 2048) :
    G2_5 x0 x1 x2 G0 (ix2 q v) = G1_5 x0 x1 x2 G0 (ix2 q v) + ∑ k : Fin 128, Ab5 x0 x1 (ix2 q k) * x2 (ix2 (⟨128 + k.val, by have := k.isLt; omega⟩ : Fin 256) v) := rfl

end Values

/-! ## Rectangles: where a chunk's element sits, and which chunks miss which -/

/-- Element (q, l) of the column chunk at offset `o` of the output block is entry (q, o + l). -/
theorem embC5 {o : Nat} (sz : Fin 2 → Nat) (hsz : sz = ![2048, 512]) (inb : ∀ a, (![0, o] : Fin 2 → Nat) a + sz a ≤ S2048x2048.size a)
    (q : Fin 2048) (l : Fin 512) (ho : o + 512 ≤ 2048) (x : (Rect.unit (s := S2048x2048) ![0, o] sz inb).shape.Idx)
    (hx0 : (x 0).val = q.val) (hx1 : (x 1).val = l.val) :
    (Rect.unit (s := S2048x2048) ![0, o] sz inb).emb x = ix2 q (⟨o + l.val, by have := l.isLt; omega⟩ : Fin 2048) := by
  subst hsz
  funext a; apply Fin.ext
  match a with
  | ⟨0, _⟩ => show 0 + 1 * (x 0).val = q.val; omega
  | ⟨1, _⟩ => show o + 1 * (x 1).val = o + l.val; omega

/-- Element (k, l) of the [128, 512] rectangle at offsets (r0, o) of the value tile is entry (r0 + k, o + l). -/
theorem embT5 {r0 o : Nat} (sz : Fin 2 → Nat) (hsz : sz = ![128, 512]) (inb : ∀ a, (![r0, o] : Fin 2 → Nat) a + sz a ≤ S256x2048.size a)
    (k : Fin 128) (l : Fin 512) (hr : r0 + 128 ≤ 256) (ho : o + 512 ≤ 2048) (x : (Rect.unit (s := S256x2048) ![r0, o] sz inb).shape.Idx)
    (hx0 : (x 0).val = k.val) (hx1 : (x 1).val = l.val) :
    (Rect.unit (s := S256x2048) ![r0, o] sz inb).emb x = ix2 (⟨r0 + k.val, by have := k.isLt; omega⟩ : Fin 256) (⟨o + l.val, by have := l.isLt; omega⟩ : Fin 2048) := by
  subst hsz
  funext a; apply Fin.ext
  match a with
  | ⟨0, _⟩ => show r0 + 1 * (x 0).val = r0 + k.val; omega
  | ⟨1, _⟩ => show o + 1 * (x 1).val = o + l.val; omega

/-- An element of the chunk at offset `o'` is outside the chunk at offset `o` when the two do not overlap. -/
theorem notmemC5 {o o' : Nat} (sz sz' : Fin 2 → Nat) (hsz : sz = ![2048, 512]) (hsz' : sz' = ![2048, 512])
    (inb : ∀ a, (![0, o] : Fin 2 → Nat) a + sz a ≤ S2048x2048.size a) (inb' : ∀ a, (![0, o'] : Fin 2 → Nat) a + sz' a ≤ S2048x2048.size a)
    (h : o + 512 ≤ o' ∨ o' + 512 ≤ o) (x : (Rect.unit (s := S2048x2048) ![0, o'] sz' inb').shape.Idx) :
    (Rect.unit (s := S2048x2048) ![0, o'] sz' inb').emb x ∉ (Rect.unit (s := S2048x2048) ![0, o] sz inb).set := by
  subst hsz; subst hsz'
  rw [Rect.mem_set_unit]
  intro hm
  have h1 := hm 1
  have hx : (x 1).val < 512 := (x 1).isLt
  change o ≤ o' + 1 * (x 1).val ∧ o' + 1 * (x 1).val < o + 512 at h1
  omega

/-- An element of a chunk is inside that chunk, however the chunk's size is spelt. -/
theorem memC5 {o : Nat} (sz sz' : Fin 2 → Nat) (hsz : sz = ![2048, 512]) (hsz' : sz' = ![2048, 512])
    (inb : ∀ a, (![0, o] : Fin 2 → Nat) a + sz a ≤ S2048x2048.size a) (inb' : ∀ a, (![0, o] : Fin 2 → Nat) a + sz' a ≤ S2048x2048.size a)
    (x : (Rect.unit (s := S2048x2048) ![0, o] sz' inb').shape.Idx) :
    (Rect.unit (s := S2048x2048) ![0, o] sz' inb').emb x ∈ (Rect.unit (s := S2048x2048) ![0, o] sz inb).set := by
  subst hsz; subst hsz'
  rw [Rect.mem_set_unit]
  intro a
  match a with
  | ⟨0, _⟩ => have hx : (x 0).val < 2048 := (x 0).isLt; change 0 ≤ 0 + 1 * (x 0).val ∧ 0 + 1 * (x 0).val < 0 + 2048; omega
  | ⟨1, _⟩ => have hx : (x 1).val < 512 := (x 1).isLt; change o ≤ o + 1 * (x 1).val ∧ o + 1 * (x 1).val < o + 512; omega

end Cert.KernelIdeal.Fr

end
-- ==== Proof.AttnPayI5.lean ====
/-
  The pure payloads of attention call 5's kernel body, read at an index at the ideal instance: each chunk payload is
  what was loaded from the output chunk plus a contraction over a half tile's 128 keys; each weights payload is the
  column softmax of one half tile of 128 keys against all 2048 queries.
-/
import proofs.«156009_j19851338842369_2_alg».proof.Proof.Gen.KernelIdeal.Skeleton
import proofs.«156009_j19851338842369_2_alg».proof.Proof.AttnMathI
import proofs.«156009_j19851338842369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.Fr.P5

open Cert.KernelIdeal Cert.KernelIdeal.Gen Cert.KernelIdeal.Fr Idealize.ShloMosaic Idealize.ShloMosaic.ValueIdx

/-! ## The chunk payloads -/

theorem pay8_apply (x0 : FVec Ideal S2048x2048 .bf16) (x5 : FVec Ideal S128x2048 .bf16) (x20 : FVec Ideal S128x512 .bf16)
    (x23 : FVec Ideal S2048x512 .f32) (q : Fin 2048) (l : Fin 512) :
    k5_pay8 (F := Ideal) x0 x5 x20 x23 (ix2 q l) = x23 (ix2 q l) + ∑ k : Fin 128, k5_pay7 (F := Ideal) x0 x5 (ix2 q k) * x20 (ix2 k l) := by
  unfold k5_pay8
  simp only [shapeCast_self]
  rw [addf_apply, pv_apply]

theorem pay9_apply (x0 : FVec Ideal S2048x2048 .bf16) (x5 : FVec Ideal S128x2048 .bf16) (x27 : FVec Ideal S128x512 .bf16)
    (x30 : FVec Ideal S2048x512 .f32) (q : Fin 2048) (l : Fin 512) :
    k5_pay9 (F := Ideal) x0 x5 x27 x30 (ix2 q l) = x30 (ix2 q l) + ∑ k : Fin 128, k5_pay7 (F := Ideal) x0 x5 (ix2 q k) * x27 (ix2 k l) := by
  unfold k5_pay9
  simp only [shapeCast_self]
  rw [addf_apply, pv_apply]

theorem pay10_apply (v19 : FVec Ideal S2048x128 .bf16) (x34 : FVec Ideal S128x512 .bf16) (x37 : FVec Ideal S2048x512 .f32)
    (q : Fin 2048) (l : Fin 512) :
    k5_pay10 (F := Ideal) v19 x34 x37 (ix2 q l) = x37 (ix2 q l) + ∑ k : Fin 128, v19 (ix2 q k) * x34 (ix2 k l) := by
  unfold k5_pay10
  simp only [shapeCast_self]
  rw [addf_apply, pv_apply]

theorem pay11_apply (v19 : FVec Ideal S2048x128 .bf16) (x41 : FVec Ideal S128x512 .bf16) (x44 : FVec Ideal S2048x512 .f32)
    (q : Fin 2048) (l : Fin 512) :
    k5_pay11 (F := Ideal) v19 x41 x44 (ix2 q l) = x44 (ix2 q l) + ∑ k : Fin 128, v19 (ix2 q k) * x41 (ix2 k l) := by
  unfold k5_pay11
  simp only [shapeCast_self]
  rw [addf_apply, pv_apply]

theorem pay2_apply (v62 : FVec Ideal S2048x128 .bf16) (x70 : FVec Ideal S128x512 .bf16) (x73 : FVec Ideal S2048x512 .f32)
    (q : Fin 2048) (l : Fin 512) :
    k5_pay2 (F := Ideal) v62 x70 x73 (ix2 q l) = x73 (ix2 q l) + ∑ k : Fin 128, v62 (ix2 q k) * x70 (ix2 k l) := by
  unfold k5_pay2
  simp only [shapeCast_self]
  rw [addf_apply, pv_apply]

theorem pay3_apply (v62 : FVec Ideal S2048x128 .bf16) (x77 : FVec Ideal S128x512 .bf16) (x80 : FVec Ideal S2048x512 .f32)
    (q : Fin 2048) (l : Fin 512) :
    k5_pay3 (F := Ideal) v62 x77 x80 (ix2 q l) = x80 (ix2 q l) + ∑ k : Fin 128, v62 (ix2 q k) * x77 (ix2 k l) := by
  unfold k5_pay3
  simp only [shapeCast_self]
  rw [addf_apply, pv_apply]

theorem pay4_apply (v62 : FVec Ideal S2048x128 .bf16) (x84 : FVec Ideal S128x512 .bf16) (x87 : FVec Ideal S2048x512 .f32)
    (q : Fin 2048) (l : Fin 512) :
    k5_pay4 (F := Ideal) v62 x84 x87 (ix2 q l) = x87 (ix2 q l) + ∑ k : Fin 128, v62 (ix2 q k) * x84 (ix2 k l) := by
  unfold k5_pay4
  simp only [shapeCast_self]
  rw [addf_apply, pv_apply]

theorem pay13_apply (v4 : FVec Ideal S2048x2048 .bf16) (x48 : FVec Ideal S128x2048 .bf16) (x63 : FVec Ideal S128x512 .bf16)
    (q : Fin 2048) (l : Fin 512) :
    k5_pay13 (F := Ideal) v4 x48 x63 (ix2 q l) = ∑ k : Fin 128, k5_pay12 (F := Ideal) v4 x48 (ix2 q k) * x63 (ix2 k l) := by
  unfold k5_pay13
  simp only [shapeCast_self]
  rw [pv_apply]

theorem pay1_apply (v65 : FVec Ideal S2048x512 .f32) (x66 : FVec Ideal S2048x512 .f32) (q : Fin 2048) (l : Fin 512) :
    k5_pay1 (F := Ideal) v65 x66 (ix2 q l) = x66 (ix2 q l) + v65 (ix2 q l) := by
  unfold k5_pay1
  simp only [shapeCast_self]
  rw [addf_apply]

theorem pay5_apply (i : S2048x2048.Idx) : k5_pay5 (F := Ideal) i = 0 := by
  unfold k5_pay5
  exact Ideal.ofBits_zero_f32

/-! ## The weights payloads -/

theorem pay6_eq (v3 : FVec Ideal S2048x2048 .bf16) : k5_pay6 (F := Ideal) v3 = v3 := by
  unfold k5_pay6
  exact shapeCast_self _ _

theorem pay7_eq (x0 : FVec Ideal S2048x2048 .bf16) (x5 : FVec Ideal S128x2048 .bf16) :
    k5_pay7 (F := Ideal) x0 x5 = softV (scoreV x0 x5) := by
  unfold k5_pay7
  rw [pay6_eq]
  simp only [shapeCast_self]
  rfl

theorem pay7_apply (x0 : FVec Ideal S2048x2048 .bf16) (x5 : FVec Ideal S128x2048 .bf16) (q : Fin 2048) (k : Fin 128) :
    k5_pay7 (F := Ideal) x0 x5 (ix2 q k) = softcol x0 x5 q k := by
  rw [pay7_eq, softV_scoreV_apply]

theorem pay12_eq (v4 : FVec Ideal S2048x2048 .bf16) (x48 : FVec Ideal S128x2048 .bf16) :
    k5_pay12 (F := Ideal) v4 x48 = softV (scoreV v4 x48) := by
  unfold k5_pay12
  simp only [shapeCast_self]
  rfl

theorem pay12_apply (v4 : FVec Ideal S2048x2048 .bf16) (x48 : FVec Ideal S128x2048 .bf16) (q : Fin 2048) (k : Fin 128) :
    k5_pay12 (F := Ideal) v4 x48 (ix2 q k) = softcol v4 x48 q k := by
  rw [pay12_eq, softV_scoreV_apply]

end Cert.KernelIdeal.Fr.P5

end
-- ==== Proof.AttnValI5.lean ====
/-
  What attention call 5's body leaves in the output's staging buffer in each of its two cases, read off the pieces the
  body's run found: from contents G0 (zeros at the first point; what the point before left at a later one) the buffer
  ends holding G2 = (G0 + the first 128 keys' contribution) + the last 128 keys' contribution, entry by entry.
-/
import proofs.«156009_j19851338842369_2_alg».proof.Proof.AttnDefsI5
import proofs.«156009_j19851338842369_2_alg».proof.Proof.AttnPayI5
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

/-! ## A chunk's new contents are the block of "old contents + the half tile's contribution" -/

section Blocks

variable (x0 : Vec Ideal S2048x2048 .bf16) (x1 x2 : Vec Ideal S256x2048 .bf16)

/-- First half: what was in the chunk plus the first 128 keys' contribution is the block of G1. -/
theorem blk_first5 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![0, o] : Fin 2 → Nat) a + (![128, 512] : Fin 2 → Nat) a ≤ S256x2048.size a) (q : Fin 2048) (l : Fin 512) :
    View.ld X (Rect.unit (s := S2048x2048) ![0, o] ![2048, 512] inbC) (ix2 q l)
      + ∑ k : Fin 128, k5_pay7 (F := Ideal) x0 (View.ld x1 rA5) (ix2 q k) * View.ld x2 (Rect.unit (s := S256x2048) ![0, o] ![128, 512] inbT) (ix2 k l)
    = G1_5 x0 x1 x2 X ((Rect.unit (s := S2048x2048) ![0, o] ![2048, 512] inbC).emb (ix2 q l)) := by
  rw [embC5 _ rfl inbC q l ho (ix2 q l) rfl rfl, G1_5_ix2]
  unfold Aa5
  refine congrArg₂ (· + ·) ?_ (Finset.sum_congr rfl fun k _ => congrArg (_ * ·) ?_)
  · show X ((Rect.unit (s := S2048x2048) ![0, o] ![2048, 512] inbC).emb (ix2 q l)) = _
    rw [embC5 _ rfl inbC q l ho (ix2 q l) rfl rfl]
  · show x2 ((Rect.unit (s := S256x2048) ![0, o] ![128, 512] inbT).emb (ix2 k l)) = _
    rw [embT5 _ rfl inbT k l (by omega) ho (ix2 k l) rfl rfl]
    exact congrArg (fun r => x2 (ix2 r _)) (Fin.ext (Nat.zero_add _))

/-- Second half: the contents after the first half plus the last 128 keys' contribution is the block of G2. -/
theorem blk_second5 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![128, o] : Fin 2 → Nat) a + (![128, 512] : Fin 2 → Nat) a ≤ S256x2048.size a) (q : Fin 2048) (l : Fin 512)
    (z : EReal) (hz : z = G1_5 x0 x1 x2 X ((Rect.unit (s := S2048x2048) ![0, o] ![2048, 512] inbC).emb (ix2 q l))) :
    z + ∑ k : Fin 128, k5_pay12 (F := Ideal) (k5_pay6 (F := Ideal) x0) (View.ld x1 rB5) (ix2 q k) * View.ld x2 (Rect.unit (s := S256x2048) ![128, o] ![128, 512] inbT) (ix2 k l)
    = G2_5 x0 x1 x2 X ((Rect.unit (s := S2048x2048) ![0, o] ![2048, 512] inbC).emb (ix2 q l)) := by
  subst hz
  rw [embC5 _ rfl inbC q l ho (ix2 q l) rfl rfl, G2_5_ix2]
  unfold Ab5
  refine congrArg₂ (· + ·) rfl (Finset.sum_congr rfl fun k _ => congrArg (_ * ·) ?_)
  show x2 ((Rect.unit (s := S256x2048) ![128, o] ![128, 512] inbT).emb (ix2 k l)) = _
  rw [embT5 _ rfl inbT k l (by omega) ho (ix2 k l) rfl rfl]

end Blocks

/-! ## A later point: the buffer holds `xo`, no branch taken -/

section CaseB

variable (c : Dev nD) (i : grid5.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond5_0 i)
  (x0 : Vec Ideal S2048x2048 .bf16) (x1 x2 : Vec Ideal S256x2048 .bf16) (xo : Vec Ideal S2048x2048 .f32)

/-- The first half's four chunk stores are the blocks of the contents after the first half. -/
theorem H4_blocks_B5 : ∀ p ∈ kernelRun5_B.sl.H3_4 (F := Ideal) c a1 h1 a2 h2 a3 h3 a4 h4 x0 x1 x2 xo, ∀ x : p.1.shape.Idx,
    p.2 x = G1_5 x0 x1 x2 xo (p.1.emb x) := by
  unfold kernelRun5_B.sl.H3_4
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun5_B.sl.r_1 kernelRun5_B.sl.v44
    simp only [View.readAt_eq_ld, h1.read_unread, h2.read_unread, h3.read_unread, h4.read_unread, View.ld_unit_zero (S := S2048x2048) hzA5]
    exact (P5.pay11_apply _ _ _ q l).trans (blk_first5 x0 x1 x2 xo (by omega) _ _ q l)
  · intro x
    obtain ⟨q, l, rfl⟩ : ∃ (q : Fin 2048) (l : Fin 512), x = ix2 q l := ⟨x 0, x 1, eq_ix2 x⟩
    dsimp only
    unfold kernelRun5_B.sl.r_1 kernelRun5_B.sl.v37
    simp only [View.readAt_eq_ld, h1.read_unread, h2.read_unread, h3.read_unread, h4.read_unread, View.ld_unit_zero (S := S2048x2048) hzA5]
    exact (P5.pay10_apply _ _ _ q l).trans (blk_first5 x0 x1 x2 xo (by omega) _ _ q l)
  · intro x
    obtain ⟨q, l, rfl⟩ : ∃ (q : Fin 2048) (l : Fin 512), x = ix2 q l := ⟨x 0, x 1, eq_ix2 x⟩
    dsimp only
    unfold kernelRun5_B.sl.r_2 kernelRun5_B.sl.v30
    simp only [View.readAt_eq_ld, h1.read_unread, h2.read_unread, h3.read_unread, h4.read_unread, View.ld_unit_zero (S := S2048x2048) hzA5]
    exact (P5.pay9_apply _ _ _ _ q l).trans (blk_first5 x0 x1 x2 xo (by omega) _ _ q l)
  · intro x
    obtain ⟨q, l, rfl⟩ : ∃ (q : Fin 2048) (l : Fin 512), x = ix2 q l := ⟨x 0, x 1, eq_ix2 x⟩
    dsimp only
    simp only [View.readAt_eq_ld, h1.read_unread, h2.read_unread, h3.read_unread, h4.read_unread, View.ld_unit_zero (S := S2048x2048) hzA5]
    exact (P5.pay8_apply _ _ _ _ q l).trans (blk_first5 x0 x1 x2 xo (by omega) _ _ q l)

/-- Every element of every column chunk is covered by the first half's stores. -/
theorem H4_cover_B5 {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ kernelRun5_B.sl.H3_4 (F := Ideal) c a1 h1 a2 h2 a3 h3 a4 h4 x0 x1 x2 xo,
      (Rect.unit (s := S2048x2048) ![0, o] ![2048, 512] inb).emb x ∈ p.1.set := by
  unfold kernelRun5_B.sl.H3_4
  rcases ho with rfl | rfl | rfl | rfl
  · refine ⟨_, List.mem_cons_of_mem _ (List.mem_cons_of_mem _ (List.mem_cons_of_mem _ List.mem_cons_self)), ?_⟩
    exact memC5 S2048x512.size ![2048, 512] rfl rfl inb_S2048x2048_S2048x512_0_0 inb x
  · refine ⟨_, List.mem_cons_of_mem _ (List.mem_cons_of_mem _ List.mem_cons_self), ?_⟩
    exact memC5 S2048x512.size ![2048, 512] rfl rfl inb_S2048x2048_S2048x512_0_512 inb x
  · refine ⟨_, List.mem_cons_of_mem _ List.mem_cons_self, ?_⟩
    exact memC5 S2048x512.size ![2048, 512] rfl rfl inb_S2048x2048_S2048x512_0_1024 inb x
  · refine ⟨_, List.mem_cons_self, ?_⟩
    exact memC5 S2048x512.size ![2048, 512] rfl rfl inb_S2048x2048_S2048x512_0_1536 inb x

end CaseB

section CaseB2

variable (c : Dev nD) (i : grid5.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond5_0 i)
  (x0 : Vec Ideal S2048x2048 .bf16) (x1 x2 : Vec Ideal S256x2048 .bf16) (xo : Vec Ideal S2048x2048 .f32)

/-- The second half's four chunk stores, as the run names them. -/
abbrev pB5_0 := (⟨Rect.unit (s := S2048x2048) ![0, 0] ![2048, 512] inb_S2048x2048_S2048x512_0_0, k5_pay1 (kernelRun5_B.sl.r_4 (F := Ideal) c a1 h1 a2 h2 a3 h3 x0 x1 x2) (kernelRun5_B.sl.v66 (F := Ideal) c a1 h1 a2 h2 a3 h3 a4 h4 x0 x1 x2 xo)⟩ : View.Piece (Elt Ideal) S2048x2048 .f32)
abbrev pB5_1 := (⟨Rect.unit (s := S2048x2048) ![0, 512] ![2048, 512] inb_S2048x2048_S2048x512_0_512, k5_pay2 (kernelRun5_B.sl.r_3 (F := Ideal) c a1 h1 a2 h2 x0 x1) (View.readAt (Elt Ideal) a3.view (Rect.unit (s := S256x2048) ![128, 512] ![128, 512] inb_S256x2048_S128x512_128_512).toLoadRect (h3.unread x2)) (kernelRun5_B.sl.v73 (F := Ideal) c a1 h1 a2 h2 a3 h3 a4 h4 x0 x1 x2 xo)⟩ : View.Piece (Elt Ideal) S2048x2048 .f32)
abbrev pB5_2 := (⟨Rect.unit (s := S2048x2048) ![0, 1024] ![2048, 512] inb_S2048x2048_S2048x512_0_1024, k5_pay3 (kernelRun5_B.sl.r_3 (F := Ideal) c a1 h1 a2 h2 x0 x1) (View.readAt (Elt Ideal) a3.view (Rect.unit (s := S256x2048) ![128, 1024] ![128, 512] inb_S256x2048_S128x512_128_1024).toLoadRect (h3.unread x2)) (kernelRun5_B.sl.v80 (F := Ideal) c a1 h1 a2 h2 a3 h3 a4 h4 x0 x1 x2 xo)⟩ : View.Piece (Elt Ideal) S2048x2048 .f32)
abbrev pB5_3 := (⟨Rect.unit (s := S2048x2048) ![0, 1536] ![2048, 512] inb_S2048x2048_S2048x512_0_1536, k5_pay4 (kernelRun5_B.sl.r_3 (F := Ideal) c a1 h1 a2 h2 x0 x1) (View.readAt (Elt Ideal) a3.view (Rect.unit (s := S256x2048) ![128, 1536] ![128, 512] inb_S256x2048_S128x512_128_1536).toLoadRect (h3.unread x2)) (kernelRun5_B.sl.v87 (F := Ideal) c a1 h1 a2 h2 a3 h3 a4 h4 x0 x1 x2 xo)⟩ : View.Piece (Elt Ideal) S2048x2048 .f32)

/-- Each second-half chunk first loads its chunk; the load reads the contents after the first half (the second-half
    stores made so far miss the chunk, the first half's cover it). -/
theorem v66_B5 : kernelRun5_B.sl.v66 (F := Ideal) c a1 h1 a2 h2 a3 h3 a4 h4 x0 x1 x2 xo
    = fun x => G1_5 x0 x1 x2 xo ((Rect.unit (s := S2048x2048) ![0, 0] ![2048, 512] inb_S2048x2048_S2048x512_0_0).emb x) := by
  unfold kernelRun5_B.sl.v66
  exact readCov_mid' a4.view (G1_5 x0 x1 x2 xo) (kernelRun5_B.sl.H3_4 (F := Ideal) c a1 h1 a2 h2 a3 h3 a4 h4 x0 x1 x2 xo) []
    (H4_blocks_B5 c a1 h1 a2 h2 a3 h3 a4 h4 x0 x1 x2 xo) _ (fun x => H4_cover_B5 c a1 h1 a2 h2 a3 h3 a4 h4 x0 x1 x2 xo (Or.inl rfl) _ x)
    (kernelRun5_B.sl.H3_4 (F := Ideal) c a1 h1 a2 h2 a3 h3 a4 h4 x0 x1 x2 xo) [] (fun p hp => by simp at hp) (by simp)

theorem v73_B5 : kernelRun5_B.sl.v73 (F := Ideal) c a1 h1 a2 h2 a3 h3 a4 h4 x0 x1 x2 xo
    = fun x => G1_5 x0 x1 x2 xo ((Rect.unit (s := S2048x2048) ![0, 512] ![2048, 512] inb_S2048x2048_S2048x512_0_512).emb x) := by
  unfold kernelRun5_B.sl.v73
  refine readCov_mid' a4.view (G1_5 x0 x1 x2 xo) (kernelRun5_B.sl.H3_4 (F := Ideal) c a1 h1 a2 h2 a3 h3 a4 h4 x0 x1 x2 xo) []
    (H4_blocks_B5 c a1 h1 a2 h2 a3 h3 a4 h4 x0 x1 x2 xo) _ (fun x => H4_cover_B5 c a1 h1 a2 h2 a3 h3 a4 h4 x0 x1 x2 xo (Or.inr (Or.inl rfl)) _ x)
    _ [pB5_0 c a1 h1 a2 h2 a3 h3 a4 h4 x0 x1 x2 xo] ?_ ?_
  · intro p hp x
    simp only [List.mem_singleton] at hp; subst hp
    exact notmemC5 ![2048, 512] ![2048, 512] rfl rfl inb_S2048x2048_S2048x512_0_0 inb_S2048x2048_S2048x512_0_512 (Or.inl (by omega)) x
  · unfold kernelRun5_B.sl.H3_5; rfl

theorem v80_B5 : kernelRun5_B.sl.v80 (F := Ideal) c a1 h1 a2 h2 a3 h3 a4 h4 x0 x1 x2 xo
    = fun x => G1_5 x0 x1 x2 xo ((Rect.unit (s := S2048x2048) ![0, 1024] ![2048, 512] inb_S2048x2048_S2048x512_0_1024).emb x) := by
  unfold kernelRun5_B.sl.v80
  refine readCov_mid' a4.view (G1_5 x0 x1 x2 xo) (kernelRun5_B.sl.H3_4 (F := Ideal) c a1 h1 a2 h2 a3 h3 a4 h4 x0 x1 x2 xo) []
    (H4_blocks_B5 c a1 h1 a2 h2 a3 h3 a4 h4 x0 x1 x2 xo) _ (fun x => H4_cover_B5 c a1 h1 a2 h2 a3 h3 a4 h4 x0 x1 x2 xo (Or.inr (Or.inr (Or.inl rfl))) _ x)
    _ [pB5_1 c a1 h1 a2 h2 a3 h3 a4 h4 x0 x1 x2 xo, pB5_0 c a1 h1 a2 h2 a3 h3 a4 h4 x0 x1 x2 xo] ?_ ?_
  · intro p hp x
    simp only [List.mem_cons, List.mem_nil_iff, or_false] at hp
    rcases hp with rfl | rfl
    · exact notmemC5 ![2048, 512] ![2048, 512] rfl rfl inb_S2048x2048_S2048x512_0_512 inb_S2048x2048_S2048x512_0_1024 (Or.inl (by omega)) x
    · exact notmemC5 ![2048, 512] ![2048, 512] rfl rfl inb_S2048x2048_S2048x512_0_0 inb_S2048x2048_S2048x512_0_1024 (Or.inl (by omega)) x
  · unfold kernelRun5_B.sl.H3_6 kernelRun5_B.sl.H3_5; rfl

theorem v87_B5 : kernelRun5_B.sl.v87 (F := Ideal) c a1 h1 a2 h2 a3 h3 a4 h4 x0 x1 x2 xo
    = fun x => G1_5 x0 x1 x2 xo ((Rect.unit (s := S2048x2048) ![0, 1536] ![2048, 512] inb_S2048x2048_S2048x512_0_1536).emb x) := by
  unfold kernelRun5_B.sl.v87
  refine readCov_mid' a4.view (G1_5 x0 x1 x2 xo) (kernelRun5_B.sl.H3_4 (F := Ideal) c a1 h1 a2 h2 a3 h3 a4 h4 x0 x1 x2 xo) []
    (H4_blocks_B5 c a1 h1 a2 h2 a3 h3 a4 h4 x0 x1 x2 xo) _ (fun x => H4_cover_B5 c a1 h1 a2 h2 a3 h3 a4 h4 x0 x1 x2 xo (Or.inr (Or.inr (Or.inr rfl))) _ x)
    _ [pB5_2 c a1 h1 a2 h2 a3 h3 a4 h4 x0 x1 x2 xo, pB5_1 c a1 h1 a2 h2 a3 h3 a4 h4 x0 x1 x2 xo, pB5_0 c a1 h1 a2 h2 a3 h3 a4 h4 x0 x1 x2 xo] ?_ ?_
  · intro p hp x
    simp only [List.mem_cons, List.mem_nil_iff, or_false] at hp
    rcases hp with rfl | rfl | rfl
    · exact notmemC5 ![2048, 512] ![2048, 512] rfl rfl inb_S2048x2048_S2048x512_0_1024 inb_S2048x2048_S2048x512_0_1536 (Or.inl (by omega)) x
    · exact notmemC5 ![2048, 512] ![2048, 512] rfl rfl inb_S2048x2048_S2048x512_0_512 inb_S2048x2048_S2048x512_0_1536 (Or.inl (by omega)) x
    · exact notmemC5 ![2048, 512] ![2048, 512] rfl rfl inb_S2048x2048_S2048x512_0_0 inb_S2048x2048_S2048x512_0_1536 (Or.inl (by omega)) x
  · unfold kernelRun5_B.sl.H3_7 kernelRun5_B.sl.H3_6 kernelRun5_B.sl.H3_5; rfl

end CaseB2

/-- An index whose column lies in a chunk's range is in that chunk. -/
theorem mem_chunk5 {o : Nat} (inb : ∀ a, (![0, o] : Fin 2 → Nat) a + (![2048, 512] : Fin 2 → Nat) a ≤ S2048x2048.size a)
    (y : S2048x2048.Idx) (h : o ≤ (y 1).val ∧ (y 1).val < o + 512) :
    y ∈ (Rect.unit (s := S2048x2048) ![0, o] ![2048, 512] inb).set := by
  rw [Rect.mem_set_unit]
  intro a
  match a with
  | ⟨0, _⟩ => have h0 : (y 0).val < 2048 := (y 0).isLt; change 0 ≤ (y 0).val ∧ (y 0).val < 0 + 2048; omega
  | ⟨1, _⟩ => change o ≤ (y 1).val ∧ (y 1).val < o + 512; exact h

section CaseB3

variable (c : Dev nD) (i : grid5.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond5_0 i)
  (x0 : Vec Ideal S2048x2048 .bf16) (x1 x2 : Vec Ideal S256x2048 .bf16) (xo : Vec Ideal S2048x2048 .f32)

/-- The second half's four chunk stores are the blocks of the contents after the second half. -/
theorem second_blocks_B5 : ∀ p ∈ [pB5_3 c a1 h1 a2 h2 a3 h3 a4 h4 x0 x1 x2 xo, pB5_2 c a1 h1 a2 h2 a3 h3 a4 h4 x0 x1 x2 xo, pB5_1 c a1 h1 a2 h2 a3 h3 a4 h4 x0 x1 x2 xo, pB5_0 c a1 h1 a2 h2 a3 h3 a4 h4 x0 x1 x2 xo],
    ∀ x : p.1.shape.Idx, p.2 x = G2_5 x0 x1 x2 xo (p.1.emb x) := by
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun5_B.sl.r_3 kernelRun5_B.sl.r
    rw [v87_B5]
    simp only [View.readAt_eq_ld, h1.read_unread, h2.read_unread, h3.read_unread, View.ld_unit_zero (S := S2048x2048) hzA5]
    exact (P5.pay4_apply _ _ _ q l).trans (blk_second5 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun5_B.sl.r_3 kernelRun5_B.sl.r
    rw [v80_B5]
    simp only [View.readAt_eq_ld, h1.read_unread, h2.read_unread, h3.read_unread, View.ld_unit_zero (S := S2048x2048) hzA5]
    exact (P5.pay3_apply _ _ _ q l).trans (blk_second5 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun5_B.sl.r_3 kernelRun5_B.sl.r
    rw [v73_B5]
    simp only [View.readAt_eq_ld, h1.read_unread, h2.read_unread, h3.read_unread, View.ld_unit_zero (S := S2048x2048) hzA5]
    exact (P5.pay2_apply _ _ _ q l).trans (blk_second5 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun5_B.sl.r_4 kernelRun5_B.sl.r
    rw [v66_B5]
    simp only [View.readAt_eq_ld, h1.read_unread, h2.read_unread, h3.read_unread, View.ld_unit_zero (S := S2048x2048) hzA5]
    refine (P5.pay1_apply _ _ q l).trans ?_
    refine (congrArg (_ + ·) (P5.pay13_apply _ _ _ q l)).trans ?_
    exact blk_second5 x0 x1 x2 xo (by omega) _ _ q l _ rfl

/-- They tile the buffer: every index is in one of the four chunks. -/
theorem second_cover_B5 (y : S2048x2048.Idx) : ∃ p ∈ [pB5_3 c a1 h1 a2 h2 a3 h3 a4 h4 x0 x1 x2 xo, pB5_2 c a1 h1 a2 h2 a3 h3 a4 h4 x0 x1 x2 xo, pB5_1 c a1 h1 a2 h2 a3 h3 a4 h4 x0 x1 x2 xo, pB5_0 c a1 h1 a2 h2 a3 h3 a4 h4 x0 x1 x2 xo], y ∈ p.1.set := by
  have hy : (y 1).val < 2048 := (y 1).isLt
  by_cases h3 : 1536 ≤ (y 1).val
  · exact ⟨_, List.mem_cons_self, mem_chunk5 inb_S2048x2048_S2048x512_0_1536 y ⟨h3, by omega⟩⟩
  by_cases h2 : 1024 ≤ (y 1).val
  · exact ⟨_, List.mem_cons_of_mem _ List.mem_cons_self, mem_chunk5 inb_S2048x2048_S2048x512_0_1024 y ⟨h2, by omega⟩⟩
  by_cases h1' : 512 ≤ (y 1).val
  · exact ⟨_, List.mem_cons_of_mem _ (List.mem_cons_of_mem _ List.mem_cons_self), mem_chunk5 inb_S2048x2048_S2048x512_0_512 y ⟨h1', by omega⟩⟩
  · exact ⟨_, List.mem_cons_of_mem _ (List.mem_cons_of_mem _ (List.mem_cons_of_mem _ List.mem_cons_self)), mem_chunk5 inb_S2048x2048_S2048x512_0_0 y ⟨by omega, by omega⟩⟩

/-- A LATER POINT's contents: from the contents `xo` the point before left, the buffer ends holding G2. -/
theorem out_B_eq5 : out5_B_3 c i a1 h1 a2 h2 a3 h3 a4 h4 hc x0 x1 x2 xo = G2_5 x0 x1 x2 xo := by
  unfold out5_B_3
  rw [View.read_writes_eq_canon _ _ _ (cover5_B_3 c i a1 h1 a2 h2 a3 h3 a4 h4 hc x0 x1 x2 xo)]
  unfold kernelRun5_B
  dsimp only
  funext y
  show View.canon ([pB5_3 c a1 h1 a2 h2 a3 h3 a4 h4 x0 x1 x2 xo, pB5_2 c a1 h1 a2 h2 a3 h3 a4 h4 x0 x1 x2 xo, pB5_1 c a1 h1 a2 h2 a3 h3 a4 h4 x0 x1 x2 xo, pB5_0 c a1 h1 a2 h2 a3 h3 a4 h4 x0 x1 x2 xo] ++ kernelRun5_B.sl.H3_4 (F := Ideal) c a1 h1 a2 h2 a3 h3 a4 h4 x0 x1 x2 xo) y = _
  exact canon_prefix_apply (G2_5 x0 x1 x2 xo) _ _ (second_blocks_B5 c a1 h1 a2 h2 a3 h3 a4 h4 x0 x1 x2 xo) y
    (second_cover_B5 c a1 h1 a2 h2 a3 h3 a4 h4 x0 x1 x2 xo y)

end CaseB3

/-! ## The first point: the branch taken, the buffer filled with zeros first -/

section CaseA

variable (c : Dev nD) (i : grid5.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : cond5_0 i)
  (x0 : Vec Ideal S2048x2048 .bf16) (x1 x2 : Vec Ideal S256x2048 .bf16)

/-- The zero fill is a block of the zero function, and covers the buffer. -/
theorem hbZ5 (L : List (View.Piece (Elt Ideal) S2048x2048 .f32)) (hL : L = [(⟨Rect.unit (s := S2048x2048) ![0, 0] S2048x2048.size inb_S2048x2048_S2048x2048_0_0, k5_pay5 (F := Ideal)⟩ : View.Piece (Elt Ideal) S2048x2048 .f32)]) :
    ∀ p ∈ L, ∀ x : p.1.shape.Idx, p.2 x = (fun _ : S2048x2048.Idx => (0 : EReal)) (p.1.emb x) := by
  subst hL
  intro p hp x
  simp only [List.mem_singleton] at hp; subst hp
  exact P5.pay5_apply x
theorem covZ5 (L : List (View.Piece (Elt Ideal) S2048x2048 .f32)) (hL : L = [(⟨Rect.unit (s := S2048x2048) ![0, 0] S2048x2048.size inb_S2048x2048_S2048x2048_0_0, k5_pay5 (F := Ideal)⟩ : View.Piece (Elt Ideal) S2048x2048 .f32)]) (y : S2048x2048.Idx) :
    ∃ p ∈ L, y ∈ p.1.set := by
  subst hL
  exact ⟨_, List.mem_singleton_self _, View.mem_set_unit_zero hzA5 inb_S2048x2048_S2048x2048_0_0 y⟩

/-- The first half's loads read zeros: the chunk stores made so far miss the chunk being loaded, the zero fill covers it. -/
theorem v23_A5 : kernelRun5_A.sl.v23 (F := Ideal) c a4 = fun _ => (0 : EReal) := by
  unfold kernelRun5_A.sl.v23
  refine readCov_take a4.view (fun _ : S2048x2048.Idx => (0 : EReal)) (kernelRun5_A.sl.H3_1 (F := Ideal)) 0 1 ?hb (Rect.unit (s := S2048x2048) ![0, 0] S2048x512.size inb_S2048x2048_S2048x512_0_0) ?hcov ?hP
  case hb => exact hbZ5 _ (by unfold kernelRun5_A.sl.H3_1; rfl)
  case hcov => intro x; exact covZ5 _ (by unfold kernelRun5_A.sl.H3_1; rfl) _
  case hP => intro p hp; simp at hp

theorem v30_A5 : kernelRun5_A.sl.v30 (F := Ideal) c a1 h1 a2 h2 a3 h3 a4 x0 x1 x2 = fun _ => (0 : EReal) := by
  unfold kernelRun5_A.sl.v30
  refine readCov_take a4.view (fun _ : S2048x2048.Idx => (0 : EReal)) (kernelRun5_A.sl.H3_2 (F := Ideal) c a1 h1 a2 h2 a3 h3 a4 x0 x1 x2) 1 1 ?hb (Rect.unit (s := S2048x2048) ![0, 512] S2048x512.size inb_S2048x2048_S2048x512_0_512) ?hcov ?hP
  case hb => exact hbZ5 _ (by unfold kernelRun5_A.sl.H3_2 kernelRun5_A.sl.H3_1; rfl)
  case hcov => intro x; exact covZ5 _ (by unfold kernelRun5_A.sl.H3_2 kernelRun5_A.sl.H3_1; rfl) _
  case hP =>
    intro p hp x
    unfold kernelRun5_A.sl.H3_2 at hp
    simp only [List.take_succ_cons, List.take_zero, List.mem_cons, List.mem_nil_iff, or_false] at hp
    rcases hp with rfl
    · exact notmemC5 _ S2048x512.size rfl rfl inb_S2048x2048_S2048x512_0_0 inb_S2048x2048_S2048x512_0_512 (Or.inl (by omega)) x

theorem v37_A5 : kernelRun5_A.sl.v37 (F := Ideal) c a1 h1 a2 h2 a3 h3 a4 x0 x1 x2 = fun _ => (0 : EReal) := by
  unfold kernelRun5_A.sl.v37
  refine readCov_take a4.view (fun _ : S2048x2048.Idx => (0 : EReal)) (kernelRun5_A.sl.H3_3 (F := Ideal) c a1 h1 a2 h2 a3 h3 a4 x0 x1 x2) 2 1 ?hb (Rect.unit (s := S2048x2048) ![0, 1024] S2048x512.size inb_S2048x2048_S2048x512_0_1024) ?hcov ?hP
  case hb => exact hbZ5 _ (by unfold kernelRun5_A.sl.H3_3 kernelRun5_A.sl.H3_2 kernelRun5_A.sl.H3_1; rfl)
  case hcov => intro x; exact covZ5 _ (by unfold kernelRun5_A.sl.H3_3 kernelRun5_A.sl.H3_2 kernelRun5_A.sl.H3_1; rfl) _
  case hP =>
    intro p hp x
    unfold kernelRun5_A.sl.H3_3 kernelRun5_A.sl.H3_2 at hp
    simp only [List.take_succ_cons, List.take_zero, List.mem_cons, List.mem_nil_iff, or_false] at hp
    rcases hp with rfl | rfl
    · exact notmemC5 _ S2048x512.size rfl rfl inb_S2048x2048_S2048x512_0_512 inb_S2048x2048_S2048x512_0_1024 (Or.inl (by omega)) x
    · exact notmemC5 _ S2048x512.size rfl rfl inb_S2048x2048_S2048x512_0_0 inb_S2048x2048_S2048x512_0_1024 (Or.inl (by omega)) x

theorem v44_A5 : kernelRun5_A.sl.v44 (F := Ideal) c a1 h1 a2 h2 a3 h3 a4 x0 x1 x2 = fun _ => (0 : EReal) := by
  unfold kernelRun5_A.sl.v44
  refine readCov_take a4.view (fun _ : S2048x2048.Idx => (0 : EReal)) (kernelRun5_A.sl.H3_4 (F := Ideal) c a1 h1 a2 h2 a3 h3 a4 x0 x1 x2) 3 1 ?hb (Rect.unit (s := S2048x2048) ![0, 1536] S2048x512.size inb_S2048x2048_S2048x512_0_1536) ?hcov ?hP
  case hb => exact hbZ5 _ (by unfold kernelRun5_A.sl.H3_4 kernelRun5_A.sl.H3_3 kernelRun5_A.sl.H3_2 kernelRun5_A.sl.H3_1; rfl)
  case hcov => intro x; exact covZ5 _ (by unfold kernelRun5_A.sl.H3_4 kernelRun5_A.sl.H3_3 kernelRun5_A.sl.H3_2 kernelRun5_A.sl.H3_1; rfl) _
  case hP =>
    intro p hp x
    unfold kernelRun5_A.sl.H3_4 kernelRun5_A.sl.H3_3 kernelRun5_A.sl.H3_2 at hp
    simp only [List.take_succ_cons, List.take_zero, List.mem_cons, List.mem_nil_iff, or_false] at hp
    rcases hp with rfl | rfl | rfl
    · exact notmemC5 _ S2048x512.size rfl rfl inb_S2048x2048_S2048x512_0_1024 inb_S2048x2048_S2048x512_0_1536 (Or.inl (by omega)) x
    · exact notmemC5 _ S2048x512.size rfl rfl inb_S2048x2048_S2048x512_0_512 inb_S2048x2048_S2048x512_0_1536 (Or.inl (by omega)) x
    · exact notmemC5 _ S2048x512.size rfl rfl inb_S2048x2048_S2048x512_0_0 inb_S2048x2048_S2048x512_0_1536 (Or.inl (by omega)) x

/-- The first half's four chunk stores are the blocks of the contents after the first half (from zeros). -/
theorem first_blocks_A5 (L : List (View.Piece (Elt Ideal) S2048x2048 .f32)) (hL : L = ((kernelRun5_A.sl.H3_5 (F := Ideal) c a1 h1 a2 h2 a3 h3 a4 x0 x1 x2)).take 4) :
    ∀ p ∈ L, ∀ x : p.1.shape.Idx, p.2 x = G1_5 x0 x1 x2 (fun _ : S2048x2048.Idx => (0 : EReal)) (p.1.emb x) := by
  subst hL
  unfold kernelRun5_A.sl.H3_5 kernelRun5_A.sl.H3_4 kernelRun5_A.sl.H3_3 kernelRun5_A.sl.H3_2
  intro p hp
  simp only [List.take_succ_cons, List.take_zero, List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun5_A.sl.r_1
    rw [v44_A5]
    simp only [View.readAt_eq_ld, h1.read_unread, h2.read_unread, h3.read_unread, View.ld_unit_zero (S := S2048x2048) hzA5]
    exact (P5.pay11_apply _ _ _ q l).trans (blk_first5 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun5_A.sl.r_1
    rw [v37_A5]
    simp only [View.readAt_eq_ld, h1.read_unread, h2.read_unread, h3.read_unread, View.ld_unit_zero (S := S2048x2048) hzA5]
    exact (P5.pay10_apply _ _ _ q l).trans (blk_first5 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun5_A.sl.r_2
    rw [v30_A5]
    simp only [View.readAt_eq_ld, h1.read_unread, h2.read_unread, h3.read_unread, View.ld_unit_zero (S := S2048x2048) hzA5]
    exact (P5.pay9_apply _ _ _ _ q l).trans (blk_first5 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    rw [v23_A5]
    simp only [View.readAt_eq_ld, h1.read_unread, h2.read_unread, h3.read_unread, View.ld_unit_zero (S := S2048x2048) hzA5]
    exact (P5.pay8_apply _ _ _ _ q l).trans (blk_first5 x0 x1 x2 (fun _ : S2048x2048.Idx => (0 : EReal)) (by omega) _ _ q l)

theorem first_cover_A5 (L : List (View.Piece (Elt Ideal) S2048x2048 .f32)) (hL : L = ((kernelRun5_A.sl.H3_5 (F := Ideal) c a1 h1 a2 h2 a3 h3 a4 x0 x1 x2)).take 4)
    {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ L, (Rect.unit (s := S2048x2048) ![0, o] ![2048, 512] inb).emb x ∈ p.1.set := by
  subst hL
  unfold kernelRun5_A.sl.H3_5 kernelRun5_A.sl.H3_4 kernelRun5_A.sl.H3_3 kernelRun5_A.sl.H3_2
  simp only [List.take_succ_cons, List.take_zero]
  rcases ho with rfl | rfl | rfl | rfl
  · refine ⟨_, List.mem_cons_of_mem _ (List.mem_cons_of_mem _ (List.mem_cons_of_mem _ List.mem_cons_self)), ?_⟩
    exact memC5 S2048x512.size ![2048, 512] rfl rfl inb_S2048x2048_S2048x512_0_0 inb x
  · refine ⟨_, List.mem_cons_of_mem _ (List.mem_cons_of_mem _ List.mem_cons_self), ?_⟩
    exact memC5 S2048x512.size ![2048, 512] rfl rfl inb_S2048x2048_S2048x512_0_512 inb x
  · refine ⟨_, List.mem_cons_of_mem _ List.mem_cons_self, ?_⟩
    exact memC5 S2048x512.size ![2048, 512] rfl rfl inb_S2048x2048_S2048x512_0_1024 inb x
  · refine ⟨_, List.mem_cons_self, ?_⟩
    exact memC5 S2048x512.size ![2048, 512] rfl rfl inb_S2048x2048_S2048x512_0_1536 inb x

/-- The second half's loads read the contents after the first half. -/
theorem v66_A5 : kernelRun5_A.sl.v66 (F := Ideal) c a1 h1 a2 h2 a3 h3 a4 x0 x1 x2
    = fun x => G1_5 x0 x1 x2 (fun _ : S2048x2048.Idx => (0 : EReal)) ((Rect.unit (s := S2048x2048) ![0, 0] ![2048, 512] inb_S2048x2048_S2048x512_0_0).emb x) := by
  unfold kernelRun5_A.sl.v66
  refine readCov_take a4.view (G1_5 x0 x1 x2 (fun _ : S2048x2048.Idx => (0 : EReal))) (kernelRun5_A.sl.H3_5 (F := Ideal) c a1 h1 a2 h2 a3 h3 a4 x0 x1 x2) 0 4 ?hb (Rect.unit (s := S2048x2048) ![0, 0] ![2048, 512] inb_S2048x2048_S2048x512_0_0) ?hcov ?hP
  case hb => exact first_blocks_A5 c a1 h1 a2 h2 a3 h3 a4 x0 x1 x2 _ (by rfl)
  case hcov => intro x; exact first_cover_A5 c a1 h1 a2 h2 a3 h3 a4 x0 x1 x2 _ (by rfl) (Or.inl rfl) _ x
  case hP => intro p hp; simp at hp

theorem v73_A5 : kernelRun5_A.sl.v73 (F := Ideal) c a1 h1 a2 h2 a3 h3 a4 x0 x1 x2
    = fun x => G1_5 x0 x1 x2 (fun _ : S2048x2048.Idx => (0 : EReal)) ((Rect.unit (s := S2048x2048) ![0, 512] ![2048, 512] inb_S2048x2048_S2048x512_0_512).emb x) := by
  unfold kernelRun5_A.sl.v73
  refine readCov_take a4.view (G1_5 x0 x1 x2 (fun _ : S2048x2048.Idx => (0 : EReal))) (kernelRun5_A.sl.H3_6 (F := Ideal) c a1 h1 a2 h2 a3 h3 a4 x0 x1 x2) 1 4 ?hb (Rect.unit (s := S2048x2048) ![0, 512] ![2048, 512] inb_S2048x2048_S2048x512_0_512) ?hcov ?hP
  case hb => exact first_blocks_A5 c a1 h1 a2 h2 a3 h3 a4 x0 x1 x2 _ (by unfold kernelRun5_A.sl.H3_6; rfl)
  case hcov => intro x; exact first_cover_A5 c a1 h1 a2 h2 a3 h3 a4 x0 x1 x2 _ (by unfold kernelRun5_A.sl.H3_6; rfl) (Or.inr (Or.inl rfl)) _ x
  case hP =>
    intro p hp x
    unfold kernelRun5_A.sl.H3_6 at hp
    simp only [List.take_succ_cons, List.take_zero, List.mem_cons, List.mem_nil_iff, or_false] at hp
    rcases hp with rfl
    · exact notmemC5 _ ![2048, 512] rfl rfl inb_S2048x2048_S2048x512_0_0 inb_S2048x2048_S2048x512_0_512 (Or.inl (by omega)) x

theorem v80_A5 : kernelRun5_A.sl.v80 (F := Ideal) c a1 h1 a2 h2 a3 h3 a4 x0 x1 x2
    = fun x => G1_5 x0 x1 x2 (fun _ : S2048x2048.Idx => (0 : EReal)) ((Rect.unit (s := S2048x2048) ![0, 1024] ![2048, 512] inb_S2048x2048_S2048x512_0_1024).emb x) := by
  unfold kernelRun5_A.sl.v80
  refine readCov_take a4.view (G1_5 x0 x1 x2 (fun _ : S2048x2048.Idx => (0 : EReal))) (kernelRun5_A.sl.H3_7 (F := Ideal) c a1 h1 a2 h2 a3 h3 a4 x0 x1 x2) 2 4 ?hb (Rect.unit (s := S2048x2048) ![0, 1024] ![2048, 512] inb_S2048x2048_S2048x512_0_1024) ?hcov ?hP
  case hb => exact first_blocks_A5 c a1 h1 a2 h2 a3 h3 a4 x0 x1 x2 _ (by unfold kernelRun5_A.sl.H3_7 kernelRun5_A.sl.H3_6; rfl)
  case hcov => intro x; exact first_cover_A5 c a1 h1 a2 h2 a3 h3 a4 x0 x1 x2 _ (by unfold kernelRun5_A.sl.H3_7 kernelRun5_A.sl.H3_6; rfl) (Or.inr (Or.inr (Or.inl rfl))) _ x
  case hP =>
    intro p hp x
    unfold kernelRun5_A.sl.H3_7 kernelRun5_A.sl.H3_6 at hp
    simp only [List.take_succ_cons, List.take_zero, List.mem_cons, List.mem_nil_iff, or_false] at hp
    rcases hp with rfl | rfl
    · exact notmemC5 _ ![2048, 512] rfl rfl inb_S2048x2048_S2048x512_0_512 inb_S2048x2048_S2048x512_0_1024 (Or.inl (by omega)) x
    · exact notmemC5 _ ![2048, 512] rfl rfl inb_S2048x2048_S2048x512_0_0 inb_S2048x2048_S2048x512_0_1024 (Or.inl (by omega)) x

theorem v87_A5 : kernelRun5_A.sl.v87 (F := Ideal) c a1 h1 a2 h2 a3 h3 a4 x0 x1 x2
    = fun x => G1_5 x0 x1 x2 (fun _ : S2048x2048.Idx => (0 : EReal)) ((Rect.unit (s := S2048x2048) ![0, 1536] ![2048, 512] inb_S2048x2048_S2048x512_0_1536).emb x) := by
  unfold kernelRun5_A.sl.v87
  refine readCov_take a4.view (G1_5 x0 x1 x2 (fun _ : S2048x2048.Idx => (0 : EReal))) (kernelRun5_A.sl.H3_8 (F := Ideal) c a1 h1 a2 h2 a3 h3 a4 x0 x1 x2) 3 4 ?hb (Rect.unit (s := S2048x2048) ![0, 1536] ![2048, 512] inb_S2048x2048_S2048x512_0_1536) ?hcov ?hP
  case hb => exact first_blocks_A5 c a1 h1 a2 h2 a3 h3 a4 x0 x1 x2 _ (by unfold kernelRun5_A.sl.H3_8 kernelRun5_A.sl.H3_7 kernelRun5_A.sl.H3_6; rfl)
  case hcov => intro x; exact first_cover_A5 c a1 h1 a2 h2 a3 h3 a4 x0 x1 x2 _ (by unfold kernelRun5_A.sl.H3_8 kernelRun5_A.sl.H3_7 kernelRun5_A.sl.H3_6; rfl) (Or.inr (Or.inr (Or.inr rfl))) _ x
  case hP =>
    intro p hp x
    unfold kernelRun5_A.sl.H3_8 kernelRun5_A.sl.H3_7 kernelRun5_A.sl.H3_6 at hp
    simp only [List.take_succ_cons, List.take_zero, List.mem_cons, List.mem_nil_iff, or_false] at hp
    rcases hp with rfl | rfl | rfl
    · exact notmemC5 _ ![2048, 512] rfl rfl inb_S2048x2048_S2048x512_0_1024 inb_S2048x2048_S2048x512_0_1536 (Or.inl (by omega)) x
    · exact notmemC5 _ ![2048, 512] rfl rfl inb_S2048x2048_S2048x512_0_512 inb_S2048x2048_S2048x512_0_1536 (Or.inl (by omega)) x
    · exact notmemC5 _ ![2048, 512] rfl rfl inb_S2048x2048_S2048x512_0_0 inb_S2048x2048_S2048x512_0_1536 (Or.inl (by omega)) x

/-- THE FIRST POINT's contents: from zeros, the buffer ends holding G2. -/
theorem out_A_eq5 : out5_A_3 c i a1 h1 a2 h2 a3 h3 a4 h4 hc x0 x1 x2 = G2_5 x0 x1 x2 (fun _ : S2048x2048.Idx => (0 : EReal)) := by
  unfold out5_A_3
  rw [View.read_writes_eq_canon _ _ _ (cover5_A_3 c i a1 h1 a2 h2 a3 h3 a4 h4 hc x0 x1 x2)]
  unfold kernelRun5_A
  dsimp only
  funext y
  refine canon_take_apply (S := S2048x2048) (e := .f32) (Val := Elt Ideal) (G2_5 x0 x1 x2 (fun _ : S2048x2048.Idx => (0 : EReal))) _ 4 ?hb y ?hy
  case hb =>
    unfold kernelRun5_A.sl.H3_8 kernelRun5_A.sl.H3_7 kernelRun5_A.sl.H3_6
    intro p hp
    simp only [List.take_succ_cons, List.take_zero, List.mem_cons, List.mem_nil_iff, or_false] at hp
    rcases hp with rfl | rfl | rfl | rfl
    · intro x
      obtain ⟨q, l, rfl⟩ : ∃ (q : Fin 2048) (l : Fin 512), x = ix2 q l := ⟨x 0, x 1, eq_ix2 x⟩
      dsimp only
      unfold kernelRun5_A.sl.r_3 kernelRun5_A.sl.r
      rw [v87_A5]
      simp only [View.readAt_eq_ld, h1.read_unread, h2.read_unread, h3.read_unread, View.ld_unit_zero (S := S2048x2048) hzA5]
      exact (P5.pay4_apply _ _ _ q l).trans (blk_second5 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun5_A.sl.r_3 kernelRun5_A.sl.r
      rw [v80_A5]
      simp only [View.readAt_eq_ld, h1.read_unread, h2.read_unread, h3.read_unread, View.ld_unit_zero (S := S2048x2048) hzA5]
      exact (P5.pay3_apply _ _ _ q l).trans (blk_second5 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun5_A.sl.r_3 kernelRun5_A.sl.r
      rw [v73_A5]
      simp only [View.readAt_eq_ld, h1.read_unread, h2.read_unread, h3.read_unread, View.ld_unit_zero (S := S2048x2048) hzA5]
      exact (P5.pay2_apply _ _ _ q l).trans (blk_second5 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun5_A.sl.r_4 kernelRun5_A.sl.r
      rw [v66_A5]
      simp only [View.readAt_eq_ld, h1.read_unread, h2.read_unread, h3.read_unread, View.ld_unit_zero (S := S2048x2048) hzA5]
      refine (P5.pay1_apply _ _ q l).trans ?_
      refine (congrArg (_ + ·) (P5.pay13_apply _ _ _ q l)).trans ?_
      exact blk_second5 x0 x1 x2 (fun _ : S2048x2048.Idx => (0 : EReal)) (by omega) _ _ q l _ rfl
  case hy =>
    unfold kernelRun5_A.sl.H3_8 kernelRun5_A.sl.H3_7 kernelRun5_A.sl.H3_6
    simp only [List.take_succ_cons, List.take_zero]
    have hy : (y 1).val < 2048 := (y 1).isLt
    by_cases h3' : 1536 ≤ (y 1).val
    · exact ⟨_, List.mem_cons_self, mem_chunk5 inb_S2048x2048_S2048x512_0_1536 y ⟨h3', by omega⟩⟩
    by_cases h2' : 1024 ≤ (y 1).val
    · exact ⟨_, List.mem_cons_of_mem _ List.mem_cons_self, mem_chunk5 inb_S2048x2048_S2048x512_0_1024 y ⟨h2', by omega⟩⟩
    by_cases h1' : 512 ≤ (y 1).val
    · exact ⟨_, List.mem_cons_of_mem _ (List.mem_cons_of_mem _ List.mem_cons_self), mem_chunk5 inb_S2048x2048_S2048x512_0_512 y ⟨h1', by omega⟩⟩
    · exact ⟨_, List.mem_cons_of_mem _ (List.mem_cons_of_mem _ (List.mem_cons_of_mem _ List.mem_cons_self)), mem_chunk5 inb_S2048x2048_S2048x512_0_0 y ⟨by omega, by omega⟩⟩

end CaseA

end Cert.KernelIdeal.Fr

end
-- ==== Proof.AttnDefsI6.lean ====
/-
  What attention call 6's body leaves in the output's staging buffer, per case, at the ideal instance.  With x0 the whole
  projected query matrix and x1, x2 the key and value tiles of 256 rows, let A_a(q,k), A_b(q,k) (k < 128) be the attention
  weights of the tile's first and second half of 128 keys.  Starting from contents G0 (zeros at the first point, what
  the point before left at a later one) the first half adds  ∑ₖ A_a(q,k)·x2(k,v)  to entry (q,v), column chunk by
  column chunk, and the second half then adds  ∑ₖ A_b(q,k)·x2(128+k,v):  G1 = G0 + first half, G2 = G1 + second half.
  The first half's four chunk stores are the blocks of G1; each second-half chunk loads its chunk (which reads G1: the
  second-half stores made so far miss it, the first-half stores cover it) and stores the block of G2; the four
  second-half stores tile the buffer, so it ends holding G2 whatever was stored before.
-/
import proofs.«156009_j19851338842369_2_alg».proof.Proof.AttnI6
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

theorem hzA6 : (![0, 0] : Fin 2 → Nat) = fun _ => 0 := funext fun a => by fin_cases a <;> rfl

section Values

variable (x0 : Vec Ideal S2048x2048 .bf16) (x1 x2 : Vec Ideal S256x2048 .bf16)

/-- The tile's first 128 key rows, and its last 128. -/
abbrev rA6 : Rect S256x2048 := Rect.unit (s := S256x2048) ![0, 0] S128x2048.size inb_S256x2048_S128x2048_0_0
abbrev rB6 : Rect S256x2048 := Rect.unit (s := S256x2048) ![128, 0] S128x2048.size inb_S256x2048_S128x2048_128_0

/-- The attention weights of the first and of the second half of the key tile. -/
def Aa6 : FVec Ideal S2048x128 .bf16 := k6_pay7 (F := Ideal) x0 (View.ld x1 rA6)
def Ab6 : FVec Ideal S2048x128 .bf16 := k6_pay12 (F := Ideal) (k6_pay6 (F := Ideal) x0) (View.ld x1 rB6)

/-- The contents after the first half, and after the second, from the contents `G0` the point found. -/
def G1_6 (G0 : Vec Ideal S2048x2048 .f32) : S2048x2048.Idx → EReal := fun y =>
  G0 y + ∑ k : Fin 128, Aa6 x0 x1 (ix2 (⟨(y 0).val, (y 0).isLt⟩ : Fin 2048) k)
    * x2 (ix2 (⟨k.val, by have := k.isLt; omega⟩ : Fin 256) (⟨(y 1).val, (y 1).isLt⟩ : Fin 2048))
def G2_6 (G0 : Vec Ideal S2048x2048 .f32) : S2048x2048.Idx → EReal := fun y =>
  G1_6 x0 x1 x2 G0 y + ∑ k : Fin 128, Ab6 x0 x1 (ix2 (⟨(y 0).val, (y 0).isLt⟩ : Fin 2048) k)
    * x2 (ix2 (⟨128 + k.val, by have := k.isLt; omega⟩ : Fin 256) (⟨(y 1).val, (y 1).isLt⟩ : Fin 2048))

theorem G1_6_ix2 (G0 : Vec Ideal S2048x2048 .f32) (q v : Fin 2048) :
    G1_6 x0 x1 x2 G0 (ix2 q v) = G0 (ix2 q v) + ∑ k : Fin 128, Aa6 x0 x1 (ix2 q k) * x2 (ix2 (⟨k.val, by have := k.isLt; omega⟩ : Fin 256) v) := rfl
theorem G2_6_ix2 (G0 : Vec Ideal S2048x2048 .f32) (q v : Fin 2048) :
    G2_6 x0 x1 x2 G0 (ix2 q v) = G1_6 x0 x1 x2 G0 (ix2 q v) + ∑ k : Fin 128, Ab6 x0 x1 (ix2 q k) * x2 (ix2 (⟨128 + k.val, by have := k.isLt; omega⟩ : Fin 256) v) := rfl

end Values

/-! ## Rectangles: where a chunk's element sits, and which chunks miss which -/

/-- Element (q, l) of the column chunk at offset `o` of the output block is entry (q, o + l). -/
theorem embC6 {o : Nat} (sz : Fin 2 → Nat) (hsz : sz = ![2048, 512]) (inb : ∀ a, (![0, o] : Fin 2 → Nat) a + sz a ≤ S2048x2048.size a)
    (q : Fin 2048) (l : Fin 512) (ho : o + 512 ≤ 2048) (x : (Rect.unit (s := S2048x2048) ![0, o] sz inb).shape.Idx)
    (hx0 : (x 0).val = q.val) (hx1 : (x 1).val = l.val) :
    (Rect.unit (s := S2048x2048) ![0, o] sz inb).emb x = ix2 q (⟨o + l.val, by have := l.isLt; omega⟩ : Fin 2048) := by
  subst hsz
  funext a; apply Fin.ext
  match a with
  | ⟨0, _⟩ => show 0 + 1 * (x 0).val = q.val; omega
  | ⟨1, _⟩ => show o + 1 * (x 1).val = o + l.val; omega

/-- Element (k, l) of the [128, 512] rectangle at offsets (r0, o) of the value tile is entry (r0 + k, o + l). -/
theorem embT6 {r0 o : Nat} (sz : Fin 2 → Nat) (hsz : sz = ![128, 512]) (inb : ∀ a, (![r0, o] : Fin 2 → Nat) a + sz a ≤ S256x2048.size a)
    (k : Fin 128) (l : Fin 512) (hr : r0 + 128 ≤ 256) (ho : o + 512 ≤ 2048) (x : (Rect.unit (s := S256x2048) ![r0, o] sz inb).shape.Idx)
    (hx0 : (x 0).val = k.val) (hx1 : (x 1).val = l.val) :
    (Rect.unit (s := S256x2048) ![r0, o] sz inb).emb x = ix2 (⟨r0 + k.val, by have := k.isLt; omega⟩ : Fin 256) (⟨o + l.val, by have := l.isLt; omega⟩ : Fin 2048) := by
  subst hsz
  funext a; apply Fin.ext
  match a with
  | ⟨0, _⟩ => show r0 + 1 * (x 0).val = r0 + k.val; omega
  | ⟨1, _⟩ => show o + 1 * (x 1).val = o + l.val; omega

/-- An element of the chunk at offset `o'` is outside the chunk at offset `o` when the two do not overlap. -/
theorem notmemC6 {o o' : Nat} (sz sz' : Fin 2 → Nat) (hsz : sz = ![2048, 512]) (hsz' : sz' = ![2048, 512])
    (inb : ∀ a, (![0, o] : Fin 2 → Nat) a + sz a ≤ S2048x2048.size a) (inb' : ∀ a, (![0, o'] : Fin 2 → Nat) a + sz' a ≤ S2048x2048.size a)
    (h : o + 512 ≤ o' ∨ o' + 512 ≤ o) (x : (Rect.unit (s := S2048x2048) ![0, o'] sz' inb').shape.Idx) :
    (Rect.unit (s := S2048x2048) ![0, o'] sz' inb').emb x ∉ (Rect.unit (s := S2048x2048) ![0, o] sz inb).set := by
  subst hsz; subst hsz'
  rw [Rect.mem_set_unit]
  intro hm
  have h1 := hm 1
  have hx : (x 1).val < 512 := (x 1).isLt
  change o ≤ o' + 1 * (x 1).val ∧ o' + 1 * (x 1).val < o + 512 at h1
  omega

/-- An element of a chunk is inside that chunk, however the chunk's size is spelt. -/
theorem memC6 {o : Nat} (sz sz' : Fin 2 → Nat) (hsz : sz = ![2048, 512]) (hsz' : sz' = ![2048, 512])
    (inb : ∀ a, (![0, o] : Fin 2 → Nat) a + sz a ≤ S2048x2048.size a) (inb' : ∀ a, (![0, o] : Fin 2 → Nat) a + sz' a ≤ S2048x2048.size a)
    (x : (Rect.unit (s := S2048x2048) ![0, o] sz' inb').shape.Idx) :
    (Rect.unit (s := S2048x2048) ![0, o] sz' inb').emb x ∈ (Rect.unit (s := S2048x2048) ![0, o] sz inb).set := by
  subst hsz; subst hsz'
  rw [Rect.mem_set_unit]
  intro a
  match a with
  | ⟨0, _⟩ => have hx : (x 0).val < 2048 := (x 0).isLt; change 0 ≤ 0 + 1 * (x 0).val ∧ 0 + 1 * (x 0).val < 0 + 2048; omega
  | ⟨1, _⟩ => have hx : (x 1).val < 512 := (x 1).isLt; change o ≤ o + 1 * (x 1).val ∧ o + 1 * (x 1).val < o + 512; omega

end Cert.KernelIdeal.Fr

end
-- ==== Proof.AttnPayI6.lean ====
/-
  The pure payloads of attention call 6's kernel body, read at an index at the ideal instance: each chunk payload is
  what was loaded from the output chunk plus a contraction over a half tile's 128 keys; each weights payload is the
  column softmax of one half tile of 128 keys against all 2048 queries.
-/
import proofs.«156009_j19851338842369_2_alg».proof.Proof.Gen.KernelIdeal.Skeleton
import proofs.«156009_j19851338842369_2_alg».proof.Proof.AttnMathI
import proofs.«156009_j19851338842369_2_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.KernelIdeal.Fr.P6

open Cert.KernelIdeal Cert.KernelIdeal.Gen Cert.KernelIdeal.Fr Idealize.ShloMosaic Idealize.ShloMosaic.ValueIdx

/-! ## The chunk payloads -/

theorem pay8_apply (x0 : FVec Ideal S2048x2048 .bf16) (x5 : FVec Ideal S128x2048 .bf16) (x20 : FVec Ideal S128x512 .bf16)
    (x23 : FVec Ideal S2048x512 .f32) (q : Fin 2048) (l : Fin 512) :
    k6_pay8 (F := Ideal) x0 x5 x20 x23 (ix2 q l) = x23 (ix2 q l) + ∑ k : Fin 128, k6_pay7 (F := Ideal) x0 x5 (ix2 q k) * x20 (ix2 k l) := by
  unfold k6_pay8
  simp only [shapeCast_self]
  rw [addf_apply, pv_apply]

theorem pay9_apply (x0 : FVec Ideal S2048x2048 .bf16) (x5 : FVec Ideal S128x2048 .bf16) (x27 : FVec Ideal S128x512 .bf16)
    (x30 : FVec Ideal S2048x512 .f32) (q : Fin 2048) (l : Fin 512) :
    k6_pay9 (F := Ideal) x0 x5 x27 x30 (ix2 q l) = x30 (ix2 q l) + ∑ k : Fin 128, k6_pay7 (F := Ideal) x0 x5 (ix2 q k) * x27 (ix2 k l) := by
  unfold k6_pay9
  simp only [shapeCast_self]
  rw [addf_apply, pv_apply]

theorem pay10_apply (v19 : FVec Ideal S2048x128 .bf16) (x34 : FVec Ideal S128x512 .bf16) (x37 : FVec Ideal S2048x512 .f32)
    (q : Fin 2048) (l : Fin 512) :
    k6_pay10 (F := Ideal) v19 x34 x37 (ix2 q l) = x37 (ix2 q l) + ∑ k : Fin 128, v19 (ix2 q k) * x34 (ix2 k l) := by
  unfold k6_pay10
  simp only [shapeCast_self]
  rw [addf_apply, pv_apply]

theorem pay11_apply (v19 : FVec Ideal S2048x128 .bf16) (x41 : FVec Ideal S128x512 .bf16) (x44 : FVec Ideal S2048x512 .f32)
    (q : Fin 2048) (l : Fin 512) :
    k6_pay11 (F := Ideal) v19 x41 x44 (ix2 q l) = x44 (ix2 q l) + ∑ k : Fin 128, v19 (ix2 q k) * x41 (ix2 k l) := by
  unfold k6_pay11
  simp only [shapeCast_self]
  rw [addf_apply, pv_apply]

theorem pay2_apply (v62 : FVec Ideal S2048x128 .bf16) (x70 : FVec Ideal S128x512 .bf16) (x73 : FVec Ideal S2048x512 .f32)
    (q : Fin 2048) (l : Fin 512) :
    k6_pay2 (F := Ideal) v62 x70 x73 (ix2 q l) = x73 (ix2 q l) + ∑ k : Fin 128, v62 (ix2 q k) * x70 (ix2 k l) := by
  unfold k6_pay2
  simp only [shapeCast_self]
  rw [addf_apply, pv_apply]

theorem pay3_apply (v62 : FVec Ideal S2048x128 .bf16) (x77 : FVec Ideal S128x512 .bf16) (x80 : FVec Ideal S2048x512 .f32)
    (q : Fin 2048) (l : Fin 512) :
    k6_pay3 (F := Ideal) v62 x77 x80 (ix2 q l) = x80 (ix2 q l) + ∑ k : Fin 128, v62 (ix2 q k) * x77 (ix2 k l) := by
  unfold k6_pay3
  simp only [shapeCast_self]
  rw [addf_apply, pv_apply]

theorem pay4_apply (v62 : FVec Ideal S2048x128 .bf16) (x84 : FVec Ideal S128x512 .bf16) (x87 : FVec Ideal S2048x512 .f32)
    (q : Fin 2048) (l : Fin 512) :
    k6_pay4 (F := Ideal) v62 x84 x87 (ix2 q l) = x87 (ix2 q l) + ∑ k : Fin 128, v62 (ix2 q k) * x84 (ix2 k l) := by
  unfold k6_pay4
  simp only [shapeCast_self]
  rw [addf_apply, pv_apply]

theorem pay13_apply (v4 : FVec Ideal S2048x2048 .bf16) (x48 : FVec Ideal S128x2048 .bf16) (x63 : FVec Ideal S128x512 .bf16)
    (q : Fin 2048) (l : Fin 512) :
    k6_pay13 (F := Ideal) v4 x48 x63 (ix2 q l) = ∑ k : Fin 128, k6_pay12 (F := Ideal) v4 x48 (ix2 q k) * x63 (ix2 k l) := by
  unfold k6_pay13
  simp only [shapeCast_self]
  rw [pv_apply]

theorem pay1_apply (v65 : FVec Ideal S2048x512 .f32) (x66 : FVec Ideal S2048x512 .f32) (q : Fin 2048) (l : Fin 512) :
    k6_pay1 (F := Ideal) v65 x66 (ix2 q l) = x66 (ix2 q l) + v65 (ix2 q l) := by
  unfold k6_pay1
  simp only [shapeCast_self]
  rw [addf_apply]

theorem pay5_apply (i : S2048x2048.Idx) : k6_pay5 (F := Ideal) i = 0 := by
  unfold k6_pay5
  exact Ideal.ofBits_zero_f32

/-! ## The weights payloads -/

theorem pay6_eq (v3 : FVec Ideal S2048x2048 .bf16) : k6_pay6 (F := Ideal) v3 = v3 := by
  unfold k6_pay6
  exact shapeCast_self _ _

theorem pay7_eq (x0 : FVec Ideal S2048x2048 .bf16) (x5 : FVec Ideal S128x2048 .bf16) :
    k6_pay7 (F := Ideal) x0 x5 = softV (scoreV x0 x5) := by
  unfold k6_pay7
  rw [pay6_eq]
  simp only [shapeCast_self]
  rfl

theorem pay7_apply (x0 : FVec Ideal S2048x2048 .bf16) (x5 : FVec Ideal S128x2048 .bf16) (q : Fin 2048) (k : Fin 128) :
    k6_pay7 (F := Ideal) x0 x5 (ix2 q k) = softcol x0 x5 q k := by
  rw [pay7_eq, softV_scoreV_apply]

theorem pay12_eq (v4 : FVec Ideal S2048x2048 .bf16) (x48 : FVec Ideal S128x2048 .bf16) :
    k6_pay12 (F := Ideal) v4 x48 = softV (scoreV v4 x48) := by
  unfold k6_pay12
  simp only [shapeCast_self]
  rfl

theorem pay12_apply (v4 : FVec Ideal S2048x2048 .bf16) (x48 : FVec Ideal S128x2048 .bf16) (q : Fin 2048) (k : Fin 128) :
    k6_pay12 (F := Ideal) v4 x48 (ix2 q k) = softcol v4 x48 q k := by
  rw [pay12_eq, softV_scoreV_apply]

end Cert.KernelIdeal.Fr.P6

end
-- ==== Proof.AttnValI6.lean ====
/-
  What attention call 6's body leaves in the output's staging buffer in each of its two cases, read off the pieces the
  body's run found: from contents G0 (zeros at the first point; what the point before left at a later one) the buffer
  ends holding G2 = (G0 + the first 128 keys' contribution) + the last 128 keys' contribution, entry by entry.
-/
import proofs.«156009_j19851338842369_2_alg».proof.Proof.AttnDefsI6
import proofs.«156009_j19851338842369_2_alg».proof.Proof.AttnPayI6
import proofs.«156009_j19851338842369_2_alg».proof.Proof.LibCanonPrefix
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

open Idealize.ShloMosaic.Tactic Cert.LibCanonPrefix

/-! ## A chunk's new contents are the block of "old contents + the half tile's contribution" -/

section Blocks

variable (x0 : Vec Ideal S2048x2048 .bf16) (x1 x2 : Vec Ideal S256x2048 .bf16)

/-- First half: what was in the chunk plus the first 128 keys' contribution is the block of G1. -/
theorem blk_first6 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![0, o] : Fin 2 → Nat) a + (![128, 512] : Fin 2 → Nat) a ≤ S256x2048.size a) (q : Fin 2048) (l : Fin 512) :
    View.ld X (Rect.unit (s := S2048x2048) ![0, o] ![2048, 512] inbC) (ix2 q l)
      + ∑ k : Fin 128, k6_pay7 (F := Ideal) x0 (View.ld x1 rA6) (ix2 q k) * View.ld x2 (Rect.unit (s := S256x2048) ![0, o] ![128, 512] inbT) (ix2 k l)
    = G1_6 x0 x1 x2 X ((Rect.unit (s := S2048x2048) ![0, o] ![2048, 512] inbC).emb (ix2 q l)) := by
  rw [embC6 _ rfl inbC q l ho (ix2 q l) rfl rfl, G1_6_ix2]
  unfold Aa6
  refine congrArg₂ (· + ·) ?_ (Finset.sum_congr rfl fun k _ => congrArg (_ * ·) ?_)
  · show X ((Rect.unit (s := S2048x2048) ![0, o] ![2048, 512] inbC).emb (ix2 q l)) = _
    rw [embC6 _ rfl inbC q l ho (ix2 q l) rfl rfl]
  · show x2 ((Rect.unit (s := S256x2048) ![0, o] ![128, 512] inbT).emb (ix2 k l)) = _
    rw [embT6 _ rfl inbT k l (by omega) ho (ix2 k l) rfl rfl]
    exact congrArg (fun r => x2 (ix2 r _)) (Fin.ext (Nat.zero_add _))

/-- Second half: the contents after the first half plus the last 128 keys' contribution is the block of G2. -/
theorem blk_second6 (X : Vec Ideal S2048x2048 .f32) {o : Nat} (ho : o + 512 ≤ 2048)
    (inbC : ∀ a, (![0, o] : Fin 2 → Nat) a + (![2048, 512] : Fin 2 → Nat) a ≤ S2048x2048.size a)
    (inbT : ∀ a, (![128, o] : Fin 2 → Nat) a + (![128, 512] : Fin 2 → Nat) a ≤ S256x2048.size a) (q : Fin 2048) (l : Fin 512)
    (z : EReal) (hz : z = G1_6 x0 x1 x2 X ((Rect.unit (s := S2048x2048) ![0, o] ![2048, 512] inbC).emb (ix2 q l))) :
    z + ∑ k : Fin 128, k6_pay12 (F := Ideal) (k6_pay6 (F := Ideal) x0) (View.ld x1 rB6) (ix2 q k) * View.ld x2 (Rect.unit (s := S256x2048) ![128, o] ![128, 512] inbT) (ix2 k l)
    = G2_6 x0 x1 x2 X ((Rect.unit (s := S2048x2048) ![0, o] ![2048, 512] inbC).emb (ix2 q l)) := by
  subst hz
  rw [embC6 _ rfl inbC q l ho (ix2 q l) rfl rfl, G2_6_ix2]
  unfold Ab6
  refine congrArg₂ (· + ·) rfl (Finset.sum_congr rfl fun k _ => congrArg (_ * ·) ?_)
  show x2 ((Rect.unit (s := S256x2048) ![128, o] ![128, 512] inbT).emb (ix2 k l)) = _
  rw [embT6 _ rfl inbT k l (by omega) ho (ix2 k l) rfl rfl]

end Blocks

/-! ## A later point: the buffer holds `xo`, no branch taken -/

section CaseB

variable (c : Dev nD) (i : grid6.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond6_0 i)
  (x0 : Vec Ideal S2048x2048 .bf16) (x1 x2 : Vec Ideal S256x2048 .bf16) (xo : Vec Ideal S2048x2048 .f32)

/-- The first half's four chunk stores are the blocks of the contents after the first half. -/
theorem H4_blocks_B6 : ∀ p ∈ kernelRun6_B.sl.H3_4 (F := Ideal) c a1 h1 a2 h2 a3 h3 a4 h4 x0 x1 x2 xo, ∀ x : p.1.shape.Idx,
    p.2 x = G1_6 x0 x1 x2 xo (p.1.emb x) := by
  unfold kernelRun6_B.sl.H3_4
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun6_B.sl.r_1 kernelRun6_B.sl.v44
    simp only [View.readAt_eq_ld, h1.read_unread, h2.read_unread, h3.read_unread, h4.read_unread, View.ld_unit_zero (S := S2048x2048) hzA6]
    exact (P6.pay11_apply _ _ _ q l).trans (blk_first6 x0 x1 x2 xo (by omega) _ _ q l)
  · intro x
    obtain ⟨q, l, rfl⟩ : ∃ (q : Fin 2048) (l : Fin 512), x = ix2 q l := ⟨x 0, x 1, eq_ix2 x⟩
    dsimp only
    unfold kernelRun6_B.sl.r_1 kernelRun6_B.sl.v37
    simp only [View.readAt_eq_ld, h1.read_unread, h2.read_unread, h3.read_unread, h4.read_unread, View.ld_unit_zero (S := S2048x2048) hzA6]
    exact (P6.pay10_apply _ _ _ q l).trans (blk_first6 x0 x1 x2 xo (by omega) _ _ q l)
  · intro x
    obtain ⟨q, l, rfl⟩ : ∃ (q : Fin 2048) (l : Fin 512), x = ix2 q l := ⟨x 0, x 1, eq_ix2 x⟩
    dsimp only
    unfold kernelRun6_B.sl.r_2 kernelRun6_B.sl.v30
    simp only [View.readAt_eq_ld, h1.read_unread, h2.read_unread, h3.read_unread, h4.read_unread, View.ld_unit_zero (S := S2048x2048) hzA6]
    exact (P6.pay9_apply _ _ _ _ q l).trans (blk_first6 x0 x1 x2 xo (by omega) _ _ q l)
  · intro x
    obtain ⟨q, l, rfl⟩ : ∃ (q : Fin 2048) (l : Fin 512), x = ix2 q l := ⟨x 0, x 1, eq_ix2 x⟩
    dsimp only
    simp only [View.readAt_eq_ld, h1.read_unread, h2.read_unread, h3.read_unread, h4.read_unread, View.ld_unit_zero (S := S2048x2048) hzA6]
    exact (P6.pay8_apply _ _ _ _ q l).trans (blk_first6 x0 x1 x2 xo (by omega) _ _ q l)

/-- Every element of every column chunk is covered by the first half's stores. -/
theorem H4_cover_B6 {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ kernelRun6_B.sl.H3_4 (F := Ideal) c a1 h1 a2 h2 a3 h3 a4 h4 x0 x1 x2 xo,
      (Rect.unit (s := S2048x2048) ![0, o] ![2048, 512] inb).emb x ∈ p.1.set := by
  unfold kernelRun6_B.sl.H3_4
  rcases ho with rfl | rfl | rfl | rfl
  · refine ⟨_, List.mem_cons_of_mem _ (List.mem_cons_of_mem _ (List.mem_cons_of_mem _ List.mem_cons_self)), ?_⟩
    exact memC6 S2048x512.size ![2048, 512] rfl rfl inb_S2048x2048_S2048x512_0_0 inb x
  · refine ⟨_, List.mem_cons_of_mem _ (List.mem_cons_of_mem _ List.mem_cons_self), ?_⟩
    exact memC6 S2048x512.size ![2048, 512] rfl rfl inb_S2048x2048_S2048x512_0_512 inb x
  · refine ⟨_, List.mem_cons_of_mem _ List.mem_cons_self, ?_⟩
    exact memC6 S2048x512.size ![2048, 512] rfl rfl inb_S2048x2048_S2048x512_0_1024 inb x
  · refine ⟨_, List.mem_cons_self, ?_⟩
    exact memC6 S2048x512.size ![2048, 512] rfl rfl inb_S2048x2048_S2048x512_0_1536 inb x

end CaseB

section CaseB2

variable (c : Dev nD) (i : grid6.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond6_0 i)
  (x0 : Vec Ideal S2048x2048 .bf16) (x1 x2 : Vec Ideal S256x2048 .bf16) (xo : Vec Ideal S2048x2048 .f32)

/-- The second half's four chunk stores, as the run names them. -/
abbrev pB6_0 := (⟨Rect.unit (s := S2048x2048) ![0, 0] ![2048, 512] inb_S2048x2048_S2048x512_0_0, k6_pay1 (kernelRun6_B.sl.r_4 (F := Ideal) c a1 h1 a2 h2 a3 h3 x0 x1 x2) (kernelRun6_B.sl.v66 (F := Ideal) c a1 h1 a2 h2 a3 h3 a4 h4 x0 x1 x2 xo)⟩ : View.Piece (Elt Ideal) S2048x2048 .f32)
abbrev pB6_1 := (⟨Rect.unit (s := S2048x2048) ![0, 512] ![2048, 512] inb_S2048x2048_S2048x512_0_512, k6_pay2 (kernelRun6_B.sl.r_3 (F := Ideal) c a1 h1 a2 h2 x0 x1) (View.readAt (Elt Ideal) a3.view (Rect.unit (s := S256x2048) ![128, 512] ![128, 512] inb_S256x2048_S128x512_128_512).toLoadRect (h3.unread x2)) (kernelRun6_B.sl.v73 (F := Ideal) c a1 h1 a2 h2 a3 h3 a4 h4 x0 x1 x2 xo)⟩ : View.Piece (Elt Ideal) S2048x2048 .f32)
abbrev pB6_2 := (⟨Rect.unit (s := S2048x2048) ![0, 1024] ![2048, 512] inb_S2048x2048_S2048x512_0_1024, k6_pay3 (kernelRun6_B.sl.r_3 (F := Ideal) c a1 h1 a2 h2 x0 x1) (View.readAt (Elt Ideal) a3.view (Rect.unit (s := S256x2048) ![128, 1024] ![128, 512] inb_S256x2048_S128x512_128_1024).toLoadRect (h3.unread x2)) (kernelRun6_B.sl.v80 (F := Ideal) c a1 h1 a2 h2 a3 h3 a4 h4 x0 x1 x2 xo)⟩ : View.Piece (Elt Ideal) S2048x2048 .f32)
abbrev pB6_3 := (⟨Rect.unit (s := S2048x2048) ![0, 1536] ![2048, 512] inb_S2048x2048_S2048x512_0_1536, k6_pay4 (kernelRun6_B.sl.r_3 (F := Ideal) c a1 h1 a2 h2 x0 x1) (View.readAt (Elt Ideal) a3.view (Rect.unit (s := S256x2048) ![128, 1536] ![128, 512] inb_S256x2048_S128x512_128_1536).toLoadRect (h3.unread x2)) (kernelRun6_B.sl.v87 (F := Ideal) c a1 h1 a2 h2 a3 h3 a4 h4 x0 x1 x2 xo)⟩ : View.Piece (Elt Ideal) S2048x2048 .f32)

/-- Each second-half chunk first loads its chunk; the load reads the contents after the first half (the second-half
    stores made so far miss the chunk, the first half's cover it). -/
theorem v66_B6 : kernelRun6_B.sl.v66 (F := Ideal) c a1 h1 a2 h2 a3 h3 a4 h4 x0 x1 x2 xo
    = fun x => G1_6 x0 x1 x2 xo ((Rect.unit (s := S2048x2048) ![0, 0] ![2048, 512] inb_S2048x2048_S2048x512_0_0).emb x) := by
  unfold kernelRun6_B.sl.v66
  exact readCov_mid' a4.view (G1_6 x0 x1 x2 xo) (kernelRun6_B.sl.H3_4 (F := Ideal) c a1 h1 a2 h2 a3 h3 a4 h4 x0 x1 x2 xo) []
    (H4_blocks_B6 c a1 h1 a2 h2 a3 h3 a4 h4 x0 x1 x2 xo) _ (fun x => H4_cover_B6 c a1 h1 a2 h2 a3 h3 a4 h4 x0 x1 x2 xo (Or.inl rfl) _ x)
    (kernelRun6_B.sl.H3_4 (F := Ideal) c a1 h1 a2 h2 a3 h3 a4 h4 x0 x1 x2 xo) [] (fun p hp => by simp at hp) (by simp)

theorem v73_B6 : kernelRun6_B.sl.v73 (F := Ideal) c a1 h1 a2 h2 a3 h3 a4 h4 x0 x1 x2 xo
    = fun x => G1_6 x0 x1 x2 xo ((Rect.unit (s := S2048x2048) ![0, 512] ![2048, 512] inb_S2048x2048_S2048x512_0_512).emb x) := by
  unfold kernelRun6_B.sl.v73
  refine readCov_mid' a4.view (G1_6 x0 x1 x2 xo) (kernelRun6_B.sl.H3_4 (F := Ideal) c a1 h1 a2 h2 a3 h3 a4 h4 x0 x1 x2 xo) []
    (H4_blocks_B6 c a1 h1 a2 h2 a3 h3 a4 h4 x0 x1 x2 xo) _ (fun x => H4_cover_B6 c a1 h1 a2 h2 a3 h3 a4 h4 x0 x1 x2 xo (Or.inr (Or.inl rfl)) _ x)
    _ [pB6_0 c a1 h1 a2 h2 a3 h3 a4 h4 x0 x1 x2 xo] ?_ ?_
  · intro p hp x
    simp only [List.mem_singleton] at hp; subst hp
    exact notmemC6 ![2048, 512] ![2048, 512] rfl rfl inb_S2048x2048_S2048x512_0_0 inb_S2048x2048_S2048x512_0_512 (Or.inl (by omega)) x
  · unfold kernelRun6_B.sl.H3_5; rfl

theorem v80_B6 : kernelRun6_B.sl.v80 (F := Ideal) c a1 h1 a2 h2 a3 h3 a4 h4 x0 x1 x2 xo
    = fun x => G1_6 x0 x1 x2 xo ((Rect.unit (s := S2048x2048) ![0, 1024] ![2048, 512] inb_S2048x2048_S2048x512_0_1024).emb x) := by
  unfold kernelRun6_B.sl.v80
  refine readCov_mid' a4.view (G1_6 x0 x1 x2 xo) (kernelRun6_B.sl.H3_4 (F := Ideal) c a1 h1 a2 h2 a3 h3 a4 h4 x0 x1 x2 xo) []
    (H4_blocks_B6 c a1 h1 a2 h2 a3 h3 a4 h4 x0 x1 x2 xo) _ (fun x => H4_cover_B6 c a1 h1 a2 h2 a3 h3 a4 h4 x0 x1 x2 xo (Or.inr (Or.inr (Or.inl rfl))) _ x)
    _ [pB6_1 c a1 h1 a2 h2 a3 h3 a4 h4 x0 x1 x2 xo, pB6_0 c a1 h1 a2 h2 a3 h3 a4 h4 x0 x1 x2 xo] ?_ ?_
  · intro p hp x
    simp only [List.mem_cons, List.mem_nil_iff, or_false] at hp
    rcases hp with rfl | rfl
    · exact notmemC6 ![2048, 512] ![2048, 512] rfl rfl inb_S2048x2048_S2048x512_0_512 inb_S2048x2048_S2048x512_0_1024 (Or.inl (by omega)) x
    · exact notmemC6 ![2048, 512] ![2048, 512] rfl rfl inb_S2048x2048_S2048x512_0_0 inb_S2048x2048_S2048x512_0_1024 (Or.inl (by omega)) x
  · unfold kernelRun6_B.sl.H3_6 kernelRun6_B.sl.H3_5; rfl

theorem v87_B6 : kernelRun6_B.sl.v87 (F := Ideal) c a1 h1 a2 h2 a3 h3 a4 h4 x0 x1 x2 xo
    = fun x => G1_6 x0 x1 x2 xo ((Rect.unit (s := S2048x2048) ![0, 1536] ![2048, 512] inb_S2048x2048_S2048x512_0_1536).emb x) := by
  unfold kernelRun6_B.sl.v87
  refine readCov_mid' a4.view (G1_6 x0 x1 x2 xo) (kernelRun6_B.sl.H3_4 (F := Ideal) c a1 h1 a2 h2 a3 h3 a4 h4 x0 x1 x2 xo) []
    (H4_blocks_B6 c a1 h1 a2 h2 a3 h3 a4 h4 x0 x1 x2 xo) _ (fun x => H4_cover_B6 c a1 h1 a2 h2 a3 h3 a4 h4 x0 x1 x2 xo (Or.inr (Or.inr (Or.inr rfl))) _ x)
    _ [pB6_2 c a1 h1 a2 h2 a3 h3 a4 h4 x0 x1 x2 xo, pB6_1 c a1 h1 a2 h2 a3 h3 a4 h4 x0 x1 x2 xo, pB6_0 c a1 h1 a2 h2 a3 h3 a4 h4 x0 x1 x2 xo] ?_ ?_
  · intro p hp x
    simp only [List.mem_cons, List.mem_nil_iff, or_false] at hp
    rcases hp with rfl | rfl | rfl
    · exact notmemC6 ![2048, 512] ![2048, 512] rfl rfl inb_S2048x2048_S2048x512_0_1024 inb_S2048x2048_S2048x512_0_1536 (Or.inl (by omega)) x
    · exact notmemC6 ![2048, 512] ![2048, 512] rfl rfl inb_S2048x2048_S2048x512_0_512 inb_S2048x2048_S2048x512_0_1536 (Or.inl (by omega)) x
    · exact notmemC6 ![2048, 512] ![2048, 512] rfl rfl inb_S2048x2048_S2048x512_0_0 inb_S2048x2048_S2048x512_0_1536 (Or.inl (by omega)) x
  · unfold kernelRun6_B.sl.H3_7 kernelRun6_B.sl.H3_6 kernelRun6_B.sl.H3_5; rfl

end CaseB2

/-- An index whose column lies in a chunk's range is in that chunk. -/
theorem mem_chunk6 {o : Nat} (inb : ∀ a, (![0, o] : Fin 2 → Nat) a + (![2048, 512] : Fin 2 → Nat) a ≤ S2048x2048.size a)
    (y : S2048x2048.Idx) (h : o ≤ (y 1).val ∧ (y 1).val < o + 512) :
    y ∈ (Rect.unit (s := S2048x2048) ![0, o] ![2048, 512] inb).set := by
  rw [Rect.mem_set_unit]
  intro a
  match a with
  | ⟨0, _⟩ => have h0 : (y 0).val < 2048 := (y 0).isLt; change 0 ≤ (y 0).val ∧ (y 0).val < 0 + 2048; omega
  | ⟨1, _⟩ => change o ≤ (y 1).val ∧ (y 1).val < o + 512; exact h

section CaseB3

variable (c : Dev nD) (i : grid6.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : ¬cond6_0 i)
  (x0 : Vec Ideal S2048x2048 .bf16) (x1 x2 : Vec Ideal S256x2048 .bf16) (xo : Vec Ideal S2048x2048 .f32)

/-- The second half's four chunk stores are the blocks of the contents after the second half. -/
theorem second_blocks_B6 : ∀ p ∈ [pB6_3 c a1 h1 a2 h2 a3 h3 a4 h4 x0 x1 x2 xo, pB6_2 c a1 h1 a2 h2 a3 h3 a4 h4 x0 x1 x2 xo, pB6_1 c a1 h1 a2 h2 a3 h3 a4 h4 x0 x1 x2 xo, pB6_0 c a1 h1 a2 h2 a3 h3 a4 h4 x0 x1 x2 xo],
    ∀ x : p.1.shape.Idx, p.2 x = G2_6 x0 x1 x2 xo (p.1.emb x) := by
  intro p hp
  simp only [List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun6_B.sl.r_3 kernelRun6_B.sl.r
    rw [v87_B6]
    simp only [View.readAt_eq_ld, h1.read_unread, h2.read_unread, h3.read_unread, View.ld_unit_zero (S := S2048x2048) hzA6]
    exact (P6.pay4_apply _ _ _ q l).trans (blk_second6 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun6_B.sl.r_3 kernelRun6_B.sl.r
    rw [v80_B6]
    simp only [View.readAt_eq_ld, h1.read_unread, h2.read_unread, h3.read_unread, View.ld_unit_zero (S := S2048x2048) hzA6]
    exact (P6.pay3_apply _ _ _ q l).trans (blk_second6 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun6_B.sl.r_3 kernelRun6_B.sl.r
    rw [v73_B6]
    simp only [View.readAt_eq_ld, h1.read_unread, h2.read_unread, h3.read_unread, View.ld_unit_zero (S := S2048x2048) hzA6]
    exact (P6.pay2_apply _ _ _ q l).trans (blk_second6 x0 x1 x2 xo (by omega) _ _ q l _ rfl)
  · intro x
    obtain ⟨q, l, rfl⟩ : ∃ (q : Fin 2048) (l : Fin 512), x = ix2 q l := ⟨x 0, x 1, eq_ix2 x⟩
    dsimp only
    unfold kernelRun6_B.sl.r_4 kernelRun6_B.sl.r
    rw [v66_B6]
    simp only [View.readAt_eq_ld, h1.read_unread, h2.read_unread, h3.read_unread, View.ld_unit_zero (S := S2048x2048) hzA6]
    refine (P6.pay1_apply _ _ q l).trans ?_
    refine (congrArg (_ + ·) (P6.pay13_apply _ _ _ q l)).trans ?_
    exact blk_second6 x0 x1 x2 xo (by omega) _ _ q l _ rfl

/-- They tile the buffer: every index is in one of the four chunks. -/
theorem second_cover_B6 (y : S2048x2048.Idx) : ∃ p ∈ [pB6_3 c a1 h1 a2 h2 a3 h3 a4 h4 x0 x1 x2 xo, pB6_2 c a1 h1 a2 h2 a3 h3 a4 h4 x0 x1 x2 xo, pB6_1 c a1 h1 a2 h2 a3 h3 a4 h4 x0 x1 x2 xo, pB6_0 c a1 h1 a2 h2 a3 h3 a4 h4 x0 x1 x2 xo], y ∈ p.1.set := by
  have hy : (y 1).val < 2048 := (y 1).isLt
  by_cases h3 : 1536 ≤ (y 1).val
  · exact ⟨_, List.mem_cons_self, mem_chunk6 inb_S2048x2048_S2048x512_0_1536 y ⟨h3, by omega⟩⟩
  by_cases h2 : 1024 ≤ (y 1).val
  · exact ⟨_, List.mem_cons_of_mem _ List.mem_cons_self, mem_chunk6 inb_S2048x2048_S2048x512_0_1024 y ⟨h2, by omega⟩⟩
  by_cases h1' : 512 ≤ (y 1).val
  · exact ⟨_, List.mem_cons_of_mem _ (List.mem_cons_of_mem _ List.mem_cons_self), mem_chunk6 inb_S2048x2048_S2048x512_0_512 y ⟨h1', by omega⟩⟩
  · exact ⟨_, List.mem_cons_of_mem _ (List.mem_cons_of_mem _ (List.mem_cons_of_mem _ List.mem_cons_self)), mem_chunk6 inb_S2048x2048_S2048x512_0_0 y ⟨by omega, by omega⟩⟩

/-- A LATER POINT's contents: from the contents `xo` the point before left, the buffer ends holding G2. -/
theorem out_B_eq6 : out6_B_3 c i a1 h1 a2 h2 a3 h3 a4 h4 hc x0 x1 x2 xo = G2_6 x0 x1 x2 xo := by
  unfold out6_B_3
  rw [View.read_writes_eq_canon _ _ _ (cover6_B_3 c i a1 h1 a2 h2 a3 h3 a4 h4 hc x0 x1 x2 xo)]
  unfold kernelRun6_B
  dsimp only
  funext y
  show View.canon ([pB6_3 c a1 h1 a2 h2 a3 h3 a4 h4 x0 x1 x2 xo, pB6_2 c a1 h1 a2 h2 a3 h3 a4 h4 x0 x1 x2 xo, pB6_1 c a1 h1 a2 h2 a3 h3 a4 h4 x0 x1 x2 xo, pB6_0 c a1 h1 a2 h2 a3 h3 a4 h4 x0 x1 x2 xo] ++ kernelRun6_B.sl.H3_4 (F := Ideal) c a1 h1 a2 h2 a3 h3 a4 h4 x0 x1 x2 xo) y = _
  exact canon_prefix_apply (G2_6 x0 x1 x2 xo) _ _ (second_blocks_B6 c a1 h1 a2 h2 a3 h3 a4 h4 x0 x1 x2 xo) y
    (second_cover_B6 c a1 h1 a2 h2 a3 h3 a4 h4 x0 x1 x2 xo y)

end CaseB3

/-! ## The first point: the branch taken, the buffer filled with zeros first -/

section CaseA

variable (c : Dev nD) (i : grid6.Coords) (a1 : Memref sig .tc .vmem S2048x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S2048x2048 .f32) (h4 : a4.IsWhole) (hc : cond6_0 i)
  (x0 : Vec Ideal S2048x2048 .bf16) (x1 x2 : Vec Ideal S256x2048 .bf16)

/-- The zero fill is a block of the zero function, and covers the buffer. -/
theorem hbZ6 (L : List (View.Piece (Elt Ideal) S2048x2048 .f32)) (hL : L = [(⟨Rect.unit (s := S2048x2048) ![0, 0] S2048x2048.size inb_S2048x2048_S2048x2048_0_0, k6_pay5 (F := Ideal)⟩ : View.Piece (Elt Ideal) S2048x2048 .f32)]) :
    ∀ p ∈ L, ∀ x : p.1.shape.Idx, p.2 x = (fun _ : S2048x2048.Idx => (0 : EReal)) (p.1.emb x) := by
  subst hL
  intro p hp x
  simp only [List.mem_singleton] at hp; subst hp
  exact P6.pay5_apply x
theorem covZ6 (L : List (View.Piece (Elt Ideal) S2048x2048 .f32)) (hL : L = [(⟨Rect.unit (s := S2048x2048) ![0, 0] S2048x2048.size inb_S2048x2048_S2048x2048_0_0, k6_pay5 (F := Ideal)⟩ : View.Piece (Elt Ideal) S2048x2048 .f32)]) (y : S2048x2048.Idx) :
    ∃ p ∈ L, y ∈ p.1.set := by
  subst hL
  exact ⟨_, List.mem_singleton_self _, View.mem_set_unit_zero hzA6 inb_S2048x2048_S2048x2048_0_0 y⟩

/-- The first half's loads read zeros: the chunk stores made so far miss the chunk being loaded, the zero fill covers it. -/
theorem v23_A6 : kernelRun6_A.sl.v23 (F := Ideal) c a4 = fun _ => (0 : EReal) := by
  unfold kernelRun6_A.sl.v23
  refine readCov_take a4.view (fun _ : S2048x2048.Idx => (0 : EReal)) (kernelRun6_A.sl.H3_1 (F := Ideal)) 0 1 ?hb (Rect.unit (s := S2048x2048) ![0, 0] S2048x512.size inb_S2048x2048_S2048x512_0_0) ?hcov ?hP
  case hb => exact hbZ6 _ (by unfold kernelRun6_A.sl.H3_1; rfl)
  case hcov => intro x; exact covZ6 _ (by unfold kernelRun6_A.sl.H3_1; rfl) _
  case hP => intro p hp; simp at hp

theorem v30_A6 : kernelRun6_A.sl.v30 (F := Ideal) c a1 h1 a2 h2 a3 h3 a4 x0 x1 x2 = fun _ => (0 : EReal) := by
  unfold kernelRun6_A.sl.v30
  refine readCov_take a4.view (fun _ : S2048x2048.Idx => (0 : EReal)) (kernelRun6_A.sl.H3_2 (F := Ideal) c a1 h1 a2 h2 a3 h3 a4 x0 x1 x2) 1 1 ?hb (Rect.unit (s := S2048x2048) ![0, 512] S2048x512.size inb_S2048x2048_S2048x512_0_512) ?hcov ?hP
  case hb => exact hbZ6 _ (by unfold kernelRun6_A.sl.H3_2 kernelRun6_A.sl.H3_1; rfl)
  case hcov => intro x; exact covZ6 _ (by unfold kernelRun6_A.sl.H3_2 kernelRun6_A.sl.H3_1; rfl) _
  case hP =>
    intro p hp x
    unfold kernelRun6_A.sl.H3_2 at hp
    simp only [List.take_succ_cons, List.take_zero, List.mem_cons, List.mem_nil_iff, or_false] at hp
    rcases hp with rfl
    · exact notmemC6 _ S2048x512.size rfl rfl inb_S2048x2048_S2048x512_0_0 inb_S2048x2048_S2048x512_0_512 (Or.inl (by omega)) x

theorem v37_A6 : kernelRun6_A.sl.v37 (F := Ideal) c a1 h1 a2 h2 a3 h3 a4 x0 x1 x2 = fun _ => (0 : EReal) := by
  unfold kernelRun6_A.sl.v37
  refine readCov_take a4.view (fun _ : S2048x2048.Idx => (0 : EReal)) (kernelRun6_A.sl.H3_3 (F := Ideal) c a1 h1 a2 h2 a3 h3 a4 x0 x1 x2) 2 1 ?hb (Rect.unit (s := S2048x2048) ![0, 1024] S2048x512.size inb_S2048x2048_S2048x512_0_1024) ?hcov ?hP
  case hb => exact hbZ6 _ (by unfold kernelRun6_A.sl.H3_3 kernelRun6_A.sl.H3_2 kernelRun6_A.sl.H3_1; rfl)
  case hcov => intro x; exact covZ6 _ (by unfold kernelRun6_A.sl.H3_3 kernelRun6_A.sl.H3_2 kernelRun6_A.sl.H3_1; rfl) _
  case hP =>
    intro p hp x
    unfold kernelRun6_A.sl.H3_3 kernelRun6_A.sl.H3_2 at hp
    simp only [List.take_succ_cons, List.take_zero, List.mem_cons, List.mem_nil_iff, or_false] at hp
    rcases hp with rfl | rfl
    · exact notmemC6 _ S2048x512.size rfl rfl inb_S2048x2048_S2048x512_0_512 inb_S2048x2048_S2048x512_0_1024 (Or.inl (by omega)) x
    · exact notmemC6 _ S2048x512.size rfl rfl inb_S2048x2048_S2048x512_0_0 inb_S2048x2048_S2048x512_0_1024 (Or.inl (by omega)) x

theorem v44_A6 : kernelRun6_A.sl.v44 (F := Ideal) c a1 h1 a2 h2 a3 h3 a4 x0 x1 x2 = fun _ => (0 : EReal) := by
  unfold kernelRun6_A.sl.v44
  refine readCov_take a4.view (fun _ : S2048x2048.Idx => (0 : EReal)) (kernelRun6_A.sl.H3_4 (F := Ideal) c a1 h1 a2 h2 a3 h3 a4 x0 x1 x2) 3 1 ?hb (Rect.unit (s := S2048x2048) ![0, 1536] S2048x512.size inb_S2048x2048_S2048x512_0_1536) ?hcov ?hP
  case hb => exact hbZ6 _ (by unfold kernelRun6_A.sl.H3_4 kernelRun6_A.sl.H3_3 kernelRun6_A.sl.H3_2 kernelRun6_A.sl.H3_1; rfl)
  case hcov => intro x; exact covZ6 _ (by unfold kernelRun6_A.sl.H3_4 kernelRun6_A.sl.H3_3 kernelRun6_A.sl.H3_2 kernelRun6_A.sl.H3_1; rfl) _
  case hP =>
    intro p hp x
    unfold kernelRun6_A.sl.H3_4 kernelRun6_A.sl.H3_3 kernelRun6_A.sl.H3_2 at hp
    simp only [List.take_succ_cons, List.take_zero, List.mem_cons, List.mem_nil_iff, or_false] at hp
    rcases hp with rfl | rfl | rfl
    · exact notmemC6 _ S2048x512.size rfl rfl inb_S2048x2048_S2048x512_0_1024 inb_S2048x2048_S2048x512_0_1536 (Or.inl (by omega)) x
    · exact notmemC6 _ S2048x512.size rfl rfl inb_S2048x2048_S2048x512_0_512 inb_S2048x2048_S2048x512_0_1536 (Or.inl (by omega)) x
    · exact notmemC6 _ S2048x512.size rfl rfl inb_S2048x2048_S2048x512_0_0 inb_S2048x2048_S2048x512_0_1536 (Or.inl (by omega)) x

/-- The first half's four chunk stores are the blocks of the contents after the first half (from zeros). -/
theorem first_blocks_A6 (L : List (View.Piece (Elt Ideal) S2048x2048 .f32)) (hL : L = ((kernelRun6_A.sl.H3_5 (F := Ideal) c a1 h1 a2 h2 a3 h3 a4 x0 x1 x2)).take 4) :
    ∀ p ∈ L, ∀ x : p.1.shape.Idx, p.2 x = G1_6 x0 x1 x2 (fun _ : S2048x2048.Idx => (0 : EReal)) (p.1.emb x) := by
  subst hL
  unfold kernelRun6_A.sl.H3_5 kernelRun6_A.sl.H3_4 kernelRun6_A.sl.H3_3 kernelRun6_A.sl.H3_2
  intro p hp
  simp only [List.take_succ_cons, List.take_zero, List.mem_cons, List.mem_nil_iff, or_false] at hp
  rcases hp with rfl | rfl | rfl | rfl
  · intro x
    obtain ⟨q, l, rfl⟩ : ∃ (q : Fin 2048) (l : Fin 512), x = ix2 q l := ⟨x 0, x 1, eq_ix2 x⟩
    dsimp only
    unfold kernelRun6_A.sl.r_1
    rw [v44_A6]
    simp only [View.readAt_eq_ld, h1.read_unread, h2.read_unread, h3.read_unread, View.ld_unit_zero (S := S2048x2048) hzA6]
    exact (P6.pay11_apply _ _ _ q l).trans (blk_first6 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun6_A.sl.r_1
    rw [v37_A6]
    simp only [View.readAt_eq_ld, h1.read_unread, h2.read_unread, h3.read_unread, View.ld_unit_zero (S := S2048x2048) hzA6]
    exact (P6.pay10_apply _ _ _ q l).trans (blk_first6 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    unfold kernelRun6_A.sl.r_2
    rw [v30_A6]
    simp only [View.readAt_eq_ld, h1.read_unread, h2.read_unread, h3.read_unread, View.ld_unit_zero (S := S2048x2048) hzA6]
    exact (P6.pay9_apply _ _ _ _ q l).trans (blk_first6 x0 x1 x2 (fun _ : S2048x2048.Idx => (0 : EReal)) (by omega) _ _ q l)
  · intro x
    obtain ⟨q, l, rfl⟩ : ∃ (q : Fin 2048) (l : Fin 512), x = ix2 q l := ⟨x 0, x 1, eq_ix2 x⟩
    dsimp only
    rw [v23_A6]
    simp only [View.readAt_eq_ld, h1.read_unread, h2.read_unread, h3.read_unread, View.ld_unit_zero (S := S2048x2048) hzA6]
    exact (P6.pay8_apply _ _ _ _ q l).trans (blk_first6 x0 x1 x2 (fun _ : S2048x2048.Idx => (0 : EReal)) (by omega) _ _ q l)

theorem first_cover_A6 (L : List (View.Piece (Elt Ideal) S2048x2048 .f32)) (hL : L = ((kernelRun6_A.sl.H3_5 (F := Ideal) c a1 h1 a2 h2 a3 h3 a4 x0 x1 x2)).take 4)
    {o : Nat} (ho : o = 0 ∨ o = 512 ∨ o = 1024 ∨ o = 1536)
    (inb : ∀ a, (![0, o] : Fin 2 → Nat) a + (![2048, 512] : Fin 2 → Nat) a ≤ S2048x2048.size a)
    (x : (Rect.unit (s := S2048x2048) ![0, o] ![2048, 512] inb).shape.Idx) :
    ∃ p ∈ L, (Rect.unit (s := S2048x2048) ![0, o] ![2048, 512] inb).emb x ∈ p.1.set := by
  subst hL
  unfold kernelRun6_A.sl.H3_5 kernelRun6_A.sl.H3_4 kernelRun6_A.sl.H3_3 kernelRun6_A.sl.H3_2
  simp only [List.take_succ_cons, List.take_zero]
  rcases ho with rfl | rfl | rfl | rfl
  · refine ⟨_, List.mem_cons_of_mem _ (List.mem_cons_of_mem _ (List.mem_cons_of_mem _ List.mem_cons_self)), ?_⟩
    exact memC6 S2048x512.size ![2048, 512] rfl rfl inb_S2048x2048_S2048x512_0_0 inb x
  · refine ⟨_, List.mem_cons_of_mem _ (List.mem_cons_of_mem _ List.mem_cons_self), ?_⟩
    exact memC6 S2048x512.size ![2048, 512] rfl rfl inb_S2048x2048_S2048x512_0_512 inb x
  · refine ⟨_, List.mem_cons_of_mem _ List.mem_cons_self, ?_⟩
    exact memC6 S2048x512.size ![2048, 512] rfl rfl inb_S2048x2048_S2048x512_0_1024 inb x
  · refine ⟨_, List.mem_cons_self, ?_⟩
    exact memC6 S2048x512.size ![2048, 512] rfl rfl inb_S2048x2048_S2048x512_0_1536 inb x

/-- The second half's loads read the contents after the first half. -/
theorem v66_A6 : kernelRun6_A.sl.v66 (F := Ideal) c a1 h1 a2 h2 a3 h3 a4 x0 x1 x2
    = fun x => G1_6 x0 x1 x2 (fun _ : S2048x2048.Idx => (0 : EReal)) ((Rect.unit (s := S2048x2048) ![0, 0] ![2048, 512] inb_S2048x2048_S2048x512_0_0).emb x) := by
  unfold kernelRun6_A.sl.v66
  refine readCov_take a4.view (G1_6 x0 x1 x2 (fun _ : S2048x2048.Idx => (0 : EReal))) (kernelRun6_A.sl.H3_5 (F := Ideal) c a1 h1 a2 h2 a3 h3 a4 x0 x1 x2) 0 4 ?hb (Rect.unit (s := S2048x2048) ![0, 0] ![2048, 512] inb_S2048x2048_S2048x512_0_0) ?hcov ?hP
  case hb => exact first_blocks_A6 c a1 h1 a2 h2 a3 h3 a4 x0 x1 x2 _ (by rfl)
  case hcov => intro x; exact first_cover_A6 c a1 h1 a2 h2 a3 h3 a4 x0 x1 x2 _ (by rfl) (Or.inl rfl) _ x
  case hP => intro p hp; simp at hp

theorem v73_A6 : kernelRun6_A.sl.v73 (F := Ideal) c a1 h1 a2 h2 a3 h3 a4 x0 x1 x2
    = fun x => G1_6 x0 x1 x2 (fun _ : S2048x2048.Idx => (0 : EReal)) ((Rect.unit (s := S2048x2048) ![0, 512] ![2048, 512] inb_S2048x2048_S2048x512_0_512).emb x) := by
  unfold kernelRun6_A.sl.v73
  refine readCov_take a4.view (G1_6 x0 x1 x2 (fun _ : S2048x2048.Idx => (0 : EReal))) (kernelRun6_A.sl.H3_6 (F := Ideal) c a1 h1 a2 h2 a3 h3 a4 x0 x1 x2) 1 4 ?hb (Rect.unit (s := S2048x2048) ![0, 512] ![2048, 512] inb_S2048x2048_S2048x512_0_512) ?hcov ?hP
  case hb => exact first_blocks_A6 c a1 h1 a2 h2 a3 h3 a4 x0 x1 x2 _ (by unfold kernelRun6_A.sl.H3_6; rfl)
  case hcov => intro x; exact first_cover_A6 c a1 h1 a2 h2 a3 h3 a4 x0 x1 x2 _ (by unfold kernelRun6_A.sl.H3_6; rfl) (Or.inr (Or.inl rfl)) _ x
  case hP =>
    intro p hp x
    unfold kernelRun6_A.sl.H3_6 at hp
    simp only [List.take_succ_cons, List.take_zero, List.mem_cons, List.mem_nil_iff, or_false] at hp
    rcases hp with rfl
    · exact notmemC6 _ ![2048, 512] rfl rfl inb_S2048x2048_S2048x512_0_0 inb_S2048x2048_S2048x512_0_512 (Or.inl (by omega)) x

theorem v80_A6 : kernelRun6_A.sl.v80 (F := Ideal) c a1 h1 a2 h2 a3 h3 a4 x0 x1 x2
    = fun x => G1_6 x0 x1 x2 (fun _ : S2048x2048.Idx => (0 : EReal)) ((Rect.unit (s := S2048x2048) ![0, 1024] ![2048, 512] inb_S2048x2048_S2048x512_0_1024).emb x) := by
  unfold kernelRun6_A.sl.v80
  refine readCov_take a4.view (G1_6 x0 x1 x2 (fun _ : S2048x2048.Idx => (0 : EReal))) (kernelRun6_A.sl.H3_7 (F := Ideal) c a1 h1 a2 h2 a3 h3 a4 x0 x1 x2) 2 4 ?hb (Rect.unit (s := S2048x2048) ![0, 1024] ![2048, 512] inb_S2048x2048_S2048x512_0_1024) ?hcov ?hP
  case hb => exact first_blocks_A6 c a1 h1 a2 h2 a3 h3 a4 x0 x1 x2 _ (by unfold kernelRun6_A.sl.H3_7 kernelRun6_A.sl.H3_6; rfl)
  case hcov => intro x; exact first_cover_A6 c a1 h1 a2 h2 a3 h3 a4 x0 x1 x2 _ (by unfold kernelRun6_A.sl.H3_7 kernelRun6_A.sl.H3_6; rfl) (Or.inr (Or.inr (Or.inl rfl))) _ x
  case hP =>
    intro p hp x
    unfold kernelRun6_A.sl.H3_7 kernelRun6_A.sl.H3_6 at hp
    simp only [List.take_succ_cons, List.take_zero, List.mem_cons, List.mem_nil_iff, or_false] at hp
    rcases hp with rfl | rfl
    · exact notmemC6 _ ![2048, 512] rfl rfl inb_S2048x2048_S2048x512_0_512 inb_S2048x2048_S2048x512_0_1024 (Or.inl (by omega)) x
    · exact notmemC6 _ ![2048, 512] rfl rfl inb_S2048x2048_S2048x512_0_0 inb_S2048x2048_S2048x512_0_1024 (Or.inl (by omega)) x

theorem v87_A6 : kernelRun6_A.sl.v87 (F := Ideal) c a1 h1 a2 h2 a3 h3 a4 x0 x1 x2
    = fun x => G1_6 x0 x1 x2 (fun _ : S2048x2048.Idx => (0 : EReal)) ((Rect.unit (s := S2048x2048) ![0, 1536] ![2048, 512] inb_S2048x2048_S2048x512_0_1536).emb x) := by
  unfold kernelRun6_A.sl.v87
  refine readCov_take a4.view (G1_6 x0 x1 x2 (fun _ : S2048x2048.Idx => (0 : EReal))) (kernelRun6_A.sl.H3_8 (F := Ideal) c a1 h1 a2 h2 a3 h3 a4 x0 x1 x2) 3 4 ?hb (Rect.unit (s := S2048x2048) ![0, 1536] ![2048, 512] inb_S2048x2048_S2048x512_0_1536) ?hcov ?hP
  case hb => exact first_blocks_A6 c a1 h1 a2 h2 a3 h3 a4 x0 x1 x2 _ (by unfold kernelRun6_A.sl.H3_8 kernelRun6_A.sl.H3_7 kernelRun6_A.sl.H3_6; rfl)
  case hcov => intro x; exact first_cover_A6 c a1 h1 a2 h2 a3 h3 a4 x0 x1 x2 _ (by unfold kernelRun6_A.sl.H3_8 kernelRun6_A.sl.H3_7 kernelRun6_A.sl.H3_6; rfl) (Or.inr (Or.inr (Or.inr rfl))) _ x
  case hP =>
    intro p hp x
    unfold kernelRun6_A.sl.H3_8 kernelRun6_A.sl.H3_7 kernelRun6_A.sl.H3_6 at hp
    simp only [List.take_succ_cons, List.take_zero, List.mem_cons, List.mem_nil_iff, or_false] at hp
    rcases hp with rfl | rfl | rfl
    · exact notmemC6 _ ![2048, 512] rfl rfl inb_S2048x2048_S2048x512_0_1024 inb_S2048x2048_S2048x512_0_1536 (Or.inl (by omega)) x
    · exact notmemC6 _ ![2048, 512] rfl rfl inb_S2048x2048_S2048x512_0_512 inb_S2048x2048_S2048x512_0_1536 (Or.inl (by omega)) x
    · exact notmemC6 _ ![2048, 512] rfl rfl inb_S2048x2048_S2048x512_0_0 inb_S2048x2048_S2048x512_0_1536 (Or.inl (by omega)) x

/-- THE FIRST POINT's contents: from zeros, the buffer ends holding G2. -/
theorem out_A_eq6 : out6_A_3 c i a1 h1 a2 h2 a3 h3 a4 h4 hc x0 x1 x2 = G2_6 x0 x1 x2 (fun _ : S2048x2048.Idx => (0 : EReal)) := by
  unfold out6_A_3
  rw [View.read_writes_eq_canon _ _ _ (cover6_A_3 c i a1 h1 a2 h2 a3 h3 a4 h4 hc x0 x1 x2)]
  unfold kernelRun6_A
  dsimp only
  funext y
  refine canon_take_apply (S := S2048x2048) (e := .f32) (Val := Elt Ideal) (G2_6 x0 x1 x2 (fun _ : S2048x2048.Idx => (0 : EReal))) _ 4 ?hb y ?hy
  case hb =>
    unfold kernelRun6_A.sl.H3_8 kernelRun6_A.sl.H3_7 kernelRun6_A.sl.H3_6
    intro p hp
    simp only [List.take_succ_cons, List.take_zero, List.mem_cons, List.mem_nil_iff, or_false] at hp
    rcases hp with rfl | rfl | rfl | rfl
    · intro x
      obtain ⟨q, l, rfl⟩ : ∃ (q : Fin 2048) (l : Fin 512), x = ix2 q l := ⟨x 0, x 1, eq_ix2 x⟩
      dsimp only
      unfold kernelRun6_A.sl.r_3 kernelRun6_A.sl.r
      rw [v87_A6]
      simp only [View.readAt_eq_ld, h1.read_unread, h2.read_unread, h3.read_unread, View.ld_unit_zero (S := S2048x2048) hzA6]
      exact (P6.pay4_apply _ _ _ q l).trans (blk_second6 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun6_A.sl.r_3 kernelRun6_A.sl.r
      rw [v80_A6]
      simp only [View.readAt_eq_ld, h1.read_unread, h2.read_unread, h3.read_unread, View.ld_unit_zero (S := S2048x2048) hzA6]
      exact (P6.pay3_apply _ _ _ q l).trans (blk_second6 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun6_A.sl.r_3 kernelRun6_A.sl.r
      rw [v73_A6]
      simp only [View.readAt_eq_ld, h1.read_unread, h2.read_unread, h3.read_unread, View.ld_unit_zero (S := S2048x2048) hzA6]
      exact (P6.pay2_apply _ _ _ q l).trans (blk_second6 x0 x1 x2 (fun _ : S2048x2048.Idx => (0 : EReal)) (by omega) _ _ q l _ rfl)
    · intro x
      obtain ⟨q, l, rfl⟩ : ∃ (q : Fin 2048) (l : Fin 512), x = ix2 q l := ⟨x 0, x 1, eq_ix2 x⟩
      dsimp only
      unfold kernelRun6_A.sl.r_4 kernelRun6_A.sl.r
      rw [v66_A6]
      simp only [View.readAt_eq_ld, h1.read_unread, h2.read_unread, h3.read_unread, View.ld_unit_zero (S := S2048x2048) hzA6]
      refine (P6.pay1_apply _ _ q l).trans ?_
      refine (congrArg (_ + ·) (P6.pay13_apply _ _ _ q l)).trans ?_
      exact blk_second6 x0 x1 x2 (fun _ : S2048x2048.Idx => (0 : EReal)) (by omega) _ _ q l _ rfl
  case hy =>
    unfold kernelRun6_A.sl.H3_8 kernelRun6_A.sl.H3_7 kernelRun6_A.sl.H3_6
    simp only [List.take_succ_cons, List.take_zero]
    have hy : (y 1).val < 2048 := (y 1).isLt
    by_cases h3' : 1536 ≤ (y 1).val
    · exact ⟨_, List.mem_cons_self, mem_chunk6 inb_S2048x2048_S2048x512_0_1536 y ⟨h3', by omega⟩⟩
    by_cases h2' : 1024 ≤ (y 1).val
    · exact ⟨_, List.mem_cons_of_mem _ List.mem_cons_self, mem_chunk6 inb_S2048x2048_S2048x512_0_1024 y ⟨h2', by omega⟩⟩
    by_cases h1' : 512 ≤ (y 1).val
    · exact ⟨_, List.mem_cons_of_mem _ (List.mem_cons_of_mem _ List.mem_cons_self), mem_chunk6 inb_S2048x2048_S2048x512_0_512 y ⟨h1', by omega⟩⟩
    · exact ⟨_, List.mem_cons_of_mem _ (List.mem_cons_of_mem _ (List.mem_cons_of_mem _ List.mem_cons_self)), mem_chunk6 inb_S2048x2048_S2048x512_0_0 y ⟨by omega, by omega⟩⟩

end CaseA

end Cert.KernelIdeal.Fr

end
-- ==== Proof.AttnSpecI.lean ====
/-
  One attention call's result as one whole-array function of its three operands (the projected queries, keys and
  values of one batch element, each [2048, 2048]): entry (q, v) is ∑ₖ a(q,k)·vp(k,v) with a the softmax over the QUERY
  axis of the scaled scores s(q,k) = (∑_d qp(q,d)·kp(k,d))·c.
-/
import proofs.«156009_j19851338842369_2_alg».proof.Proof.Gen.KernelIdeal
import proofs.«156009_j19851338842369_2_alg».proof.Proof.Spec
import Idealize.ShloMosaic.Lib.ValueIdx
import Idealize.ShloMosaic.PureOps.Ideal

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.ValueIdx

/-- The scaled score of query q against key k. -/
def scW (qp kp : S2048x2048.Idx → EReal) (q k : Fin 2048) : EReal :=
  (∑ d : Fin 2048, qp (ix2 q d) * kp (ix2 k d)) * Cert.Spec.scale

/-- The attention weight of query q on key k: the softmax of key k's column of scores over all queries. -/
def colsoft (qp kp : S2048x2048.Idx → EReal) (q k : Fin 2048) : EReal :=
  Ideal.div (Ideal.exp (scW qp kp q k - Finset.univ.fold max ⊥ (fun q' : Fin 2048 => scW qp kp q' k)))
    (∑ q' : Fin 2048, Ideal.exp (scW qp kp q' k - Finset.univ.fold max ⊥ (fun q'' : Fin 2048 => scW qp kp q'' k)))

/-- The call's result array. -/
def attnG (qp kp vp : S2048x2048.Idx → EReal) : S2048x2048.Idx → EReal := fun y =>
  ∑ k : Fin 2048, colsoft qp kp (⟨(y 0).val, (y 0).isLt⟩ : Fin 2048) k * vp (ix2 k (⟨(y 1).val, (y 1).isLt⟩ : Fin 2048))

theorem attnG_ix2 (qp kp vp : S2048x2048.Idx → EReal) (q v : Fin 2048) :
    attnG qp kp vp (ix2 q v) = ∑ k : Fin 2048, colsoft qp kp q k * vp (ix2 k v) := rfl

end Cert.KernelIdeal.Fr

end
-- ==== Proof.AttnTileMathI.lean ====
/-
  The column softmax of a half tile of keys against all queries is a band of columns of the whole column softmax:
  when the half tile's 128 keys are rows o … o + 127 of a key matrix and the queries are a query matrix, the scores
  agree entry by entry, and the column maximum, the exponentials and the column sum are the same expressions of them.
-/
import proofs.«156009_j19851338842369_2_alg».proof.Proof.AttnMathI
import proofs.«156009_j19851338842369_2_alg».proof.Proof.AttnSpecI

noncomputable section

namespace Cert.KernelIdeal.Fr

open Cert.KernelIdeal Cert.KernelIdeal.Gen
open Idealize.ShloMosaic
open Idealize.ShloMosaic.ValueIdx

/-- The column softmax of a half tile of 128 keys that are rows `o + k` of a key matrix, against queries that are a
    query matrix, is columns `o + k` of the whole column softmax: the scores agree entry by entry, and the column
    maximum, the exponentials and the column sum are the same expressions of the scores. -/
theorem softcol_eq_colsoft (x0 : Vec Ideal S2048x2048 .bf16) (x5 : FVec Ideal S128x2048 .bf16) (qp kp : S2048x2048.Idx → EReal) (o : Nat) (ho : o + 128 ≤ 2048)
    (hq : ∀ q d : Fin 2048, x0 (ix2 q d) = qp (ix2 q d))
    (hk : ∀ (k : Fin 128) (d : Fin 2048), x5 (ix2 k d) = kp (ix2 (⟨o + k.val, by have := k.isLt; omega⟩ : Fin 2048) d))
    (q : Fin 2048) (k : Fin 128) :
    softcol x0 x5 q k = colsoft qp kp q (⟨o + k.val, by have := k.isLt; omega⟩ : Fin 2048) := by
  have hs : ∀ q' : Fin 2048, sc x0 x5 q' k = scW qp kp q' (⟨o + k.val, by have := k.isLt; omega⟩ : Fin 2048) := fun q' => by
    unfold sc scW
    simp only [hq, hk]
  unfold softcol colsoft
  simp only [hs]

end Cert.KernelIdeal.Fr

end
-- ==== Proof.AttnTileI3.lean ====
/-
  Attention call 3 at a grid point t: its three input blocks are the whole projected query matrix and rows
  256·t … 256·t + 255 of the projected keys and of the projected values; so the attention weights the body computes
  for the two halves of its key tile are columns 256·t + k and 256·t + 128 + k (k < 128) of the call's whole
  column softmax.
-/
import proofs.«156009_j19851338842369_2_alg».proof.Proof.AttnDefsI3
import proofs.«156009_j19851338842369_2_alg».proof.Proof.AttnPayI3
import proofs.«156009_j19851338842369_2_alg».proof.Proof.AttnSpecI
import proofs.«156009_j19851338842369_2_alg».proof.Proof.AttnTileMathI

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: the queries are the one whole block; the keys and the values are
    row tile t, all columns. -/
theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem t_lt3 (t : Fin cfg3.N) : t.val < 8 := by
  have h : cfg3.N = 8 := N_3
  have := t.isLt
  omega

theorem iblk3_q (c : Dev nD) (t : Fin cfg3.N) (q d : Fin 2048) :
    iblk3 V c 0 t (ix2 q d) = V c main_v13 (ix2 q d) := by
  obtain ⟨e0, e1, e2, e3, e4, e5⟩ := idx_facts3 t
  show V c main_v13 (((cfg3.win 0).blk t).view.emb (ix2 q d)) = _
  refine congrArg (V c main_v13) ?_
  funext a; apply Fin.ext
  match a with
  | ⟨0, _⟩ => show win3_0.index t (0 : Fin 2) * 2048 + 1 * q.val = q.val; omega
  | ⟨1, _⟩ => show win3_0.index t (1 : Fin 2) * 2048 + 1 * d.val = d.val; omega

theorem iblk3_k (c : Dev nD) (t : Fin cfg3.N) (r : Fin 256) (d : Fin 2048) :
    iblk3 V c 1 t (ix2 r d)
      = V c main_v15 (ix2 (⟨256 * t.val + r.val, by have := t_lt3 t; have := r.isLt; omega⟩ : Fin 2048) d) := by
  obtain ⟨e0, e1, e2, e3, e4, e5⟩ := idx_facts3 t
  show V c main_v15 (((cfg3.win 1).blk t).view.emb (ix2 r d)) = _
  refine congrArg (V c main_v15) ?_
  funext a; apply Fin.ext
  match a with
  | ⟨0, _⟩ => show win3_1.index t (0 : Fin 2) * 256 + 1 * r.val = 256 * t.val + r.val; omega
  | ⟨1, _⟩ => show win3_1.index t (1 : Fin 2) * 2048 + 1 * d.val = d.val; omega

theorem iblk3_v (c : Dev nD) (t : Fin cfg3.N) (r : Fin 256) (v : Fin 2048) :
    iblk3 V c 2 t (ix2 r v)
      = V c main_v17 (ix2 (⟨256 * t.val + r.val, by have := t_lt3 t; have := r.isLt; omega⟩ : Fin 2048) v) := by
  obtain ⟨e0, e1, e2, e3, e4, e5⟩ := idx_facts3 t
  show V c main_v17 (((cfg3.win 2).blk t).view.emb (ix2 r v)) = _
  refine congrArg (V c main_v17) ?_
  funext a; apply Fin.ext
  match a with
  | ⟨0, _⟩ => show win3_2.index t (0 : Fin 2) * 256 + 1 * r.val = 256 * t.val + r.val; omega
  | ⟨1, _⟩ => show win3_2.index t (1 : Fin 2) * 2048 + 1 * v.val = v.val; omega

/-! ## Per-point facts over any blocks -/

section Values
variable (x0 : Vec Ideal S2048x2048 .bf16) (x1 : Vec Ideal S256x2048 .bf16)

/-- Row k of the first half of a key tile is the tile's row k. -/
theorem ld_rA3_apply (k : Fin 128) (d : Fin 2048) :
    View.ld x1 rA3 (ix2 k d) = x1 (ix2 (⟨k.val, by have := k.isLt; omega⟩ : Fin 256) d) := by
  show x1 (rA3.idx (ix2 k d)) = _
  refine congrArg x1 ?_
  funext a; apply Fin.ext
  match a with
  | ⟨0, _⟩ => show 0 + 1 * k.val = k.val; omega
  | ⟨1, _⟩ => show 0 + 1 * d.val = d.val; omega

/-- Row k of the second half of a key tile is the tile's row 128 + k. -/
theorem ld_rB3_apply (k : Fin 128) (d : Fin 2048) :
    View.ld x1 rB3 (ix2 k d) = x1 (ix2 (⟨128 + k.val, by have := k.isLt; omega⟩ : Fin 256) d) := by
  show x1 (rB3.idx (ix2 k d)) = _
  refine congrArg x1 ?_
  funext a; apply Fin.ext
  match a with
  | ⟨0, _⟩ => show 128 + 1 * k.val = 128 + k.val; omega
  | ⟨1, _⟩ => show 0 + 1 * d.val = d.val; omega

end Values

/-! ## The two halves' attention weights at a grid point -/

theorem Aa_tile (c : Dev nD) (t : Fin cfg3.N) (q : Fin 2048) (k : Fin 128) :
    Aa3 (iblk3 V c 0 t) (iblk3 V c 1 t) (ix2 q k)
      = colsoft (V c main_v13) (V c main_v15) q (⟨256 * t.val + k.val, by have := t_lt3 t; have := k.isLt; omega⟩ : Fin 2048) := by
  unfold Aa3
  rw [P3.pay7_apply]
  exact softcol_eq_colsoft (iblk3 V c 0 t) (View.ld (iblk3 V c 1 t) rA3) (V c main_v13) (V c main_v15) (256 * t.val)
    (by have := t_lt3 t; omega) (fun q' d => iblk3_q V c t q' d)
    (fun k' d => (ld_rA3_apply (iblk3 V c 1 t) k' d).trans (iblk3_k V c t (⟨k'.val, by have := k'.isLt; omega⟩ : Fin 256) d)) q k

theorem Ab_tile (c : Dev nD) (t : Fin cfg3.N) (q : Fin 2048) (k : Fin 128) :
    Ab3 (iblk3 V c 0 t) (iblk3 V c 1 t) (ix2 q k)
      = colsoft (V c main_v13) (V c main_v15) q (⟨256 * t.val + 128 + k.val, by have := t_lt3 t; have := k.isLt; omega⟩ : Fin 2048) := by
  unfold Ab3
  rw [P3.pay12_apply, P3.pay6_eq]
  exact softcol_eq_colsoft (iblk3 V c 0 t) (View.ld (iblk3 V c 1 t) rB3) (V c main_v13) (V c main_v15) (256 * t.val + 128)
    (by have := t_lt3 t; omega) (fun q' d => iblk3_q V c t q' d)
    (fun k' d => (ld_rB3_apply (iblk3 V c 1 t) k' d).trans
      ((iblk3_k V c t (⟨128 + k'.val, by have := k'.isLt; omega⟩ : Fin 256) d).trans
        (congrArg (fun r : Fin 2048 => V c main_v15 (ix2 r d)) (Fin.ext (by show 256 * t.val + (128 + k'.val) = 256 * t.val + 128 + k'.val; omega))))) q k

end Cert.KernelIdeal.Fr
-- ==== Proof.LibBlockSum16.lean ====
/-
  A regrouping law for a sum of 2048 terms accumulated block by block: in a commutative additive monoid, starting from
  a value z and adding, tile by tile over 8 tiles of 256, first the tile's lower half (128 terms) and then its upper
  half (128 terms), gives z plus the sum of all 2048 terms. Only associativity, commutativity and 0 + x = x are used.
-/
import Mathlib.Algebra.BigOperators.Fin

namespace Cert.LibBlockSum16

open Finset

variable {M : Type*} [AddCommMonoid M]

/-- The running total after tile n (of 8 tiles, each two half tiles of 128 terms): the start value, then for each tile
    in order its first half tile's sum, then its second half tile's sum. -/
def run (f : Fin 2048 → M) (z : M) : (n : ℕ) → n < 8 → M
  | 0, _ => (z + ∑ k : Fin 128, f ⟨k.val, by omega⟩) + ∑ k : Fin 128, f ⟨128 + k.val, by omega⟩
  | n + 1, h => (run f z n (by omega) + ∑ k : Fin 128, f ⟨256 * (n + 1) + k.val, by omega⟩)
      + ∑ k : Fin 128, f ⟨256 * (n + 1) + 128 + k.val, by omega⟩

/-- The terms as a sequence on all naturals, zero from 2048 on. -/
def ext (f : Fin 2048 → M) (i : ℕ) : M := if h : i < 2048 then f ⟨i, h⟩ else 0

/-- The sequence at an index below 2048 is the term. -/
theorem ext_val (f : Fin 2048 → M) (k : Fin 2048) : ext f k.val = f k := by
  unfold ext
  rw [dif_pos k.isLt]

/-- A half tile's sum: 128 terms whose indices are a, a + 1, …, a + 127, as a sum of the sequence over that range. -/
theorem block (f : Fin 2048 → M) (e : Fin 128 → Fin 2048) (a : ℕ) (he : ∀ k, (e k).val = a + k.val) :
    ∑ k : Fin 128, f (e k) = ∑ i ∈ range 128, ext f (a + i) := by
  rw [← Fin.sum_univ_eq_sum_range (fun i => ext f (a + i)) 128]
  exact Finset.sum_congr rfl fun k _ => by rw [← he k, ext_val]

/-- A range of A + 128 + 128 terms splits into its first A terms and two further runs of 128. -/
theorem range_split (g : ℕ → M) (A : ℕ) :
    ∑ i ∈ range (A + 128 + 128), g i
      = (∑ i ∈ range A, g i + ∑ i ∈ range 128, g (A + i)) + ∑ i ∈ range 128, g (A + 128 + i) := by
  rw [Finset.sum_range_add, Finset.sum_range_add]

/-- The running total after tile n is the start value plus the first 256 · (n + 1) terms. -/
theorem run_eq (f : Fin 2048 → M) (z : M) :
    ∀ (n : ℕ) (h : n < 8), run f z n h = z + ∑ i ∈ range (256 * (n + 1)), ext f i
  | 0, _ => by
    have h1 : ∑ k : Fin 128, f ⟨k.val, by omega⟩ = ∑ i ∈ range 128, ext f (0 + i) :=
      block f (fun k => ⟨k.val, by omega⟩) 0 (fun k => (Nat.zero_add _).symm)
    have h2 : ∑ k : Fin 128, f ⟨128 + k.val, by omega⟩ = ∑ i ∈ range 128, ext f (0 + 128 + i) :=
      block f (fun k => ⟨128 + k.val, by omega⟩) (0 + 128) (fun k => by simp)
    rw [run, h1, h2, show 256 * (0 + 1) = 0 + 128 + 128 from rfl, range_split, Finset.range_zero, Finset.sum_empty]
    simp only [zero_add, add_assoc]
  | n + 1, h => by
    have h1 : ∑ k : Fin 128, f ⟨256 * (n + 1) + k.val, by omega⟩ = ∑ i ∈ range 128, ext f (256 * (n + 1) + i) :=
      block f (fun k => ⟨256 * (n + 1) + k.val, by omega⟩) (256 * (n + 1)) (fun k => rfl)
    have h2 : ∑ k : Fin 128, f ⟨256 * (n + 1) + 128 + k.val, by omega⟩
        = ∑ i ∈ range 128, ext f (256 * (n + 1) + 128 + i) :=
      block f (fun k => ⟨256 * (n + 1) + 128 + k.val, by omega⟩) (256 * (n + 1) + 128) (fun k => rfl)
    rw [run, h1, h2, run_eq f z n (by omega), show 256 * (n + 1 + 1) = 256 * (n + 1) + 128 + 128 by omega, range_split,
      add_assoc, add_assoc, add_assoc]

/-- Accumulated from zero through all 8 tiles, the running total is the sum of all 2048 terms. -/
theorem run_last (f : Fin 2048 → M) : run f 0 7 (by decide) = ∑ k : Fin 2048, f k := by
  rw [run_eq, zero_add, show 256 * (7 + 1) = 2048 from rfl, ← Fin.sum_univ_eq_sum_range (ext f) 2048]
  exact Finset.sum_congr rfl fun k _ => ext_val f k

end Cert.LibBlockSum16
-- ==== Proof.AttnFinalI3.lean ====
/-
  Attention call 3's result array is the whole-array attention function of its three operand arrays.  The output block
  never moves: the body at grid point t adds, to what the point before left (zeros at the first point), the weighted
  values of the tile's first 128 keys and then of its last 128, keys 256·t + k and 256·t + 128 + k; so after the last of
  the 8 points entry (q, v) holds the sum over all 2048 keys of weight times value — the sum regrouped tile by tile —,
  and the one write-back, after the last point, writes the whole block, which is the whole array.
-/
import proofs.«156009_j19851338842369_2_alg».proof.Proof.AttnTileI3
import proofs.«156009_j19851338842369_2_alg».proof.Proof.AttnSpecI
import proofs.«156009_j19851338842369_2_alg».proof.Proof.LibBlockSum16
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Key k's term of entry (q, v) of the call's result: its attention weight for query q times its value at column v. -/
def wv3 (c : Dev nD) (q v : Fin 2048) (k : Fin 2048) : EReal :=
  colsoft (V c main_v13) (V c main_v15) q k * (V c main_v17 : S2048x2048.Idx → EReal) (ix2 k v)

/-- ONE POINT'S STEP: the body at point t adds to entry (q, v) the terms of keys 256·t … 256·t + 127, then those of
    keys 256·t + 128 … 256·t + 255. -/
theorem point_step3 (c : Dev nD) (t : Fin cfg3.N) (X : Vec Ideal S2048x2048 .f32) (q v : Fin 2048) :
    G2_3 (iblk3 V c 0 t) (iblk3 V c 1 t) (iblk3 V c 2 t) X (ix2 q v)
      = (X (ix2 q v) + ∑ k : Fin 128, wv3 V c q v (⟨256 * t.val + k.val, by have := t_lt3 t; have := k.isLt; omega⟩ : Fin 2048))
        + ∑ k : Fin 128, wv3 V c q v (⟨256 * t.val + 128 + k.val, by have := t_lt3 t; have := k.isLt; omega⟩ : Fin 2048) := by
  have ea : ∀ k : Fin 128, Aa3 (iblk3 V c 0 t) (iblk3 V c 1 t) (ix2 q k)
        * iblk3 V c 2 t (ix2 (⟨k.val, by have := k.isLt; omega⟩ : Fin 256) v)
      = wv3 V c q v (⟨256 * t.val + k.val, by have := t_lt3 t; have := k.isLt; omega⟩ : Fin 2048) := fun k => by
    rw [Aa_tile, iblk3_v]
    rfl
  have eb : ∀ k : Fin 128, Ab3 (iblk3 V c 0 t) (iblk3 V c 1 t) (ix2 q k)
        * iblk3 V c 2 t (ix2 (⟨128 + k.val, by have := k.isLt; omega⟩ : Fin 256) v)
      = wv3 V c q v (⟨256 * t.val + 128 + k.val, by have := t_lt3 t; have := k.isLt; omega⟩ : Fin 2048) := fun k => by
    rw [Ab_tile, iblk3_v]
    unfold wv3
    refine congrArg (fun r : Fin 2048 => colsoft (V c main_v13) (V c main_v15) q
      (⟨256 * t.val + 128 + k.val, by have := t_lt3 t; have := k.isLt; omega⟩ : Fin 2048) * (V c main_v17 : S2048x2048.Idx → EReal) (ix2 r v)) (Fin.ext ?_)
    show 256 * t.val + (128 + k.val) = 256 * t.val + 128 + k.val
    omega
  rw [G2_3_ix2, G1_3_ix2]
  simp only [ea, eb]

/-- THE ACCUMULATION, entry by entry: after point n the output block's entry (q, v) is the running total, tile by
    tile, of the terms of keys 0 … 256·(n + 1) − 1 — by induction on the point. -/
theorem outsAt3_eq (hA : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond3_0 i)
      (x0 : Vec Ideal S2048x2048 .bf16) (x1 x2 : Vec Ideal S256x2048 .bf16),
      out3_A_3 c i a1 h1 a2 h2 a3 h3 a4 h4 hc x0 x1 x2 = G2_3 x0 x1 x2 (fun _ : S2048x2048.Idx => (0 : EReal)))
    (hB : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond3_0 i)
      (x0 : Vec Ideal S2048x2048 .bf16) (x1 x2 : Vec Ideal S256x2048 .bf16) (xo : Vec Ideal S2048x2048 .f32),
      out3_B_3 c i a1 h1 a2 h2 a3 h3 a4 h4 hc x0 x1 x2 xo = G2_3 x0 x1 x2 xo)
    (c : Dev nD) (q v : Fin 2048) : ∀ (n : ℕ) (h : n < cfg3.N),
      outsAt3 V c n h (ix2 q v) = Cert.LibBlockSum16.run (wv3 V c q v) 0 n (by have hN : cfg3.N = 8 := N_3; omega)
  | 0, h => by
    have e := congrFun ((outsAt3_A V c ⟨0, h⟩ rfl).trans (hA c _ _ _ _ _ _ _ _ _ _ _ _ _)) (ix2 q v)
    refine (e.trans (point_step3 V c ⟨0, h⟩ _ q v)).trans ?_
    have s1 : ∑ k : Fin 128, wv3 V c q v (⟨256 * (⟨0, h⟩ : Fin cfg3.N).val + k.val, by have := k.isLt; show 256 * 0 + k.val < 2048; omega⟩ : Fin 2048)
        = ∑ k : Fin 128, wv3 V c q v (⟨k.val, by have := k.isLt; omega⟩ : Fin 2048) :=
      Finset.sum_congr rfl fun k _ => congrArg (wv3 V c q v) (Fin.ext (by show 256 * 0 + k.val = k.val; omega))
    have s2 : ∑ k : Fin 128, wv3 V c q v (⟨256 * (⟨0, h⟩ : Fin cfg3.N).val + 128 + k.val, by have := k.isLt; show 256 * 0 + 128 + k.val < 2048; omega⟩ : Fin 2048)
        = ∑ k : Fin 128, wv3 V c q v (⟨128 + k.val, by have := k.isLt; omega⟩ : Fin 2048) :=
      Finset.sum_congr rfl fun k _ => congrArg (wv3 V c q v) (Fin.ext (by show 256 * 0 + 128 + k.val = 128 + k.val; omega))
    exact congrArg₂ (fun a b : EReal => (0 + a) + b) s1 s2
  | n + 1, h => by
    have hN : cfg3.N = 8 := N_3
    have hB' : ¬(⟨n + 1, h⟩ : Fin cfg3.N).val % 8 = 0 := by dsimp only; omega
    have e := congrFun ((outsAt3_B V c ⟨n + 1, h⟩ hB').trans (hB c _ _ _ _ _ _ _ _ _ _ _ _ _ _)) (ix2 q v)
    refine (e.trans (point_step3 V c ⟨n + 1, h⟩ _ q v)).trans ?_
    have ih := outsAt3_eq hA hB c q v n (Nat.lt_of_succ_lt h)
    exact congrArg (fun z : EReal => (z
        + ∑ k : Fin 128, wv3 V c q v (⟨256 * (n + 1) + k.val, by have := k.isLt; omega⟩ : Fin 2048))
        + ∑ k : Fin 128, wv3 V c q v (⟨256 * (n + 1) + 128 + k.val, by have := k.isLt; omega⟩ : Fin 2048)) ih

/-- After the last point the output block is the call's whole-array attention function of the three operand arrays:
    the tile-by-tile total of all 2048 keys' terms is their sum. -/
theorem outsAt3_last (hA : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond3_0 i)
      (x0 : Vec Ideal S2048x2048 .bf16) (x1 x2 : Vec Ideal S256x2048 .bf16),
      out3_A_3 c i a1 h1 a2 h2 a3 h3 a4 h4 hc x0 x1 x2 = G2_3 x0 x1 x2 (fun _ : S2048x2048.Idx => (0 : EReal)))
    (hB : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond3_0 i)
      (x0 : Vec Ideal S2048x2048 .bf16) (x1 x2 : Vec Ideal S256x2048 .bf16) (xo : Vec Ideal S2048x2048 .f32),
      out3_B_3 c i a1 h1 a2 h2 a3 h3 a4 h4 hc x0 x1 x2 xo = G2_3 x0 x1 x2 xo)
    (c : Dev nD) (h : 7 < cfg3.N) :
    outsAt3 V c 7 h = attnG (V c main_v13) (V c main_v15) (V c main_v17) := by
  funext y
  obtain ⟨q, v, rfl⟩ : ∃ (q v : Fin 2048), y = ix2 q v := ⟨y 0, y 1, eq_ix2 y⟩
  rw [outsAt3_eq V hA hB c q v 7 h, Cert.LibBlockSum16.run_last, attnG_ix2]
  rfl

/-- The one write-back, after point 7, writes the whole-array function: block (0, 0) of the [2048, 2048] array read
    through zero offsets is the array. -/
theorem flushed3_eq (hA : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond3_0 i)
      (x0 : Vec Ideal S2048x2048 .bf16) (x1 x2 : Vec Ideal S256x2048 .bf16),
      out3_A_3 c i a1 h1 a2 h2 a3 h3 a4 h4 hc x0 x1 x2 = G2_3 x0 x1 x2 (fun _ : S2048x2048.Idx => (0 : EReal)))
    (hB : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond3_0 i)
      (x0 : Vec Ideal S2048x2048 .bf16) (x1 x2 : Vec Ideal S256x2048 .bf16) (xo : Vec Ideal S2048x2048 .f32),
      out3_B_3 c i a1 h1 a2 h2 a3 h3 a4 h4 hc x0 x1 x2 xo = G2_3 x0 x1 x2 xo)
    (c : Dev nD) (t : Fin cfg3.N) (hf : (cfg3.win 3).flush t = true) :
    (dat3 V c).flushed 3 t
      = ((cfg3.win 3).blk t).view.read (Elt Ideal) (attnG (V c main_v13) (V c main_v15) (V c main_v17)) := by
  have hN : cfg3.N = 8 := N_3
  have h7 : t.val = 7 := by have := (flush3_3 t).mp hf; have := t.isLt; omega
  obtain rfl : t = t3_7 := Fin.ext h7
  show (cfg3.win 3).cut (grid3.coords t3_7) ((dat3 V c).after 3 t3_7) = _
  rw [after3_3, show outsAt3 V c t3_7.val t3_7.isLt = attnG (V c main_v13) (V c main_v15) (V c main_v17) from
    outsAt3_last V hA hB c _]
  have hz' : (fun a => win3_3.index t3_7 a * main_v18.ty.shape.size a) = fun _ => 0 := funext fun a => by fin_cases a <;> decide
  exact (Memref.read_access_unit_zero (Elt Ideal) main_v18 hz' (fun a => by rw [congrFun hz' a]; simp)
    (attnG (V c main_v13) (V c main_v15) (V c main_v17))).symm

/-- ATTENTION CALL 3's RESULT ARRAY after the call: the whole-array attention function of the three operand arrays as
    the call finds them (point 7's block covers the array) — given what each case of the body leaves in the output block. -/
theorem attn_final3_of (hA : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond3_0 i)
      (x0 : Vec Ideal S2048x2048 .bf16) (x1 x2 : Vec Ideal S256x2048 .bf16),
      out3_A_3 c i a1 h1 a2 h2 a3 h3 a4 h4 hc x0 x1 x2 = G2_3 x0 x1 x2 (fun _ : S2048x2048.Idx => (0 : EReal)))
    (hB : ∀ (c : Dev nD) (i : grid3.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond3_0 i)
      (x0 : Vec Ideal S2048x2048 .bf16) (x1 x2 : Vec Ideal S256x2048 .bf16) (xo : Vec Ideal S2048x2048 .f32),
      out3_B_3 c i a1 h1 a2 h2 a3 h3 a4 h4 hc x0 x1 x2 xo = G2_3 x0 x1 x2 xo)
    (V : (c : Dev nD) → (b : Ref sig .tc) → Buf (Elt Ideal) ((c : Thread nD τ).loc b)) (c : Dev nD) :
    (dat3 V c).arrAt 3 cfg3.N = attnG (V c main_v13) (V c main_v15) (V c main_v17) :=
  (dat3 V c).arrAt_eq_of_cover 3 (attnG (V c main_v13) (V c main_v15) (V c main_v17)) (flushed3_eq V hA hB c) fun i =>
    ⟨t3_7, (flush3_3 t3_7).mpr rfl, by
      show i ∈ ((View.whole main_v18).slice (win3_3.rect t3_7)).set
      rw [View.set_slice_whole, Rect.mem_set_unit]
      intro a
      have h0 : (i 0 : Nat) < 2048 := (i 0).isLt
      have h1 : (i 1 : Nat) < 2048 := (i 1).isLt
      match a with
      | ⟨0, _⟩ => show win3_3.index t3_7 0 * win3_3.size 0 ≤ (i 0 : Nat) ∧ (i 0 : Nat) < win3_3.index t3_7 0 * win3_3.size 0 + win3_3.xsize (grid3.coords t3_7) 0
                  rw [show win3_3.index t3_7 0 * win3_3.size 0 = 0 from by decide +kernel, show win3_3.xsize (grid3.coords t3_7) 0 = 2048 from by decide +kernel]; omega
      | ⟨1, _⟩ => show win3_3.index t3_7 1 * win3_3.size 1 ≤ (i 1 : Nat) ∧ (i 1 : Nat) < win3_3.index t3_7 1 * win3_3.size 1 + win3_3.xsize (grid3.coords t3_7) 1
                  rw [show win3_3.index t3_7 1 * win3_3.size 1 = 0 from by decide +kernel, show win3_3.xsize (grid3.coords t3_7) 1 = 2048 from by decide +kernel]; omega⟩

end Cert.KernelIdeal.Fr
-- ==== Proof.AttnTileI4.lean ====
/-
  Attention call 4 at a grid point t: its three input blocks are the whole projected query matrix and rows
  256·t … 256·t + 255 of the projected keys and of the projected values; so the attention weights the body computes
  for the two halves of its key tile are columns 256·t + k and 256·t + 128 + k (k < 128) of the call's whole
  column softmax.
-/
import proofs.«156009_j19851338842369_2_alg».proof.Proof.AttnDefsI4
import proofs.«156009_j19851338842369_2_alg».proof.Proof.AttnPayI4
import proofs.«156009_j19851338842369_2_alg».proof.Proof.AttnSpecI
import proofs.«156009_j19851338842369_2_alg».proof.Proof.AttnTileMathI

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: the queries are the one whole block; the keys and the values are
    row tile t, all columns. -/
theorem idx_facts4 : ∀ t : Fin cfg4.N, win4_0.index t (0 : Fin 2) = 0 ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem t_lt4 (t : Fin cfg4.N) : t.val < 8 := by
  have h : cfg4.N = 8 := N_4
  have := t.isLt
  omega

theorem iblk4_q (c : Dev nD) (t : Fin cfg4.N) (q d : Fin 2048) :
    iblk4 V c 0 t (ix2 q d) = V c main_v20 (ix2 q d) := by
  obtain ⟨e0, e1, e2, e3, e4, e5⟩ := idx_facts4 t
  show V c main_v20 (((cfg4.win 0).blk t).view.emb (ix2 q d)) = _
  refine congrArg (V c main_v20) ?_
  funext a; apply Fin.ext
  match a with
  | ⟨0, _⟩ => show win4_0.index t (0 : Fin 2) * 2048 + 1 * q.val = q.val; omega
  | ⟨1, _⟩ => show win4_0.index t (1 : Fin 2) * 2048 + 1 * d.val = d.val; omega

theorem iblk4_k (c : Dev nD) (t : Fin cfg4.N) (r : Fin 256) (d : Fin 2048) :
    iblk4 V c 1 t (ix2 r d)
      = V c main_v22 (ix2 (⟨256 * t.val + r.val, by have := t_lt4 t; have := r.isLt; omega⟩ : Fin 2048) d) := by
  obtain ⟨e0, e1, e2, e3, e4, e5⟩ := idx_facts4 t
  show V c main_v22 (((cfg4.win 1).blk t).view.emb (ix2 r d)) = _
  refine congrArg (V c main_v22) ?_
  funext a; apply Fin.ext
  match a with
  | ⟨0, _⟩ => show win4_1.index t (0 : Fin 2) * 256 + 1 * r.val = 256 * t.val + r.val; omega
  | ⟨1, _⟩ => show win4_1.index t (1 : Fin 2) * 2048 + 1 * d.val = d.val; omega

theorem iblk4_v (c : Dev nD) (t : Fin cfg4.N) (r : Fin 256) (v : Fin 2048) :
    iblk4 V c 2 t (ix2 r v)
      = V c main_v24 (ix2 (⟨256 * t.val + r.val, by have := t_lt4 t; have := r.isLt; omega⟩ : Fin 2048) v) := by
  obtain ⟨e0, e1, e2, e3, e4, e5⟩ := idx_facts4 t
  show V c main_v24 (((cfg4.win 2).blk t).view.emb (ix2 r v)) = _
  refine congrArg (V c main_v24) ?_
  funext a; apply Fin.ext
  match a with
  | ⟨0, _⟩ => show win4_2.index t (0 : Fin 2) * 256 + 1 * r.val = 256 * t.val + r.val; omega
  | ⟨1, _⟩ => show win4_2.index t (1 : Fin 2) * 2048 + 1 * v.val = v.val; omega

/-! ## Per-point facts over any blocks -/

section Values
variable (x0 : Vec Ideal S2048x2048 .bf16) (x1 : Vec Ideal S256x2048 .bf16)

/-- Row k of the first half of a key tile is the tile's row k. -/
theorem ld_rA4_apply (k : Fin 128) (d : Fin 2048) :
    View.ld x1 rA4 (ix2 k d) = x1 (ix2 (⟨k.val, by have := k.isLt; omega⟩ : Fin 256) d) := by
  show x1 (rA4.idx (ix2 k d)) = _
  refine congrArg x1 ?_
  funext a; apply Fin.ext
  match a with
  | ⟨0, _⟩ => show 0 + 1 * k.val = k.val; omega
  | ⟨1, _⟩ => show 0 + 1 * d.val = d.val; omega

/-- Row k of the second half of a key tile is the tile's row 128 + k. -/
theorem ld_rB4_apply (k : Fin 128) (d : Fin 2048) :
    View.ld x1 rB4 (ix2 k d) = x1 (ix2 (⟨128 + k.val, by have := k.isLt; omega⟩ : Fin 256) d) := by
  show x1 (rB4.idx (ix2 k d)) = _
  refine congrArg x1 ?_
  funext a; apply Fin.ext
  match a with
  | ⟨0, _⟩ => show 128 + 1 * k.val = 128 + k.val; omega
  | ⟨1, _⟩ => show 0 + 1 * d.val = d.val; omega

end Values

/-! ## The two halves' attention weights at a grid point -/

theorem Aa_tile4 (c : Dev nD) (t : Fin cfg4.N) (q : Fin 2048) (k : Fin 128) :
    Aa4 (iblk4 V c 0 t) (iblk4 V c 1 t) (ix2 q k)
      = colsoft (V c main_v20) (V c main_v22) q (⟨256 * t.val + k.val, by have := t_lt4 t; have := k.isLt; omega⟩ : Fin 2048) := by
  unfold Aa4
  rw [P4.pay7_apply]
  exact softcol_eq_colsoft (iblk4 V c 0 t) (View.ld (iblk4 V c 1 t) rA4) (V c main_v20) (V c main_v22) (256 * t.val)
    (by have := t_lt4 t; omega) (fun q' d => iblk4_q V c t q' d)
    (fun k' d => (ld_rA4_apply (iblk4 V c 1 t) k' d).trans (iblk4_k V c t (⟨k'.val, by have := k'.isLt; omega⟩ : Fin 256) d)) q k

theorem Ab_tile4 (c : Dev nD) (t : Fin cfg4.N) (q : Fin 2048) (k : Fin 128) :
    Ab4 (iblk4 V c 0 t) (iblk4 V c 1 t) (ix2 q k)
      = colsoft (V c main_v20) (V c main_v22) q (⟨256 * t.val + 128 + k.val, by have := t_lt4 t; have := k.isLt; omega⟩ : Fin 2048) := by
  unfold Ab4
  rw [P4.pay12_apply, P4.pay6_eq]
  exact softcol_eq_colsoft (iblk4 V c 0 t) (View.ld (iblk4 V c 1 t) rB4) (V c main_v20) (V c main_v22) (256 * t.val + 128)
    (by have := t_lt4 t; omega) (fun q' d => iblk4_q V c t q' d)
    (fun k' d => (ld_rB4_apply (iblk4 V c 1 t) k' d).trans
      ((iblk4_k V c t (⟨128 + k'.val, by have := k'.isLt; omega⟩ : Fin 256) d).trans
        (congrArg (fun r : Fin 2048 => V c main_v22 (ix2 r d)) (Fin.ext (by show 256 * t.val + (128 + k'.val) = 256 * t.val + 128 + k'.val; omega))))) q k

end Cert.KernelIdeal.Fr
-- ==== Proof.AttnFinalI4.lean ====
/-
  Attention call 4's result array is the whole-array attention function of its three operand arrays.  The output block
  never moves: the body at grid point t adds, to what the point before left (zeros at the first point), the weighted
  values of the tile's first 128 keys and then of its last 128, keys 256·t + k and 256·t + 128 + k; so after the last of
  the 8 points entry (q, v) holds the sum over all 2048 keys of weight times value — the sum regrouped tile by tile —,
  and the one write-back, after the last point, writes the whole block, which is the whole array.
-/
import proofs.«156009_j19851338842369_2_alg».proof.Proof.AttnTileI4
import proofs.«156009_j19851338842369_2_alg».proof.Proof.AttnSpecI
import proofs.«156009_j19851338842369_2_alg».proof.Proof.LibBlockSum16
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Key k's term of entry (q, v) of the call's result: its attention weight for query q times its value at column v. -/
def wv4 (c : Dev nD) (q v : Fin 2048) (k : Fin 2048) : EReal :=
  colsoft (V c main_v20) (V c main_v22) q k * (V c main_v24 : S2048x2048.Idx → EReal) (ix2 k v)

/-- ONE POINT'S STEP: the body at point t adds to entry (q, v) the terms of keys 256·t … 256·t + 127, then those of
    keys 256·t + 128 … 256·t + 255. -/
theorem point_step4 (c : Dev nD) (t : Fin cfg4.N) (X : Vec Ideal S2048x2048 .f32) (q v : Fin 2048) :
    G2_4 (iblk4 V c 0 t) (iblk4 V c 1 t) (iblk4 V c 2 t) X (ix2 q v)
      = (X (ix2 q v) + ∑ k : Fin 128, wv4 V c q v (⟨256 * t.val + k.val, by have := t_lt4 t; have := k.isLt; omega⟩ : Fin 2048))
        + ∑ k : Fin 128, wv4 V c q v (⟨256 * t.val + 128 + k.val, by have := t_lt4 t; have := k.isLt; omega⟩ : Fin 2048) := by
  have ea : ∀ k : Fin 128, Aa4 (iblk4 V c 0 t) (iblk4 V c 1 t) (ix2 q k)
        * iblk4 V c 2 t (ix2 (⟨k.val, by have := k.isLt; omega⟩ : Fin 256) v)
      = wv4 V c q v (⟨256 * t.val + k.val, by have := t_lt4 t; have := k.isLt; omega⟩ : Fin 2048) := fun k => by
    rw [Aa_tile4, iblk4_v]
    rfl
  have eb : ∀ k : Fin 128, Ab4 (iblk4 V c 0 t) (iblk4 V c 1 t) (ix2 q k)
        * iblk4 V c 2 t (ix2 (⟨128 + k.val, by have := k.isLt; omega⟩ : Fin 256) v)
      = wv4 V c q v (⟨256 * t.val + 128 + k.val, by have := t_lt4 t; have := k.isLt; omega⟩ : Fin 2048) := fun k => by
    rw [Ab_tile4, iblk4_v]
    unfold wv4
    refine congrArg (fun r : Fin 2048 => colsoft (V c main_v20) (V c main_v22) q
      (⟨256 * t.val + 128 + k.val, by have := t_lt4 t; have := k.isLt; omega⟩ : Fin 2048) * (V c main_v24 : S2048x2048.Idx → EReal) (ix2 r v)) (Fin.ext ?_)
    show 256 * t.val + (128 + k.val) = 256 * t.val + 128 + k.val
    omega
  rw [G2_4_ix2, G1_4_ix2]
  simp only [ea, eb]

/-- THE ACCUMULATION, entry by entry: after point n the output block's entry (q, v) is the running total, tile by
    tile, of the terms of keys 0 … 256·(n + 1) − 1 — by induction on the point. -/
theorem outsAt4_eq (hA : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond4_0 i)
      (x0 : Vec Ideal S2048x2048 .bf16) (x1 x2 : Vec Ideal S256x2048 .bf16),
      out4_A_3 c i a1 h1 a2 h2 a3 h3 a4 h4 hc x0 x1 x2 = G2_4 x0 x1 x2 (fun _ : S2048x2048.Idx => (0 : EReal)))
    (hB : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond4_0 i)
      (x0 : Vec Ideal S2048x2048 .bf16) (x1 x2 : Vec Ideal S256x2048 .bf16) (xo : Vec Ideal S2048x2048 .f32),
      out4_B_3 c i a1 h1 a2 h2 a3 h3 a4 h4 hc x0 x1 x2 xo = G2_4 x0 x1 x2 xo)
    (c : Dev nD) (q v : Fin 2048) : ∀ (n : ℕ) (h : n < cfg4.N),
      outsAt4 V c n h (ix2 q v) = Cert.LibBlockSum16.run (wv4 V c q v) 0 n (by have hN : cfg4.N = 8 := N_4; omega)
  | 0, h => by
    have e := congrFun ((outsAt4_A V c ⟨0, h⟩ rfl).trans (hA c _ _ _ _ _ _ _ _ _ _ _ _ _)) (ix2 q v)
    refine (e.trans (point_step4 V c ⟨0, h⟩ _ q v)).trans ?_
    have s1 : ∑ k : Fin 128, wv4 V c q v (⟨256 * (⟨0, h⟩ : Fin cfg4.N).val + k.val, by have := k.isLt; show 256 * 0 + k.val < 2048; omega⟩ : Fin 2048)
        = ∑ k : Fin 128, wv4 V c q v (⟨k.val, by have := k.isLt; omega⟩ : Fin 2048) :=
      Finset.sum_congr rfl fun k _ => congrArg (wv4 V c q v) (Fin.ext (by show 256 * 0 + k.val = k.val; omega))
    have s2 : ∑ k : Fin 128, wv4 V c q v (⟨256 * (⟨0, h⟩ : Fin cfg4.N).val + 128 + k.val, by have := k.isLt; show 256 * 0 + 128 + k.val < 2048; omega⟩ : Fin 2048)
        = ∑ k : Fin 128, wv4 V c q v (⟨128 + k.val, by have := k.isLt; omega⟩ : Fin 2048) :=
      Finset.sum_congr rfl fun k _ => congrArg (wv4 V c q v) (Fin.ext (by show 256 * 0 + 128 + k.val = 128 + k.val; omega))
    exact congrArg₂ (fun a b : EReal => (0 + a) + b) s1 s2
  | n + 1, h => by
    have hN : cfg4.N = 8 := N_4
    have hB' : ¬(⟨n + 1, h⟩ : Fin cfg4.N).val % 8 = 0 := by dsimp only; omega
    have e := congrFun ((outsAt4_B V c ⟨n + 1, h⟩ hB').trans (hB c _ _ _ _ _ _ _ _ _ _ _ _ _ _)) (ix2 q v)
    refine (e.trans (point_step4 V c ⟨n + 1, h⟩ _ q v)).trans ?_
    have ih := outsAt4_eq hA hB c q v n (Nat.lt_of_succ_lt h)
    exact congrArg (fun z : EReal => (z
        + ∑ k : Fin 128, wv4 V c q v (⟨256 * (n + 1) + k.val, by have := k.isLt; omega⟩ : Fin 2048))
        + ∑ k : Fin 128, wv4 V c q v (⟨256 * (n + 1) + 128 + k.val, by have := k.isLt; omega⟩ : Fin 2048)) ih

/-- After the last point the output block is the call's whole-array attention function of the three operand arrays:
    the tile-by-tile total of all 2048 keys' terms is their sum. -/
theorem outsAt4_last (hA : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond4_0 i)
      (x0 : Vec Ideal S2048x2048 .bf16) (x1 x2 : Vec Ideal S256x2048 .bf16),
      out4_A_3 c i a1 h1 a2 h2 a3 h3 a4 h4 hc x0 x1 x2 = G2_4 x0 x1 x2 (fun _ : S2048x2048.Idx => (0 : EReal)))
    (hB : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond4_0 i)
      (x0 : Vec Ideal S2048x2048 .bf16) (x1 x2 : Vec Ideal S256x2048 .bf16) (xo : Vec Ideal S2048x2048 .f32),
      out4_B_3 c i a1 h1 a2 h2 a3 h3 a4 h4 hc x0 x1 x2 xo = G2_4 x0 x1 x2 xo)
    (c : Dev nD) (h : 7 < cfg4.N) :
    outsAt4 V c 7 h = attnG (V c main_v20) (V c main_v22) (V c main_v24) := by
  funext y
  obtain ⟨q, v, rfl⟩ : ∃ (q v : Fin 2048), y = ix2 q v := ⟨y 0, y 1, eq_ix2 y⟩
  rw [outsAt4_eq V hA hB c q v 7 h, Cert.LibBlockSum16.run_last, attnG_ix2]
  rfl

/-- The one write-back, after point 7, writes the whole-array function: block (0, 0) of the [2048, 2048] array read
    through zero offsets is the array. -/
theorem flushed4_eq (hA : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond4_0 i)
      (x0 : Vec Ideal S2048x2048 .bf16) (x1 x2 : Vec Ideal S256x2048 .bf16),
      out4_A_3 c i a1 h1 a2 h2 a3 h3 a4 h4 hc x0 x1 x2 = G2_4 x0 x1 x2 (fun _ : S2048x2048.Idx => (0 : EReal)))
    (hB : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond4_0 i)
      (x0 : Vec Ideal S2048x2048 .bf16) (x1 x2 : Vec Ideal S256x2048 .bf16) (xo : Vec Ideal S2048x2048 .f32),
      out4_B_3 c i a1 h1 a2 h2 a3 h3 a4 h4 hc x0 x1 x2 xo = G2_4 x0 x1 x2 xo)
    (c : Dev nD) (t : Fin cfg4.N) (hf : (cfg4.win 3).flush t = true) :
    (dat4 V c).flushed 3 t
      = ((cfg4.win 3).blk t).view.read (Elt Ideal) (attnG (V c main_v20) (V c main_v22) (V c main_v24)) := by
  have hN : cfg4.N = 8 := N_4
  have h7 : t.val = 7 := by have := (flush4_3 t).mp hf; have := t.isLt; omega
  obtain rfl : t = t4_7 := Fin.ext h7
  show (cfg4.win 3).cut (grid4.coords t4_7) ((dat4 V c).after 3 t4_7) = _
  rw [after4_3, show outsAt4 V c t4_7.val t4_7.isLt = attnG (V c main_v20) (V c main_v22) (V c main_v24) from
    outsAt4_last V hA hB c _]
  have hz' : (fun a => win4_3.index t4_7 a * main_v25.ty.shape.size a) = fun _ => 0 := funext fun a => by fin_cases a <;> decide
  exact (Memref.read_access_unit_zero (Elt Ideal) main_v25 hz' (fun a => by rw [congrFun hz' a]; simp)
    (attnG (V c main_v20) (V c main_v22) (V c main_v24))).symm

/-- ATTENTION CALL 4's RESULT ARRAY after the call: the whole-array attention function of the three operand arrays as
    the call finds them (point 7's block covers the array) — given what each case of the body leaves in the output block. -/
theorem attn_final4_of (hA : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond4_0 i)
      (x0 : Vec Ideal S2048x2048 .bf16) (x1 x2 : Vec Ideal S256x2048 .bf16),
      out4_A_3 c i a1 h1 a2 h2 a3 h3 a4 h4 hc x0 x1 x2 = G2_4 x0 x1 x2 (fun _ : S2048x2048.Idx => (0 : EReal)))
    (hB : ∀ (c : Dev nD) (i : grid4.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond4_0 i)
      (x0 : Vec Ideal S2048x2048 .bf16) (x1 x2 : Vec Ideal S256x2048 .bf16) (xo : Vec Ideal S2048x2048 .f32),
      out4_B_3 c i a1 h1 a2 h2 a3 h3 a4 h4 hc x0 x1 x2 xo = G2_4 x0 x1 x2 xo)
    (V : (c : Dev nD) → (b : Ref sig .tc) → Buf (Elt Ideal) ((c : Thread nD τ).loc b)) (c : Dev nD) :
    (dat4 V c).arrAt 3 cfg4.N = attnG (V c main_v20) (V c main_v22) (V c main_v24) :=
  (dat4 V c).arrAt_eq_of_cover 3 (attnG (V c main_v20) (V c main_v22) (V c main_v24)) (flushed4_eq V hA hB c) fun i =>
    ⟨t4_7, (flush4_3 t4_7).mpr rfl, by
      show i ∈ ((View.whole main_v25).slice (win4_3.rect t4_7)).set
      rw [View.set_slice_whole, Rect.mem_set_unit]
      intro a
      have h0 : (i 0 : Nat) < 2048 := (i 0).isLt
      have h1 : (i 1 : Nat) < 2048 := (i 1).isLt
      match a with
      | ⟨0, _⟩ => show win4_3.index t4_7 0 * win4_3.size 0 ≤ (i 0 : Nat) ∧ (i 0 : Nat) < win4_3.index t4_7 0 * win4_3.size 0 + win4_3.xsize (grid4.coords t4_7) 0
                  rw [show win4_3.index t4_7 0 * win4_3.size 0 = 0 from by decide +kernel, show win4_3.xsize (grid4.coords t4_7) 0 = 2048 from by decide +kernel]; omega
      | ⟨1, _⟩ => show win4_3.index t4_7 1 * win4_3.size 1 ≤ (i 1 : Nat) ∧ (i 1 : Nat) < win4_3.index t4_7 1 * win4_3.size 1 + win4_3.xsize (grid4.coords t4_7) 1
                  rw [show win4_3.index t4_7 1 * win4_3.size 1 = 0 from by decide +kernel, show win4_3.xsize (grid4.coords t4_7) 1 = 2048 from by decide +kernel]; omega⟩

end Cert.KernelIdeal.Fr
-- ==== Proof.AttnTileI5.lean ====
/-
  Attention call 5 at a grid point t: its three input blocks are the whole projected query matrix and rows
  256·t … 256·t + 255 of the projected keys and of the projected values; so the attention weights the body computes
  for the two halves of its key tile are columns 256·t + k and 256·t + 128 + k (k < 128) of the call's whole
  column softmax.
-/
import proofs.«156009_j19851338842369_2_alg».proof.Proof.AttnDefsI5
import proofs.«156009_j19851338842369_2_alg».proof.Proof.AttnPayI5
import proofs.«156009_j19851338842369_2_alg».proof.Proof.AttnSpecI
import proofs.«156009_j19851338842369_2_alg».proof.Proof.AttnTileMathI

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: the queries are the one whole block; the keys and the values are
    row tile t, all columns. -/
theorem idx_facts5 : ∀ t : Fin cfg5.N, win5_0.index t (0 : Fin 2) = 0 ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

theorem t_lt5 (t : Fin cfg5.N) : t.val < 8 := by
  have h : cfg5.N = 8 := N_5
  have := t.isLt
  omega

theorem iblk5_q (c : Dev nD) (t : Fin cfg5.N) (q d : Fin 2048) :
    iblk5 V c 0 t (ix2 q d) = V c main_v27 (ix2 q d) := by
  obtain ⟨e0, e1, e2, e3, e4, e5⟩ := idx_facts5 t
  show V c main_v27 (((cfg5.win 0).blk t).view.emb (ix2 q d)) = _
  refine congrArg (V c main_v27) ?_
  funext a; apply Fin.ext
  match a with
  | ⟨0, _⟩ => show win5_0.index t (0 : Fin 2) * 2048 + 1 * q.val = q.val; omega
  | ⟨1, _⟩ => show win5_0.index t (1 : Fin 2) * 2048 + 1 * d.val = d.val; omega

theorem iblk5_k (c : Dev nD) (t : Fin cfg5.N) (r : Fin 256) (d : Fin 2048) :
    iblk5 V c 1 t (ix2 r d)
      = V c main_v29 (ix2 (⟨256 * t.val + r.val, by have := t_lt5 t; have := r.isLt; omega⟩ : Fin 2048) d) := by
  obtain ⟨e0, e1, e2, e3, e4, e5⟩ := idx_facts5 t
  show V c main_v29 (((cfg5.win 1).blk t).view.emb (ix2 r d)) = _
  refine congrArg (V c main_v29) ?_
  funext a; apply Fin.ext
  match a with
  | ⟨0, _⟩ => show win5_1.index t (0 : Fin 2) * 256 + 1 * r.val = 256 * t.val + r.val; omega
  | ⟨1, _⟩ => show win5_1.index t (1 : Fin 2) * 2048 + 1 * d.val = d.val; omega

theorem iblk5_v (c : Dev nD) (t : Fin cfg5.N) (r : Fin 256) (v : Fin 2048) :
    iblk5 V c 2 t (ix2 r v)
      = V c main_v31 (ix2 (⟨256 * t.val + r.val, by have := t_lt5 t; have := r.isLt; omega⟩ : Fin 2048) v) := by
  obtain ⟨e0, e1, e2, e3, e4, e5⟩ := idx_facts5 t
  show V c main_v31 (((cfg5.win 2).blk t).view.emb (ix2 r v)) = _
  refine congrArg (V c main_v31) ?_
  funext a; apply Fin.ext
  match a with
  | ⟨0, _⟩ => show win5_2.index t (0 : Fin 2) * 256 + 1 * r.val = 256 * t.val + r.val; omega
  | ⟨1, _⟩ => show win5_2.index t (1 : Fin 2) * 2048 + 1 * v.val = v.val; omega

/-! ## Per-point facts over any blocks -/

section Values
variable (x0 : Vec Ideal S2048x2048 .bf16) (x1 : Vec Ideal S256x2048 .bf16)

/-- Row k of the first half of a key tile is the tile's row k. -/
theorem ld_rA5_apply (k : Fin 128) (d : Fin 2048) :
    View.ld x1 rA5 (ix2 k d) = x1 (ix2 (⟨k.val, by have := k.isLt; omega⟩ : Fin 256) d) := by
  show x1 (rA5.idx (ix2 k d)) = _
  refine congrArg x1 ?_
  funext a; apply Fin.ext
  match a with
  | ⟨0, _⟩ => show 0 + 1 * k.val = k.val; omega
  | ⟨1, _⟩ => show 0 + 1 * d.val = d.val; omega

/-- Row k of the second half of a key tile is the tile's row 128 + k. -/
theorem ld_rB5_apply (k : Fin 128) (d : Fin 2048) :
    View.ld x1 rB5 (ix2 k d) = x1 (ix2 (⟨128 + k.val, by have := k.isLt; omega⟩ : Fin 256) d) := by
  show x1 (rB5.idx (ix2 k d)) = _
  refine congrArg x1 ?_
  funext a; apply Fin.ext
  match a with
  | ⟨0, _⟩ => show 128 + 1 * k.val = 128 + k.val; omega
  | ⟨1, _⟩ => show 0 + 1 * d.val = d.val; omega

end Values

/-! ## The two halves' attention weights at a grid point -/

theorem Aa_tile5 (c : Dev nD) (t : Fin cfg5.N) (q : Fin 2048) (k : Fin 128) :
    Aa5 (iblk5 V c 0 t) (iblk5 V c 1 t) (ix2 q k)
      = colsoft (V c main_v27) (V c main_v29) q (⟨256 * t.val + k.val, by have := t_lt5 t; have := k.isLt; omega⟩ : Fin 2048) := by
  unfold Aa5
  rw [P5.pay7_apply]
  exact softcol_eq_colsoft (iblk5 V c 0 t) (View.ld (iblk5 V c 1 t) rA5) (V c main_v27) (V c main_v29) (256 * t.val)
    (by have := t_lt5 t; omega) (fun q' d => iblk5_q V c t q' d)
    (fun k' d => (ld_rA5_apply (iblk5 V c 1 t) k' d).trans (iblk5_k V c t (⟨k'.val, by have := k'.isLt; omega⟩ : Fin 256) d)) q k

theorem Ab_tile5 (c : Dev nD) (t : Fin cfg5.N) (q : Fin 2048) (k : Fin 128) :
    Ab5 (iblk5 V c 0 t) (iblk5 V c 1 t) (ix2 q k)
      = colsoft (V c main_v27) (V c main_v29) q (⟨256 * t.val + 128 + k.val, by have := t_lt5 t; have := k.isLt; omega⟩ : Fin 2048) := by
  unfold Ab5
  rw [P5.pay12_apply, P5.pay6_eq]
  exact softcol_eq_colsoft (iblk5 V c 0 t) (View.ld (iblk5 V c 1 t) rB5) (V c main_v27) (V c main_v29) (256 * t.val + 128)
    (by have := t_lt5 t; omega) (fun q' d => iblk5_q V c t q' d)
    (fun k' d => (ld_rB5_apply (iblk5 V c 1 t) k' d).trans
      ((iblk5_k V c t (⟨128 + k'.val, by have := k'.isLt; omega⟩ : Fin 256) d).trans
        (congrArg (fun r : Fin 2048 => V c main_v29 (ix2 r d)) (Fin.ext (by show 256 * t.val + (128 + k'.val) = 256 * t.val + 128 + k'.val; omega))))) q k

end Cert.KernelIdeal.Fr
-- ==== Proof.AttnFinalI5.lean ====
/-
  Attention call 5's result array is the whole-array attention function of its three operand arrays.  The output block
  never moves: the body at grid point t adds, to what the point before left (zeros at the first point), the weighted
  values of the tile's first 128 keys and then of its last 128, keys 256·t + k and 256·t + 128 + k; so after the last of
  the 8 points entry (q, v) holds the sum over all 2048 keys of weight times value — the sum regrouped tile by tile —,
  and the one write-back, after the last point, writes the whole block, which is the whole array.
-/
import proofs.«156009_j19851338842369_2_alg».proof.Proof.AttnTileI5
import proofs.«156009_j19851338842369_2_alg».proof.Proof.AttnSpecI
import proofs.«156009_j19851338842369_2_alg».proof.Proof.LibBlockSum16
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Key k's term of entry (q, v) of the call's result: its attention weight for query q times its value at column v. -/
def wv5 (c : Dev nD) (q v : Fin 2048) (k : Fin 2048) : EReal :=
  colsoft (V c main_v27) (V c main_v29) q k * (V c main_v31 : S2048x2048.Idx → EReal) (ix2 k v)

/-- ONE POINT'S STEP: the body at point t adds to entry (q, v) the terms of keys 256·t … 256·t + 127, then those of
    keys 256·t + 128 … 256·t + 255. -/
theorem point_step5 (c : Dev nD) (t : Fin cfg5.N) (X : Vec Ideal S2048x2048 .f32) (q v : Fin 2048) :
    G2_5 (iblk5 V c 0 t) (iblk5 V c 1 t) (iblk5 V c 2 t) X (ix2 q v)
      = (X (ix2 q v) + ∑ k : Fin 128, wv5 V c q v (⟨256 * t.val + k.val, by have := t_lt5 t; have := k.isLt; omega⟩ : Fin 2048))
        + ∑ k : Fin 128, wv5 V c q v (⟨256 * t.val + 128 + k.val, by have := t_lt5 t; have := k.isLt; omega⟩ : Fin 2048) := by
  have ea : ∀ k : Fin 128, Aa5 (iblk5 V c 0 t) (iblk5 V c 1 t) (ix2 q k)
        * iblk5 V c 2 t (ix2 (⟨k.val, by have := k.isLt; omega⟩ : Fin 256) v)
      = wv5 V c q v (⟨256 * t.val + k.val, by have := t_lt5 t; have := k.isLt; omega⟩ : Fin 2048) := fun k => by
    rw [Aa_tile5, iblk5_v]
    rfl
  have eb : ∀ k : Fin 128, Ab5 (iblk5 V c 0 t) (iblk5 V c 1 t) (ix2 q k)
        * iblk5 V c 2 t (ix2 (⟨128 + k.val, by have := k.isLt; omega⟩ : Fin 256) v)
      = wv5 V c q v (⟨256 * t.val + 128 + k.val, by have := t_lt5 t; have := k.isLt; omega⟩ : Fin 2048) := fun k => by
    rw [Ab_tile5, iblk5_v]
    unfold wv5
    refine congrArg (fun r : Fin 2048 => colsoft (V c main_v27) (V c main_v29) q
      (⟨256 * t.val + 128 + k.val, by have := t_lt5 t; have := k.isLt; omega⟩ : Fin 2048) * (V c main_v31 : S2048x2048.Idx → EReal) (ix2 r v)) (Fin.ext ?_)
    show 256 * t.val + (128 + k.val) = 256 * t.val + 128 + k.val
    omega
  rw [G2_5_ix2, G1_5_ix2]
  simp only [ea, eb]

/-- THE ACCUMULATION, entry by entry: after point n the output block's entry (q, v) is the running total, tile by
    tile, of the terms of keys 0 … 256·(n + 1) − 1 — by induction on the point. -/
theorem outsAt5_eq (hA : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond5_0 i)
      (x0 : Vec Ideal S2048x2048 .bf16) (x1 x2 : Vec Ideal S256x2048 .bf16),
      out5_A_3 c i a1 h1 a2 h2 a3 h3 a4 h4 hc x0 x1 x2 = G2_5 x0 x1 x2 (fun _ : S2048x2048.Idx => (0 : EReal)))
    (hB : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond5_0 i)
      (x0 : Vec Ideal S2048x2048 .bf16) (x1 x2 : Vec Ideal S256x2048 .bf16) (xo : Vec Ideal S2048x2048 .f32),
      out5_B_3 c i a1 h1 a2 h2 a3 h3 a4 h4 hc x0 x1 x2 xo = G2_5 x0 x1 x2 xo)
    (c : Dev nD) (q v : Fin 2048) : ∀ (n : ℕ) (h : n < cfg5.N),
      outsAt5 V c n h (ix2 q v) = Cert.LibBlockSum16.run (wv5 V c q v) 0 n (by have hN : cfg5.N = 8 := N_5; omega)
  | 0, h => by
    have e := congrFun ((outsAt5_A V c ⟨0, h⟩ rfl).trans (hA c _ _ _ _ _ _ _ _ _ _ _ _ _)) (ix2 q v)
    refine (e.trans (point_step5 V c ⟨0, h⟩ _ q v)).trans ?_
    have s1 : ∑ k : Fin 128, wv5 V c q v (⟨256 * (⟨0, h⟩ : Fin cfg5.N).val + k.val, by have := k.isLt; show 256 * 0 + k.val < 2048; omega⟩ : Fin 2048)
        = ∑ k : Fin 128, wv5 V c q v (⟨k.val, by have := k.isLt; omega⟩ : Fin 2048) :=
      Finset.sum_congr rfl fun k _ => congrArg (wv5 V c q v) (Fin.ext (by show 256 * 0 + k.val = k.val; omega))
    have s2 : ∑ k : Fin 128, wv5 V c q v (⟨256 * (⟨0, h⟩ : Fin cfg5.N).val + 128 + k.val, by have := k.isLt; show 256 * 0 + 128 + k.val < 2048; omega⟩ : Fin 2048)
        = ∑ k : Fin 128, wv5 V c q v (⟨128 + k.val, by have := k.isLt; omega⟩ : Fin 2048) :=
      Finset.sum_congr rfl fun k _ => congrArg (wv5 V c q v) (Fin.ext (by show 256 * 0 + 128 + k.val = 128 + k.val; omega))
    exact congrArg₂ (fun a b : EReal => (0 + a) + b) s1 s2
  | n + 1, h => by
    have hN : cfg5.N = 8 := N_5
    have hB' : ¬(⟨n + 1, h⟩ : Fin cfg5.N).val % 8 = 0 := by dsimp only; omega
    have e := congrFun ((outsAt5_B V c ⟨n + 1, h⟩ hB').trans (hB c _ _ _ _ _ _ _ _ _ _ _ _ _ _)) (ix2 q v)
    refine (e.trans (point_step5 V c ⟨n + 1, h⟩ _ q v)).trans ?_
    have ih := outsAt5_eq hA hB c q v n (Nat.lt_of_succ_lt h)
    exact congrArg (fun z : EReal => (z
        + ∑ k : Fin 128, wv5 V c q v (⟨256 * (n + 1) + k.val, by have := k.isLt; omega⟩ : Fin 2048))
        + ∑ k : Fin 128, wv5 V c q v (⟨256 * (n + 1) + 128 + k.val, by have := k.isLt; omega⟩ : Fin 2048)) ih

/-- After the last point the output block is the call's whole-array attention function of the three operand arrays:
    the tile-by-tile total of all 2048 keys' terms is their sum. -/
theorem outsAt5_last (hA : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond5_0 i)
      (x0 : Vec Ideal S2048x2048 .bf16) (x1 x2 : Vec Ideal S256x2048 .bf16),
      out5_A_3 c i a1 h1 a2 h2 a3 h3 a4 h4 hc x0 x1 x2 = G2_5 x0 x1 x2 (fun _ : S2048x2048.Idx => (0 : EReal)))
    (hB : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond5_0 i)
      (x0 : Vec Ideal S2048x2048 .bf16) (x1 x2 : Vec Ideal S256x2048 .bf16) (xo : Vec Ideal S2048x2048 .f32),
      out5_B_3 c i a1 h1 a2 h2 a3 h3 a4 h4 hc x0 x1 x2 xo = G2_5 x0 x1 x2 xo)
    (c : Dev nD) (h : 7 < cfg5.N) :
    outsAt5 V c 7 h = attnG (V c main_v27) (V c main_v29) (V c main_v31) := by
  funext y
  obtain ⟨q, v, rfl⟩ : ∃ (q v : Fin 2048), y = ix2 q v := ⟨y 0, y 1, eq_ix2 y⟩
  rw [outsAt5_eq V hA hB c q v 7 h, Cert.LibBlockSum16.run_last, attnG_ix2]
  rfl

/-- The one write-back, after point 7, writes the whole-array function: block (0, 0) of the [2048, 2048] array read
    through zero offsets is the array. -/
theorem flushed5_eq (hA : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond5_0 i)
      (x0 : Vec Ideal S2048x2048 .bf16) (x1 x2 : Vec Ideal S256x2048 .bf16),
      out5_A_3 c i a1 h1 a2 h2 a3 h3 a4 h4 hc x0 x1 x2 = G2_5 x0 x1 x2 (fun _ : S2048x2048.Idx => (0 : EReal)))
    (hB : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond5_0 i)
      (x0 : Vec Ideal S2048x2048 .bf16) (x1 x2 : Vec Ideal S256x2048 .bf16) (xo : Vec Ideal S2048x2048 .f32),
      out5_B_3 c i a1 h1 a2 h2 a3 h3 a4 h4 hc x0 x1 x2 xo = G2_5 x0 x1 x2 xo)
    (c : Dev nD) (t : Fin cfg5.N) (hf : (cfg5.win 3).flush t = true) :
    (dat5 V c).flushed 3 t
      = ((cfg5.win 3).blk t).view.read (Elt Ideal) (attnG (V c main_v27) (V c main_v29) (V c main_v31)) := by
  have hN : cfg5.N = 8 := N_5
  have h7 : t.val = 7 := by have := (flush5_3 t).mp hf; have := t.isLt; omega
  obtain rfl : t = t5_7 := Fin.ext h7
  show (cfg5.win 3).cut (grid5.coords t5_7) ((dat5 V c).after 3 t5_7) = _
  rw [after5_3, show outsAt5 V c t5_7.val t5_7.isLt = attnG (V c main_v27) (V c main_v29) (V c main_v31) from
    outsAt5_last V hA hB c _]
  have hz' : (fun a => win5_3.index t5_7 a * main_v32.ty.shape.size a) = fun _ => 0 := funext fun a => by fin_cases a <;> decide
  exact (Memref.read_access_unit_zero (Elt Ideal) main_v32 hz' (fun a => by rw [congrFun hz' a]; simp)
    (attnG (V c main_v27) (V c main_v29) (V c main_v31))).symm

/-- ATTENTION CALL 5's RESULT ARRAY after the call: the whole-array attention function of the three operand arrays as
    the call finds them (point 7's block covers the array) — given what each case of the body leaves in the output block. -/
theorem attn_final5_of (hA : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond5_0 i)
      (x0 : Vec Ideal S2048x2048 .bf16) (x1 x2 : Vec Ideal S256x2048 .bf16),
      out5_A_3 c i a1 h1 a2 h2 a3 h3 a4 h4 hc x0 x1 x2 = G2_5 x0 x1 x2 (fun _ : S2048x2048.Idx => (0 : EReal)))
    (hB : ∀ (c : Dev nD) (i : grid5.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond5_0 i)
      (x0 : Vec Ideal S2048x2048 .bf16) (x1 x2 : Vec Ideal S256x2048 .bf16) (xo : Vec Ideal S2048x2048 .f32),
      out5_B_3 c i a1 h1 a2 h2 a3 h3 a4 h4 hc x0 x1 x2 xo = G2_5 x0 x1 x2 xo)
    (V : (c : Dev nD) → (b : Ref sig .tc) → Buf (Elt Ideal) ((c : Thread nD τ).loc b)) (c : Dev nD) :
    (dat5 V c).arrAt 3 cfg5.N = attnG (V c main_v27) (V c main_v29) (V c main_v31) :=
  (dat5 V c).arrAt_eq_of_cover 3 (attnG (V c main_v27) (V c main_v29) (V c main_v31)) (flushed5_eq V hA hB c) fun i =>
    ⟨t5_7, (flush5_3 t5_7).mpr rfl, by
      show i ∈ ((View.whole main_v32).slice (win5_3.rect t5_7)).set
      rw [View.set_slice_whole, Rect.mem_set_unit]
      intro a
      have h0 : (i 0 : Nat) < 2048 := (i 0).isLt
      have h1 : (i 1 : Nat) < 2048 := (i 1).isLt
      match a with
      | ⟨0, _⟩ => show win5_3.index t5_7 0 * win5_3.size 0 ≤ (i 0 : Nat) ∧ (i 0 : Nat) < win5_3.index t5_7 0 * win5_3.size 0 + win5_3.xsize (grid5.coords t5_7) 0
                  rw [show win5_3.index t5_7 0 * win5_3.size 0 = 0 from by decide +kernel, show win5_3.xsize (grid5.coords t5_7) 0 = 2048 from by decide +kernel]; omega
      | ⟨1, _⟩ => show win5_3.index t5_7 1 * win5_3.size 1 ≤ (i 1 : Nat) ∧ (i 1 : Nat) < win5_3.index t5_7 1 * win5_3.size 1 + win5_3.xsize (grid5.coords t5_7) 1
                  rw [show win5_3.index t5_7 1 * win5_3.size 1 = 0 from by decide +kernel, show win5_3.xsize (grid5.coords t5_7) 1 = 2048 from by decide +kernel]; omega⟩

end Cert.KernelIdeal.Fr
-- ==== Proof.AttnTileI6.lean ====
/-
  Attention call 6 at a grid point t: its three input blocks are the whole projected query matrix and rows
  256·t … 256·t + 255 of the projected keys and of the projected values; so the attention weights the body computes
  for the two halves of its key tile are columns 256·t + k and 256·t + 128 + k (k < 128) of the call's whole
  column softmax.
-/
import proofs.«156009_j19851338842369_2_alg».proof.Proof.AttnDefsI6
import proofs.«156009_j19851338842369_2_alg».proof.Proof.AttnPayI6
import proofs.«156009_j19851338842369_2_alg».proof.Proof.AttnSpecI
import proofs.«156009_j19851338842369_2_alg».proof.Proof.AttnTileMathI

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The printed index maps, decided over the grid: the queries are the one whole block; the keys and the values are
    row tile t, all columns. -/
theorem idx_facts6 : ∀ t : Fin cfg6.N, win6_0.index t (0 : Fin 2) = 0 ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem t_lt6 (t : Fin cfg6.N) : t.val < 8 := by
  have h : cfg6.N = 8 := N_6
  have := t.isLt
  omega

theorem iblk6_q (c : Dev nD) (t : Fin cfg6.N) (q d : Fin 2048) :
    iblk6 V c 0 t (ix2 q d) = V c main_v34 (ix2 q d) := by
  obtain ⟨e0, e1, e2, e3, e4, e5⟩ := idx_facts6 t
  show V c main_v34 (((cfg6.win 0).blk t).view.emb (ix2 q d)) = _
  refine congrArg (V c main_v34) ?_
  funext a; apply Fin.ext
  match a with
  | ⟨0, _⟩ => show win6_0.index t (0 : Fin 2) * 2048 + 1 * q.val = q.val; omega
  | ⟨1, _⟩ => show win6_0.index t (1 : Fin 2) * 2048 + 1 * d.val = d.val; omega

theorem iblk6_k (c : Dev nD) (t : Fin cfg6.N) (r : Fin 256) (d : Fin 2048) :
    iblk6 V c 1 t (ix2 r d)
      = V c main_v36 (ix2 (⟨256 * t.val + r.val, by have := t_lt6 t; have := r.isLt; omega⟩ : Fin 2048) d) := by
  obtain ⟨e0, e1, e2, e3, e4, e5⟩ := idx_facts6 t
  show V c main_v36 (((cfg6.win 1).blk t).view.emb (ix2 r d)) = _
  refine congrArg (V c main_v36) ?_
  funext a; apply Fin.ext
  match a with
  | ⟨0, _⟩ => show win6_1.index t (0 : Fin 2) * 256 + 1 * r.val = 256 * t.val + r.val; omega
  | ⟨1, _⟩ => show win6_1.index t (1 : Fin 2) * 2048 + 1 * d.val = d.val; omega

theorem iblk6_v (c : Dev nD) (t : Fin cfg6.N) (r : Fin 256) (v : Fin 2048) :
    iblk6 V c 2 t (ix2 r v)
      = V c main_v38 (ix2 (⟨256 * t.val + r.val, by have := t_lt6 t; have := r.isLt; omega⟩ : Fin 2048) v) := by
  obtain ⟨e0, e1, e2, e3, e4, e5⟩ := idx_facts6 t
  show V c main_v38 (((cfg6.win 2).blk t).view.emb (ix2 r v)) = _
  refine congrArg (V c main_v38) ?_
  funext a; apply Fin.ext
  match a with
  | ⟨0, _⟩ => show win6_2.index t (0 : Fin 2) * 256 + 1 * r.val = 256 * t.val + r.val; omega
  | ⟨1, _⟩ => show win6_2.index t (1 : Fin 2) * 2048 + 1 * v.val = v.val; omega

/-! ## Per-point facts over any blocks -/

section Values
variable (x0 : Vec Ideal S2048x2048 .bf16) (x1 : Vec Ideal S256x2048 .bf16)

/-- Row k of the first half of a key tile is the tile's row k. -/
theorem ld_rA6_apply (k : Fin 128) (d : Fin 2048) :
    View.ld x1 rA6 (ix2 k d) = x1 (ix2 (⟨k.val, by have := k.isLt; omega⟩ : Fin 256) d) := by
  show x1 (rA6.idx (ix2 k d)) = _
  refine congrArg x1 ?_
  funext a; apply Fin.ext
  match a with
  | ⟨0, _⟩ => show 0 + 1 * k.val = k.val; omega
  | ⟨1, _⟩ => show 0 + 1 * d.val = d.val; omega

/-- Row k of the second half of a key tile is the tile's row 128 + k. -/
theorem ld_rB6_apply (k : Fin 128) (d : Fin 2048) :
    View.ld x1 rB6 (ix2 k d) = x1 (ix2 (⟨128 + k.val, by have := k.isLt; omega⟩ : Fin 256) d) := by
  show x1 (rB6.idx (ix2 k d)) = _
  refine congrArg x1 ?_
  funext a; apply Fin.ext
  match a with
  | ⟨0, _⟩ => show 128 + 1 * k.val = 128 + k.val; omega
  | ⟨1, _⟩ => show 0 + 1 * d.val = d.val; omega

end Values

/-! ## The two halves' attention weights at a grid point -/

theorem Aa_tile6 (c : Dev nD) (t : Fin cfg6.N) (q : Fin 2048) (k : Fin 128) :
    Aa6 (iblk6 V c 0 t) (iblk6 V c 1 t) (ix2 q k)
      = colsoft (V c main_v34) (V c main_v36) q (⟨256 * t.val + k.val, by have := t_lt6 t; have := k.isLt; omega⟩ : Fin 2048) := by
  unfold Aa6
  rw [P6.pay7_apply]
  exact softcol_eq_colsoft (iblk6 V c 0 t) (View.ld (iblk6 V c 1 t) rA6) (V c main_v34) (V c main_v36) (256 * t.val)
    (by have := t_lt6 t; omega) (fun q' d => iblk6_q V c t q' d)
    (fun k' d => (ld_rA6_apply (iblk6 V c 1 t) k' d).trans (iblk6_k V c t (⟨k'.val, by have := k'.isLt; omega⟩ : Fin 256) d)) q k

theorem Ab_tile6 (c : Dev nD) (t : Fin cfg6.N) (q : Fin 2048) (k : Fin 128) :
    Ab6 (iblk6 V c 0 t) (iblk6 V c 1 t) (ix2 q k)
      = colsoft (V c main_v34) (V c main_v36) q (⟨256 * t.val + 128 + k.val, by have := t_lt6 t; have := k.isLt; omega⟩ : Fin 2048) := by
  unfold Ab6
  rw [P6.pay12_apply, P6.pay6_eq]
  exact softcol_eq_colsoft (iblk6 V c 0 t) (View.ld (iblk6 V c 1 t) rB6) (V c main_v34) (V c main_v36) (256 * t.val + 128)
    (by have := t_lt6 t; omega) (fun q' d => iblk6_q V c t q' d)
    (fun k' d => (ld_rB6_apply (iblk6 V c 1 t) k' d).trans
      ((iblk6_k V c t (⟨128 + k'.val, by have := k'.isLt; omega⟩ : Fin 256) d).trans
        (congrArg (fun r : Fin 2048 => V c main_v36 (ix2 r d)) (Fin.ext (by show 256 * t.val + (128 + k'.val) = 256 * t.val + 128 + k'.val; omega))))) q k

end Cert.KernelIdeal.Fr
-- ==== Proof.AttnFinalI6.lean ====
/-
  Attention call 6's result array is the whole-array attention function of its three operand arrays.  The output block
  never moves: the body at grid point t adds, to what the point before left (zeros at the first point), the weighted
  values of the tile's first 128 keys and then of its last 128, keys 256·t + k and 256·t + 128 + k; so after the last of
  the 8 points entry (q, v) holds the sum over all 2048 keys of weight times value — the sum regrouped tile by tile —,
  and the one write-back, after the last point, writes the whole block, which is the whole array.
-/
import proofs.«156009_j19851338842369_2_alg».proof.Proof.AttnTileI6
import proofs.«156009_j19851338842369_2_alg».proof.Proof.AttnSpecI
import proofs.«156009_j19851338842369_2_alg».proof.Proof.LibBlockSum16
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Key k's term of entry (q, v) of the call's result: its attention weight for query q times its value at column v. -/
def wv6 (c : Dev nD) (q v : Fin 2048) (k : Fin 2048) : EReal :=
  colsoft (V c main_v34) (V c main_v36) q k * (V c main_v38 : S2048x2048.Idx → EReal) (ix2 k v)

/-- ONE POINT'S STEP: the body at point t adds to entry (q, v) the terms of keys 256·t … 256·t + 127, then those of
    keys 256·t + 128 … 256·t + 255. -/
theorem point_step6 (c : Dev nD) (t : Fin cfg6.N) (X : Vec Ideal S2048x2048 .f32) (q v : Fin 2048) :
    G2_6 (iblk6 V c 0 t) (iblk6 V c 1 t) (iblk6 V c 2 t) X (ix2 q v)
      = (X (ix2 q v) + ∑ k : Fin 128, wv6 V c q v (⟨256 * t.val + k.val, by have := t_lt6 t; have := k.isLt; omega⟩ : Fin 2048))
        + ∑ k : Fin 128, wv6 V c q v (⟨256 * t.val + 128 + k.val, by have := t_lt6 t; have := k.isLt; omega⟩ : Fin 2048) := by
  have ea : ∀ k : Fin 128, Aa6 (iblk6 V c 0 t) (iblk6 V c 1 t) (ix2 q k)
        * iblk6 V c 2 t (ix2 (⟨k.val, by have := k.isLt; omega⟩ : Fin 256) v)
      = wv6 V c q v (⟨256 * t.val + k.val, by have := t_lt6 t; have := k.isLt; omega⟩ : Fin 2048) := fun k => by
    rw [Aa_tile6, iblk6_v]
    rfl
  have eb : ∀ k : Fin 128, Ab6 (iblk6 V c 0 t) (iblk6 V c 1 t) (ix2 q k)
        * iblk6 V c 2 t (ix2 (⟨128 + k.val, by have := k.isLt; omega⟩ : Fin 256) v)
      = wv6 V c q v (⟨256 * t.val + 128 + k.val, by have := t_lt6 t; have := k.isLt; omega⟩ : Fin 2048) := fun k => by
    rw [Ab_tile6, iblk6_v]
    unfold wv6
    refine congrArg (fun r : Fin 2048 => colsoft (V c main_v34) (V c main_v36) q
      (⟨256 * t.val + 128 + k.val, by have := t_lt6 t; have := k.isLt; omega⟩ : Fin 2048) * (V c main_v38 : S2048x2048.Idx → EReal) (ix2 r v)) (Fin.ext ?_)
    show 256 * t.val + (128 + k.val) = 256 * t.val + 128 + k.val
    omega
  rw [G2_6_ix2, G1_6_ix2]
  simp only [ea, eb]

/-- THE ACCUMULATION, entry by entry: after point n the output block's entry (q, v) is the running total, tile by
    tile, of the terms of keys 0 … 256·(n + 1) − 1 — by induction on the point. -/
theorem outsAt6_eq (hA : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond6_0 i)
      (x0 : Vec Ideal S2048x2048 .bf16) (x1 x2 : Vec Ideal S256x2048 .bf16),
      out6_A_3 c i a1 h1 a2 h2 a3 h3 a4 h4 hc x0 x1 x2 = G2_6 x0 x1 x2 (fun _ : S2048x2048.Idx => (0 : EReal)))
    (hB : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond6_0 i)
      (x0 : Vec Ideal S2048x2048 .bf16) (x1 x2 : Vec Ideal S256x2048 .bf16) (xo : Vec Ideal S2048x2048 .f32),
      out6_B_3 c i a1 h1 a2 h2 a3 h3 a4 h4 hc x0 x1 x2 xo = G2_6 x0 x1 x2 xo)
    (c : Dev nD) (q v : Fin 2048) : ∀ (n : ℕ) (h : n < cfg6.N),
      outsAt6 V c n h (ix2 q v) = Cert.LibBlockSum16.run (wv6 V c q v) 0 n (by have hN : cfg6.N = 8 := N_6; omega)
  | 0, h => by
    have e := congrFun ((outsAt6_A V c ⟨0, h⟩ rfl).trans (hA c _ _ _ _ _ _ _ _ _ _ _ _ _)) (ix2 q v)
    refine (e.trans (point_step6 V c ⟨0, h⟩ _ q v)).trans ?_
    have s1 : ∑ k : Fin 128, wv6 V c q v (⟨256 * (⟨0, h⟩ : Fin cfg6.N).val + k.val, by have := k.isLt; show 256 * 0 + k.val < 2048; omega⟩ : Fin 2048)
        = ∑ k : Fin 128, wv6 V c q v (⟨k.val, by have := k.isLt; omega⟩ : Fin 2048) :=
      Finset.sum_congr rfl fun k _ => congrArg (wv6 V c q v) (Fin.ext (by show 256 * 0 + k.val = k.val; omega))
    have s2 : ∑ k : Fin 128, wv6 V c q v (⟨256 * (⟨0, h⟩ : Fin cfg6.N).val + 128 + k.val, by have := k.isLt; show 256 * 0 + 128 + k.val < 2048; omega⟩ : Fin 2048)
        = ∑ k : Fin 128, wv6 V c q v (⟨128 + k.val, by have := k.isLt; omega⟩ : Fin 2048) :=
      Finset.sum_congr rfl fun k _ => congrArg (wv6 V c q v) (Fin.ext (by show 256 * 0 + 128 + k.val = 128 + k.val; omega))
    exact congrArg₂ (fun a b : EReal => (0 + a) + b) s1 s2
  | n + 1, h => by
    have hN : cfg6.N = 8 := N_6
    have hB' : ¬(⟨n + 1, h⟩ : Fin cfg6.N).val % 8 = 0 := by dsimp only; omega
    have e := congrFun ((outsAt6_B V c ⟨n + 1, h⟩ hB').trans (hB c _ _ _ _ _ _ _ _ _ _ _ _ _ _)) (ix2 q v)
    refine (e.trans (point_step6 V c ⟨n + 1, h⟩ _ q v)).trans ?_
    have ih := outsAt6_eq hA hB c q v n (Nat.lt_of_succ_lt h)
    exact congrArg (fun z : EReal => (z
        + ∑ k : Fin 128, wv6 V c q v (⟨256 * (n + 1) + k.val, by have := k.isLt; omega⟩ : Fin 2048))
        + ∑ k : Fin 128, wv6 V c q v (⟨256 * (n + 1) + 128 + k.val, by have := k.isLt; omega⟩ : Fin 2048)) ih

/-- After the last point the output block is the call's whole-array attention function of the three operand arrays:
    the tile-by-tile total of all 2048 keys' terms is their sum. -/
theorem outsAt6_last (hA : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond6_0 i)
      (x0 : Vec Ideal S2048x2048 .bf16) (x1 x2 : Vec Ideal S256x2048 .bf16),
      out6_A_3 c i a1 h1 a2 h2 a3 h3 a4 h4 hc x0 x1 x2 = G2_6 x0 x1 x2 (fun _ : S2048x2048.Idx => (0 : EReal)))
    (hB : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond6_0 i)
      (x0 : Vec Ideal S2048x2048 .bf16) (x1 x2 : Vec Ideal S256x2048 .bf16) (xo : Vec Ideal S2048x2048 .f32),
      out6_B_3 c i a1 h1 a2 h2 a3 h3 a4 h4 hc x0 x1 x2 xo = G2_6 x0 x1 x2 xo)
    (c : Dev nD) (h : 7 < cfg6.N) :
    outsAt6 V c 7 h = attnG (V c main_v34) (V c main_v36) (V c main_v38) := by
  funext y
  obtain ⟨q, v, rfl⟩ : ∃ (q v : Fin 2048), y = ix2 q v := ⟨y 0, y 1, eq_ix2 y⟩
  rw [outsAt6_eq V hA hB c q v 7 h, Cert.LibBlockSum16.run_last, attnG_ix2]
  rfl

/-- The one write-back, after point 7, writes the whole-array function: block (0, 0) of the [2048, 2048] array read
    through zero offsets is the array. -/
theorem flushed6_eq (hA : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond6_0 i)
      (x0 : Vec Ideal S2048x2048 .bf16) (x1 x2 : Vec Ideal S256x2048 .bf16),
      out6_A_3 c i a1 h1 a2 h2 a3 h3 a4 h4 hc x0 x1 x2 = G2_6 x0 x1 x2 (fun _ : S2048x2048.Idx => (0 : EReal)))
    (hB : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond6_0 i)
      (x0 : Vec Ideal S2048x2048 .bf16) (x1 x2 : Vec Ideal S256x2048 .bf16) (xo : Vec Ideal S2048x2048 .f32),
      out6_B_3 c i a1 h1 a2 h2 a3 h3 a4 h4 hc x0 x1 x2 xo = G2_6 x0 x1 x2 xo)
    (c : Dev nD) (t : Fin cfg6.N) (hf : (cfg6.win 3).flush t = true) :
    (dat6 V c).flushed 3 t
      = ((cfg6.win 3).blk t).view.read (Elt Ideal) (attnG (V c main_v34) (V c main_v36) (V c main_v38)) := by
  have hN : cfg6.N = 8 := N_6
  have h7 : t.val = 7 := by have := (flush6_3 t).mp hf; have := t.isLt; omega
  obtain rfl : t = t6_7 := Fin.ext h7
  show (cfg6.win 3).cut (grid6.coords t6_7) ((dat6 V c).after 3 t6_7) = _
  rw [after6_3, show outsAt6 V c t6_7.val t6_7.isLt = attnG (V c main_v34) (V c main_v36) (V c main_v38) from
    outsAt6_last V hA hB c _]
  have hz' : (fun a => win6_3.index t6_7 a * main_v39.ty.shape.size a) = fun _ => 0 := funext fun a => by fin_cases a <;> decide
  exact (Memref.read_access_unit_zero (Elt Ideal) main_v39 hz' (fun a => by rw [congrFun hz' a]; simp)
    (attnG (V c main_v34) (V c main_v36) (V c main_v38))).symm

/-- ATTENTION CALL 6's RESULT ARRAY after the call: the whole-array attention function of the three operand arrays as
    the call finds them (point 7's block covers the array) — given what each case of the body leaves in the output block. -/
theorem attn_final6_of (hA : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : cond6_0 i)
      (x0 : Vec Ideal S2048x2048 .bf16) (x1 x2 : Vec Ideal S256x2048 .bf16),
      out6_A_3 c i a1 h1 a2 h2 a3 h3 a4 h4 hc x0 x1 x2 = G2_6 x0 x1 x2 (fun _ : S2048x2048.Idx => (0 : EReal)))
    (hB : ∀ (c : Dev nD) (i : grid6.Coords) (a1 : Memref sig .tc .vmem S2048x2048 .bf16) (h1 : a1.IsWhole)
      (a2 : Memref sig .tc .vmem S256x2048 .bf16) (h2 : a2.IsWhole) (a3 : Memref sig .tc .vmem S256x2048 .bf16) (h3 : a3.IsWhole)
      (a4 : Memref sig .tc .vmem S2048x2048 .f32) (h4 : a4.IsWhole) (hc : ¬cond6_0 i)
      (x0 : Vec Ideal S2048x2048 .bf16) (x1 x2 : Vec Ideal S256x2048 .bf16) (xo : Vec Ideal S2048x2048 .f32),
      out6_B_3 c i a1 h1 a2 h2 a3 h3 a4 h4 hc x0 x1 x2 xo = G2_6 x0 x1 x2 xo)
    (V : (c : Dev nD) → (b : Ref sig .tc) → Buf (Elt Ideal) ((c : Thread nD τ).loc b)) (c : Dev nD) :
    (dat6 V c).arrAt 3 cfg6.N = attnG (V c main_v34) (V c main_v36) (V c main_v38) :=
  (dat6 V c).arrAt_eq_of_cover 3 (attnG (V c main_v34) (V c main_v36) (V c main_v38)) (flushed6_eq V hA hB c) fun i =>
    ⟨t6_7, (flush6_3 t6_7).mpr rfl, by
      show i ∈ ((View.whole main_v39).slice (win6_3.rect t6_7)).set
      rw [View.set_slice_whole, Rect.mem_set_unit]
      intro a
      have h0 : (i 0 : Nat) < 2048 := (i 0).isLt
      have h1 : (i 1 : Nat) < 2048 := (i 1).isLt
      match a with
      | ⟨0, _⟩ => show win6_3.index t6_7 0 * win6_3.size 0 ≤ (i 0 : Nat) ∧ (i 0 : Nat) < win6_3.index t6_7 0 * win6_3.size 0 + win6_3.xsize (grid6.coords t6_7) 0
                  rw [show win6_3.index t6_7 0 * win6_3.size 0 = 0 from by decide +kernel, show win6_3.xsize (grid6.coords t6_7) 0 = 2048 from by decide +kernel]; omega
      | ⟨1, _⟩ => show win6_3.index t6_7 1 * win6_3.size 1 ≤ (i 1 : Nat) ∧ (i 1 : Nat) < win6_3.index t6_7 1 * win6_3.size 1 + win6_3.xsize (grid6.coords t6_7) 1
                  rw [show win6_3.index t6_7 1 * win6_3.size 1 = 0 from by decide +kernel, show win6_3.xsize (grid6.coords t6_7) 1 = 2048 from by decide +kernel]; omega⟩

end Cert.KernelIdeal.Fr
-- ==== Proof.HostGlue.lean ====
/-
  The host stretches of the kernel program's @main, read at an index.  Between its calls @main only moves data: it
  flattens the three activations [4, 2048, 2048] to [8192, 2048] (row b * 2048 + s of the flat array is row s of batch
  element b), changes the three weights' float format (the identity on the extended reals), folds each projection's
  [8192, 2048] result back to [4, 2048, 2048] and takes one batch element out of it as a [2048, 2048] operand of that
  element's attention call, and at the end stacks the four attention results along a new leading axis.  Each statement
  below says which entry of the previous boundary's buffers one entry of a host stretch's result is; a buffer that a
  call or a host stretch does not write is carried along unchanged.
-/
import proofs.«156009_j19851338842369_2_alg».proof.Proof.RunI
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

/-- Row `b * 2048 + s` of a flattened [4, 2048, ·] array: row `s` of batch element `b`. -/
def row (b : Fin 4) (s : Fin 2048) : Fin 8192 := ⟨2048 * b.val + s.val, by omega⟩

/-! ## Layout operations of this program read at an index (any element type) -/

section Layout
variable {α : Type}

/-- Flattening [4, 2048, 2048] to [8192, 2048]: entry `(b * 2048 + s, k)` of the flat array is entry `(b, s, k)`. -/
theorem flatten_apply (X : S4x2048x2048.Idx → α) (h : S4x2048x2048.ShapeCasts S8192x2048) (b : Fin 4) (s k : Fin 2048) :
    shapeCast S8192x2048 X h (ix2 (row b s) k) = X (ix3 b s k) :=
  shapeCast_apply X h _ _ (by
    rw [Shape.rowMajor_val_three, Shape.rowMajor_val_two]
    show (b.val * 2048 + s.val) * 2048 + k.val = (2048 * b.val + s.val) * 2048 + k.val
    omega)

/-- Folding [8192, 2048] back to [4, 2048, 2048]: entry `(b, s, k)` is entry `(b * 2048 + s, k)` of the flat array. -/
theorem unflatten_apply (X : S8192x2048.Idx → α) (h : S8192x2048.ShapeCasts S4x2048x2048) (b : Fin 4) (s k : Fin 2048) :
    shapeCast S4x2048x2048 X h (ix3 b s k) = X (ix2 (row b s) k) :=
  shapeCast_apply X h _ _ (by
    rw [Shape.rowMajor_val_three, Shape.rowMajor_val_two]
    show (2048 * b.val + s.val) * 2048 + k.val = (b.val * 2048 + s.val) * 2048 + k.val
    omega)

/-- Batch element `b` taken out of a folded projection as a [2048, 2048] matrix — the fold, the slice at offsets
    `(b, 0, 0)` and the cast that drops the unit axis —: entry `(q, d)` is entry `(b * 2048 + q, d)` of the flat array. -/
theorem pick_batch_apply (X : S8192x2048.Idx → α) (h1 : S8192x2048.ShapeCasts S4x2048x2048) (b : Fin 4)
    (off : Fin 3 → Nat) (h0 : off 0 = b.val) (h1' : off 1 = 0) (h2' : off 2 = 0)
    (h2 : S4x2048x2048.Slices off S1x2048x2048) (h3 : S1x2048x2048.ShapeCasts S2048x2048) (q d : Fin 2048) :
    shapeCast S2048x2048 (extractStridedSlice S1x2048x2048 off (shapeCast S4x2048x2048 X h1) h2) h3 (ix2 q d)
      = X (ix2 (row b q) d) := by
  have e1 : shapeCast S2048x2048 (extractStridedSlice S1x2048x2048 off (shapeCast S4x2048x2048 X h1) h2) h3 (ix2 q d)
      = extractStridedSlice S1x2048x2048 off (shapeCast S4x2048x2048 X h1) h2 (ix3 (0 : Fin 1) q d) :=
    shapeCast_apply _ h3 (ix2 q d) (ix3 (0 : Fin 1) q d) (by
      rw [Shape.rowMajor_val_three, Shape.rowMajor_val_two]
      show (0 * 2048 + q.val) * 2048 + d.val = q.val * 2048 + d.val
      omega)
  have e2 : extractStridedSlice S1x2048x2048 off (shapeCast S4x2048x2048 X h1) h2 (ix3 (0 : Fin 1) q d)
      = shapeCast S4x2048x2048 X h1 (ix3 b q d) :=
    extractStridedSlice_apply off _ h2 _ (ix3 b q d) fun a => by
      match a with
      | ⟨0, _⟩ => show b.val = off 0 + 0; omega
      | ⟨1, _⟩ => show q.val = off 1 + q.val; omega
      | ⟨2, _⟩ => show d.val = off 2 + d.val; omega
  exact e1.trans (e2.trans (unflatten_apply X h1 b q d))

/-- A [2048, 2048] matrix given a leading unit axis by `broadcast_in_dim`: entry `(0, q, v)` is entry `(q, v)`. -/
theorem lift_unit_apply (X : S2048x2048.Idx → α) (h : S2048x2048.BroadcastsInDim S1x2048x2048 (![1, 2] : Fin 2 → Fin S1x2048x2048.rank))
    (u : Fin 1) (q v : Fin 2048) :
    broadcastInDim S1x2048x2048 (![1, 2] : Fin 2 → Fin S1x2048x2048.rank) h X (ix3 u q v) = X (ix2 q v) :=
  broadcastInDim_apply _ h X _ _ fun a => match a with
    | ⟨0, _⟩ => by show q.val = if (2048 : Nat) = 1 then 0 else q.val; rw [if_neg (by decide)]
    | ⟨1, _⟩ => by show v.val = if (2048 : Nat) = 1 then 0 else v.val; rw [if_neg (by decide)]

end Layout

/-! ## Four [1, 2048, 2048] pieces stacked along the leading axis: piece `b` is batch element `b` of the stack -/

section Stack
variable {α : Type}

theorem stack4_apply0 (x0 x1 x2 x3 : S1x2048x2048.Idx → α)
    (h : Shape.Concatenates [S1x2048x2048, S1x2048x2048, S1x2048x2048, S1x2048x2048] S4x2048x2048 0) (q v : Fin 2048) :
    concatenate S4x2048x2048 0 [⟨S1x2048x2048, x0⟩, ⟨S1x2048x2048, x1⟩, ⟨S1x2048x2048, x2⟩, ⟨S1x2048x2048, x3⟩] h (ix3 (0 : Fin 4) q v) = x0 (ix3 (0 : Fin 1) q v) :=
  concatenate_apply_piece (0 : Fin S4x2048x2048.rank) [⟨S1x2048x2048, x0⟩, ⟨S1x2048x2048, x1⟩, ⟨S1x2048x2048, x2⟩, ⟨S1x2048x2048, x3⟩] h (ix3 (0 : Fin 4) q v) 0 (show (0 : Nat) < 4 by omega) S1x2048x2048 x0 rfl rfl 0 rfl
    (ix3 (0 : Fin 1) q v)
    (fun b hb => match b, hb with
      | ⟨0, _⟩, hb => absurd rfl hb
      | ⟨1, _⟩, _ => rfl
      | ⟨2, _⟩, _ => rfl) rfl

theorem stack4_apply1 (x0 x1 x2 x3 : S1x2048x2048.Idx → α)
    (h : Shape.Concatenates [S1x2048x2048, S1x2048x2048, S1x2048x2048, S1x2048x2048] S4x2048x2048 0) (q v : Fin 2048) :
    concatenate S4x2048x2048 0 [⟨S1x2048x2048, x0⟩, ⟨S1x2048x2048, x1⟩, ⟨S1x2048x2048, x2⟩, ⟨S1x2048x2048, x3⟩] h (ix3 (1 : Fin 4) q v) = x1 (ix3 (0 : Fin 1) q v) :=
  concatenate_apply_piece (0 : Fin S4x2048x2048.rank) [⟨S1x2048x2048, x0⟩, ⟨S1x2048x2048, x1⟩, ⟨S1x2048x2048, x2⟩, ⟨S1x2048x2048, x3⟩] h (ix3 (1 : Fin 4) q v) 1 (show (1 : Nat) < 4 by omega) S1x2048x2048 x1 rfl rfl 1 rfl
    (ix3 (0 : Fin 1) q v)
    (fun b hb => match b, hb with
      | ⟨0, _⟩, hb => absurd rfl hb
      | ⟨1, _⟩, _ => rfl
      | ⟨2, _⟩, _ => rfl) rfl

theorem stack4_apply2 (x0 x1 x2 x3 : S1x2048x2048.Idx → α)
    (h : Shape.Concatenates [S1x2048x2048, S1x2048x2048, S1x2048x2048, S1x2048x2048] S4x2048x2048 0) (q v : Fin 2048) :
    concatenate S4x2048x2048 0 [⟨S1x2048x2048, x0⟩, ⟨S1x2048x2048, x1⟩, ⟨S1x2048x2048, x2⟩, ⟨S1x2048x2048, x3⟩] h (ix3 (2 : Fin 4) q v) = x2 (ix3 (0 : Fin 1) q v) :=
  concatenate_apply_piece (0 : Fin S4x2048x2048.rank) [⟨S1x2048x2048, x0⟩, ⟨S1x2048x2048, x1⟩, ⟨S1x2048x2048, x2⟩, ⟨S1x2048x2048, x3⟩] h (ix3 (2 : Fin 4) q v) 2 (show (2 : Nat) < 4 by omega) S1x2048x2048 x2 rfl rfl 2 rfl
    (ix3 (0 : Fin 1) q v)
    (fun b hb => match b, hb with
      | ⟨0, _⟩, hb => absurd rfl hb
      | ⟨1, _⟩, _ => rfl
      | ⟨2, _⟩, _ => rfl) rfl

theorem stack4_apply3 (x0 x1 x2 x3 : S1x2048x2048.Idx → α)
    (h : Shape.Concatenates [S1x2048x2048, S1x2048x2048, S1x2048x2048, S1x2048x2048] S4x2048x2048 0) (q v : Fin 2048) :
    concatenate S4x2048x2048 0 [⟨S1x2048x2048, x0⟩, ⟨S1x2048x2048, x1⟩, ⟨S1x2048x2048, x2⟩, ⟨S1x2048x2048, x3⟩] h (ix3 (3 : Fin 4) q v) = x3 (ix3 (0 : Fin 1) q v) :=
  concatenate_apply_piece (0 : Fin S4x2048x2048.rank) [⟨S1x2048x2048, x0⟩, ⟨S1x2048x2048, x1⟩, ⟨S1x2048x2048, x2⟩, ⟨S1x2048x2048, x3⟩] h (ix3 (3 : Fin 4) q v) 3 (show (3 : Nat) < 4 by omega) S1x2048x2048 x3 rfl rfl 3 rfl
    (ix3 (0 : Fin 1) q v)
    (fun b hb => match b, hb with
      | ⟨0, _⟩, hb => absurd rfl hb
      | ⟨1, _⟩, _ => rfl
      | ⟨2, _⟩, _ => rfl) rfl

end Stack

/-! ## What each host stretch leaves in a buffer, as a term of the previous boundary's buffers (any float instance) -/

section Generic
variable {F : FTy → Type} [FloatOps F]
variable (m : (ℓ : Loc nD τ sig) → Buf (Elt F) ℓ) (ρ : Dev nD → PrngReg)

theorem W1_v0 (c : Dev nD) : (W1 m ρ c (Proc.devRef .tc main_v0) : Vec F S8192x2048 .f32) =
    shapeCast S8192x2048 (m ((c : Thread nD τ).loc main_arg0) : Vec F S4x2048x2048 .f32) shapeCasts_S4x2048x2048_S8192x2048 := by
  show StableHlo.after hostOps0 _ (Proc.devRef .tc main_v0) = _
  after_results
  rfl

theorem W1_v1 (c : Dev nD) : (W1 m ρ c (Proc.devRef .tc main_v1) : Vec F S8192x2048 .f32) =
    shapeCast S8192x2048 (m ((c : Thread nD τ).loc main_arg1) : Vec F S4x2048x2048 .f32) shapeCasts_S4x2048x2048_S8192x2048 := by
  show StableHlo.after hostOps0 _ (Proc.devRef .tc main_v1) = _
  after_results
  rfl

theorem W1_v2 (c : Dev nD) : (W1 m ρ c (Proc.devRef .tc main_v2) : Vec F S8192x2048 .f32) =
    shapeCast S8192x2048 (m ((c : Thread nD τ).loc main_arg2) : Vec F S4x2048x2048 .f32) shapeCasts_S4x2048x2048_S8192x2048 := by
  show StableHlo.after hostOps0 _ (Proc.devRef .tc main_v2) = _
  after_results
  rfl
theorem W1_v3 (c : Dev nD) : (W1 m ρ c (Proc.devRef .tc main_v3) : Vec F S2048x2048 .bf16) =
    truncf .bf16 (m ((c : Thread nD τ).loc main_arg3) : Vec F S2048x2048 .f32) bitsLt_bf16_f32 := by
  show StableHlo.after hostOps0 _ (Proc.devRef .tc main_v3) = _
  after_results

theorem W1_v4 (c : Dev nD) : (W1 m ρ c (Proc.devRef .tc main_v4) : Vec F S2048x2048 .bf16) =
    truncf .bf16 (m ((c : Thread nD τ).loc main_arg4) : Vec F S2048x2048 .f32) bitsLt_bf16_f32 := by
  show StableHlo.after hostOps0 _ (Proc.devRef .tc main_v4) = _
  after_results

theorem W1_v5 (c : Dev nD) : (W1 m ρ c (Proc.devRef .tc main_v5) : Vec F S2048x2048 .bf16) =
    truncf .bf16 (m ((c : Thread nD τ).loc main_arg5) : Vec F S2048x2048 .f32) bitsLt_bf16_f32 := by
  show StableHlo.after hostOps0 _ (Proc.devRef .tc main_v5) = _
  after_results

/-! The folded projections `main_v9`, `main_v10`, `main_v11` are written once, by the stretch before the first attention
    call; no later call or stretch writes them. -/

theorem W5_v9 (c : Dev nD) : (W5 m ρ c (Proc.devRef .tc main_v9) : Vec F S4x2048x2048 .bf16) =
    shapeCast S4x2048x2048 (W4 m ρ c (Proc.devRef .tc main_v6) : Vec F S8192x2048 .bf16) shapeCasts_S8192x2048_S4x2048x2048 := by
  show StableHlo.after hostOps3 _ (Proc.devRef .tc main_v9) = _
  after_results
  rfl
theorem W5_v10 (c : Dev nD) : (W5 m ρ c (Proc.devRef .tc main_v10) : Vec F S4x2048x2048 .bf16) =
    shapeCast S4x2048x2048 (W4 m ρ c (Proc.devRef .tc main_v7) : Vec F S8192x2048 .bf16) shapeCasts_S8192x2048_S4x2048x2048 := by
  show StableHlo.after hostOps3 _ (Proc.devRef .tc main_v10) = _
  after_results
  rfl
theorem W5_v11 (c : Dev nD) : (W5 m ρ c (Proc.devRef .tc main_v11) : Vec F S4x2048x2048 .bf16) =
    shapeCast S4x2048x2048 (W4 m ρ c (Proc.devRef .tc main_v8) : Vec F S8192x2048 .bf16) shapeCasts_S8192x2048_S4x2048x2048 := by
  show StableHlo.after hostOps3 _ (Proc.devRef .tc main_v11) = _
  after_results
  rfl
theorem v9_at6 (c : Dev nD) : W6 m ρ c (Proc.devRef .tc main_v9) = W5 m ρ c (Proc.devRef .tc main_v9) :=
  W6_of_ne m ρ c main_v9 (by decide)
theorem v9_at8 (c : Dev nD) : W8 m ρ c (Proc.devRef .tc main_v9) = W5 m ρ c (Proc.devRef .tc main_v9) :=
  (W8_of_ne m ρ c main_v9 (by decide)).trans <|
  (StableHlo.after_of_writes_sub hostOps4 _ hostOps4_writes (by decide)).trans (v9_at6 m ρ c)
theorem v9_at10 (c : Dev nD) : W10 m ρ c (Proc.devRef .tc main_v9) = W5 m ρ c (Proc.devRef .tc main_v9) :=
  (W10_of_ne m ρ c main_v9 (by decide)).trans <|
  (StableHlo.after_of_writes_sub hostOps5 _ hostOps5_writes (by decide)).trans (v9_at8 m ρ c)
theorem v10_at6 (c : Dev nD) : W6 m ρ c (Proc.devRef .tc main_v10) = W5 m ρ c (Proc.devRef .tc main_v10) :=
  W6_of_ne m ρ c main_v10 (by decide)
theorem v10_at8 (c : Dev nD) : W8 m ρ c (Proc.devRef .tc main_v10) = W5 m ρ c (Proc.devRef .tc main_v10) :=
  (W8_of_ne m ρ c main_v10 (by decide)).trans <|
  (StableHlo.after_of_writes_sub hostOps4 _ hostOps4_writes (by decide)).trans (v10_at6 m ρ c)
theorem v10_at10 (c : Dev nD) : W10 m ρ c (Proc.devRef .tc main_v10) = W5 m ρ c (Proc.devRef .tc main_v10) :=
  (W10_of_ne m ρ c main_v10 (by decide)).trans <|
  (StableHlo.after_of_writes_sub hostOps5 _ hostOps5_writes (by decide)).trans (v10_at8 m ρ c)
theorem v11_at6 (c : Dev nD) : W6 m ρ c (Proc.devRef .tc main_v11) = W5 m ρ c (Proc.devRef .tc main_v11) :=
  W6_of_ne m ρ c main_v11 (by decide)
theorem v11_at8 (c : Dev nD) : W8 m ρ c (Proc.devRef .tc main_v11) = W5 m ρ c (Proc.devRef .tc main_v11) :=
  (W8_of_ne m ρ c main_v11 (by decide)).trans <|
  (StableHlo.after_of_writes_sub hostOps4 _ hostOps4_writes (by decide)).trans (v11_at6 m ρ c)
theorem v11_at10 (c : Dev nD) : W10 m ρ c (Proc.devRef .tc main_v11) = W5 m ρ c (Proc.devRef .tc main_v11) :=
  (W10_of_ne m ρ c main_v11 (by decide)).trans <|
  (StableHlo.after_of_writes_sub hostOps5 _ hostOps5_writes (by decide)).trans (v11_at8 m ρ c)

/-! Each batch element's three operands: a slice of a folded projection with its unit axis dropped. -/

theorem W5_v13 (c : Dev nD) : (W5 m ρ c (Proc.devRef .tc main_v13) : Vec F S2048x2048 .bf16) =
    shapeCast S2048x2048 (extractStridedSlice S1x2048x2048 ![0, 0, 0]
      (W5 m ρ c (Proc.devRef .tc main_v9) : Vec F S4x2048x2048 .bf16) slices_S4x2048x2048_S1x2048x2048_0_0_0)
      shapeCasts_S1x2048x2048_S2048x2048 := by
  show StableHlo.after hostOps3 _ (Proc.devRef .tc main_v13) = _
  after_results
  rfl
theorem W5_v15 (c : Dev nD) : (W5 m ρ c (Proc.devRef .tc main_v15) : Vec F S2048x2048 .bf16) =
    shapeCast S2048x2048 (extractStridedSlice S1x2048x2048 ![0, 0, 0]
      (W5 m ρ c (Proc.devRef .tc main_v10) : Vec F S4x2048x2048 .bf16) slices_S4x2048x2048_S1x2048x2048_0_0_0)
      shapeCasts_S1x2048x2048_S2048x2048 := by
  show StableHlo.after hostOps3 _ (Proc.devRef .tc main_v15) = _
  after_results
  rfl
theorem W5_v17 (c : Dev nD) : (W5 m ρ c (Proc.devRef .tc main_v17) : Vec F S2048x2048 .bf16) =
    shapeCast S2048x2048 (extractStridedSlice S1x2048x2048 ![0, 0, 0]
      (W5 m ρ c (Proc.devRef .tc main_v11) : Vec F S4x2048x2048 .bf16) slices_S4x2048x2048_S1x2048x2048_0_0_0)
      shapeCasts_S1x2048x2048_S2048x2048 := by
  show StableHlo.after hostOps3 _ (Proc.devRef .tc main_v17) = _
  after_results
  rfl
theorem W7_v20 (c : Dev nD) : (W7 m ρ c (Proc.devRef .tc main_v20) : Vec F S2048x2048 .bf16) =
    shapeCast S2048x2048 (extractStridedSlice S1x2048x2048 ![1, 0, 0]
      (W6 m ρ c (Proc.devRef .tc main_v9) : Vec F S4x2048x2048 .bf16) slices_S4x2048x2048_S1x2048x2048_1_0_0)
      shapeCasts_S1x2048x2048_S2048x2048 := by
  show StableHlo.after hostOps4 _ (Proc.devRef .tc main_v20) = _
  after_results
  rfl
theorem W7_v22 (c : Dev nD) : (W7 m ρ c (Proc.devRef .tc main_v22) : Vec F S2048x2048 .bf16) =
    shapeCast S2048x2048 (extractStridedSlice S1x2048x2048 ![1, 0, 0]
      (W6 m ρ c (Proc.devRef .tc main_v10) : Vec F S4x2048x2048 .bf16) slices_S4x2048x2048_S1x2048x2048_1_0_0)
      shapeCasts_S1x2048x2048_S2048x2048 := by
  show StableHlo.after hostOps4 _ (Proc.devRef .tc main_v22) = _
  after_results
  rfl
theorem W7_v24 (c : Dev nD) : (W7 m ρ c (Proc.devRef .tc main_v24) : Vec F S2048x2048 .bf16) =
    shapeCast S2048x2048 (extractStridedSlice S1x2048x2048 ![1, 0, 0]
      (W6 m ρ c (Proc.devRef .tc main_v11) : Vec F S4x2048x2048 .bf16) slices_S4x2048x2048_S1x2048x2048_1_0_0)
      shapeCasts_S1x2048x2048_S2048x2048 := by
  show StableHlo.after hostOps4 _ (Proc.devRef .tc main_v24) = _
  after_results
  rfl
theorem W9_v27 (c : Dev nD) : (W9 m ρ c (Proc.devRef .tc main_v27) : Vec F S2048x2048 .bf16) =
    shapeCast S2048x2048 (extractStridedSlice S1x2048x2048 ![2, 0, 0]
      (W8 m ρ c (Proc.devRef .tc main_v9) : Vec F S4x2048x2048 .bf16) slices_S4x2048x2048_S1x2048x2048_2_0_0)
      shapeCasts_S1x2048x2048_S2048x2048 := by
  show StableHlo.after hostOps5 _ (Proc.devRef .tc main_v27) = _
  after_results
  rfl
theorem W9_v29 (c : Dev nD) : (W9 m ρ c (Proc.devRef .tc main_v29) : Vec F S2048x2048 .bf16) =
    shapeCast S2048x2048 (extractStridedSlice S1x2048x2048 ![2, 0, 0]
      (W8 m ρ c (Proc.devRef .tc main_v10) : Vec F S4x2048x2048 .bf16) slices_S4x2048x2048_S1x2048x2048_2_0_0)
      shapeCasts_S1x2048x2048_S2048x2048 := by
  show StableHlo.after hostOps5 _ (Proc.devRef .tc main_v29) = _
  after_results
  rfl
theorem W9_v31 (c : Dev nD) : (W9 m ρ c (Proc.devRef .tc main_v31) : Vec F S2048x2048 .bf16) =
    shapeCast S2048x2048 (extractStridedSlice S1x2048x2048 ![2, 0, 0]
      (W8 m ρ c (Proc.devRef .tc main_v11) : Vec F S4x2048x2048 .bf16) slices_S4x2048x2048_S1x2048x2048_2_0_0)
      shapeCasts_S1x2048x2048_S2048x2048 := by
  show StableHlo.after hostOps5 _ (Proc.devRef .tc main_v31) = _
  after_results
  rfl
theorem W11_v34 (c : Dev nD) : (W11 m ρ c (Proc.devRef .tc main_v34) : Vec F S2048x2048 .bf16) =
    shapeCast S2048x2048 (extractStridedSlice S1x2048x2048 ![3, 0, 0]
      (W10 m ρ c (Proc.devRef .tc main_v9) : Vec F S4x2048x2048 .bf16) slices_S4x2048x2048_S1x2048x2048_3_0_0)
      shapeCasts_S1x2048x2048_S2048x2048 := by
  show StableHlo.after hostOps6 _ (Proc.devRef .tc main_v34) = _
  after_results
  rfl
theorem W11_v36 (c : Dev nD) : (W11 m ρ c (Proc.devRef .tc main_v36) : Vec F S2048x2048 .bf16) =
    shapeCast S2048x2048 (extractStridedSlice S1x2048x2048 ![3, 0, 0]
      (W10 m ρ c (Proc.devRef .tc main_v10) : Vec F S4x2048x2048 .bf16) slices_S4x2048x2048_S1x2048x2048_3_0_0)
      shapeCasts_S1x2048x2048_S2048x2048 := by
  show StableHlo.after hostOps6 _ (Proc.devRef .tc main_v36) = _
  after_results
  rfl
theorem W11_v38 (c : Dev nD) : (W11 m ρ c (Proc.devRef .tc main_v38) : Vec F S2048x2048 .bf16) =
    shapeCast S2048x2048 (extractStridedSlice S1x2048x2048 ![3, 0, 0]
      (W10 m ρ c (Proc.devRef .tc main_v11) : Vec F S4x2048x2048 .bf16) slices_S4x2048x2048_S1x2048x2048_3_0_0)
      shapeCasts_S1x2048x2048_S2048x2048 := by
  show StableHlo.after hostOps6 _ (Proc.devRef .tc main_v38) = _
  after_results
  rfl

end Generic

/-! ## The last stretch: each attention result given a unit axis, the four stacked -/

section GenericStack
variable {F : FTy → Type} [FloatOps F]
variable (m : (ℓ : Loc nD τ sig) → Buf (Elt F) ℓ) (ρ : Dev nD → PrngReg)

/-- An attention call's result is written once, by that call; nothing later writes it. -/
theorem v18_at12 (c : Dev nD) : W12 m ρ c (Proc.devRef .tc main_v18) = W6 m ρ c (Proc.devRef .tc main_v18) :=
  (W12_of_ne m ρ c main_v18 (by decide)).trans <|
  (StableHlo.after_of_writes_sub hostOps6 _ hostOps6_writes (by decide)).trans <|
  (W10_of_ne m ρ c main_v18 (by decide)).trans <|
  (StableHlo.after_of_writes_sub hostOps5 _ hostOps5_writes (by decide)).trans <|
  (W8_of_ne m ρ c main_v18 (by decide)).trans <|
  (StableHlo.after_of_writes_sub hostOps4 _ hostOps4_writes (by decide))
theorem v25_at12 (c : Dev nD) : W12 m ρ c (Proc.devRef .tc main_v25) = W8 m ρ c (Proc.devRef .tc main_v25) :=
  (W12_of_ne m ρ c main_v25 (by decide)).trans <|
  (StableHlo.after_of_writes_sub hostOps6 _ hostOps6_writes (by decide)).trans <|
  (W10_of_ne m ρ c main_v25 (by decide)).trans <|
  (StableHlo.after_of_writes_sub hostOps5 _ hostOps5_writes (by decide))
theorem v32_at12 (c : Dev nD) : W12 m ρ c (Proc.devRef .tc main_v32) = W10 m ρ c (Proc.devRef .tc main_v32) :=
  (W12_of_ne m ρ c main_v32 (by decide)).trans <|
  (StableHlo.after_of_writes_sub hostOps6 _ hostOps6_writes (by decide))

theorem W13_v44 (c : Dev nD) : (W13 m ρ c (Proc.devRef .tc main_v44) : Vec F S4x2048x2048 .f32) =
    concatenate S4x2048x2048 0
      [⟨S1x2048x2048, broadcastInDim S1x2048x2048 ![1, 2] bcast_S2048x2048_S1x2048x2048_1_2 (W12 m ρ c (Proc.devRef .tc main_v18) : Vec F S2048x2048 .f32)⟩,
       ⟨S1x2048x2048, broadcastInDim S1x2048x2048 ![1, 2] bcast_S2048x2048_S1x2048x2048_1_2 (W12 m ρ c (Proc.devRef .tc main_v25) : Vec F S2048x2048 .f32)⟩,
       ⟨S1x2048x2048, broadcastInDim S1x2048x2048 ![1, 2] bcast_S2048x2048_S1x2048x2048_1_2 (W12 m ρ c (Proc.devRef .tc main_v32) : Vec F S2048x2048 .f32)⟩,
       ⟨S1x2048x2048, broadcastInDim S1x2048x2048 ![1, 2] bcast_S2048x2048_S1x2048x2048_1_2 (W12 m ρ c (Proc.devRef .tc main_v39) : Vec F S2048x2048 .f32)⟩]
      concatenates_S1x2048x2048_S1x2048x2048_S1x2048x2048_S1x2048x2048_S4x2048x2048_d0 := by
  show StableHlo.after hostOps7 _ (Proc.devRef .tc main_v44) = _
  after_results
  rfl

end GenericStack

/-! ## The statements at the extended reals -/

section AtIdeal
variable (m : (ℓ : Loc nD τ sig) → Buf (Elt Ideal) ℓ) (ρ : Dev nD → PrngReg)

/-! ### The flat activations and the weights after the first stretch -/

theorem x_flat0 (c : Dev nD) (b : Fin 4) (s k : Fin 2048) :
    W1 m ρ c (Proc.devRef .tc main_v0) (ix2 (row b s) k) = m ((c : Thread nD τ).loc main_arg0) (ix3 b s k) := by
  rw [W1_v0]
  exact flatten_apply _ _ b s k

theorem x_flat1 (c : Dev nD) (b : Fin 4) (s k : Fin 2048) :
    W1 m ρ c (Proc.devRef .tc main_v1) (ix2 (row b s) k) = m ((c : Thread nD τ).loc main_arg1) (ix3 b s k) := by
  rw [W1_v1]
  exact flatten_apply _ _ b s k

theorem x_flat2 (c : Dev nD) (b : Fin 4) (s k : Fin 2048) :
    W1 m ρ c (Proc.devRef .tc main_v2) (ix2 (row b s) k) = m ((c : Thread nD τ).loc main_arg2) (ix3 b s k) := by
  rw [W1_v2]
  exact flatten_apply _ _ b s k
/-- A change of float format is the identity on the extended reals. -/
theorem w_cast3 (c : Dev nD) (i : S2048x2048.Idx) :
    W1 m ρ c (Proc.devRef .tc main_v3) i = m ((c : Thread nD τ).loc main_arg3) i := by
  rw [W1_v3]
  rfl

/-- A change of float format is the identity on the extended reals. -/
theorem w_cast4 (c : Dev nD) (i : S2048x2048.Idx) :
    W1 m ρ c (Proc.devRef .tc main_v4) i = m ((c : Thread nD τ).loc main_arg4) i := by
  rw [W1_v4]
  rfl

/-- A change of float format is the identity on the extended reals. -/
theorem w_cast5 (c : Dev nD) (i : S2048x2048.Idx) :
    W1 m ρ c (Proc.devRef .tc main_v5) i = m ((c : Thread nD τ).loc main_arg5) i := by
  rw [W1_v5]
  rfl

/-! ### Buffers a projection call does not touch -/

theorem keep_v1_2 (c : Dev nD) : W2 m ρ c (Proc.devRef .tc main_v1) = W1 m ρ c (Proc.devRef .tc main_v1) :=
  W2_of_ne m ρ c main_v1 (by decide)
theorem keep_v4_2 (c : Dev nD) : W2 m ρ c (Proc.devRef .tc main_v4) = W1 m ρ c (Proc.devRef .tc main_v4) :=
  W2_of_ne m ρ c main_v4 (by decide)
theorem keep_v2_3 (c : Dev nD) : W3 m ρ c (Proc.devRef .tc main_v2) = W1 m ρ c (Proc.devRef .tc main_v2) :=
  (W3_of_ne m ρ c main_v2 (by decide)).trans (W2_of_ne m ρ c main_v2 (by decide))
theorem keep_v5_3 (c : Dev nD) : W3 m ρ c (Proc.devRef .tc main_v5) = W1 m ρ c (Proc.devRef .tc main_v5) :=
  (W3_of_ne m ρ c main_v5 (by decide)).trans (W2_of_ne m ρ c main_v5 (by decide))
theorem keep_v6_4 (c : Dev nD) : W4 m ρ c (Proc.devRef .tc main_v6) = W2 m ρ c (Proc.devRef .tc main_v6) :=
  (W4_of_ne m ρ c main_v6 (by decide)).trans (W3_of_ne m ρ c main_v6 (by decide))
theorem keep_v7_4 (c : Dev nD) : W4 m ρ c (Proc.devRef .tc main_v7) = W3 m ρ c (Proc.devRef .tc main_v7) :=
  W4_of_ne m ρ c main_v7 (by decide)

/-! ### Each attention call's operands are rows `b * 2048 + q` of the projections' results -/

theorem qp_b0 (c : Dev nD) (q d : Fin 2048) :
    W5 m ρ c (Proc.devRef .tc main_v13) (ix2 q d) = W4 m ρ c (Proc.devRef .tc main_v6) (ix2 (row 0 q) d) := by
  rw [W5_v13, W5_v9]
  exact pick_batch_apply _ _ 0 _ rfl rfl rfl _ _ q d
theorem kp_b0 (c : Dev nD) (q d : Fin 2048) :
    W5 m ρ c (Proc.devRef .tc main_v15) (ix2 q d) = W4 m ρ c (Proc.devRef .tc main_v7) (ix2 (row 0 q) d) := by
  rw [W5_v15, W5_v10]
  exact pick_batch_apply _ _ 0 _ rfl rfl rfl _ _ q d
theorem vp_b0 (c : Dev nD) (q d : Fin 2048) :
    W5 m ρ c (Proc.devRef .tc main_v17) (ix2 q d) = W4 m ρ c (Proc.devRef .tc main_v8) (ix2 (row 0 q) d) := by
  rw [W5_v17, W5_v11]
  exact pick_batch_apply _ _ 0 _ rfl rfl rfl _ _ q d
theorem qp_b1 (c : Dev nD) (q d : Fin 2048) :
    W7 m ρ c (Proc.devRef .tc main_v20) (ix2 q d) = W4 m ρ c (Proc.devRef .tc main_v6) (ix2 (row 1 q) d) := by
  rw [W7_v20, v9_at6, W5_v9]
  exact pick_batch_apply _ _ 1 _ rfl rfl rfl _ _ q d
theorem kp_b1 (c : Dev nD) (q d : Fin 2048) :
    W7 m ρ c (Proc.devRef .tc main_v22) (ix2 q d) = W4 m ρ c (Proc.devRef .tc main_v7) (ix2 (row 1 q) d) := by
  rw [W7_v22, v10_at6, W5_v10]
  exact pick_batch_apply _ _ 1 _ rfl rfl rfl _ _ q d
theorem vp_b1 (c : Dev nD) (q d : Fin 2048) :
    W7 m ρ c (Proc.devRef .tc main_v24) (ix2 q d) = W4 m ρ c (Proc.devRef .tc main_v8) (ix2 (row 1 q) d) := by
  rw [W7_v24, v11_at6, W5_v11]
  exact pick_batch_apply _ _ 1 _ rfl rfl rfl _ _ q d
theorem qp_b2 (c : Dev nD) (q d : Fin 2048) :
    W9 m ρ c (Proc.devRef .tc main_v27) (ix2 q d) = W4 m ρ c (Proc.devRef .tc main_v6) (ix2 (row 2 q) d) := by
  rw [W9_v27, v9_at8, W5_v9]
  exact pick_batch_apply _ _ 2 _ rfl rfl rfl _ _ q d
theorem kp_b2 (c : Dev nD) (q d : Fin 2048) :
    W9 m ρ c (Proc.devRef .tc main_v29) (ix2 q d) = W4 m ρ c (Proc.devRef .tc main_v7) (ix2 (row 2 q) d) := by
  rw [W9_v29, v10_at8, W5_v10]
  exact pick_batch_apply _ _ 2 _ rfl rfl rfl _ _ q d
theorem vp_b2 (c : Dev nD) (q d : Fin 2048) :
    W9 m ρ c (Proc.devRef .tc main_v31) (ix2 q d) = W4 m ρ c (Proc.devRef .tc main_v8) (ix2 (row 2 q) d) := by
  rw [W9_v31, v11_at8, W5_v11]
  exact pick_batch_apply _ _ 2 _ rfl rfl rfl _ _ q d
theorem qp_b3 (c : Dev nD) (q d : Fin 2048) :
    W11 m ρ c (Proc.devRef .tc main_v34) (ix2 q d) = W4 m ρ c (Proc.devRef .tc main_v6) (ix2 (row 3 q) d) := by
  rw [W11_v34, v9_at10, W5_v9]
  exact pick_batch_apply _ _ 3 _ rfl rfl rfl _ _ q d
theorem kp_b3 (c : Dev nD) (q d : Fin 2048) :
    W11 m ρ c (Proc.devRef .tc main_v36) (ix2 q d) = W4 m ρ c (Proc.devRef .tc main_v7) (ix2 (row 3 q) d) := by
  rw [W11_v36, v10_at10, W5_v10]
  exact pick_batch_apply _ _ 3 _ rfl rfl rfl _ _ q d
theorem vp_b3 (c : Dev nD) (q d : Fin 2048) :
    W11 m ρ c (Proc.devRef .tc main_v38) (ix2 q d) = W4 m ρ c (Proc.devRef .tc main_v8) (ix2 (row 3 q) d) := by
  rw [W11_v38, v11_at10, W5_v11]
  exact pick_batch_apply _ _ 3 _ rfl rfl rfl _ _ q d

end AtIdeal

/-! ### The program's result: batch element `b` of the stack is attention call `b`'s result -/

section AtIdeal2
variable (m : (ℓ : Loc nD τ sig) → Buf (Elt Ideal) ℓ) (ρ : Dev nD → PrngReg)

theorem out_stack0 (c : Dev nD) (q v : Fin 2048) :
    W13 m ρ c (Proc.devRef .tc main_v44) (ix3 (0 : Fin 4) q v) = W6 m ρ c (Proc.devRef .tc main_v18) (ix2 q v) := by
  rw [W13_v44, stack4_apply0, lift_unit_apply, v18_at12]
theorem out_stack1 (c : Dev nD) (q v : Fin 2048) :
    W13 m ρ c (Proc.devRef .tc main_v44) (ix3 (1 : Fin 4) q v) = W8 m ρ c (Proc.devRef .tc main_v25) (ix2 q v) := by
  rw [W13_v44, stack4_apply1, lift_unit_apply, v25_at12]
theorem out_stack2 (c : Dev nD) (q v : Fin 2048) :
    W13 m ρ c (Proc.devRef .tc main_v44) (ix3 (2 : Fin 4) q v) = W10 m ρ c (Proc.devRef .tc main_v32) (ix2 q v) := by
  rw [W13_v44, stack4_apply2, lift_unit_apply, v32_at12]
theorem out_stack3 (c : Dev nD) (q v : Fin 2048) :
    W13 m ρ c (Proc.devRef .tc main_v44) (ix3 (3 : Fin 4) q v) = W12 m ρ c (Proc.devRef .tc main_v39) (ix2 q v) := by
  rw [W13_v44, stack4_apply3, lift_unit_apply]

/-- The four cases as one statement over the batch coordinate. -/
theorem out_stack (c : Dev nD) (b : Fin 4) (q v : Fin 2048) :
    W13 m ρ c (Proc.devRef .tc main_v44) (ix3 b q v) =
      (match b with
        | 0 => (W6 m ρ c (Proc.devRef .tc main_v18) : Vec Ideal S2048x2048 .f32)
        | 1 => (W8 m ρ c (Proc.devRef .tc main_v25) : Vec Ideal S2048x2048 .f32)
        | 2 => (W10 m ρ c (Proc.devRef .tc main_v32) : Vec Ideal S2048x2048 .f32)
        | 3 => (W12 m ρ c (Proc.devRef .tc main_v39) : Vec Ideal S2048x2048 .f32)) (ix2 q v) := by
  match b with
  | 0 => exact out_stack0 m ρ c q v
  | 1 => exact out_stack1 m ρ c q v
  | 2 => exact out_stack2 m ρ c q v
  | 3 => exact out_stack3 m ρ c q v

end AtIdeal2

end Cert.KernelIdeal.Fr
-- ==== Proof.ProjDotI.lean ====
/-
  The linear layer as one whole-array function, and the operand indices of a projection tile's matrix product: for the
  output entry (p, q) and the contracted coordinate k the left operand is read at (p, k) and the right at (q, k)
  (x · wᵀ: both operands are contracted along their second axis).
-/
import proofs.«156009_j19851338842369_2_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

theorem hzP : (![0, 0] : Fin 2 → Nat) = fun _ => 0 := funext fun a => by fin_cases a <;> rfl

/-- The linear layer's result as one function of the flattened input and the weights. -/
def projG (x : S8192x2048.Idx → EReal) (w : S2048x2048.Idx → EReal) : S8192x2048.Idx → EReal :=
  fun j => ∑ mm : Fin 2048, x (ix2 (⟨(j 0).val, (j 0).isLt⟩ : Fin 8192) mm) * w (ix2 (⟨(j 1).val, (j 1).isLt⟩ : Fin 2048) mm)

theorem projG_ix2 (x : S8192x2048.Idx → EReal) (w : S2048x2048.Idx → EReal) (r : Fin 8192) (k : Fin 2048) :
    projG x w (ix2 r k) = ∑ mm : Fin 2048, x (ix2 r mm) * w (ix2 k mm) := rfl

theorem lhsP_0 (i : S512x2048.Idx) (κ : dot_S512x2048_S2048x2048_S512x2048_1_1_0_0_n_n.contr.Idx) : (dot_S512x2048_S2048x2048_S512x2048_1_1_0_0_n_n.lhsIdx i κ 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhsP_1 (i : S512x2048.Idx) (κ : dot_S512x2048_S2048x2048_S512x2048_1_1_0_0_n_n.contr.Idx) : (dot_S512x2048_S2048x2048_S512x2048_1_1_0_0_n_n.lhsIdx i κ 1).val = (κ ⟨0, by decide⟩).val :=
  dot_S512x2048_S2048x2048_S512x2048_1_1_0_0_n_n.lhsIdx_val_of_single rfl i κ
theorem rhsP_0 (i : S512x2048.Idx) (κ : dot_S512x2048_S2048x2048_S512x2048_1_1_0_0_n_n.contr.Idx) : (dot_S512x2048_S2048x2048_S512x2048_1_1_0_0_n_n.rhsIdx i κ 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhsP_1 (i : S512x2048.Idx) (κ : dot_S512x2048_S2048x2048_S512x2048_1_1_0_0_n_n.contr.Idx) : (dot_S512x2048_S2048x2048_S512x2048_1_1_0_0_n_n.rhsIdx i κ 1).val = (κ ⟨0, by decide⟩).val :=
  dot_S512x2048_S2048x2048_S512x2048_1_1_0_0_n_n.rhsIdx_val_of_single rfl i κ

/-- A tile's matrix product into zero, at an entry: row p of the left operand against row q of the right. -/
theorem tile_apply (a : FVec Ideal S512x2048 .bf16) (b : FVec Ideal S2048x2048 .bf16) (p : Fin 512) (q : Fin 2048) :
    matmul (F := Ideal) dot_S512x2048_S2048x2048_S512x2048_1_1_0_0_n_n none a b (constant S512x2048 .f32 0x00000000#32) (ix2 p q) = ∑ mm : Fin 2048, a (ix2 p mm) * b (ix2 q mm) := by
  refine (Ideal.matmul_constant_zero_apply (φ₁ := .bf16) (φ₂ := .bf16) dot_S512x2048_S2048x2048_S512x2048_1_1_0_0_n_n none a b (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k :=
    funext fun a => Fin.ext (by
      match a with
      | ⟨0, _⟩ => exact lhsP_0 _ _
      | ⟨1, _⟩ => exact (lhsP_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k :=
    funext fun a => Fin.ext (by
      match a with
      | ⟨0, _⟩ => exact rhsP_0 _ _
      | ⟨1, _⟩ => exact (rhsP_1 _ _).trans hk)
  rw [el, er]

end Cert.KernelIdeal.Fr

end
-- ==== Proof.ProjValI0.lean ====
/-
  What projection call 0 leaves in its result array, at the ideal instance: entry (r, k) is ∑ₘ x(r,m)·w(k,m) of the
  flattened input x : [8192, 2048] and the weight matrix w : [2048, 2048] as the call finds them.  A tile's payload is
  the matrix product of the x tile with wᵀ (a change of float format is the identity on extended reals; the product
  accumulates into zero); point t writes rows 512·t … 512·t+511, so the sixteen points' blocks are the restrictions of
  one whole-array function and cover the array.
-/
import proofs.«156009_j19851338842369_2_alg».proof.Proof.ProjI0
import proofs.«156009_j19851338842369_2_alg».proof.Proof.ProjDotI
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at an entry: row p of the x tile against row q of the weights. -/
theorem pay0_apply (x0 : FVec Ideal S512x2048 .f32) (x1 : FVec Ideal S2048x2048 .bf16) (p : Fin 512) (q : Fin 2048) :
    k0_pay1 (F := Ideal) x0 x1 (ix2 p q) = ∑ mm : Fin 2048, x0 (ix2 p mm) * x1 (ix2 q mm) := by
  unfold k0_pay1
  show matmul (F := Ideal) dot_S512x2048_S2048x2048_S512x2048_1_1_0_0_n_n none _ _ _ (ix2 p q) = _
  rw [shapeCast_self, shapeCast_self]
  exact tile_apply _ _ p q

/-- The printed index maps, decided over the grid: the x tile and the output tile are row tile t, all columns; the
    weights are the one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole-array function of the arrays as the call finds them. -/
theorem flushed0_eq (c : Dev nD) (t : Fin cfg0.N) :
    (dat0 V c).flushed 2 t = ((cfg0.win 2).blk t).view.read (Elt Ideal) (projG (V c main_v0) (V c main_v3)) := by
  show (cfg0.win 2).cut (grid0.coords t) ((dat0 V c).after 2 t) = _
  rw [after0_2]
  unfold out0_2
  rw [View.canon_unit_zero hzP]
  simp only [View.ld_unit_zero (S := S512x2048) hzP, View.ld_unit_zero (S := S2048x2048) hzP]
  obtain ⟨e0, e1, e2, e3, e4, e5⟩ := idx_facts0 t
  funext j
  obtain ⟨p, q, rfl⟩ : ∃ (p : Fin 512) (q : Fin 2048), j = ix2 p q := ⟨j 0, j 1, eq_ix2 j⟩
  refine (pay0_apply (iblk0 V c 0 t) (iblk0 V c 1 t) p q).trans ?_
  show _ = projG (V c main_v0) (V c main_v3) (((cfg0.win 2).blk t).view.emb (ix2 p q))
  unfold projG
  refine Finset.sum_congr rfl fun mm _ => ?_
  have h0 : iblk0 V c 0 t (ix2 p mm) = V c main_v0 (ix2 (⟨((((cfg0.win 2).blk t).view.emb (ix2 p q)) 0).val, ((((cfg0.win 2).blk t).view.emb (ix2 p q)) 0).isLt⟩ : Fin 8192) mm) := by
    show V c main_v0 (((cfg0.win 0).blk t).view.emb (ix2 p mm)) = _
    refine congrArg (V c main_v0) ?_
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * mm.val = mm.val; omega
  have h1 : iblk0 V c 1 t (ix2 q mm) = V c main_v3 (ix2 (⟨((((cfg0.win 2).blk t).view.emb (ix2 p q)) 1).val, ((((cfg0.win 2).blk t).view.emb (ix2 p q)) 1).isLt⟩ : Fin 2048) mm) := by
    show V c main_v3 (((cfg0.win 1).blk t).view.emb (ix2 q mm)) = _
    refine congrArg (V c main_v3) ?_
    funext a; apply Fin.ext
    match a with
    | ⟨0, _⟩ => show win0_1.index t (0 : Fin 2) * 2048 + 1 * q.val = win0_2.index t (1 : Fin 2) * 2048 + 1 * q.val; omega
    | ⟨1, _⟩ => show win0_1.index t (1 : Fin 2) * 2048 + 1 * mm.val = mm.val; omega
  rw [h0, h1]

/-- An index of the result array is in point t's block iff each coordinate is in the block's range on its axis. -/
theorem mem_blk0 (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v6).slice (win0_2.rect t)).set ↔ _
  rw [View.set_slice_whole, Rect.mem_set_unit]
  exact Iff.rfl

/-- THE RESULT ARRAY after the call: the whole-array function of the arrays as the call finds them (row r is covered by
    point r / 512). -/
theorem final0 (c : Dev nD) : (dat0 V c).arrAt 2 cfg0.N = projG (V c main_v0) (V c main_v3) :=
  (dat0 V c).arrAt_eq_of_cover 2 (projG (V c main_v0) (V c main_v3)) (fun t _ => flushed0_eq V c t) fun i => by
    have hN : cfg0.N = 16 := N_0
    have hi0 : (i 0).val < 8192 := (i 0).isLt
    have hi1 : (i 1).val < 2048 := (i 1).isLt
    refine ⟨⟨(i 0).val / 512, by rw [hN]; omega⟩, flush0_2 _, ?_⟩
    rw [mem_blk0]
    obtain ⟨e0, e1, e2, e3, e4, e5⟩ := idx_facts0 ⟨(i 0).val / 512, by rw [hN]; omega⟩
    intro a
    match a with
    | ⟨0, _⟩ => show win0_2.index _ (0 : Fin 2) * 512 ≤ (i 0).val ∧ (i 0).val < win0_2.index _ (0 : Fin 2) * 512 + 512; rw [e4]; dsimp only; omega
    | ⟨1, _⟩ => show win0_2.index _ (1 : Fin 2) * 2048 ≤ (i 1).val ∧ (i 1).val < win0_2.index _ (1 : Fin 2) * 2048 + 2048; rw [e5]; omega

end Cert.KernelIdeal.Fr

end
-- ==== Proof.ProjValI1.lean ====
/-
  What projection call 1 leaves in its result array, at the ideal instance: entry (r, k) is ∑ₘ x(r,m)·w(k,m) of the
  flattened input x : [8192, 2048] and the weight matrix w : [2048, 2048] as the call finds them.  A tile's payload is
  the matrix product of the x tile with wᵀ (a change of float format is the identity on extended reals; the product
  accumulates into zero); point t writes rows 512·t … 512·t+511, so the sixteen points' blocks are the restrictions of
  one whole-array function and cover the array.
-/
import proofs.«156009_j19851338842369_2_alg».proof.Proof.ProjI1
import proofs.«156009_j19851338842369_2_alg».proof.Proof.ProjDotI
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at an entry: row p of the x tile against row q of the weights. -/
theorem pay1_apply (x0 : FVec Ideal S512x2048 .f32) (x1 : FVec Ideal S2048x2048 .bf16) (p : Fin 512) (q : Fin 2048) :
    k1_pay1 (F := Ideal) x0 x1 (ix2 p q) = ∑ mm : Fin 2048, x0 (ix2 p mm) * x1 (ix2 q mm) := by
  unfold k1_pay1
  show matmul (F := Ideal) dot_S512x2048_S2048x2048_S512x2048_1_1_0_0_n_n none _ _ _ (ix2 p q) = _
  rw [shapeCast_self, shapeCast_self]
  exact tile_apply _ _ p q

/-- The printed index maps, decided over the grid: the x tile and the output tile are row tile t, all columns; the
    weights are the one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole-array function of the arrays as the call finds them. -/
theorem flushed1_eq (c : Dev nD) (t : Fin cfg1.N) :
    (dat1 V c).flushed 2 t = ((cfg1.win 2).blk t).view.read (Elt Ideal) (projG (V c main_v1) (V c main_v4)) := by
  show (cfg1.win 2).cut (grid1.coords t) ((dat1 V c).after 2 t) = _
  rw [after1_2]
  unfold out1_2
  rw [View.canon_unit_zero hzP]
  simp only [View.ld_unit_zero (S := S512x2048) hzP, View.ld_unit_zero (S := S2048x2048) hzP]
  obtain ⟨e0, e1, e2, e3, e4, e5⟩ := idx_facts1 t
  funext j
  obtain ⟨p, q, rfl⟩ : ∃ (p : Fin 512) (q : Fin 2048), j = ix2 p q := ⟨j 0, j 1, eq_ix2 j⟩
  refine (pay1_apply (iblk1 V c 0 t) (iblk1 V c 1 t) p q).trans ?_
  show _ = projG (V c main_v1) (V c main_v4) (((cfg1.win 2).blk t).view.emb (ix2 p q))
  unfold projG
  refine Finset.sum_congr rfl fun mm _ => ?_
  have h0 : iblk1 V c 0 t (ix2 p mm) = V c main_v1 (ix2 (⟨((((cfg1.win 2).blk t).view.emb (ix2 p q)) 0).val, ((((cfg1.win 2).blk t).view.emb (ix2 p q)) 0).isLt⟩ : Fin 8192) mm) := by
    show V c main_v1 (((cfg1.win 0).blk t).view.emb (ix2 p mm)) = _
    refine congrArg (V c main_v1) ?_
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 2048 + 1 * mm.val = mm.val; omega
  have h1 : iblk1 V c 1 t (ix2 q mm) = V c main_v4 (ix2 (⟨((((cfg1.win 2).blk t).view.emb (ix2 p q)) 1).val, ((((cfg1.win 2).blk t).view.emb (ix2 p q)) 1).isLt⟩ : Fin 2048) mm) := by
    show V c main_v4 (((cfg1.win 1).blk t).view.emb (ix2 q mm)) = _
    refine congrArg (V c main_v4) ?_
    funext a; apply Fin.ext
    match a with
    | ⟨0, _⟩ => show win1_1.index t (0 : Fin 2) * 2048 + 1 * q.val = win1_2.index t (1 : Fin 2) * 2048 + 1 * q.val; omega
    | ⟨1, _⟩ => show win1_1.index t (1 : Fin 2) * 2048 + 1 * mm.val = mm.val; omega
  rw [h0, h1]

/-- An index of the result array is in point t's block iff each coordinate is in the block's range on its axis. -/
theorem mem_blk1 (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v7).slice (win1_2.rect t)).set ↔ _
  rw [View.set_slice_whole, Rect.mem_set_unit]
  exact Iff.rfl

/-- THE RESULT ARRAY after the call: the whole-array function of the arrays as the call finds them (row r is covered by
    point r / 512). -/
theorem final1 (c : Dev nD) : (dat1 V c).arrAt 2 cfg1.N = projG (V c main_v1) (V c main_v4) :=
  (dat1 V c).arrAt_eq_of_cover 2 (projG (V c main_v1) (V c main_v4)) (fun t _ => flushed1_eq V c t) fun i => by
    have hN : cfg1.N = 16 := N_1
    have hi0 : (i 0).val < 8192 := (i 0).isLt
    have hi1 : (i 1).val < 2048 := (i 1).isLt
    refine ⟨⟨(i 0).val / 512, by rw [hN]; omega⟩, flush1_2 _, ?_⟩
    rw [mem_blk1]
    obtain ⟨e0, e1, e2, e3, e4, e5⟩ := idx_facts1 ⟨(i 0).val / 512, by rw [hN]; omega⟩
    intro a
    match a with
    | ⟨0, _⟩ => show win1_2.index _ (0 : Fin 2) * 512 ≤ (i 0).val ∧ (i 0).val < win1_2.index _ (0 : Fin 2) * 512 + 512; rw [e4]; dsimp only; omega
    | ⟨1, _⟩ => show win1_2.index _ (1 : Fin 2) * 2048 ≤ (i 1).val ∧ (i 1).val < win1_2.index _ (1 : Fin 2) * 2048 + 2048; rw [e5]; omega

end Cert.KernelIdeal.Fr

end
-- ==== Proof.ProjValI2.lean ====
/-
  What projection call 2 leaves in its result array, at the ideal instance: entry (r, k) is ∑ₘ x(r,m)·w(k,m) of the
  flattened input x : [8192, 2048] and the weight matrix w : [2048, 2048] as the call finds them.  A tile's payload is
  the matrix product of the x tile with wᵀ (a change of float format is the identity on extended reals; the product
  accumulates into zero); point t writes rows 512·t … 512·t+511, so the sixteen points' blocks are the restrictions of
  one whole-array function and cover the array.
-/
import proofs.«156009_j19851338842369_2_alg».proof.Proof.ProjI2
import proofs.«156009_j19851338842369_2_alg».proof.Proof.ProjDotI
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The tile's payload at an entry: row p of the x tile against row q of the weights. -/
theorem pay2_apply (x0 : FVec Ideal S512x2048 .f32) (x1 : FVec Ideal S2048x2048 .bf16) (p : Fin 512) (q : Fin 2048) :
    k2_pay1 (F := Ideal) x0 x1 (ix2 p q) = ∑ mm : Fin 2048, x0 (ix2 p mm) * x1 (ix2 q mm) := by
  unfold k2_pay1
  show matmul (F := Ideal) dot_S512x2048_S2048x2048_S512x2048_1_1_0_0_n_n none _ _ _ (ix2 p q) = _
  rw [shapeCast_self, shapeCast_self]
  exact tile_apply _ _ p q

/-- The printed index maps, decided over the grid: the x tile and the output tile are row tile t, all columns; the
    weights are the one whole block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole-array function of the arrays as the call finds them. -/
theorem flushed2_eq (c : Dev nD) (t : Fin cfg2.N) :
    (dat2 V c).flushed 2 t = ((cfg2.win 2).blk t).view.read (Elt Ideal) (projG (V c main_v2) (V c main_v5)) := by
  show (cfg2.win 2).cut (grid2.coords t) ((dat2 V c).after 2 t) = _
  rw [after2_2]
  unfold out2_2
  rw [View.canon_unit_zero hzP]
  simp only [View.ld_unit_zero (S := S512x2048) hzP, View.ld_unit_zero (S := S2048x2048) hzP]
  obtain ⟨e0, e1, e2, e3, e4, e5⟩ := idx_facts2 t
  funext j
  obtain ⟨p, q, rfl⟩ : ∃ (p : Fin 512) (q : Fin 2048), j = ix2 p q := ⟨j 0, j 1, eq_ix2 j⟩
  refine (pay2_apply (iblk2 V c 0 t) (iblk2 V c 1 t) p q).trans ?_
  show _ = projG (V c main_v2) (V c main_v5) (((cfg2.win 2).blk t).view.emb (ix2 p q))
  unfold projG
  refine Finset.sum_congr rfl fun mm _ => ?_
  have h0 : iblk2 V c 0 t (ix2 p mm) = V c main_v2 (ix2 (⟨((((cfg2.win 2).blk t).view.emb (ix2 p q)) 0).val, ((((cfg2.win 2).blk t).view.emb (ix2 p q)) 0).isLt⟩ : Fin 8192) mm) := by
    show V c main_v2 (((cfg2.win 0).blk t).view.emb (ix2 p mm)) = _
    refine congrArg (V c main_v2) ?_
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 2048 + 1 * mm.val = mm.val; omega
  have h1 : iblk2 V c 1 t (ix2 q mm) = V c main_v5 (ix2 (⟨((((cfg2.win 2).blk t).view.emb (ix2 p q)) 1).val, ((((cfg2.win 2).blk t).view.emb (ix2 p q)) 1).isLt⟩ : Fin 2048) mm) := by
    show V c main_v5 (((cfg2.win 1).blk t).view.emb (ix2 q mm)) = _
    refine congrArg (V c main_v5) ?_
    funext a; apply Fin.ext
    match a with
    | ⟨0, _⟩ => show win2_1.index t (0 : Fin 2) * 2048 + 1 * q.val = win2_2.index t (1 : Fin 2) * 2048 + 1 * q.val; omega
    | ⟨1, _⟩ => show win2_1.index t (1 : Fin 2) * 2048 + 1 * mm.val = mm.val; omega
  rw [h0, h1]

/-- An index of the result array is in point t's block iff each coordinate is in the block's range on its axis. -/
theorem mem_blk2 (t : Fin cfg2.N) (i : S8192x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v8).slice (win2_2.rect t)).set ↔ _
  rw [View.set_slice_whole, Rect.mem_set_unit]
  exact Iff.rfl

/-- THE RESULT ARRAY after the call: the whole-array function of the arrays as the call finds them (row r is covered by
    point r / 512). -/
theorem final2 (c : Dev nD) : (dat2 V c).arrAt 2 cfg2.N = projG (V c main_v2) (V c main_v5) :=
  (dat2 V c).arrAt_eq_of_cover 2 (projG (V c main_v2) (V c main_v5)) (fun t _ => flushed2_eq V c t) fun i => by
    have hN : cfg2.N = 16 := N_2
    have hi0 : (i 0).val < 8192 := (i 0).isLt
    have hi1 : (i 1).val < 2048 := (i 1).isLt
    refine ⟨⟨(i 0).val / 512, by rw [hN]; omega⟩, flush2_2 _, ?_⟩
    rw [mem_blk2]
    obtain ⟨e0, e1, e2, e3, e4, e5⟩ := idx_facts2 ⟨(i 0).val / 512, by rw [hN]; omega⟩
    intro a
    match a with
    | ⟨0, _⟩ => show win2_2.index _ (0 : Fin 2) * 512 ≤ (i 0).val ∧ (i 0).val < win2_2.index _ (0 : Fin 2) * 512 + 512; rw [e4]; dsimp only; omega
    | ⟨1, _⟩ => show win2_2.index _ (1 : Fin 2) * 2048 ≤ (i 1).val ∧ (i 1).val < win2_2.index _ (1 : Fin 2) * 2048 + 2048; rw [e5]; omega

end Cert.KernelIdeal.Fr

end
-- ==== Proof.KernelValueI.lean ====
/-
  The kernel program's result is the specification.  Each projection call leaves, at row b * 2048 + s and column d of
  its flat result, the linear layer  ∑ₘ x(b,s,m)·W(d,m)  of the argument arrays; each attention call's three operands are
  one batch element's rows of those results, so its result — the softmax over the query axis of the scaled scores,
  applied to the projected values — is that batch element of the specification's result; the last host stretch stacks
  the four batch elements.
-/
import proofs.«156009_j19851338842369_2_alg».proof.Proof.HostGlue
import proofs.«156009_j19851338842369_2_alg».proof.Proof.ProjValI0
import proofs.«156009_j19851338842369_2_alg».proof.Proof.ProjValI1
import proofs.«156009_j19851338842369_2_alg».proof.Proof.ProjValI2
import proofs.«156009_j19851338842369_2_alg».proof.Proof.AttnSpecI
import proofs.«156009_j19851338842369_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## One attention call against the specification's batch element -/

/-- If the call's scores are batch element `B` of the scores `S`, its weights are batch element `B` of the softmax of `S`
    over the query axis: the column maximum, the exponentials and the column sum are the same expressions of the scores. -/
theorem colsoft_eq_attn (qp kp : S2048x2048.Idx → EReal) (S : Fin 4 → Fin 2048 → Fin 2048 → EReal) (B : Fin 4)
    (h : ∀ q k : Fin 2048, scW qp kp q k = S B q k) (q k : Fin 2048) :
    colsoft qp kp q k = Cert.Spec.attn S B q k := by
  unfold colsoft Cert.Spec.attn Cert.Spec.colsum Cert.Spec.ex Cert.Spec.colmax
  simp only [h]

/-- A call whose three operands are batch element `B` of the projected queries, keys and values computes batch
    element `B` of the specification's result from them. -/
theorem attnG_eq_spec (qp kp vp : S2048x2048.Idx → EReal) (PQ PK PV : Fin 4 → Fin 2048 → Fin 2048 → EReal) (B : Fin 4)
    (hq : ∀ q d : Fin 2048, qp (ix2 q d) = PQ B q d) (hk : ∀ k d : Fin 2048, kp (ix2 k d) = PK B k d)
    (hv : ∀ k v : Fin 2048, vp (ix2 k v) = PV B k v) (q v : Fin 2048) :
    attnG qp kp vp (ix2 q v) = ∑ l : Fin 2048, Cert.Spec.attn (Cert.Spec.score PQ PK) B q l * PV B l v := by
  rw [attnG_ix2]
  refine Finset.sum_congr rfl fun l _ => ?_
  rw [hv, colsoft_eq_attn qp kp (Cert.Spec.score PQ PK) B fun q' k' => by
    unfold scW Cert.Spec.score
    simp only [hq, hk]]

/-! ## The projections' results are the specification's linear layers -/

section AtIdeal
variable (m : (ℓ : Loc nD τ sig) → Buf (Elt Ideal) ℓ) (ρ : Dev nD → PrngReg)

theorem q_proj (c : Dev nD) (b : Fin 4) (s d : Fin 2048) :
    W4 m ρ c (Proc.devRef .tc main_v6) (ix2 (row b s) d)
      = Cert.Spec.proj (Cert.Spec.arr3 (m ((c : Thread nD τ).loc main_arg0))) (Cert.Spec.arr2 (m ((c : Thread nD τ).loc main_arg3))) b s d := by
  have e : (W4 m ρ c (Proc.devRef .tc main_v6) : S8192x2048.Idx → EReal)
      = projG (W1 m ρ c (Proc.devRef .tc main_v0)) (W1 m ρ c (Proc.devRef .tc main_v3)) := by
    exact (keep_v6_4 m ρ c).trans ((W2_arr m ρ c 2).trans (final0 (Vr1 m ρ) c))
  rw [e, projG_ix2]
  unfold Cert.Spec.proj
  show @Eq EReal _ _
  refine Finset.sum_congr rfl fun mm _ => ?_
  rw [x_flat0, w_cast3]
theorem k_proj (c : Dev nD) (b : Fin 4) (s d : Fin 2048) :
    W4 m ρ c (Proc.devRef .tc main_v7) (ix2 (row b s) d)
      = Cert.Spec.proj (Cert.Spec.arr3 (m ((c : Thread nD τ).loc main_arg1))) (Cert.Spec.arr2 (m ((c : Thread nD τ).loc main_arg4))) b s d := by
  have e : (W4 m ρ c (Proc.devRef .tc main_v7) : S8192x2048.Idx → EReal)
      = projG (W1 m ρ c (Proc.devRef .tc main_v1)) (W1 m ρ c (Proc.devRef .tc main_v4)) := by
    refine (keep_v7_4 m ρ c).trans ((W3_arr m ρ c 2).trans ((final1 (Vr2 m ρ) c).trans ?_))
    show projG (W2 m ρ c (Proc.devRef .tc main_v1)) (W2 m ρ c (Proc.devRef .tc main_v4)) = _
    rw [keep_v1_2, keep_v4_2]
  rw [e, projG_ix2]
  unfold Cert.Spec.proj
  show @Eq EReal _ _
  refine Finset.sum_congr rfl fun mm _ => ?_
  rw [x_flat1, w_cast4]
theorem v_proj (c : Dev nD) (b : Fin 4) (s d : Fin 2048) :
    W4 m ρ c (Proc.devRef .tc main_v8) (ix2 (row b s) d)
      = Cert.Spec.proj (Cert.Spec.arr3 (m ((c : Thread nD τ).loc main_arg2))) (Cert.Spec.arr2 (m ((c : Thread nD τ).loc main_arg5))) b s d := by
  have e : (W4 m ρ c (Proc.devRef .tc main_v8) : S8192x2048.Idx → EReal)
      = projG (W1 m ρ c (Proc.devRef .tc main_v2)) (W1 m ρ c (Proc.devRef .tc main_v5)) := by
    refine (W4_arr m ρ c 2).trans ((final2 (Vr3 m ρ) c).trans ?_)
    show projG (W3 m ρ c (Proc.devRef .tc main_v2)) (W3 m ρ c (Proc.devRef .tc main_v5)) = _
    rw [keep_v2_3, keep_v5_3]
  rw [e, projG_ix2]
  unfold Cert.Spec.proj
  show @Eq EReal _ _
  refine Finset.sum_congr rfl fun mm _ => ?_
  rw [x_flat2, w_cast5]

end AtIdeal

/-! ## Each attention call, and the program's result -/

section AtIdeal2
variable (m : (ℓ : Loc nD τ sig) → Buf (Elt Ideal) ℓ) (ρ : Dev nD → PrngReg)

/-- Attention call 3's result at entry (q, v) is batch element 0 of the specification's result. -/
theorem attn_b0 (hA3 : ∀ (V : (c : Dev nD) → (b : Ref sig .tc) → Buf (Elt Ideal) ((c : Thread nD τ).loc b)) (c : Dev nD), (dat3 V c).arrAt 3 cfg3.N = attnG (V c main_v13) (V c main_v15) (V c main_v17))
    (c : Dev nD) (q v : Fin 2048) :
    W6 m ρ c (Proc.devRef .tc main_v18) (ix2 q v)
      = Cert.Spec.out (Cert.Spec.arr3 (m ((c : Thread nD τ).loc main_arg0))) (Cert.Spec.arr3 (m ((c : Thread nD τ).loc main_arg1))) (Cert.Spec.arr3 (m ((c : Thread nD τ).loc main_arg2)))
          (Cert.Spec.arr2 (m ((c : Thread nD τ).loc main_arg3))) (Cert.Spec.arr2 (m ((c : Thread nD τ).loc main_arg4))) (Cert.Spec.arr2 (m ((c : Thread nD τ).loc main_arg5))) 0 q v := by
  have e : (W6 m ρ c (Proc.devRef .tc main_v18) : S2048x2048.Idx → EReal)
      = attnG (W5 m ρ c (Proc.devRef .tc main_v13)) (W5 m ρ c (Proc.devRef .tc main_v15)) (W5 m ρ c (Proc.devRef .tc main_v17)) :=
    (W6_arr m ρ c 3).trans (hA3 (Vr5 m ρ) c)
  rw [e]
  unfold Cert.Spec.out
  exact attnG_eq_spec _ _ _ _ _ _ 0
    (fun q' d => (qp_b0 m ρ c q' d).trans (q_proj m ρ c 0 q' d))
    (fun k' d => (kp_b0 m ρ c k' d).trans (k_proj m ρ c 0 k' d))
    (fun k' v' => (vp_b0 m ρ c k' v').trans (v_proj m ρ c 0 k' v')) q v
/-- Attention call 4's result at entry (q, v) is batch element 1 of the specification's result. -/
theorem attn_b1 (hA4 : ∀ (V : (c : Dev nD) → (b : Ref sig .tc) → Buf (Elt Ideal) ((c : Thread nD τ).loc b)) (c : Dev nD), (dat4 V c).arrAt 3 cfg4.N = attnG (V c main_v20) (V c main_v22) (V c main_v24))
    (c : Dev nD) (q v : Fin 2048) :
    W8 m ρ c (Proc.devRef .tc main_v25) (ix2 q v)
      = Cert.Spec.out (Cert.Spec.arr3 (m ((c : Thread nD τ).loc main_arg0))) (Cert.Spec.arr3 (m ((c : Thread nD τ).loc main_arg1))) (Cert.Spec.arr3 (m ((c : Thread nD τ).loc main_arg2)))
          (Cert.Spec.arr2 (m ((c : Thread nD τ).loc main_arg3))) (Cert.Spec.arr2 (m ((c : Thread nD τ).loc main_arg4))) (Cert.Spec.arr2 (m ((c : Thread nD τ).loc main_arg5))) 1 q v := by
  have e : (W8 m ρ c (Proc.devRef .tc main_v25) : S2048x2048.Idx → EReal)
      = attnG (W7 m ρ c (Proc.devRef .tc main_v20)) (W7 m ρ c (Proc.devRef .tc main_v22)) (W7 m ρ c (Proc.devRef .tc main_v24)) :=
    (W8_arr m ρ c 3).trans (hA4 (Vr7 m ρ) c)
  rw [e]
  unfold Cert.Spec.out
  exact attnG_eq_spec _ _ _ _ _ _ 1
    (fun q' d => (qp_b1 m ρ c q' d).trans (q_proj m ρ c 1 q' d))
    (fun k' d => (kp_b1 m ρ c k' d).trans (k_proj m ρ c 1 k' d))
    (fun k' v' => (vp_b1 m ρ c k' v').trans (v_proj m ρ c 1 k' v')) q v
/-- Attention call 5's result at entry (q, v) is batch element 2 of the specification's result. -/
theorem attn_b2 (hA5 : ∀ (V : (c : Dev nD) → (b : Ref sig .tc) → Buf (Elt Ideal) ((c : Thread nD τ).loc b)) (c : Dev nD), (dat5 V c).arrAt 3 cfg5.N = attnG (V c main_v27) (V c main_v29) (V c main_v31))
    (c : Dev nD) (q v : Fin 2048) :
    W10 m ρ c (Proc.devRef .tc main_v32) (ix2 q v)
      = Cert.Spec.out (Cert.Spec.arr3 (m ((c : Thread nD τ).loc main_arg0))) (Cert.Spec.arr3 (m ((c : Thread nD τ).loc main_arg1))) (Cert.Spec.arr3 (m ((c : Thread nD τ).loc main_arg2)))
          (Cert.Spec.arr2 (m ((c : Thread nD τ).loc main_arg3))) (Cert.Spec.arr2 (m ((c : Thread nD τ).loc main_arg4))) (Cert.Spec.arr2 (m ((c : Thread nD τ).loc main_arg5))) 2 q v := by
  have e : (W10 m ρ c (Proc.devRef .tc main_v32) : S2048x2048.Idx → EReal)
      = attnG (W9 m ρ c (Proc.devRef .tc main_v27)) (W9 m ρ c (Proc.devRef .tc main_v29)) (W9 m ρ c (Proc.devRef .tc main_v31)) :=
    (W10_arr m ρ c 3).trans (hA5 (Vr9 m ρ) c)
  rw [e]
  unfold Cert.Spec.out
  exact attnG_eq_spec _ _ _ _ _ _ 2
    (fun q' d => (qp_b2 m ρ c q' d).trans (q_proj m ρ c 2 q' d))
    (fun k' d => (kp_b2 m ρ c k' d).trans (k_proj m ρ c 2 k' d))
    (fun k' v' => (vp_b2 m ρ c k' v').trans (v_proj m ρ c 2 k' v')) q v
/-- Attention call 6's result at entry (q, v) is batch element 3 of the specification's result. -/
theorem attn_b3 (hA6 : ∀ (V : (c : Dev nD) → (b : Ref sig .tc) → Buf (Elt Ideal) ((c : Thread nD τ).loc b)) (c : Dev nD), (dat6 V c).arrAt 3 cfg6.N = attnG (V c main_v34) (V c main_v36) (V c main_v38))
    (c : Dev nD) (q v : Fin 2048) :
    W12 m ρ c (Proc.devRef .tc main_v39) (ix2 q v)
      = Cert.Spec.out (Cert.Spec.arr3 (m ((c : Thread nD τ).loc main_arg0))) (Cert.Spec.arr3 (m ((c : Thread nD τ).loc main_arg1))) (Cert.Spec.arr3 (m ((c : Thread nD τ).loc main_arg2)))
          (Cert.Spec.arr2 (m ((c : Thread nD τ).loc main_arg3))) (Cert.Spec.arr2 (m ((c : Thread nD τ).loc main_arg4))) (Cert.Spec.arr2 (m ((c : Thread nD τ).loc main_arg5))) 3 q v := by
  have e : (W12 m ρ c (Proc.devRef .tc main_v39) : S2048x2048.Idx → EReal)
      = attnG (W11 m ρ c (Proc.devRef .tc main_v34)) (W11 m ρ c (Proc.devRef .tc main_v36)) (W11 m ρ c (Proc.devRef .tc main_v38)) :=
    (W12_arr m ρ c 3).trans (hA6 (Vr11 m ρ) c)
  rw [e]
  unfold Cert.Spec.out
  exact attnG_eq_spec _ _ _ _ _ _ 3
    (fun q' d => (qp_b3 m ρ c q' d).trans (q_proj m ρ c 3 q' d))
    (fun k' d => (kp_b3 m ρ c k' d).trans (k_proj m ρ c 3 k' d))
    (fun k' v' => (vp_b3 m ρ c k' v').trans (v_proj m ρ c 3 k' v')) q v

/-- THE KERNEL PROGRAM'S VALUE: its result buffer at the last boundary, read at (b, q, v), is the specification of the
    six argument arrays — given each attention call's result as the whole-array function of its operands. -/
theorem kernel_value_of
    (hA3 : ∀ (V : (c : Dev nD) → (b : Ref sig .tc) → Buf (Elt Ideal) ((c : Thread nD τ).loc b)) (c : Dev nD), (dat3 V c).arrAt 3 cfg3.N = attnG (V c main_v13) (V c main_v15) (V c main_v17))
    (hA4 : ∀ (V : (c : Dev nD) → (b : Ref sig .tc) → Buf (Elt Ideal) ((c : Thread nD τ).loc b)) (c : Dev nD), (dat4 V c).arrAt 3 cfg4.N = attnG (V c main_v20) (V c main_v22) (V c main_v24))
    (hA5 : ∀ (V : (c : Dev nD) → (b : Ref sig .tc) → Buf (Elt Ideal) ((c : Thread nD τ).loc b)) (c : Dev nD), (dat5 V c).arrAt 3 cfg5.N = attnG (V c main_v27) (V c main_v29) (V c main_v31))
    (hA6 : ∀ (V : (c : Dev nD) → (b : Ref sig .tc) → Buf (Elt Ideal) ((c : Thread nD τ).loc b)) (c : Dev nD), (dat6 V c).arrAt 3 cfg6.N = attnG (V c main_v34) (V c main_v36) (V c main_v38))
    (c : Dev nD) (b : Fin 4) (q v : Fin 2048) :
    W13 m ρ c (Proc.devRef .tc main_v44) (ix3 b q v)
      = Cert.Spec.out (Cert.Spec.arr3 (m ((c : Thread nD τ).loc main_arg0))) (Cert.Spec.arr3 (m ((c : Thread nD τ).loc main_arg1))) (Cert.Spec.arr3 (m ((c : Thread nD τ).loc main_arg2)))
          (Cert.Spec.arr2 (m ((c : Thread nD τ).loc main_arg3))) (Cert.Spec.arr2 (m ((c : Thread nD τ).loc main_arg4))) (Cert.Spec.arr2 (m ((c : Thread nD τ).loc main_arg5))) b q v := by
  match b with
  | 0 => exact (out_stack0 m ρ c q v).trans (attn_b0 m ρ hA3 c q v)
  | 1 => exact (out_stack1 m ρ c q v).trans (attn_b1 m ρ hA4 c q v)
  | 2 => exact (out_stack2 m ρ c q v).trans (attn_b2 m ρ hA5 c q v)
  | 3 => exact (out_stack3 m ρ c q v).trans (attn_b3 m ρ hA6 c q v)

end AtIdeal2

end Cert.KernelIdeal.Fr
-- ==== Proof.RefIsSpec.lean ====
/-
  The reference program, read at an index, computes the specification: each of its 22 host operations' values, at
  literal coordinates, is the corresponding stage of Cert.Spec — the three projections, the scaled scores, the column
  maximum over the query axis (a fold of max from −∞), the shifted exponentials, their column sum (from 0), the
  quotient, and the contraction with the projected values.
-/
import proofs.«156009_j19851338842369_2_alg».proof.Proof.Gen.ReferenceIdeal.Read
import proofs.«156009_j19851338842369_2_alg».proof.Proof.Spec
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Reduce

noncomputable section

namespace Cert.RefValue

open Cert.ReferenceIdeal Cert.ReferenceIdeal.Gen Cert.ReferenceIdeal.Read Idealize.ShloMosaic Idealize.ShloMosaic.ValueIdx

/-- A rank-3 argument array of the reference. -/
abbrev A3 : Type := (⟨S4x2048x2048, .f32⟩ : BufTy).Contents (Elt Ideal)
/-- A weight matrix of the reference. -/
abbrev A2 : Type := (⟨S2048x2048, .f32⟩ : BufTy).Contents (Elt Ideal)

/-! ## Index equations: the composed index functions at coordinates -/

theorem lidx_v0 (b : Fin 4) (s k m : Fin 2048) : lidx_main_v0 (ix3 b s k) m = ix3 b s m :=
  funext fun a => Fin.ext (by match a with | ⟨0, _⟩ => rfl | ⟨1, _⟩ => rfl | ⟨2, _⟩ => rfl)
theorem ridx_v0 (b : Fin 4) (s k m : Fin 2048) : ridx_main_v0 (ix3 b s k) m = ix2 k m :=
  funext fun a => Fin.ext (by match a with | ⟨0, _⟩ => rfl | ⟨1, _⟩ => rfl)
theorem lidx_v1 (b : Fin 4) (s k m : Fin 2048) : lidx_main_v1 (ix3 b s k) m = ix3 b s m :=
  funext fun a => Fin.ext (by match a with | ⟨0, _⟩ => rfl | ⟨1, _⟩ => rfl | ⟨2, _⟩ => rfl)
theorem ridx_v1 (b : Fin 4) (s k m : Fin 2048) : ridx_main_v1 (ix3 b s k) m = ix2 k m :=
  funext fun a => Fin.ext (by match a with | ⟨0, _⟩ => rfl | ⟨1, _⟩ => rfl)
theorem lidx_v2 (b : Fin 4) (s k m : Fin 2048) : lidx_main_v2 (ix3 b s k) m = ix3 b s m :=
  funext fun a => Fin.ext (by match a with | ⟨0, _⟩ => rfl | ⟨1, _⟩ => rfl | ⟨2, _⟩ => rfl)
theorem ridx_v2 (b : Fin 4) (s k m : Fin 2048) : ridx_main_v2 (ix3 b s k) m = ix2 k m :=
  funext fun a => Fin.ext (by match a with | ⟨0, _⟩ => rfl | ⟨1, _⟩ => rfl)
theorem lidx_v3 (b : Fin 4) (q k d : Fin 2048) : lidx_main_v3 (ix3 b q k) d = ix3 b q d :=
  funext fun a => Fin.ext (by match a with | ⟨0, _⟩ => rfl | ⟨1, _⟩ => rfl | ⟨2, _⟩ => rfl)
theorem ridx_v3 (b : Fin 4) (q k d : Fin 2048) : ridx_main_v3 (ix3 b q k) d = ix3 b k d :=
  funext fun a => Fin.ext (by match a with | ⟨0, _⟩ => rfl | ⟨1, _⟩ => rfl | ⟨2, _⟩ => rfl)
theorem idx_v9_v10 (b : Fin 4) (q k : Fin 2048) : idx_main_v9 (idx_main_v10 (ix3 b q k)) = ix2 b k :=
  funext fun a => Fin.ext (by match a with | ⟨0, _⟩ => rfl | ⟨1, _⟩ => rfl)
theorem idx_v13 (b : Fin 4) (k q : Fin 2048) : idx_main_v13 (ix2 b k) q = ix3 b q k :=
  funext fun a => Fin.ext (by match a with | ⟨0, _⟩ => rfl | ⟨1, _⟩ => rfl | ⟨2, _⟩ => rfl)
theorem idx_v14_v15 (b : Fin 4) (q k : Fin 2048) : idx_main_v14 (idx_main_v15 (ix3 b q k)) = ix2 b k :=
  funext fun a => Fin.ext (by match a with | ⟨0, _⟩ => rfl | ⟨1, _⟩ => rfl)
theorem lidx_v17 (b : Fin 4) (i j l : Fin 2048) : lidx_main_v17 (ix3 b i j) l = ix3 b i l :=
  funext fun a => Fin.ext (by match a with | ⟨0, _⟩ => rfl | ⟨1, _⟩ => rfl | ⟨2, _⟩ => rfl)
theorem ridx_v17 (b : Fin 4) (i j l : Fin 2048) : ridx_main_v17 (ix3 b i j) l = ix3 b l j :=
  funext fun a => Fin.ext (by match a with | ⟨0, _⟩ => rfl | ⟨1, _⟩ => rfl | ⟨2, _⟩ => rfl)

/-! ## The projections -/

theorem proj_q (x0 : A3) (x3 : A2) (b : Fin 4) (s k : Fin 2048) :
    val_main_v0 (F := Ideal) x0 x3 (ix3 b s k) = Cert.Spec.proj (Cert.Spec.arr3 x0) (Cert.Spec.arr2 x3) b s k := by
  rw [val_main_v0_apply]
  unfold Cert.Spec.proj
  refine Finset.sum_congr rfl fun m _ => ?_
  rw [lidx_v0, ridx_v0]

theorem proj_k (x1 : A3) (x4 : A2) (b : Fin 4) (s k : Fin 2048) :
    val_main_v1 (F := Ideal) x1 x4 (ix3 b s k) = Cert.Spec.proj (Cert.Spec.arr3 x1) (Cert.Spec.arr2 x4) b s k := by
  rw [val_main_v1_apply]
  unfold Cert.Spec.proj
  refine Finset.sum_congr rfl fun m _ => ?_
  rw [lidx_v1, ridx_v1]

theorem proj_v (x2 : A3) (x5 : A2) (b : Fin 4) (s k : Fin 2048) :
    val_main_v2 (F := Ideal) x2 x5 (ix3 b s k) = Cert.Spec.proj (Cert.Spec.arr3 x2) (Cert.Spec.arr2 x5) b s k := by
  rw [val_main_v2_apply]
  unfold Cert.Spec.proj
  refine Finset.sum_congr rfl fun m _ => ?_
  rw [lidx_v2, ridx_v2]

/-! ## The scaled scores -/

/-- The specification's scores of the projected queries against the projected keys. -/
abbrev sc (x0 x1 : A3) (x3 x4 : A2) : Fin 4 → Fin 2048 → Fin 2048 → EReal :=
  Cert.Spec.score (Cert.Spec.proj (Cert.Spec.arr3 x0) (Cert.Spec.arr2 x3)) (Cert.Spec.proj (Cert.Spec.arr3 x1) (Cert.Spec.arr2 x4))

theorem score_eq (x0 x1 : A3) (x3 x4 : A2) (b : Fin 4) (q k : Fin 2048) :
    val_main_v5 (F := Ideal) x0 x1 x3 x4 (ix3 b q k) = sc x0 x1 x3 x4 b q k := by
  rw [val_main_v5_apply, val_main_v3_apply, val_main_v4_apply, val_main_cst_apply]
  simp only [Ideal.mulf_def, Ideal.ofBits_def]
  unfold sc Cert.Spec.score
  refine congrArg (· * _) (Finset.sum_congr rfl fun d _ => ?_)
  rw [lidx_v3, ridx_v3, proj_q, proj_k]

/-! ## The column maximum -/

/-- The f32 word of −∞ is −∞. -/
theorem ofBits_neg_inf : Ideal.ofBits .f32 0xFF800000#32 = (⊥ : EReal) := by
  simp [Ideal.ofBits, Ideal.ieee]

/-- The reduced index (b, k) with the query coordinate put back is (b, q, k). -/
theorem lift_ix3 (h : S4x2048x2048.Reduces [1] S4x2048) (b : Fin 4) (k : Fin 2048) (q : Fin (S4x2048x2048.size 1)) :
    h.lift (ix2 b k) q = ix3 b (⟨q.val, q.isLt⟩ : Fin 2048) k := by
  funext c; apply Fin.ext
  fin_cases c <;> rfl

/-- The column maximum: the host's reduce with a maximum body over the query axis, from the −∞ word, is the fold of max
    from −∞ over the queries; the further maximum with a −∞ splat changes nothing. -/
theorem colmax_eq (x0 x1 : A3) (x3 x4 : A2) (b : Fin 4) (k : Fin 2048) :
    val_main_v8 (F := Ideal) x0 x1 x3 x4 (ix2 b k) = Cert.Spec.colmax (sc x0 x1 x3 x4) b k := by
  rw [val_main_v8_apply, val_main_v7_apply, val_main_cst_1_apply]
  unfold val_main_v6
  have hy : ∀ q : Fin 2048, val_main_v5 (F := Ideal) x0 x1 x3 x4 (ix3 b q k) = sc x0 x1 x3 x4 b q k :=
    fun q => score_eq x0 x1 x3 x4 b q k
  generalize val_main_v5 (F := Ideal) x0 x1 x3 x4 = y at hy ⊢
  have h : S4x2048x2048.Reduces [1] S4x2048 := by decide
  rw [Host.reduce_eq_fold_single (FloatOps.maximumf (F := Ideal) (φ := .f32)) y (val_main_cst_0 (F := Ideal))
    reducesTo_S4x2048x2048_S4x2048_d1 h h_S_ (ix2 b k), val_main_cst_0_apply]
  have hf : (y ∘ h.lift (ix2 b k)) = fun q : Fin 2048 => sc x0 x1 x3 x4 b q k :=
    funext fun q => (congrArg y (lift_ix3 h b k q)).trans (hy _)
  simp only [Ideal.maximumf_def, Ideal.ofBits_def, ofBits_neg_inf, max_bot_left]
  unfold Cert.Spec.colmax
  exact congrArg (fun f => Finset.fold max (⊥ : EReal) f (Finset.univ : Finset (Fin 2048))) hf

/-! ## The exponentials, their column sum, the weights -/

theorem ex_eq (x0 x1 : A3) (x3 x4 : A2) (b : Fin 4) (q k : Fin 2048) :
    val_main_v12 (F := Ideal) x0 x1 x3 x4 (ix3 b q k) = Cert.Spec.ex (sc x0 x1 x3 x4) b q k := by
  rw [val_main_v12_apply, val_main_v11_apply, val_main_v10_apply, val_main_v9_apply, idx_v9_v10, score_eq, colmax_eq]
  simp only [Ideal.hostUnary_exp_def, Ideal.subf_def]
  rfl

theorem colsum_eq (x0 x1 : A3) (x3 x4 : A2) (b : Fin 4) (k : Fin 2048) :
    val_main_v13 (F := Ideal) x0 x1 x3 x4 (ix2 b k) = Cert.Spec.colsum (sc x0 x1 x3 x4) b k := by
  rw [val_main_v13_apply, val_main_cst_2_apply]
  simp only [Ideal.ofBits_def, Ideal.ofBits_zero_f32, zero_add]
  unfold Cert.Spec.colsum
  refine Finset.sum_congr rfl fun q _ => ?_
  rw [idx_v13, ex_eq]

theorem attn_eq (x0 x1 : A3) (x3 x4 : A2) (b : Fin 4) (q k : Fin 2048) :
    val_main_v16 (F := Ideal) x0 x1 x3 x4 (ix3 b q k) = Cert.Spec.attn (sc x0 x1 x3 x4) b q k := by
  rw [val_main_v16_apply, val_main_v15_apply, val_main_v14_apply, idx_v14_v15, ex_eq, colsum_eq]
  simp only [Ideal.hostDivf_def]
  rfl

/-! ## The result -/

theorem ref_eq (x0 x1 x2 : (⟨S4x2048x2048, .f32⟩ : BufTy).Contents (Elt Ideal)) (x3 x4 x5 : (⟨S2048x2048, .f32⟩ : BufTy).Contents (Elt Ideal)) (b : Fin 4) (i j : Fin 2048) :
    Cert.ReferenceIdeal.Read.val_main_v17 (F := Ideal) x0 x1 x2 x3 x4 x5 (ValueIdx.ix3 b i j)
      = Cert.Spec.out (Cert.Spec.arr3 x0) (Cert.Spec.arr3 x1) (Cert.Spec.arr3 x2) (Cert.Spec.arr2 x3) (Cert.Spec.arr2 x4) (Cert.Spec.arr2 x5) b i j := by
  rw [val_main_v17_apply]
  unfold Cert.Spec.out
  refine Finset.sum_congr rfl fun l _ => ?_
  rw [lidx_v17, ridx_v17, attn_eq, proj_v]

end Cert.RefValue

end
-- ==== Proof.AlgebraicI.lean ====
/-
  The two idealized programs compute one array: from memories that agree on the six arguments, the kernel program's
  result buffer and the reference program's result buffer both end at the specification of the arguments, read index
  by index, and both leave the arguments as launched. The kernel program's value at an index is taken as a hypothesis
  (its statement is the value theorem's); the reference program's is its generated run read through the specification.
-/
import proofs.«156009_j19851338842369_2_alg».proof.Defs
import proofs.«156009_j19851338842369_2_alg».proof.Proof.RunI
import proofs.«156009_j19851338842369_2_alg».proof.Proof.RefIsSpec
import proofs.«156009_j19851338842369_2_alg».proof.Proof.Gen.ReferenceIdeal.Read
import proofs.«156009_j19851338842369_2_alg».proof.Proof.Gen.Pre_finite_inputs
import proofs.«156009_j19851338842369_2_alg».proof.Proof.Spec

noncomputable section

namespace Cert.Proof.Parts

open Idealize.ShloMosaic Idealize.ShloMosaic.TcCoe Idealize.SL.Sem Idealize.ShloMosaic.ValueIdx

/-- Given the kernel program's result at an index as the specification of its arguments, the kernel program and the
    reference program, run from memories agreeing on the arguments, end with one and the same result array — the
    specification of the arguments — and with the arguments unchanged. -/
theorem algebraic_of
    (hKV : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD) (b : Fin 4) (q v : Fin 2048),
      Cert.KernelIdeal.Fr.W13 m ρ c (Proc.devRef .tc Cert.KernelIdeal.main_v44) (ValueIdx.ix3 b q v)
        = Cert.Spec.out (Cert.Spec.arr3 (m ((c : Thread Cert.KernelIdeal.nD Cert.KernelIdeal.τ).loc Cert.KernelIdeal.main_arg0))) (Cert.Spec.arr3 (m ((c : Thread Cert.KernelIdeal.nD Cert.KernelIdeal.τ).loc Cert.KernelIdeal.main_arg1))) (Cert.Spec.arr3 (m ((c : Thread Cert.KernelIdeal.nD Cert.KernelIdeal.τ).loc Cert.KernelIdeal.main_arg2)))
          (Cert.Spec.arr2 (m ((c : Thread Cert.KernelIdeal.nD Cert.KernelIdeal.τ).loc Cert.KernelIdeal.main_arg3))) (Cert.Spec.arr2 (m ((c : Thread Cert.KernelIdeal.nD Cert.KernelIdeal.τ).loc Cert.KernelIdeal.main_arg4))) (Cert.Spec.arr2 (m ((c : Thread Cert.KernelIdeal.nD Cert.KernelIdeal.τ).loc Cert.KernelIdeal.main_arg5))) b q v) :
    Cert.algebraic_KernelIdeal_ReferenceIdeal := by
  intro m ρ m' ρ' _ hagree
  refine ⟨fun c i => Cert.Spec.out (Cert.Spec.arr3 (m ((c.tc : Thread Cert.KernelIdeal.nD Cert.KernelIdeal.τ).loc Cert.KernelIdeal.main_arg0))) (Cert.Spec.arr3 (m ((c.tc : Thread Cert.KernelIdeal.nD Cert.KernelIdeal.τ).loc Cert.KernelIdeal.main_arg1))) (Cert.Spec.arr3 (m ((c.tc : Thread Cert.KernelIdeal.nD Cert.KernelIdeal.τ).loc Cert.KernelIdeal.main_arg2)))
          (Cert.Spec.arr2 (m ((c.tc : Thread Cert.KernelIdeal.nD Cert.KernelIdeal.τ).loc Cert.KernelIdeal.main_arg3))) (Cert.Spec.arr2 (m ((c.tc : Thread Cert.KernelIdeal.nD Cert.KernelIdeal.τ).loc Cert.KernelIdeal.main_arg4))) (Cert.Spec.arr2 (m ((c.tc : Thread Cert.KernelIdeal.nD Cert.KernelIdeal.τ).loc Cert.KernelIdeal.main_arg5))) (i 0) (i 1) (i 2), ?_, ?_⟩
  · refine (θ_run (Cert.KernelIdeal.defs (F := Ideal)) _ _).mono (fun r h c => ?_) (Cert.KernelIdeal.Fr.run_all (F := Ideal) m ρ)
    exact ⟨(h c _ (Cert.KernelIdeal.Fr.mem_uc Cert.KernelIdeal.main_v44 (by decide))).trans
        (funext fun i => (congrArg (Cert.KernelIdeal.Fr.W13 m ρ c (Proc.devRef .tc Cert.KernelIdeal.main_v44)) (eq_ix3 i)).trans
          (hKV m ρ c (i 0) (i 1) (i 2))),
      (h c _ (Cert.KernelIdeal.Fr.mem_uc Cert.KernelIdeal.main_arg0 (by decide))).trans (Cert.KernelIdeal.Fr.W13_main_arg0 m ρ c),
      (h c _ (Cert.KernelIdeal.Fr.mem_uc Cert.KernelIdeal.main_arg1 (by decide))).trans (Cert.KernelIdeal.Fr.W13_main_arg1 m ρ c),
      (h c _ (Cert.KernelIdeal.Fr.mem_uc Cert.KernelIdeal.main_arg2 (by decide))).trans (Cert.KernelIdeal.Fr.W13_main_arg2 m ρ c),
      (h c _ (Cert.KernelIdeal.Fr.mem_uc Cert.KernelIdeal.main_arg3 (by decide))).trans (Cert.KernelIdeal.Fr.W13_main_arg3 m ρ c),
      (h c _ (Cert.KernelIdeal.Fr.mem_uc Cert.KernelIdeal.main_arg4 (by decide))).trans (Cert.KernelIdeal.Fr.W13_main_arg4 m ρ c),
      (h c _ (Cert.KernelIdeal.Fr.mem_uc Cert.KernelIdeal.main_arg5 (by decide))).trans (Cert.KernelIdeal.Fr.W13_main_arg5 m ρ c)⟩
  · refine (θ_run (Cert.ReferenceIdeal.defs (F := Ideal)) _ _).mono (fun r h c => ⟨(h c).1.trans ?_, (h c).2⟩)
      (Cert.ReferenceIdeal.Value.run (F := Ideal) m' ρ')
    obtain ⟨h0, h1, h2, h3, h4, h5⟩ := hagree c
    refine (Cert.ReferenceIdeal.Read.val_main_v17_eq _ _ _ _ _ _).trans ?_
    rw [h0, h1, h2, h3, h4, h5]
    funext i
    exact (congrArg _ (eq_ix3 i)).trans (Cert.RefValue.ref_eq _ _ _ _ _ _ (i 0) (i 1) (i 2))

end Cert.Proof.Parts

end
-- ==== Proof.lean ====
/-
  The certificate of a self-attention kernel (three bias-free linear layers, then attention whose softmax is taken over
  the QUERY axis) against its array-level reference.

  The kernel program is thirteen segments: the inputs flattened and the weights' format changed; three projection calls
  (row tiles of 512 against the whole weight matrix); then, for each of the four batch elements, that element's
  projected queries, keys and values sliced out and one attention call over eight tiles of 256 keys, which adds each
  tile's contribution to a resident result block (zeroed at the first tile, written back after the last); and the four
  results stacked.  Both printed forms of it run to the end with the arguments unchanged: every call's body is run on
  its staging buffers (one case for a projection tile; two for an attention tile — first tile or not), the buffer
  contents at the fourteen segment boundaries are a fold from the launch memory, and each argument's buffer walks back
  through that fold untouched.

  At the ideal instance (floats are extended reals, a change of format is the identity) the kernel's result is the
  specification `Cert.Spec.out`: a projection tile's payload is a contraction over the 2048 input features, so the
  projection's result array is x·Wᵀ; an attention tile adds, per half tile of 128 keys, ∑ₖ a(q,k)·v(k,·) with a(·,k) the
  softmax of key k's column of scaled scores over all queries (each key's column is complete inside its half tile, so
  no statistic crosses tiles); the sixteen half tiles' contributions, accumulated in order from zero, are the one sum
  over all 2048 keys (associativity and commutativity of + on the extended reals, and 0 + x = x: no finiteness is
  needed, so the precondition is never opened).  The reference's run reads as the same specification operation by
  operation (its redundant maximum with −∞ and its sum's initial 0 disappear), the scale being the one shared f32 word
  on both sides.  The ideal pass rewrote nothing, so its conjunct is `True`.
-/
import proofs.«156009_j19851338842369_2_alg».proof.Defs
import proofs.«156009_j19851338842369_2_alg».proof.Proof.Gen.Kernel
import proofs.«156009_j19851338842369_2_alg».proof.Proof.Gen.Kernel.Skeleton
import proofs.«156009_j19851338842369_2_alg».proof.Proof.Gen.Kernel.Launch
import proofs.«156009_j19851338842369_2_alg».proof.Proof.Gen.Kernel.Regions
import proofs.«156009_j19851338842369_2_alg».proof.Proof.Gen.Kernel.Points
import proofs.«156009_j19851338842369_2_alg».proof.Proof.Gen.KernelIdeal
import proofs.«156009_j19851338842369_2_alg».proof.Proof.Gen.KernelIdeal.Skeleton
import proofs.«156009_j19851338842369_2_alg».proof.Proof.Gen.KernelIdeal.Launch
import proofs.«156009_j19851338842369_2_alg».proof.Proof.Gen.KernelIdeal.Regions
import proofs.«156009_j19851338842369_2_alg».proof.Proof.Gen.KernelIdeal.Points
import proofs.«156009_j19851338842369_2_alg».proof.Proof.Gen.ReferenceIdeal
import proofs.«156009_j19851338842369_2_alg».proof.Proof.Gen.ReferenceIdeal.Read
import proofs.«156009_j19851338842369_2_alg».proof.Proof.Gen.Pre_finite_inputs
import proofs.«156009_j19851338842369_2_alg».proof.Proof.RunK
import proofs.«156009_j19851338842369_2_alg».proof.Proof.RunI
import proofs.«156009_j19851338842369_2_alg».proof.Proof.AttnValI3
import proofs.«156009_j19851338842369_2_alg».proof.Proof.AttnValI4
import proofs.«156009_j19851338842369_2_alg».proof.Proof.AttnValI5
import proofs.«156009_j19851338842369_2_alg».proof.Proof.AttnValI6
import proofs.«156009_j19851338842369_2_alg».proof.Proof.AttnFinalI3
import proofs.«156009_j19851338842369_2_alg».proof.Proof.AttnFinalI4
import proofs.«156009_j19851338842369_2_alg».proof.Proof.AttnFinalI5
import proofs.«156009_j19851338842369_2_alg».proof.Proof.AttnFinalI6
import proofs.«156009_j19851338842369_2_alg».proof.Proof.KernelValueI
import proofs.«156009_j19851338842369_2_alg».proof.Proof.AlgebraicI
import Idealize.ShloMosaic.Adequacy
import Idealize.ShloMosaic.Init

noncomputable section

namespace Cert.Proof

open Idealize.ShloMosaic Idealize.SL.Sem

/-- The word-level kernel program runs to the end with its arguments unchanged. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result buffer at the last boundary is the specification of the six argument arrays. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (b : Fin 4) (q v : Fin 2048) :
    Cert.KernelIdeal.Fr.W13 m ρ c (Proc.devRef .tc Cert.KernelIdeal.main_v44) (ValueIdx.ix3 b q v)
      = Cert.Spec.out (Cert.Spec.arr3 (m ((c.tc : Thread Cert.KernelIdeal.nD Cert.KernelIdeal.τ).loc Cert.KernelIdeal.main_arg0)))
          (Cert.Spec.arr3 (m ((c.tc : Thread Cert.KernelIdeal.nD Cert.KernelIdeal.τ).loc Cert.KernelIdeal.main_arg1)))
          (Cert.Spec.arr3 (m ((c.tc : Thread Cert.KernelIdeal.nD Cert.KernelIdeal.τ).loc Cert.KernelIdeal.main_arg2)))
          (Cert.Spec.arr2 (m ((c.tc : Thread Cert.KernelIdeal.nD Cert.KernelIdeal.τ).loc Cert.KernelIdeal.main_arg3)))
          (Cert.Spec.arr2 (m ((c.tc : Thread Cert.KernelIdeal.nD Cert.KernelIdeal.τ).loc Cert.KernelIdeal.main_arg4)))
          (Cert.Spec.arr2 (m ((c.tc : Thread Cert.KernelIdeal.nD Cert.KernelIdeal.τ).loc Cert.KernelIdeal.main_arg5))) b q v :=
  Cert.KernelIdeal.Fr.kernel_value_of m ρ
    (Cert.KernelIdeal.Fr.attn_final3_of Cert.KernelIdeal.Fr.out_A_eq3 Cert.KernelIdeal.Fr.out_B_eq3)
    (Cert.KernelIdeal.Fr.attn_final4_of Cert.KernelIdeal.Fr.out_A_eq4 Cert.KernelIdeal.Fr.out_B_eq4)
    (Cert.KernelIdeal.Fr.attn_final5_of Cert.KernelIdeal.Fr.out_A_eq5 Cert.KernelIdeal.Fr.out_B_eq5)
    (Cert.KernelIdeal.Fr.attn_final6_of Cert.KernelIdeal.Fr.out_A_eq6 Cert.KernelIdeal.Fr.out_B_eq6) c b q v

/-- At the ideal instance the kernel's and the reference's results are one function of the arguments. -/
theorem algebraic : Cert.algebraic_KernelIdeal_ReferenceIdeal := Cert.Proof.Parts.algebraic_of kernel_value

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
